-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x2048x8 : Shape := ⟨3, ![4, 2048, 8]⟩
abbrev S8x100000x128 : Shape := ⟨3, ![8, 100000, 128]⟩
abbrev S_ : Shape := ⟨0, ![]⟩

class Facts : Prop where
  bcast_S_S8x100000x128 : S_.BroadcastsInDim S8x100000x128 (![] : Fin 0 → Fin S8x100000x128.rank)
  reducesTo_S8x100000x128_S_d0_1_2 : S8x100000x128.ReducesTo [0, 1, 2] S_
  h_S_ : 0 < S_.numel
  bcast_S_S4x2048x8 : S_.BroadcastsInDim S4x2048x8 (![] : Fin 0 → Fin S4x2048x8.rank)
  reducesTo_S4x2048x8_S_d0_1_2 : S4x2048x8.ReducesTo [0, 1, 2] S_

variable [Facts]

def fn {F : FTy → Type} [FloatOps F] (main_arg0 : IVec S4x2048x8 32) (main_arg1 : FVec F S8x100000x128 .f32) : IVec S_ 1 :=
  let main_v0 : FVec F S8x100000x128 .f32 := Host.absf main_arg1
  let main_cst : FVec F S_ .f32 := constant S_ .f32 0x7F800000#32
  let main_v1 : FVec F S8x100000x128 .f32 := broadcastInDim S8x100000x128 ![] bcast_S_S8x100000x128 main_cst
  let main_v2 : IVec S8x100000x128 1 := cmpf .olt main_v0 main_v1
  let main_c : IVec S_ 1 := constantI S_ 1 1#1
  let main_v3 : IVec S_ 1 := (fun x v => Host.reduce IntOp.andi x v reducesTo_S8x100000x128_S_d0_1_2 h_S_) main_v2 main_c
  let main_c_0 : IVec S_ 32 := constantI S_ 32 0#32
  let main_v4 : IVec S4x2048x8 32 := broadcastInDim S4x2048x8 ![] bcast_S_S4x2048x8 main_c_0
  let main_v5 : IVec S4x2048x8 1 := cmpi .sge main_arg0 main_v4
  let main_c_1 : IVec S_ 32 := constantI S_ 32 99999#32
  let main_v6 : IVec S4x2048x8 32 := broadcastInDim S4x2048x8 ![] bcast_S_S4x2048x8 main_c_1
  let main_v7 : IVec S4x2048x8 1 := cmpi .sle main_arg0 main_v6
  let main_v8 : IVec S4x2048x8 1 := andi main_v5 main_v7
  let main_c_2 : IVec S_ 1 := constantI S_ 1 1#1
  let main_v9 : IVec S_ 1 := (fun x v => Host.reduce IntOp.andi x v reducesTo_S4x2048x8_S_d0_1_2 h_S_) main_v8 main_c_2
  let main_v10 : IVec S_ 1 := andi main_v3 main_v9
  main_v10
-- ==== Kernel.lean ====
abbrev S4x2048x8 : Shape := ⟨3, ![4, 2048, 8]⟩
abbrev S8x100000x128 : Shape := ⟨3, ![8, 100000, 128]⟩
abbrev S4x8x2048 : Shape := ⟨3, ![4, 8, 2048]⟩
abbrev S4x8x16x128 : Shape := ⟨4, ![4, 8, 16, 128]⟩
abbrev S4x16x8x128 : Shape := ⟨4, ![4, 16, 8, 128]⟩
abbrev S4x128x128 : Shape := ⟨3, ![4, 128, 128]⟩
abbrev S800000x128 : Shape := ⟨2, ![800000, 128]⟩
abbrev S65536x128 : Shape := ⟨2, ![65536, 128]⟩
abbrev S16x128 : Shape := ⟨2, ![16, 128]⟩
abbrev S128x128 : Shape := ⟨2, ![128, 128]⟩
abbrev S_ : Shape := ⟨0, ![]⟩
abbrev S1x16x128 : Shape := ⟨3, ![1, 16, 128]⟩
abbrev S16 : Shape := ⟨1, ![16]⟩
abbrev S1x16 : Shape := ⟨2, ![1, 16]⟩
abbrev S1x128 : Shape := ⟨2, ![1, 128]⟩
abbrev S128 : Shape := ⟨1, ![128]⟩
abbrev S1024x8x8x128 : Shape := ⟨4, ![1024, 8, 8, 128]⟩
abbrev S4x2048x1024 : Shape := ⟨3, ![4, 2048, 1024]⟩

abbrev nBuf : Table → Nat
  | .hbm => 11
  | .local .scVector .vmem => 8
  | _ => 0

abbrev bufTy : (tb : Table) → Fin (nBuf tb) → BufTy
  | .hbm, ⟨0, _⟩ => ⟨S4x2048x8, .i32⟩
  | .hbm, ⟨1, _⟩ => ⟨S8x100000x128, .f32⟩
  | .hbm, ⟨2, _⟩ => ⟨S4x8x2048, .i32⟩
  | .hbm, ⟨3, _⟩ => ⟨S4x8x16x128, .i32⟩
  | .hbm, ⟨4, _⟩ => ⟨S4x16x8x128, .i32⟩
  | .hbm, ⟨5, _⟩ => ⟨S4x128x128, .i32⟩
  | .hbm, ⟨6, _⟩ => ⟨S800000x128, .f32⟩
  | .hbm, ⟨7, _⟩ => ⟨S65536x128, .f32⟩
  | .hbm, ⟨8, _⟩ => ⟨S1024x8x8x128, .f32⟩
  | .hbm, ⟨9, _⟩ => ⟨S1024x8x8x128, .f32⟩
  | .hbm, ⟨10, _⟩ => ⟨S4x2048x1024, .f32⟩
  | .local .scVector .vmem, ⟨0, _⟩ => ⟨S16x128, .i32⟩
  | .local .scVector .vmem, ⟨1, _⟩ => ⟨S16x128, .i32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | .local .scVector .vmem, ⟨7, _⟩ => ⟨S128x128, .f32⟩
  | _, _ => ⟨S4x2048x8, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v3_scv : Ref sig .scVector := ⟨.hbm, 5, rfl⟩
abbrev main_v4_scv : Ref sig .scVector := ⟨.hbm, 6, rfl⟩
abbrev main_v5_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c16_i32 : BitVec 32 := 16#32
  let v30 : BitVec 32 := Scalar.muli v29 c16_i32
  let c0_i32_578_r0 : BitVec 32 := 0#32
  ![v19.toNat, v30.toNat, 0]

def k0_chk1 (v70 : IVec S16 32) (v86 : IVec S16 32) : Prop :=
  (∀ a x, ((![v70, v86] : Fin 2 → IVec S16 32) a x).toNat < S16x128.size a)
instance k0_chk1.dec : ∀ (v70 : IVec S16 32) (v86 : IVec S16 32), Decidable (k0_chk1 v70 v86) := fun v70 v86 => decidable_of_iff' _ (Iff.of_eq (k0_chk1.eq_1 v70 v86))
theorem k0_idx1_inb : ∀ (v70 : IVec S16 32) (v86 : IVec S16 32) (k0_hw1 : k0_chk1 v70 v86), ∀ a x, ((![v70, v86] : Fin 2 → IVec S16 32) a x).toNat < S16x128.size a := fun v70 v86 k0_hw1 => k0_hw1

def k0_chk2 (v72 : IVec S16 32) (v92 : IVec S16 32) : Prop :=
  (∀ a x, ((![v72, v92] : Fin 2 → IVec S16 32) a x).toNat < S16x128.size a)
instance k0_chk2.dec : ∀ (v72 : IVec S16 32) (v92 : IVec S16 32), Decidable (k0_chk2 v72 v92) := fun v72 v92 => decidable_of_iff' _ (Iff.of_eq (k0_chk2.eq_1 v72 v92))
theorem k0_idx2_inb : ∀ (v72 : IVec S16 32) (v92 : IVec S16 32) (k0_hw2 : k0_chk2 v72 v92), ∀ a x, ((![v72, v92] : Fin 2 → IVec S16 32) a x).toNat < S16x128.size a := fun v72 v92 k0_hw2 => k0_hw2

def k0_chk3 (v74 : IVec S16 32) (v98 : IVec S16 32) : Prop :=
  (∀ a x, ((![v74, v98] : Fin 2 → IVec S16 32) a x).toNat < S16x128.size a)
instance k0_chk3.dec : ∀ (v74 : IVec S16 32) (v98 : IVec S16 32), Decidable (k0_chk3 v74 v98) := fun v74 v98 => decidable_of_iff' _ (Iff.of_eq (k0_chk3.eq_1 v74 v98))
theorem k0_idx3_inb : ∀ (v74 : IVec S16 32) (v98 : IVec S16 32) (k0_hw3 : k0_chk3 v74 v98), ∀ a x, ((![v74, v98] : Fin 2 → IVec S16 32) a x).toNat < S16x128.size a := fun v74 v98 k0_hw3 => k0_hw3

def k0_chk4 (v76 : IVec S16 32) (v104 : IVec S16 32) : Prop :=
  (∀ a x, ((![v76, v104] : Fin 2 → IVec S16 32) a x).toNat < S16x128.size a)
instance k0_chk4.dec : ∀ (v76 : IVec S16 32) (v104 : IVec S16 32), Decidable (k0_chk4 v76 v104) := fun v76 v104 => decidable_of_iff' _ (Iff.of_eq (k0_chk4.eq_1 v76 v104))
theorem k0_idx4_inb : ∀ (v76 : IVec S16 32) (v104 : IVec S16 32) (k0_hw4 : k0_chk4 v76 v104), ∀ a x, ((![v76, v104] : Fin 2 → IVec S16 32) a x).toNat < S16x128.size a := fun v76 v104 k0_hw4 => k0_hw4

def k0_chk5 (v70 : IVec S16 32) (v110 : IVec S16 32) : Prop :=
  (∀ a x, ((![v70, v110] : Fin 2 → IVec S16 32) a x).toNat < S16x128.size a)
instance k0_chk5.dec : ∀ (v70 : IVec S16 32) (v110 : IVec S16 32), Decidable (k0_chk5 v70 v110) := fun v70 v110 => decidable_of_iff' _ (Iff.of_eq (k0_chk5.eq_1 v70 v110))
theorem k0_idx5_inb : ∀ (v70 : IVec S16 32) (v110 : IVec S16 32) (k0_hw5 : k0_chk5 v70 v110), ∀ a x, ((![v70, v110] : Fin 2 → IVec S16 32) a x).toNat < S16x128.size a := fun v70 v110 k0_hw5 => k0_hw5

def k0_chk6 (v72 : IVec S16 32) (v116 : IVec S16 32) : Prop :=
  (∀ a x, ((![v72, v116] : Fin 2 → IVec S16 32) a x).toNat < S16x128.size a)
instance k0_chk6.dec : ∀ (v72 : IVec S16 32) (v116 : IVec S16 32), Decidable (k0_chk6 v72 v116) := fun v72 v116 => decidable_of_iff' _ (Iff.of_eq (k0_chk6.eq_1 v72 v116))
theorem k0_idx6_inb : ∀ (v72 : IVec S16 32) (v116 : IVec S16 32) (k0_hw6 : k0_chk6 v72 v116), ∀ a x, ((![v72, v116] : Fin 2 → IVec S16 32) a x).toNat < S16x128.size a := fun v72 v116 k0_hw6 => k0_hw6

def k0_chk7 (v74 : IVec S16 32) (v122 : IVec S16 32) : Prop :=
  (∀ a x, ((![v74, v122] : Fin 2 → IVec S16 32) a x).toNat < S16x128.size a)
instance k0_chk7.dec : ∀ (v74 : IVec S16 32) (v122 : IVec S16 32), Decidable (k0_chk7 v74 v122) := fun v74 v122 => decidable_of_iff' _ (Iff.of_eq (k0_chk7.eq_1 v74 v122))
theorem k0_idx7_inb : ∀ (v74 : IVec S16 32) (v122 : IVec S16 32) (k0_hw7 : k0_chk7 v74 v122), ∀ a x, ((![v74, v122] : Fin 2 → IVec S16 32) a x).toNat < S16x128.size a := fun v74 v122 k0_hw7 => k0_hw7

def k0_chk8 (v76 : IVec S16 32) (v128 : IVec S16 32) : Prop :=
  (∀ a x, ((![v76, v128] : Fin 2 → IVec S16 32) a x).toNat < S16x128.size a)
instance k0_chk8.dec : ∀ (v76 : IVec S16 32) (v128 : IVec S16 32), Decidable (k0_chk8 v76 v128) := fun v76 v128 => decidable_of_iff' _ (Iff.of_eq (k0_chk8.eq_1 v76 v128))
theorem k0_idx8_inb : ∀ (v76 : IVec S16 32) (v128 : IVec S16 32) (k0_hw8 : k0_chk8 v76 v128), ∀ a x, ((![v76, v128] : Fin 2 → IVec S16 32) a x).toNat < S16x128.size a := fun v76 v128 k0_hw8 => k0_hw8

def k0_chk9 (v70 : IVec S16 32) (v137 : IVec S16 32) : Prop :=
  (∀ a x, ((![v70, v137] : Fin 2 → IVec S16 32) a x).toNat < S16x128.size a)
instance k0_chk9.dec : ∀ (v70 : IVec S16 32) (v137 : IVec S16 32), Decidable (k0_chk9 v70 v137) := fun v70 v137 => decidable_of_iff' _ (Iff.of_eq (k0_chk9.eq_1 v70 v137))
theorem k0_idx9_inb : ∀ (v70 : IVec S16 32) (v137 : IVec S16 32) (k0_hw9 : k0_chk9 v70 v137), ∀ a x, ((![v70, v137] : Fin 2 → IVec S16 32) a x).toNat < S16x128.size a := fun v70 v137 k0_hw9 => k0_hw9

def k0_chk10 (v72 : IVec S16 32) (v143 : IVec S16 32) : Prop :=
  (∀ a x, ((![v72, v143] : Fin 2 → IVec S16 32) a x).toNat < S16x128.size a)
instance k0_chk10.dec : ∀ (v72 : IVec S16 32) (v143 : IVec S16 32), Decidable (k0_chk10 v72 v143) := fun v72 v143 => decidable_of_iff' _ (Iff.of_eq (k0_chk10.eq_1 v72 v143))
theorem k0_idx10_inb : ∀ (v72 : IVec S16 32) (v143 : IVec S16 32) (k0_hw10 : k0_chk10 v72 v143), ∀ a x, ((![v72, v143] : Fin 2 → IVec S16 32) a x).toNat < S16x128.size a := fun v72 v143 k0_hw10 => k0_hw10

def k0_chk11 (v74 : IVec S16 32) (v149 : IVec S16 32) : Prop :=
  (∀ a x, ((![v74, v149] : Fin 2 → IVec S16 32) a x).toNat < S16x128.size a)
instance k0_chk11.dec : ∀ (v74 : IVec S16 32) (v149 : IVec S16 32), Decidable (k0_chk11 v74 v149) := fun v74 v149 => decidable_of_iff' _ (Iff.of_eq (k0_chk11.eq_1 v74 v149))
theorem k0_idx11_inb : ∀ (v74 : IVec S16 32) (v149 : IVec S16 32) (k0_hw11 : k0_chk11 v74 v149), ∀ a x, ((![v74, v149] : Fin 2 → IVec S16 32) a x).toNat < S16x128.size a := fun v74 v149 k0_hw11 => k0_hw11

def k0_chk12 (v76 : IVec S16 32) (v155 : IVec S16 32) : Prop :=
  (∀ a x, ((![v76, v155] : Fin 2 → IVec S16 32) a x).toNat < S16x128.size a)
instance k0_chk12.dec : ∀ (v76 : IVec S16 32) (v155 : IVec S16 32), Decidable (k0_chk12 v76 v155) := fun v76 v155 => decidable_of_iff' _ (Iff.of_eq (k0_chk12.eq_1 v76 v155))
theorem k0_idx12_inb : ∀ (v76 : IVec S16 32) (v155 : IVec S16 32) (k0_hw12 : k0_chk12 v76 v155), ∀ a x, ((![v76, v155] : Fin 2 → IVec S16 32) a x).toNat < S16x128.size a := fun v76 v155 k0_hw12 => k0_hw12

def k0_chk13 (v70 : IVec S16 32) (v161 : IVec S16 32) : Prop :=
  (∀ a x, ((![v70, v161] : Fin 2 → IVec S16 32) a x).toNat < S16x128.size a)
instance k0_chk13.dec : ∀ (v70 : IVec S16 32) (v161 : IVec S16 32), Decidable (k0_chk13 v70 v161) := fun v70 v161 => decidable_of_iff' _ (Iff.of_eq (k0_chk13.eq_1 v70 v161))
theorem k0_idx13_inb : ∀ (v70 : IVec S16 32) (v161 : IVec S16 32) (k0_hw13 : k0_chk13 v70 v161), ∀ a x, ((![v70, v161] : Fin 2 → IVec S16 32) a x).toNat < S16x128.size a := fun v70 v161 k0_hw13 => k0_hw13

def k0_chk14 (v72 : IVec S16 32) (v167 : IVec S16 32) : Prop :=
  (∀ a x, ((![v72, v167] : Fin 2 → IVec S16 32) a x).toNat < S16x128.size a)
instance k0_chk14.dec : ∀ (v72 : IVec S16 32) (v167 : IVec S16 32), Decidable (k0_chk14 v72 v167) := fun v72 v167 => decidable_of_iff' _ (Iff.of_eq (k0_chk14.eq_1 v72 v167))
theorem k0_idx14_inb : ∀ (v72 : IVec S16 32) (v167 : IVec S16 32) (k0_hw14 : k0_chk14 v72 v167), ∀ a x, ((![v72, v167] : Fin 2 → IVec S16 32) a x).toNat < S16x128.size a := fun v72 v167 k0_hw14 => k0_hw14

def k0_chk15 (v74 : IVec S16 32) (v173 : IVec S16 32) : Prop :=
  (∀ a x, ((![v74, v173] : Fin 2 → IVec S16 32) a x).toNat < S16x128.size a)
instance k0_chk15.dec : ∀ (v74 : IVec S16 32) (v173 : IVec S16 32), Decidable (k0_chk15 v74 v173) := fun v74 v173 => decidable_of_iff' _ (Iff.of_eq (k0_chk15.eq_1 v74 v173))
theorem k0_idx15_inb : ∀ (v74 : IVec S16 32) (v173 : IVec S16 32) (k0_hw15 : k0_chk15 v74 v173), ∀ a x, ((![v74, v173] : Fin 2 → IVec S16 32) a x).toNat < S16x128.size a := fun v74 v173 k0_hw15 => k0_hw15

def k0_chk16 (v76 : IVec S16 32) (v179 : IVec S16 32) : Prop :=
  (∀ a x, ((![v76, v179] : Fin 2 → IVec S16 32) a x).toNat < S16x128.size a)
instance k0_chk16.dec : ∀ (v76 : IVec S16 32) (v179 : IVec S16 32), Decidable (k0_chk16 v76 v179) := fun v76 v179 => decidable_of_iff' _ (Iff.of_eq (k0_chk16.eq_1 v76 v179))
theorem k0_idx16_inb : ∀ (v76 : IVec S16 32) (v179 : IVec S16 32) (k0_hw16 : k0_chk16 v76 v179), ∀ a x, ((![v76, v179] : Fin 2 → IVec S16 32) a x).toNat < S16x128.size a := fun v76 v179 k0_hw16 => k0_hw16

def k0_chk17 (v70 : IVec S16 32) (v188 : IVec S16 32) : Prop :=
  (∀ a x, ((![v70, v188] : Fin 2 → IVec S16 32) a x).toNat < S16x128.size a)
instance k0_chk17.dec : ∀ (v70 : IVec S16 32) (v188 : IVec S16 32), Decidable (k0_chk17 v70 v188) := fun v70 v188 => decidable_of_iff' _ (Iff.of_eq (k0_chk17.eq_1 v70 v188))
theorem k0_idx17_inb : ∀ (v70 : IVec S16 32) (v188 : IVec S16 32) (k0_hw17 : k0_chk17 v70 v188), ∀ a x, ((![v70, v188] : Fin 2 → IVec S16 32) a x).toNat < S16x128.size a := fun v70 v188 k0_hw17 => k0_hw17

def k0_chk18 (v72 : IVec S16 32) (v194 : IVec S16 32) : Prop :=
  (∀ a x, ((![v72, v194] : Fin 2 → IVec S16 32) a x).toNat < S16x128.size a)
instance k0_chk18.dec : ∀ (v72 : IVec S16 32) (v194 : IVec S16 32), Decidable (k0_chk18 v72 v194) := fun v72 v194 => decidable_of_iff' _ (Iff.of_eq (k0_chk18.eq_1 v72 v194))
theorem k0_idx18_inb : ∀ (v72 : IVec S16 32) (v194 : IVec S16 32) (k0_hw18 : k0_chk18 v72 v194), ∀ a x, ((![v72, v194] : Fin 2 → IVec S16 32) a x).toNat < S16x128.size a := fun v72 v194 k0_hw18 => k0_hw18

def k0_chk19 (v74 : IVec S16 32) (v200 : IVec S16 32) : Prop :=
  (∀ a x, ((![v74, v200] : Fin 2 → IVec S16 32) a x).toNat < S16x128.size a)
instance k0_chk19.dec : ∀ (v74 : IVec S16 32) (v200 : IVec S16 32), Decidable (k0_chk19 v74 v200) := fun v74 v200 => decidable_of_iff' _ (Iff.of_eq (k0_chk19.eq_1 v74 v200))
theorem k0_idx19_inb : ∀ (v74 : IVec S16 32) (v200 : IVec S16 32) (k0_hw19 : k0_chk19 v74 v200), ∀ a x, ((![v74, v200] : Fin 2 → IVec S16 32) a x).toNat < S16x128.size a := fun v74 v200 k0_hw19 => k0_hw19

def k0_chk20 (v76 : IVec S16 32) (v206 : IVec S16 32) : Prop :=
  (∀ a x, ((![v76, v206] : Fin 2 → IVec S16 32) a x).toNat < S16x128.size a)
instance k0_chk20.dec : ∀ (v76 : IVec S16 32) (v206 : IVec S16 32), Decidable (k0_chk20 v76 v206) := fun v76 v206 => decidable_of_iff' _ (Iff.of_eq (k0_chk20.eq_1 v76 v206))
theorem k0_idx20_inb : ∀ (v76 : IVec S16 32) (v206 : IVec S16 32) (k0_hw20 : k0_chk20 v76 v206), ∀ a x, ((![v76, v206] : Fin 2 → IVec S16 32) a x).toNat < S16x128.size a := fun v76 v206 k0_hw20 => k0_hw20

def k0_chk21 (v70 : IVec S16 32) (v212 : IVec S16 32) : Prop :=
  (∀ a x, ((![v70, v212] : Fin 2 → IVec S16 32) a x).toNat < S16x128.size a)
instance k0_chk21.dec : ∀ (v70 : IVec S16 32) (v212 : IVec S16 32), Decidable (k0_chk21 v70 v212) := fun v70 v212 => decidable_of_iff' _ (Iff.of_eq (k0_chk21.eq_1 v70 v212))
theorem k0_idx21_inb : ∀ (v70 : IVec S16 32) (v212 : IVec S16 32) (k0_hw21 : k0_chk21 v70 v212), ∀ a x, ((![v70, v212] : Fin 2 → IVec S16 32) a x).toNat < S16x128.size a := fun v70 v212 k0_hw21 => k0_hw21

def k0_chk22 (v72 : IVec S16 32) (v218 : IVec S16 32) : Prop :=
  (∀ a x, ((![v72, v218] : Fin 2 → IVec S16 32) a x).toNat < S16x128.size a)
instance k0_chk22.dec : ∀ (v72 : IVec S16 32) (v218 : IVec S16 32), Decidable (k0_chk22 v72 v218) := fun v72 v218 => decidable_of_iff' _ (Iff.of_eq (k0_chk22.eq_1 v72 v218))
theorem k0_idx22_inb : ∀ (v72 : IVec S16 32) (v218 : IVec S16 32) (k0_hw22 : k0_chk22 v72 v218), ∀ a x, ((![v72, v218] : Fin 2 → IVec S16 32) a x).toNat < S16x128.size a := fun v72 v218 k0_hw22 => k0_hw22

def k0_chk23 (v74 : IVec S16 32) (v224 : IVec S16 32) : Prop :=
  (∀ a x, ((![v74, v224] : Fin 2 → IVec S16 32) a x).toNat < S16x128.size a)
instance k0_chk23.dec : ∀ (v74 : IVec S16 32) (v224 : IVec S16 32), Decidable (k0_chk23 v74 v224) := fun v74 v224 => decidable_of_iff' _ (Iff.of_eq (k0_chk23.eq_1 v74 v224))
theorem k0_idx23_inb : ∀ (v74 : IVec S16 32) (v224 : IVec S16 32) (k0_hw23 : k0_chk23 v74 v224), ∀ a x, ((![v74, v224] : Fin 2 → IVec S16 32) a x).toNat < S16x128.size a := fun v74 v224 k0_hw23 => k0_hw23

def k0_chk24 (v76 : IVec S16 32) (v230 : IVec S16 32) : Prop :=
  (∀ a x, ((![v76, v230] : Fin 2 → IVec S16 32) a x).toNat < S16x128.size a)
instance k0_chk24.dec : ∀ (v76 : IVec S16 32) (v230 : IVec S16 32), Decidable (k0_chk24 v76 v230) := fun v76 v230 => decidable_of_iff' _ (Iff.of_eq (k0_chk24.eq_1 v76 v230))
theorem k0_idx24_inb : ∀ (v76 : IVec S16 32) (v230 : IVec S16 32) (k0_hw24 : k0_chk24 v76 v230), ∀ a x, ((![v76, v230] : Fin 2 → IVec S16 32) a x).toNat < S16x128.size a := fun v76 v230 k0_hw24 => k0_hw24

def k0_chk25 (v70 : IVec S16 32) (v239 : IVec S16 32) : Prop :=
  (∀ a x, ((![v70, v239] : Fin 2 → IVec S16 32) a x).toNat < S16x128.size a)
instance k0_chk25.dec : ∀ (v70 : IVec S16 32) (v239 : IVec S16 32), Decidable (k0_chk25 v70 v239) := fun v70 v239 => decidable_of_iff' _ (Iff.of_eq (k0_chk25.eq_1 v70 v239))
theorem k0_idx25_inb : ∀ (v70 : IVec S16 32) (v239 : IVec S16 32) (k0_hw25 : k0_chk25 v70 v239), ∀ a x, ((![v70, v239] : Fin 2 → IVec S16 32) a x).toNat < S16x128.size a := fun v70 v239 k0_hw25 => k0_hw25

def k0_chk26 (v72 : IVec S16 32) (v245 : IVec S16 32) : Prop :=
  (∀ a x, ((![v72, v245] : Fin 2 → IVec S16 32) a x).toNat < S16x128.size a)
instance k0_chk26.dec : ∀ (v72 : IVec S16 32) (v245 : IVec S16 32), Decidable (k0_chk26 v72 v245) := fun v72 v245 => decidable_of_iff' _ (Iff.of_eq (k0_chk26.eq_1 v72 v245))
theorem k0_idx26_inb : ∀ (v72 : IVec S16 32) (v245 : IVec S16 32) (k0_hw26 : k0_chk26 v72 v245), ∀ a x, ((![v72, v245] : Fin 2 → IVec S16 32) a x).toNat < S16x128.size a := fun v72 v245 k0_hw26 => k0_hw26

def k0_chk27 (v74 : IVec S16 32) (v251 : IVec S16 32) : Prop :=
  (∀ a x, ((![v74, v251] : Fin 2 → IVec S16 32) a x).toNat < S16x128.size a)
instance k0_chk27.dec : ∀ (v74 : IVec S16 32) (v251 : IVec S16 32), Decidable (k0_chk27 v74 v251) := fun v74 v251 => decidable_of_iff' _ (Iff.of_eq (k0_chk27.eq_1 v74 v251))
theorem k0_idx27_inb : ∀ (v74 : IVec S16 32) (v251 : IVec S16 32) (k0_hw27 : k0_chk27 v74 v251), ∀ a x, ((![v74, v251] : Fin 2 → IVec S16 32) a x).toNat < S16x128.size a := fun v74 v251 k0_hw27 => k0_hw27

def k0_chk28 (v76 : IVec S16 32) (v257 : IVec S16 32) : Prop :=
  (∀ a x, ((![v76, v257] : Fin 2 → IVec S16 32) a x).toNat < S16x128.size a)
instance k0_chk28.dec : ∀ (v76 : IVec S16 32) (v257 : IVec S16 32), Decidable (k0_chk28 v76 v257) := fun v76 v257 => decidable_of_iff' _ (Iff.of_eq (k0_chk28.eq_1 v76 v257))
theorem k0_idx28_inb : ∀ (v76 : IVec S16 32) (v257 : IVec S16 32) (k0_hw28 : k0_chk28 v76 v257), ∀ a x, ((![v76, v257] : Fin 2 → IVec S16 32) a x).toNat < S16x128.size a := fun v76 v257 k0_hw28 => k0_hw28

def k0_chk29 (v70 : IVec S16 32) (v263 : IVec S16 32) : Prop :=
  (∀ a x, ((![v70, v263] : Fin 2 → IVec S16 32) a x).toNat < S16x128.size a)
instance k0_chk29.dec : ∀ (v70 : IVec S16 32) (v263 : IVec S16 32), Decidable (k0_chk29 v70 v263) := fun v70 v263 => decidable_of_iff' _ (Iff.of_eq (k0_chk29.eq_1 v70 v263))
theorem k0_idx29_inb : ∀ (v70 : IVec S16 32) (v263 : IVec S16 32) (k0_hw29 : k0_chk29 v70 v263), ∀ a x, ((![v70, v263] : Fin 2 → IVec S16 32) a x).toNat < S16x128.size a := fun v70 v263 k0_hw29 => k0_hw29

def k0_chk30 (v72 : IVec S16 32) (v269 : IVec S16 32) : Prop :=
  (∀ a x, ((![v72, v269] : Fin 2 → IVec S16 32) a x).toNat < S16x128.size a)
instance k0_chk30.dec : ∀ (v72 : IVec S16 32) (v269 : IVec S16 32), Decidable (k0_chk30 v72 v269) := fun v72 v269 => decidable_of_iff' _ (Iff.of_eq (k0_chk30.eq_1 v72 v269))
theorem k0_idx30_inb : ∀ (v72 : IVec S16 32) (v269 : IVec S16 32) (k0_hw30 : k0_chk30 v72 v269), ∀ a x, ((![v72, v269] : Fin 2 → IVec S16 32) a x).toNat < S16x128.size a := fun v72 v269 k0_hw30 => k0_hw30

def k0_chk31 (v74 : IVec S16 32) (v275 : IVec S16 32) : Prop :=
  (∀ a x, ((![v74, v275] : Fin 2 → IVec S16 32) a x).toNat < S16x128.size a)
instance k0_chk31.dec : ∀ (v74 : IVec S16 32) (v275 : IVec S16 32), Decidable (k0_chk31 v74 v275) := fun v74 v275 => decidable_of_iff' _ (Iff.of_eq (k0_chk31.eq_1 v74 v275))
theorem k0_idx31_inb : ∀ (v74 : IVec S16 32) (v275 : IVec S16 32) (k0_hw31 : k0_chk31 v74 v275), ∀ a x, ((![v74, v275] : Fin 2 → IVec S16 32) a x).toNat < S16x128.size a := fun v74 v275 k0_hw31 => k0_hw31

def k0_chk32 (v76 : IVec S16 32) (v281 : IVec S16 32) : Prop :=
  (∀ a x, ((![v76, v281] : Fin 2 → IVec S16 32) a x).toNat < S16x128.size a)
instance k0_chk32.dec : ∀ (v76 : IVec S16 32) (v281 : IVec S16 32), Decidable (k0_chk32 v76 v281) := fun v76 v281 => decidable_of_iff' _ (Iff.of_eq (k0_chk32.eq_1 v76 v281))
theorem k0_idx32_inb : ∀ (v76 : IVec S16 32) (v281 : IVec S16 32) (k0_hw32 : k0_chk32 v76 v281), ∀ a x, ((![v76, v281] : Fin 2 → IVec S16 32) a x).toNat < S16x128.size a := fun v76 v281 k0_hw32 => k0_hw32

def k0_chk33 (v70 : IVec S16 32) (v290 : IVec S16 32) : Prop :=
  (∀ a x, ((![v70, v290] : Fin 2 → IVec S16 32) a x).toNat < S16x128.size a)
instance k0_chk33.dec : ∀ (v70 : IVec S16 32) (v290 : IVec S16 32), Decidable (k0_chk33 v70 v290) := fun v70 v290 => decidable_of_iff' _ (Iff.of_eq (k0_chk33.eq_1 v70 v290))
theorem k0_idx33_inb : ∀ (v70 : IVec S16 32) (v290 : IVec S16 32) (k0_hw33 : k0_chk33 v70 v290), ∀ a x, ((![v70, v290] : Fin 2 → IVec S16 32) a x).toNat < S16x128.size a := fun v70 v290 k0_hw33 => k0_hw33

def k0_chk34 (v72 : IVec S16 32) (v296 : IVec S16 32) : Prop :=
  (∀ a x, ((![v72, v296] : Fin 2 → IVec S16 32) a x).toNat < S16x128.size a)
instance k0_chk34.dec : ∀ (v72 : IVec S16 32) (v296 : IVec S16 32), Decidable (k0_chk34 v72 v296) := fun v72 v296 => decidable_of_iff' _ (Iff.of_eq (k0_chk34.eq_1 v72 v296))
theorem k0_idx34_inb : ∀ (v72 : IVec S16 32) (v296 : IVec S16 32) (k0_hw34 : k0_chk34 v72 v296), ∀ a x, ((![v72, v296] : Fin 2 → IVec S16 32) a x).toNat < S16x128.size a := fun v72 v296 k0_hw34 => k0_hw34

def k0_chk35 (v74 : IVec S16 32) (v302 : IVec S16 32) : Prop :=
  (∀ a x, ((![v74, v302] : Fin 2 → IVec S16 32) a x).toNat < S16x128.size a)
instance k0_chk35.dec : ∀ (v74 : IVec S16 32) (v302 : IVec S16 32), Decidable (k0_chk35 v74 v302) := fun v74 v302 => decidable_of_iff' _ (Iff.of_eq (k0_chk35.eq_1 v74 v302))
theorem k0_idx35_inb : ∀ (v74 : IVec S16 32) (v302 : IVec S16 32) (k0_hw35 : k0_chk35 v74 v302), ∀ a x, ((![v74, v302] : Fin 2 → IVec S16 32) a x).toNat < S16x128.size a := fun v74 v302 k0_hw35 => k0_hw35

def k0_chk36 (v76 : IVec S16 32) (v308 : IVec S16 32) : Prop :=
  (∀ a x, ((![v76, v308] : Fin 2 → IVec S16 32) a x).toNat < S16x128.size a)
instance k0_chk36.dec : ∀ (v76 : IVec S16 32) (v308 : IVec S16 32), Decidable (k0_chk36 v76 v308) := fun v76 v308 => decidable_of_iff' _ (Iff.of_eq (k0_chk36.eq_1 v76 v308))
theorem k0_idx36_inb : ∀ (v76 : IVec S16 32) (v308 : IVec S16 32) (k0_hw36 : k0_chk36 v76 v308), ∀ a x, ((![v76, v308] : Fin 2 → IVec S16 32) a x).toNat < S16x128.size a := fun v76 v308 k0_hw36 => k0_hw36

def k0_chk37 (v70 : IVec S16 32) (v314 : IVec S16 32) : Prop :=
  (∀ a x, ((![v70, v314] : Fin 2 → IVec S16 32) a x).toNat < S16x128.size a)
instance k0_chk37.dec : ∀ (v70 : IVec S16 32) (v314 : IVec S16 32), Decidable (k0_chk37 v70 v314) := fun v70 v314 => decidable_of_iff' _ (Iff.of_eq (k0_chk37.eq_1 v70 v314))
theorem k0_idx37_inb : ∀ (v70 : IVec S16 32) (v314 : IVec S16 32) (k0_hw37 : k0_chk37 v70 v314), ∀ a x, ((![v70, v314] : Fin 2 → IVec S16 32) a x).toNat < S16x128.size a := fun v70 v314 k0_hw37 => k0_hw37

def k0_chk38 (v72 : IVec S16 32) (v320 : IVec S16 32) : Prop :=
  (∀ a x, ((![v72, v320] : Fin 2 → IVec S16 32) a x).toNat < S16x128.size a)
instance k0_chk38.dec : ∀ (v72 : IVec S16 32) (v320 : IVec S16 32), Decidable (k0_chk38 v72 v320) := fun v72 v320 => decidable_of_iff' _ (Iff.of_eq (k0_chk38.eq_1 v72 v320))
theorem k0_idx38_inb : ∀ (v72 : IVec S16 32) (v320 : IVec S16 32) (k0_hw38 : k0_chk38 v72 v320), ∀ a x, ((![v72, v320] : Fin 2 → IVec S16 32) a x).toNat < S16x128.size a := fun v72 v320 k0_hw38 => k0_hw38

def k0_chk39 (v74 : IVec S16 32) (v326 : IVec S16 32) : Prop :=
  (∀ a x, ((![v74, v326] : Fin 2 → IVec S16 32) a x).toNat < S16x128.size a)
instance k0_chk39.dec : ∀ (v74 : IVec S16 32) (v326 : IVec S16 32), Decidable (k0_chk39 v74 v326) := fun v74 v326 => decidable_of_iff' _ (Iff.of_eq (k0_chk39.eq_1 v74 v326))
theorem k0_idx39_inb : ∀ (v74 : IVec S16 32) (v326 : IVec S16 32) (k0_hw39 : k0_chk39 v74 v326), ∀ a x, ((![v74, v326] : Fin 2 → IVec S16 32) a x).toNat < S16x128.size a := fun v74 v326 k0_hw39 => k0_hw39

def k0_chk40 (v76 : IVec S16 32) (v332 : IVec S16 32) : Prop :=
  (∀ a x, ((![v76, v332] : Fin 2 → IVec S16 32) a x).toNat < S16x128.size a)
instance k0_chk40.dec : ∀ (v76 : IVec S16 32) (v332 : IVec S16 32), Decidable (k0_chk40 v76 v332) := fun v76 v332 => decidable_of_iff' _ (Iff.of_eq (k0_chk40.eq_1 v76 v332))
theorem k0_idx40_inb : ∀ (v76 : IVec S16 32) (v332 : IVec S16 32) (k0_hw40 : k0_chk40 v76 v332), ∀ a x, ((![v76, v332] : Fin 2 → IVec S16 32) a x).toNat < S16x128.size a := fun v76 v332 k0_hw40 => k0_hw40

def k0_chk41 (v70 : IVec S16 32) (v341 : IVec S16 32) : Prop :=
  (∀ a x, ((![v70, v341] : Fin 2 → IVec S16 32) a x).toNat < S16x128.size a)
instance k0_chk41.dec : ∀ (v70 : IVec S16 32) (v341 : IVec S16 32), Decidable (k0_chk41 v70 v341) := fun v70 v341 => decidable_of_iff' _ (Iff.of_eq (k0_chk41.eq_1 v70 v341))
theorem k0_idx41_inb : ∀ (v70 : IVec S16 32) (v341 : IVec S16 32) (k0_hw41 : k0_chk41 v70 v341), ∀ a x, ((![v70, v341] : Fin 2 → IVec S16 32) a x).toNat < S16x128.size a := fun v70 v341 k0_hw41 => k0_hw41

def k0_chk42 (v72 : IVec S16 32) (v347 : IVec S16 32) : Prop :=
  (∀ a x, ((![v72, v347] : Fin 2 → IVec S16 32) a x).toNat < S16x128.size a)
instance k0_chk42.dec : ∀ (v72 : IVec S16 32) (v347 : IVec S16 32), Decidable (k0_chk42 v72 v347) := fun v72 v347 => decidable_of_iff' _ (Iff.of_eq (k0_chk42.eq_1 v72 v347))
theorem k0_idx42_inb : ∀ (v72 : IVec S16 32) (v347 : IVec S16 32) (k0_hw42 : k0_chk42 v72 v347), ∀ a x, ((![v72, v347] : Fin 2 → IVec S16 32) a x).toNat < S16x128.size a := fun v72 v347 k0_hw42 => k0_hw42

def k0_chk43 (v74 : IVec S16 32) (v353 : IVec S16 32) : Prop :=
  (∀ a x, ((![v74, v353] : Fin 2 → IVec S16 32) a x).toNat < S16x128.size a)
instance k0_chk43.dec : ∀ (v74 : IVec S16 32) (v353 : IVec S16 32), Decidable (k0_chk43 v74 v353) := fun v74 v353 => decidable_of_iff' _ (Iff.of_eq (k0_chk43.eq_1 v74 v353))
theorem k0_idx43_inb : ∀ (v74 : IVec S16 32) (v353 : IVec S16 32) (k0_hw43 : k0_chk43 v74 v353), ∀ a x, ((![v74, v353] : Fin 2 → IVec S16 32) a x).toNat < S16x128.size a := fun v74 v353 k0_hw43 => k0_hw43

def k0_chk44 (v76 : IVec S16 32) (v359 : IVec S16 32) : Prop :=
  (∀ a x, ((![v76, v359] : Fin 2 → IVec S16 32) a x).toNat < S16x128.size a)
instance k0_chk44.dec : ∀ (v76 : IVec S16 32) (v359 : IVec S16 32), Decidable (k0_chk44 v76 v359) := fun v76 v359 => decidable_of_iff' _ (Iff.of_eq (k0_chk44.eq_1 v76 v359))
theorem k0_idx44_inb : ∀ (v76 : IVec S16 32) (v359 : IVec S16 32) (k0_hw44 : k0_chk44 v76 v359), ∀ a x, ((![v76, v359] : Fin 2 → IVec S16 32) a x).toNat < S16x128.size a := fun v76 v359 k0_hw44 => k0_hw44

def k0_chk45 (v70 : IVec S16 32) (v365 : IVec S16 32) : Prop :=
  (∀ a x, ((![v70, v365] : Fin 2 → IVec S16 32) a x).toNat < S16x128.size a)
instance k0_chk45.dec : ∀ (v70 : IVec S16 32) (v365 : IVec S16 32), Decidable (k0_chk45 v70 v365) := fun v70 v365 => decidable_of_iff' _ (Iff.of_eq (k0_chk45.eq_1 v70 v365))
theorem k0_idx45_inb : ∀ (v70 : IVec S16 32) (v365 : IVec S16 32) (k0_hw45 : k0_chk45 v70 v365), ∀ a x, ((![v70, v365] : Fin 2 → IVec S16 32) a x).toNat < S16x128.size a := fun v70 v365 k0_hw45 => k0_hw45

def k0_chk46 (v72 : IVec S16 32) (v371 : IVec S16 32) : Prop :=
  (∀ a x, ((![v72, v371] : Fin 2 → IVec S16 32) a x).toNat < S16x128.size a)
instance k0_chk46.dec : ∀ (v72 : IVec S16 32) (v371 : IVec S16 32), Decidable (k0_chk46 v72 v371) := fun v72 v371 => decidable_of_iff' _ (Iff.of_eq (k0_chk46.eq_1 v72 v371))
theorem k0_idx46_inb : ∀ (v72 : IVec S16 32) (v371 : IVec S16 32) (k0_hw46 : k0_chk46 v72 v371), ∀ a x, ((![v72, v371] : Fin 2 → IVec S16 32) a x).toNat < S16x128.size a := fun v72 v371 k0_hw46 => k0_hw46

def k0_chk47 (v74 : IVec S16 32) (v377 : IVec S16 32) : Prop :=
  (∀ a x, ((![v74, v377] : Fin 2 → IVec S16 32) a x).toNat < S16x128.size a)
instance k0_chk47.dec : ∀ (v74 : IVec S16 32) (v377 : IVec S16 32), Decidable (k0_chk47 v74 v377) := fun v74 v377 => decidable_of_iff' _ (Iff.of_eq (k0_chk47.eq_1 v74 v377))
theorem k0_idx47_inb : ∀ (v74 : IVec S16 32) (v377 : IVec S16 32) (k0_hw47 : k0_chk47 v74 v377), ∀ a x, ((![v74, v377] : Fin 2 → IVec S16 32) a x).toNat < S16x128.size a := fun v74 v377 k0_hw47 => k0_hw47

def k0_chk48 (v76 : IVec S16 32) (v383 : IVec S16 32) : Prop :=
  (∀ a x, ((![v76, v383] : Fin 2 → IVec S16 32) a x).toNat < S16x128.size a)
instance k0_chk48.dec : ∀ (v76 : IVec S16 32) (v383 : IVec S16 32), Decidable (k0_chk48 v76 v383) := fun v76 v383 => decidable_of_iff' _ (Iff.of_eq (k0_chk48.eq_1 v76 v383))
theorem k0_idx48_inb : ∀ (v76 : IVec S16 32) (v383 : IVec S16 32) (k0_hw48 : k0_chk48 v76 v383), ∀ a x, ((![v76, v383] : Fin 2 → IVec S16 32) a x).toNat < S16x128.size a := fun v76 v383 k0_hw48 => k0_hw48
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_185 : BitVec 32 := 0#32
  let v394 : BitVec 32 := Scalar.addi v2 c0_i32_185
  let c0_i32_186 : BitVec 32 := 0#32
  ![v394.toNat, 0]

def k0_chk49 (v70 : IVec S16 32) (v398 : IVec S16 32) : Prop :=
  (∀ a x, ((![v70, v398] : Fin 2 → IVec S16 32) a x).toNat < S16x128.size a)
instance k0_chk49.dec : ∀ (v70 : IVec S16 32) (v398 : IVec S16 32), Decidable (k0_chk49 v70 v398) := fun v70 v398 => decidable_of_iff' _ (Iff.of_eq (k0_chk49.eq_1 v70 v398))
theorem k0_idx49_inb : ∀ (v70 : IVec S16 32) (v398 : IVec S16 32) (k0_hw49 : k0_chk49 v70 v398), ∀ a x, ((![v70, v398] : Fin 2 → IVec S16 32) a x).toNat < S16x128.size a := fun v70 v398 k0_hw49 => k0_hw49

def k0_chk50 (v72 : IVec S16 32) (v404 : IVec S16 32) : Prop :=
  (∀ a x, ((![v72, v404] : Fin 2 → IVec S16 32) a x).toNat < S16x128.size a)
instance k0_chk50.dec : ∀ (v72 : IVec S16 32) (v404 : IVec S16 32), Decidable (k0_chk50 v72 v404) := fun v72 v404 => decidable_of_iff' _ (Iff.of_eq (k0_chk50.eq_1 v72 v404))
theorem k0_idx50_inb : ∀ (v72 : IVec S16 32) (v404 : IVec S16 32) (k0_hw50 : k0_chk50 v72 v404), ∀ a x, ((![v72, v404] : Fin 2 → IVec S16 32) a x).toNat < S16x128.size a := fun v72 v404 k0_hw50 => k0_hw50

def k0_chk51 (v74 : IVec S16 32) (v410 : IVec S16 32) : Prop :=
  (∀ a x, ((![v74, v410] : Fin 2 → IVec S16 32) a x).toNat < S16x128.size a)
instance k0_chk51.dec : ∀ (v74 : IVec S16 32) (v410 : IVec S16 32), Decidable (k0_chk51 v74 v410) := fun v74 v410 => decidable_of_iff' _ (Iff.of_eq (k0_chk51.eq_1 v74 v410))
theorem k0_idx51_inb : ∀ (v74 : IVec S16 32) (v410 : IVec S16 32) (k0_hw51 : k0_chk51 v74 v410), ∀ a x, ((![v74, v410] : Fin 2 → IVec S16 32) a x).toNat < S16x128.size a := fun v74 v410 k0_hw51 => k0_hw51

def k0_chk52 (v76 : IVec S16 32) (v416 : IVec S16 32) : Prop :=
  (∀ a x, ((![v76, v416] : Fin 2 → IVec S16 32) a x).toNat < S16x128.size a)
instance k0_chk52.dec : ∀ (v76 : IVec S16 32) (v416 : IVec S16 32), Decidable (k0_chk52 v76 v416) := fun v76 v416 => decidable_of_iff' _ (Iff.of_eq (k0_chk52.eq_1 v76 v416))
theorem k0_idx52_inb : ∀ (v76 : IVec S16 32) (v416 : IVec S16 32) (k0_hw52 : k0_chk52 v76 v416), ∀ a x, ((![v76, v416] : Fin 2 → IVec S16 32) a x).toNat < S16x128.size a := fun v76 v416 k0_hw52 => k0_hw52

def k0_chk53 (v70 : IVec S16 32) (v422 : IVec S16 32) : Prop :=
  (∀ a x, ((![v70, v422] : Fin 2 → IVec S16 32) a x).toNat < S16x128.size a)
instance k0_chk53.dec : ∀ (v70 : IVec S16 32) (v422 : IVec S16 32), Decidable (k0_chk53 v70 v422) := fun v70 v422 => decidable_of_iff' _ (Iff.of_eq (k0_chk53.eq_1 v70 v422))
theorem k0_idx53_inb : ∀ (v70 : IVec S16 32) (v422 : IVec S16 32) (k0_hw53 : k0_chk53 v70 v422), ∀ a x, ((![v70, v422] : Fin 2 → IVec S16 32) a x).toNat < S16x128.size a := fun v70 v422 k0_hw53 => k0_hw53

def k0_chk54 (v72 : IVec S16 32) (v428 : IVec S16 32) : Prop :=
  (∀ a x, ((![v72, v428] : Fin 2 → IVec S16 32) a x).toNat < S16x128.size a)
instance k0_chk54.dec : ∀ (v72 : IVec S16 32) (v428 : IVec S16 32), Decidable (k0_chk54 v72 v428) := fun v72 v428 => decidable_of_iff' _ (Iff.of_eq (k0_chk54.eq_1 v72 v428))
theorem k0_idx54_inb : ∀ (v72 : IVec S16 32) (v428 : IVec S16 32) (k0_hw54 : k0_chk54 v72 v428), ∀ a x, ((![v72, v428] : Fin 2 → IVec S16 32) a x).toNat < S16x128.size a := fun v72 v428 k0_hw54 => k0_hw54

def k0_chk55 (v74 : IVec S16 32) (v434 : IVec S16 32) : Prop :=
  (∀ a x, ((![v74, v434] : Fin 2 → IVec S16 32) a x).toNat < S16x128.size a)
instance k0_chk55.dec : ∀ (v74 : IVec S16 32) (v434 : IVec S16 32), Decidable (k0_chk55 v74 v434) := fun v74 v434 => decidable_of_iff' _ (Iff.of_eq (k0_chk55.eq_1 v74 v434))
theorem k0_idx55_inb : ∀ (v74 : IVec S16 32) (v434 : IVec S16 32) (k0_hw55 : k0_chk55 v74 v434), ∀ a x, ((![v74, v434] : Fin 2 → IVec S16 32) a x).toNat < S16x128.size a := fun v74 v434 k0_hw55 => k0_hw55

def k0_chk56 (v76 : IVec S16 32) (v440 : IVec S16 32) : Prop :=
  (∀ a x, ((![v76, v440] : Fin 2 → IVec S16 32) a x).toNat < S16x128.size a)
instance k0_chk56.dec : ∀ (v76 : IVec S16 32) (v440 : IVec S16 32), Decidable (k0_chk56 v76 v440) := fun v76 v440 => decidable_of_iff' _ (Iff.of_eq (k0_chk56.eq_1 v76 v440))
theorem k0_idx56_inb : ∀ (v76 : IVec S16 32) (v440 : IVec S16 32) (k0_hw56 : k0_chk56 v76 v440), ∀ a x, ((![v76, v440] : Fin 2 → IVec S16 32) a x).toNat < S16x128.size a := fun v76 v440 k0_hw56 => k0_hw56
def k0_off3 (i : grid0.Coords) (c0_i32_185 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v394 : BitVec 32 := Scalar.addi v2 c0_i32_185
  let c0_i32_210 : BitVec 32 := 0#32
  ![v394.toNat, 0]

def k0_chk57 (v70 : IVec S16 32) (v457 : IVec S16 32) : Prop :=
  (∀ a x, ((![v70, v457] : Fin 2 → IVec S16 32) a x).toNat < S16x128.size a)
instance k0_chk57.dec : ∀ (v70 : IVec S16 32) (v457 : IVec S16 32), Decidable (k0_chk57 v70 v457) := fun v70 v457 => decidable_of_iff' _ (Iff.of_eq (k0_chk57.eq_1 v70 v457))
theorem k0_idx57_inb : ∀ (v70 : IVec S16 32) (v457 : IVec S16 32) (k0_hw57 : k0_chk57 v70 v457), ∀ a x, ((![v70, v457] : Fin 2 → IVec S16 32) a x).toNat < S16x128.size a := fun v70 v457 k0_hw57 => k0_hw57

def k0_chk58 (v72 : IVec S16 32) (v463 : IVec S16 32) : Prop :=
  (∀ a x, ((![v72, v463] : Fin 2 → IVec S16 32) a x).toNat < S16x128.size a)
instance k0_chk58.dec : ∀ (v72 : IVec S16 32) (v463 : IVec S16 32), Decidable (k0_chk58 v72 v463) := fun v72 v463 => decidable_of_iff' _ (Iff.of_eq (k0_chk58.eq_1 v72 v463))
theorem k0_idx58_inb : ∀ (v72 : IVec S16 32) (v463 : IVec S16 32) (k0_hw58 : k0_chk58 v72 v463), ∀ a x, ((![v72, v463] : Fin 2 → IVec S16 32) a x).toNat < S16x128.size a := fun v72 v463 k0_hw58 => k0_hw58

def k0_chk59 (v74 : IVec S16 32) (v469 : IVec S16 32) : Prop :=
  (∀ a x, ((![v74, v469] : Fin 2 → IVec S16 32) a x).toNat < S16x128.size a)
instance k0_chk59.dec : ∀ (v74 : IVec S16 32) (v469 : IVec S16 32), Decidable (k0_chk59 v74 v469) := fun v74 v469 => decidable_of_iff' _ (Iff.of_eq (k0_chk59.eq_1 v74 v469))
theorem k0_idx59_inb : ∀ (v74 : IVec S16 32) (v469 : IVec S16 32) (k0_hw59 : k0_chk59 v74 v469), ∀ a x, ((![v74, v469] : Fin 2 → IVec S16 32) a x).toNat < S16x128.size a := fun v74 v469 k0_hw59 => k0_hw59

def k0_chk60 (v76 : IVec S16 32) (v475 : IVec S16 32) : Prop :=
  (∀ a x, ((![v76, v475] : Fin 2 → IVec S16 32) a x).toNat < S16x128.size a)
instance k0_chk60.dec : ∀ (v76 : IVec S16 32) (v475 : IVec S16 32), Decidable (k0_chk60 v76 v475) := fun v76 v475 => decidable_of_iff' _ (Iff.of_eq (k0_chk60.eq_1 v76 v475))
theorem k0_idx60_inb : ∀ (v76 : IVec S16 32) (v475 : IVec S16 32) (k0_hw60 : k0_chk60 v76 v475), ∀ a x, ((![v76, v475] : Fin 2 → IVec S16 32) a x).toNat < S16x128.size a := fun v76 v475 k0_hw60 => k0_hw60

def k0_chk61 (v70 : IVec S16 32) (v481 : IVec S16 32) : Prop :=
  (∀ a x, ((![v70, v481] : Fin 2 → IVec S16 32) a x).toNat < S16x128.size a)
instance k0_chk61.dec : ∀ (v70 : IVec S16 32) (v481 : IVec S16 32), Decidable (k0_chk61 v70 v481) := fun v70 v481 => decidable_of_iff' _ (Iff.of_eq (k0_chk61.eq_1 v70 v481))
theorem k0_idx61_inb : ∀ (v70 : IVec S16 32) (v481 : IVec S16 32) (k0_hw61 : k0_chk61 v70 v481), ∀ a x, ((![v70, v481] : Fin 2 → IVec S16 32) a x).toNat < S16x128.size a := fun v70 v481 k0_hw61 => k0_hw61

def k0_chk62 (v72 : IVec S16 32) (v487 : IVec S16 32) : Prop :=
  (∀ a x, ((![v72, v487] : Fin 2 → IVec S16 32) a x).toNat < S16x128.size a)
instance k0_chk62.dec : ∀ (v72 : IVec S16 32) (v487 : IVec S16 32), Decidable (k0_chk62 v72 v487) := fun v72 v487 => decidable_of_iff' _ (Iff.of_eq (k0_chk62.eq_1 v72 v487))
theorem k0_idx62_inb : ∀ (v72 : IVec S16 32) (v487 : IVec S16 32) (k0_hw62 : k0_chk62 v72 v487), ∀ a x, ((![v72, v487] : Fin 2 → IVec S16 32) a x).toNat < S16x128.size a := fun v72 v487 k0_hw62 => k0_hw62

def k0_chk63 (v74 : IVec S16 32) (v493 : IVec S16 32) : Prop :=
  (∀ a x, ((![v74, v493] : Fin 2 → IVec S16 32) a x).toNat < S16x128.size a)
instance k0_chk63.dec : ∀ (v74 : IVec S16 32) (v493 : IVec S16 32), Decidable (k0_chk63 v74 v493) := fun v74 v493 => decidable_of_iff' _ (Iff.of_eq (k0_chk63.eq_1 v74 v493))
theorem k0_idx63_inb : ∀ (v74 : IVec S16 32) (v493 : IVec S16 32) (k0_hw63 : k0_chk63 v74 v493), ∀ a x, ((![v74, v493] : Fin 2 → IVec S16 32) a x).toNat < S16x128.size a := fun v74 v493 k0_hw63 => k0_hw63

def k0_chk64 (v76 : IVec S16 32) (v499 : IVec S16 32) : Prop :=
  (∀ a x, ((![v76, v499] : Fin 2 → IVec S16 32) a x).toNat < S16x128.size a)
instance k0_chk64.dec : ∀ (v76 : IVec S16 32) (v499 : IVec S16 32), Decidable (k0_chk64 v76 v499) := fun v76 v499 => decidable_of_iff' _ (Iff.of_eq (k0_chk64.eq_1 v76 v499))
theorem k0_idx64_inb : ∀ (v76 : IVec S16 32) (v499 : IVec S16 32) (k0_hw64 : k0_chk64 v76 v499), ∀ a x, ((![v76, v499] : Fin 2 → IVec S16 32) a x).toNat < S16x128.size a := fun v76 v499 k0_hw64 => k0_hw64
def k0_off4 (i : grid0.Coords) (c128_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v453 : BitVec 32 := Scalar.addi v2 c128_i32
  let c0_i32_243 : BitVec 32 := 0#32
  ![v453.toNat, 0]

def k0_chk65 (v78 : IVec S16 32) (v516 : IVec S16 32) : Prop :=
  (∀ a x, ((![v78, v516] : Fin 2 → IVec S16 32) a x).toNat < S16x128.size a)
instance k0_chk65.dec : ∀ (v78 : IVec S16 32) (v516 : IVec S16 32), Decidable (k0_chk65 v78 v516) := fun v78 v516 => decidable_of_iff' _ (Iff.of_eq (k0_chk65.eq_1 v78 v516))
theorem k0_idx65_inb : ∀ (v78 : IVec S16 32) (v516 : IVec S16 32) (k0_hw65 : k0_chk65 v78 v516), ∀ a x, ((![v78, v516] : Fin 2 → IVec S16 32) a x).toNat < S16x128.size a := fun v78 v516 k0_hw65 => k0_hw65

def k0_chk66 (v80 : IVec S16 32) (v522 : IVec S16 32) : Prop :=
  (∀ a x, ((![v80, v522] : Fin 2 → IVec S16 32) a x).toNat < S16x128.size a)
instance k0_chk66.dec : ∀ (v80 : IVec S16 32) (v522 : IVec S16 32), Decidable (k0_chk66 v80 v522) := fun v80 v522 => decidable_of_iff' _ (Iff.of_eq (k0_chk66.eq_1 v80 v522))
theorem k0_idx66_inb : ∀ (v80 : IVec S16 32) (v522 : IVec S16 32) (k0_hw66 : k0_chk66 v80 v522), ∀ a x, ((![v80, v522] : Fin 2 → IVec S16 32) a x).toNat < S16x128.size a := fun v80 v522 k0_hw66 => k0_hw66

def k0_chk67 (v82 : IVec S16 32) (v528 : IVec S16 32) : Prop :=
  (∀ a x, ((![v82, v528] : Fin 2 → IVec S16 32) a x).toNat < S16x128.size a)
instance k0_chk67.dec : ∀ (v82 : IVec S16 32) (v528 : IVec S16 32), Decidable (k0_chk67 v82 v528) := fun v82 v528 => decidable_of_iff' _ (Iff.of_eq (k0_chk67.eq_1 v82 v528))
theorem k0_idx67_inb : ∀ (v82 : IVec S16 32) (v528 : IVec S16 32) (k0_hw67 : k0_chk67 v82 v528), ∀ a x, ((![v82, v528] : Fin 2 → IVec S16 32) a x).toNat < S16x128.size a := fun v82 v528 k0_hw67 => k0_hw67

def k0_chk68 (v84 : IVec S16 32) (v534 : IVec S16 32) : Prop :=
  (∀ a x, ((![v84, v534] : Fin 2 → IVec S16 32) a x).toNat < S16x128.size a)
instance k0_chk68.dec : ∀ (v84 : IVec S16 32) (v534 : IVec S16 32), Decidable (k0_chk68 v84 v534) := fun v84 v534 => decidable_of_iff' _ (Iff.of_eq (k0_chk68.eq_1 v84 v534))
theorem k0_idx68_inb : ∀ (v84 : IVec S16 32) (v534 : IVec S16 32) (k0_hw68 : k0_chk68 v84 v534), ∀ a x, ((![v84, v534] : Fin 2 → IVec S16 32) a x).toNat < S16x128.size a := fun v84 v534 k0_hw68 => k0_hw68

def k0_chk69 (v78 : IVec S16 32) (v540 : IVec S16 32) : Prop :=
  (∀ a x, ((![v78, v540] : Fin 2 → IVec S16 32) a x).toNat < S16x128.size a)
instance k0_chk69.dec : ∀ (v78 : IVec S16 32) (v540 : IVec S16 32), Decidable (k0_chk69 v78 v540) := fun v78 v540 => decidable_of_iff' _ (Iff.of_eq (k0_chk69.eq_1 v78 v540))
theorem k0_idx69_inb : ∀ (v78 : IVec S16 32) (v540 : IVec S16 32) (k0_hw69 : k0_chk69 v78 v540), ∀ a x, ((![v78, v540] : Fin 2 → IVec S16 32) a x).toNat < S16x128.size a := fun v78 v540 k0_hw69 => k0_hw69

def k0_chk70 (v80 : IVec S16 32) (v546 : IVec S16 32) : Prop :=
  (∀ a x, ((![v80, v546] : Fin 2 → IVec S16 32) a x).toNat < S16x128.size a)
instance k0_chk70.dec : ∀ (v80 : IVec S16 32) (v546 : IVec S16 32), Decidable (k0_chk70 v80 v546) := fun v80 v546 => decidable_of_iff' _ (Iff.of_eq (k0_chk70.eq_1 v80 v546))
theorem k0_idx70_inb : ∀ (v80 : IVec S16 32) (v546 : IVec S16 32) (k0_hw70 : k0_chk70 v80 v546), ∀ a x, ((![v80, v546] : Fin 2 → IVec S16 32) a x).toNat < S16x128.size a := fun v80 v546 k0_hw70 => k0_hw70

def k0_chk71 (v82 : IVec S16 32) (v552 : IVec S16 32) : Prop :=
  (∀ a x, ((![v82, v552] : Fin 2 → IVec S16 32) a x).toNat < S16x128.size a)
instance k0_chk71.dec : ∀ (v82 : IVec S16 32) (v552 : IVec S16 32), Decidable (k0_chk71 v82 v552) := fun v82 v552 => decidable_of_iff' _ (Iff.of_eq (k0_chk71.eq_1 v82 v552))
theorem k0_idx71_inb : ∀ (v82 : IVec S16 32) (v552 : IVec S16 32) (k0_hw71 : k0_chk71 v82 v552), ∀ a x, ((![v82, v552] : Fin 2 → IVec S16 32) a x).toNat < S16x128.size a := fun v82 v552 k0_hw71 => k0_hw71

def k0_chk72 (v84 : IVec S16 32) (v558 : IVec S16 32) : Prop :=
  (∀ a x, ((![v84, v558] : Fin 2 → IVec S16 32) a x).toNat < S16x128.size a)
instance k0_chk72.dec : ∀ (v84 : IVec S16 32) (v558 : IVec S16 32), Decidable (k0_chk72 v84 v558) := fun v84 v558 => decidable_of_iff' _ (Iff.of_eq (k0_chk72.eq_1 v84 v558))
theorem k0_idx72_inb : ∀ (v84 : IVec S16 32) (v558 : IVec S16 32) (k0_hw72 : k0_chk72 v84 v558), ∀ a x, ((![v84, v558] : Fin 2 → IVec S16 32) a x).toNat < S16x128.size a := fun v84 v558 k0_hw72 => k0_hw72
def k0_off5 (i : grid0.Coords) (c256_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v512 : BitVec 32 := Scalar.addi v2 c256_i32
  let c0_i32_279 : BitVec 32 := 0#32
  ![v512.toNat, 0]

def k0_chk73 (v78 : IVec S16 32) (v575 : IVec S16 32) : Prop :=
  (∀ a x, ((![v78, v575] : Fin 2 → IVec S16 32) a x).toNat < S16x128.size a)
instance k0_chk73.dec : ∀ (v78 : IVec S16 32) (v575 : IVec S16 32), Decidable (k0_chk73 v78 v575) := fun v78 v575 => decidable_of_iff' _ (Iff.of_eq (k0_chk73.eq_1 v78 v575))
theorem k0_idx73_inb : ∀ (v78 : IVec S16 32) (v575 : IVec S16 32) (k0_hw73 : k0_chk73 v78 v575), ∀ a x, ((![v78, v575] : Fin 2 → IVec S16 32) a x).toNat < S16x128.size a := fun v78 v575 k0_hw73 => k0_hw73

def k0_chk74 (v80 : IVec S16 32) (v581 : IVec S16 32) : Prop :=
  (∀ a x, ((![v80, v581] : Fin 2 → IVec S16 32) a x).toNat < S16x128.size a)
instance k0_chk74.dec : ∀ (v80 : IVec S16 32) (v581 : IVec S16 32), Decidable (k0_chk74 v80 v581) := fun v80 v581 => decidable_of_iff' _ (Iff.of_eq (k0_chk74.eq_1 v80 v581))
theorem k0_idx74_inb : ∀ (v80 : IVec S16 32) (v581 : IVec S16 32) (k0_hw74 : k0_chk74 v80 v581), ∀ a x, ((![v80, v581] : Fin 2 → IVec S16 32) a x).toNat < S16x128.size a := fun v80 v581 k0_hw74 => k0_hw74

def k0_chk75 (v82 : IVec S16 32) (v587 : IVec S16 32) : Prop :=
  (∀ a x, ((![v82, v587] : Fin 2 → IVec S16 32) a x).toNat < S16x128.size a)
instance k0_chk75.dec : ∀ (v82 : IVec S16 32) (v587 : IVec S16 32), Decidable (k0_chk75 v82 v587) := fun v82 v587 => decidable_of_iff' _ (Iff.of_eq (k0_chk75.eq_1 v82 v587))
theorem k0_idx75_inb : ∀ (v82 : IVec S16 32) (v587 : IVec S16 32) (k0_hw75 : k0_chk75 v82 v587), ∀ a x, ((![v82, v587] : Fin 2 → IVec S16 32) a x).toNat < S16x128.size a := fun v82 v587 k0_hw75 => k0_hw75

def k0_chk76 (v84 : IVec S16 32) (v593 : IVec S16 32) : Prop :=
  (∀ a x, ((![v84, v593] : Fin 2 → IVec S16 32) a x).toNat < S16x128.size a)
instance k0_chk76.dec : ∀ (v84 : IVec S16 32) (v593 : IVec S16 32), Decidable (k0_chk76 v84 v593) := fun v84 v593 => decidable_of_iff' _ (Iff.of_eq (k0_chk76.eq_1 v84 v593))
theorem k0_idx76_inb : ∀ (v84 : IVec S16 32) (v593 : IVec S16 32) (k0_hw76 : k0_chk76 v84 v593), ∀ a x, ((![v84, v593] : Fin 2 → IVec S16 32) a x).toNat < S16x128.size a := fun v84 v593 k0_hw76 => k0_hw76

def k0_chk77 (v78 : IVec S16 32) (v599 : IVec S16 32) : Prop :=
  (∀ a x, ((![v78, v599] : Fin 2 → IVec S16 32) a x).toNat < S16x128.size a)
instance k0_chk77.dec : ∀ (v78 : IVec S16 32) (v599 : IVec S16 32), Decidable (k0_chk77 v78 v599) := fun v78 v599 => decidable_of_iff' _ (Iff.of_eq (k0_chk77.eq_1 v78 v599))
theorem k0_idx77_inb : ∀ (v78 : IVec S16 32) (v599 : IVec S16 32) (k0_hw77 : k0_chk77 v78 v599), ∀ a x, ((![v78, v599] : Fin 2 → IVec S16 32) a x).toNat < S16x128.size a := fun v78 v599 k0_hw77 => k0_hw77

def k0_chk78 (v80 : IVec S16 32) (v605 : IVec S16 32) : Prop :=
  (∀ a x, ((![v80, v605] : Fin 2 → IVec S16 32) a x).toNat < S16x128.size a)
instance k0_chk78.dec : ∀ (v80 : IVec S16 32) (v605 : IVec S16 32), Decidable (k0_chk78 v80 v605) := fun v80 v605 => decidable_of_iff' _ (Iff.of_eq (k0_chk78.eq_1 v80 v605))
theorem k0_idx78_inb : ∀ (v80 : IVec S16 32) (v605 : IVec S16 32) (k0_hw78 : k0_chk78 v80 v605), ∀ a x, ((![v80, v605] : Fin 2 → IVec S16 32) a x).toNat < S16x128.size a := fun v80 v605 k0_hw78 => k0_hw78

def k0_chk79 (v82 : IVec S16 32) (v611 : IVec S16 32) : Prop :=
  (∀ a x, ((![v82, v611] : Fin 2 → IVec S16 32) a x).toNat < S16x128.size a)
instance k0_chk79.dec : ∀ (v82 : IVec S16 32) (v611 : IVec S16 32), Decidable (k0_chk79 v82 v611) := fun v82 v611 => decidable_of_iff' _ (Iff.of_eq (k0_chk79.eq_1 v82 v611))
theorem k0_idx79_inb : ∀ (v82 : IVec S16 32) (v611 : IVec S16 32) (k0_hw79 : k0_chk79 v82 v611), ∀ a x, ((![v82, v611] : Fin 2 → IVec S16 32) a x).toNat < S16x128.size a := fun v82 v611 k0_hw79 => k0_hw79

def k0_chk80 (v84 : IVec S16 32) (v617 : IVec S16 32) : Prop :=
  (∀ a x, ((![v84, v617] : Fin 2 → IVec S16 32) a x).toNat < S16x128.size a)
instance k0_chk80.dec : ∀ (v84 : IVec S16 32) (v617 : IVec S16 32), Decidable (k0_chk80 v84 v617) := fun v84 v617 => decidable_of_iff' _ (Iff.of_eq (k0_chk80.eq_1 v84 v617))
theorem k0_idx80_inb : ∀ (v84 : IVec S16 32) (v617 : IVec S16 32) (k0_hw80 : k0_chk80 v84 v617), ∀ a x, ((![v84, v617] : Fin 2 → IVec S16 32) a x).toNat < S16x128.size a := fun v84 v617 k0_hw80 => k0_hw80
def k0_off6 (i : grid0.Coords) (c384_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v571 : BitVec 32 := Scalar.addi v2 c384_i32
  let c0_i32_314 : BitVec 32 := 0#32
  ![v571.toNat, 0]

def k0_chk81 (v78 : IVec S16 32) (v634 : IVec S16 32) : Prop :=
  (∀ a x, ((![v78, v634] : Fin 2 → IVec S16 32) a x).toNat < S16x128.size a)
instance k0_chk81.dec : ∀ (v78 : IVec S16 32) (v634 : IVec S16 32), Decidable (k0_chk81 v78 v634) := fun v78 v634 => decidable_of_iff' _ (Iff.of_eq (k0_chk81.eq_1 v78 v634))
theorem k0_idx81_inb : ∀ (v78 : IVec S16 32) (v634 : IVec S16 32) (k0_hw81 : k0_chk81 v78 v634), ∀ a x, ((![v78, v634] : Fin 2 → IVec S16 32) a x).toNat < S16x128.size a := fun v78 v634 k0_hw81 => k0_hw81

def k0_chk82 (v80 : IVec S16 32) (v640 : IVec S16 32) : Prop :=
  (∀ a x, ((![v80, v640] : Fin 2 → IVec S16 32) a x).toNat < S16x128.size a)
instance k0_chk82.dec : ∀ (v80 : IVec S16 32) (v640 : IVec S16 32), Decidable (k0_chk82 v80 v640) := fun v80 v640 => decidable_of_iff' _ (Iff.of_eq (k0_chk82.eq_1 v80 v640))
theorem k0_idx82_inb : ∀ (v80 : IVec S16 32) (v640 : IVec S16 32) (k0_hw82 : k0_chk82 v80 v640), ∀ a x, ((![v80, v640] : Fin 2 → IVec S16 32) a x).toNat < S16x128.size a := fun v80 v640 k0_hw82 => k0_hw82

def k0_chk83 (v82 : IVec S16 32) (v646 : IVec S16 32) : Prop :=
  (∀ a x, ((![v82, v646] : Fin 2 → IVec S16 32) a x).toNat < S16x128.size a)
instance k0_chk83.dec : ∀ (v82 : IVec S16 32) (v646 : IVec S16 32), Decidable (k0_chk83 v82 v646) := fun v82 v646 => decidable_of_iff' _ (Iff.of_eq (k0_chk83.eq_1 v82 v646))
theorem k0_idx83_inb : ∀ (v82 : IVec S16 32) (v646 : IVec S16 32) (k0_hw83 : k0_chk83 v82 v646), ∀ a x, ((![v82, v646] : Fin 2 → IVec S16 32) a x).toNat < S16x128.size a := fun v82 v646 k0_hw83 => k0_hw83

def k0_chk84 (v84 : IVec S16 32) (v652 : IVec S16 32) : Prop :=
  (∀ a x, ((![v84, v652] : Fin 2 → IVec S16 32) a x).toNat < S16x128.size a)
instance k0_chk84.dec : ∀ (v84 : IVec S16 32) (v652 : IVec S16 32), Decidable (k0_chk84 v84 v652) := fun v84 v652 => decidable_of_iff' _ (Iff.of_eq (k0_chk84.eq_1 v84 v652))
theorem k0_idx84_inb : ∀ (v84 : IVec S16 32) (v652 : IVec S16 32) (k0_hw84 : k0_chk84 v84 v652), ∀ a x, ((![v84, v652] : Fin 2 → IVec S16 32) a x).toNat < S16x128.size a := fun v84 v652 k0_hw84 => k0_hw84

def k0_chk85 (v78 : IVec S16 32) (v658 : IVec S16 32) : Prop :=
  (∀ a x, ((![v78, v658] : Fin 2 → IVec S16 32) a x).toNat < S16x128.size a)
instance k0_chk85.dec : ∀ (v78 : IVec S16 32) (v658 : IVec S16 32), Decidable (k0_chk85 v78 v658) := fun v78 v658 => decidable_of_iff' _ (Iff.of_eq (k0_chk85.eq_1 v78 v658))
theorem k0_idx85_inb : ∀ (v78 : IVec S16 32) (v658 : IVec S16 32) (k0_hw85 : k0_chk85 v78 v658), ∀ a x, ((![v78, v658] : Fin 2 → IVec S16 32) a x).toNat < S16x128.size a := fun v78 v658 k0_hw85 => k0_hw85

def k0_chk86 (v80 : IVec S16 32) (v664 : IVec S16 32) : Prop :=
  (∀ a x, ((![v80, v664] : Fin 2 → IVec S16 32) a x).toNat < S16x128.size a)
instance k0_chk86.dec : ∀ (v80 : IVec S16 32) (v664 : IVec S16 32), Decidable (k0_chk86 v80 v664) := fun v80 v664 => decidable_of_iff' _ (Iff.of_eq (k0_chk86.eq_1 v80 v664))
theorem k0_idx86_inb : ∀ (v80 : IVec S16 32) (v664 : IVec S16 32) (k0_hw86 : k0_chk86 v80 v664), ∀ a x, ((![v80, v664] : Fin 2 → IVec S16 32) a x).toNat < S16x128.size a := fun v80 v664 k0_hw86 => k0_hw86

def k0_chk87 (v82 : IVec S16 32) (v670 : IVec S16 32) : Prop :=
  (∀ a x, ((![v82, v670] : Fin 2 → IVec S16 32) a x).toNat < S16x128.size a)
instance k0_chk87.dec : ∀ (v82 : IVec S16 32) (v670 : IVec S16 32), Decidable (k0_chk87 v82 v670) := fun v82 v670 => decidable_of_iff' _ (Iff.of_eq (k0_chk87.eq_1 v82 v670))
theorem k0_idx87_inb : ∀ (v82 : IVec S16 32) (v670 : IVec S16 32) (k0_hw87 : k0_chk87 v82 v670), ∀ a x, ((![v82, v670] : Fin 2 → IVec S16 32) a x).toNat < S16x128.size a := fun v82 v670 k0_hw87 => k0_hw87

def k0_chk88 (v84 : IVec S16 32) (v676 : IVec S16 32) : Prop :=
  (∀ a x, ((![v84, v676] : Fin 2 → IVec S16 32) a x).toNat < S16x128.size a)
instance k0_chk88.dec : ∀ (v84 : IVec S16 32) (v676 : IVec S16 32), Decidable (k0_chk88 v84 v676) := fun v84 v676 => decidable_of_iff' _ (Iff.of_eq (k0_chk88.eq_1 v84 v676))
theorem k0_idx88_inb : ∀ (v84 : IVec S16 32) (v676 : IVec S16 32) (k0_hw88 : k0_chk88 v84 v676), ∀ a x, ((![v84, v676] : Fin 2 → IVec S16 32) a x).toNat < S16x128.size a := fun v84 v676 k0_hw88 => k0_hw88
def k0_off7 (i : grid0.Coords) (c512_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v630 : BitVec 32 := Scalar.addi v2 c512_i32
  let c0_i32_349 : BitVec 32 := 0#32
  ![v630.toNat, 0]

def k0_chk89 (v78 : IVec S16 32) (v693 : IVec S16 32) : Prop :=
  (∀ a x, ((![v78, v693] : Fin 2 → IVec S16 32) a x).toNat < S16x128.size a)
instance k0_chk89.dec : ∀ (v78 : IVec S16 32) (v693 : IVec S16 32), Decidable (k0_chk89 v78 v693) := fun v78 v693 => decidable_of_iff' _ (Iff.of_eq (k0_chk89.eq_1 v78 v693))
theorem k0_idx89_inb : ∀ (v78 : IVec S16 32) (v693 : IVec S16 32) (k0_hw89 : k0_chk89 v78 v693), ∀ a x, ((![v78, v693] : Fin 2 → IVec S16 32) a x).toNat < S16x128.size a := fun v78 v693 k0_hw89 => k0_hw89

def k0_chk90 (v80 : IVec S16 32) (v699 : IVec S16 32) : Prop :=
  (∀ a x, ((![v80, v699] : Fin 2 → IVec S16 32) a x).toNat < S16x128.size a)
instance k0_chk90.dec : ∀ (v80 : IVec S16 32) (v699 : IVec S16 32), Decidable (k0_chk90 v80 v699) := fun v80 v699 => decidable_of_iff' _ (Iff.of_eq (k0_chk90.eq_1 v80 v699))
theorem k0_idx90_inb : ∀ (v80 : IVec S16 32) (v699 : IVec S16 32) (k0_hw90 : k0_chk90 v80 v699), ∀ a x, ((![v80, v699] : Fin 2 → IVec S16 32) a x).toNat < S16x128.size a := fun v80 v699 k0_hw90 => k0_hw90

def k0_chk91 (v82 : IVec S16 32) (v705 : IVec S16 32) : Prop :=
  (∀ a x, ((![v82, v705] : Fin 2 → IVec S16 32) a x).toNat < S16x128.size a)
instance k0_chk91.dec : ∀ (v82 : IVec S16 32) (v705 : IVec S16 32), Decidable (k0_chk91 v82 v705) := fun v82 v705 => decidable_of_iff' _ (Iff.of_eq (k0_chk91.eq_1 v82 v705))
theorem k0_idx91_inb : ∀ (v82 : IVec S16 32) (v705 : IVec S16 32) (k0_hw91 : k0_chk91 v82 v705), ∀ a x, ((![v82, v705] : Fin 2 → IVec S16 32) a x).toNat < S16x128.size a := fun v82 v705 k0_hw91 => k0_hw91

def k0_chk92 (v84 : IVec S16 32) (v711 : IVec S16 32) : Prop :=
  (∀ a x, ((![v84, v711] : Fin 2 → IVec S16 32) a x).toNat < S16x128.size a)
instance k0_chk92.dec : ∀ (v84 : IVec S16 32) (v711 : IVec S16 32), Decidable (k0_chk92 v84 v711) := fun v84 v711 => decidable_of_iff' _ (Iff.of_eq (k0_chk92.eq_1 v84 v711))
theorem k0_idx92_inb : ∀ (v84 : IVec S16 32) (v711 : IVec S16 32) (k0_hw92 : k0_chk92 v84 v711), ∀ a x, ((![v84, v711] : Fin 2 → IVec S16 32) a x).toNat < S16x128.size a := fun v84 v711 k0_hw92 => k0_hw92

def k0_chk93 (v78 : IVec S16 32) (v717 : IVec S16 32) : Prop :=
  (∀ a x, ((![v78, v717] : Fin 2 → IVec S16 32) a x).toNat < S16x128.size a)
instance k0_chk93.dec : ∀ (v78 : IVec S16 32) (v717 : IVec S16 32), Decidable (k0_chk93 v78 v717) := fun v78 v717 => decidable_of_iff' _ (Iff.of_eq (k0_chk93.eq_1 v78 v717))
theorem k0_idx93_inb : ∀ (v78 : IVec S16 32) (v717 : IVec S16 32) (k0_hw93 : k0_chk93 v78 v717), ∀ a x, ((![v78, v717] : Fin 2 → IVec S16 32) a x).toNat < S16x128.size a := fun v78 v717 k0_hw93 => k0_hw93

def k0_chk94 (v80 : IVec S16 32) (v723 : IVec S16 32) : Prop :=
  (∀ a x, ((![v80, v723] : Fin 2 → IVec S16 32) a x).toNat < S16x128.size a)
instance k0_chk94.dec : ∀ (v80 : IVec S16 32) (v723 : IVec S16 32), Decidable (k0_chk94 v80 v723) := fun v80 v723 => decidable_of_iff' _ (Iff.of_eq (k0_chk94.eq_1 v80 v723))
theorem k0_idx94_inb : ∀ (v80 : IVec S16 32) (v723 : IVec S16 32) (k0_hw94 : k0_chk94 v80 v723), ∀ a x, ((![v80, v723] : Fin 2 → IVec S16 32) a x).toNat < S16x128.size a := fun v80 v723 k0_hw94 => k0_hw94

def k0_chk95 (v82 : IVec S16 32) (v729 : IVec S16 32) : Prop :=
  (∀ a x, ((![v82, v729] : Fin 2 → IVec S16 32) a x).toNat < S16x128.size a)
instance k0_chk95.dec : ∀ (v82 : IVec S16 32) (v729 : IVec S16 32), Decidable (k0_chk95 v82 v729) := fun v82 v729 => decidable_of_iff' _ (Iff.of_eq (k0_chk95.eq_1 v82 v729))
theorem k0_idx95_inb : ∀ (v82 : IVec S16 32) (v729 : IVec S16 32) (k0_hw95 : k0_chk95 v82 v729), ∀ a x, ((![v82, v729] : Fin 2 → IVec S16 32) a x).toNat < S16x128.size a := fun v82 v729 k0_hw95 => k0_hw95

def k0_chk96 (v84 : IVec S16 32) (v735 : IVec S16 32) : Prop :=
  (∀ a x, ((![v84, v735] : Fin 2 → IVec S16 32) a x).toNat < S16x128.size a)
instance k0_chk96.dec : ∀ (v84 : IVec S16 32) (v735 : IVec S16 32), Decidable (k0_chk96 v84 v735) := fun v84 v735 => decidable_of_iff' _ (Iff.of_eq (k0_chk96.eq_1 v84 v735))
theorem k0_idx96_inb : ∀ (v84 : IVec S16 32) (v735 : IVec S16 32) (k0_hw96 : k0_chk96 v84 v735), ∀ a x, ((![v84, v735] : Fin 2 → IVec S16 32) a x).toNat < S16x128.size a := fun v84 v735 k0_hw96 => k0_hw96
def k0_off8 (i : grid0.Coords) (c640_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v689 : BitVec 32 := Scalar.addi v2 c640_i32
  let c0_i32_384 : BitVec 32 := 0#32
  ![v689.toNat, 0]

def k0_chk97 (v78 : IVec S16 32) (v752 : IVec S16 32) : Prop :=
  (∀ a x, ((![v78, v752] : Fin 2 → IVec S16 32) a x).toNat < S16x128.size a)
instance k0_chk97.dec : ∀ (v78 : IVec S16 32) (v752 : IVec S16 32), Decidable (k0_chk97 v78 v752) := fun v78 v752 => decidable_of_iff' _ (Iff.of_eq (k0_chk97.eq_1 v78 v752))
theorem k0_idx97_inb : ∀ (v78 : IVec S16 32) (v752 : IVec S16 32) (k0_hw97 : k0_chk97 v78 v752), ∀ a x, ((![v78, v752] : Fin 2 → IVec S16 32) a x).toNat < S16x128.size a := fun v78 v752 k0_hw97 => k0_hw97

def k0_chk98 (v80 : IVec S16 32) (v758 : IVec S16 32) : Prop :=
  (∀ a x, ((![v80, v758] : Fin 2 → IVec S16 32) a x).toNat < S16x128.size a)
instance k0_chk98.dec : ∀ (v80 : IVec S16 32) (v758 : IVec S16 32), Decidable (k0_chk98 v80 v758) := fun v80 v758 => decidable_of_iff' _ (Iff.of_eq (k0_chk98.eq_1 v80 v758))
theorem k0_idx98_inb : ∀ (v80 : IVec S16 32) (v758 : IVec S16 32) (k0_hw98 : k0_chk98 v80 v758), ∀ a x, ((![v80, v758] : Fin 2 → IVec S16 32) a x).toNat < S16x128.size a := fun v80 v758 k0_hw98 => k0_hw98

def k0_chk99 (v82 : IVec S16 32) (v764 : IVec S16 32) : Prop :=
  (∀ a x, ((![v82, v764] : Fin 2 → IVec S16 32) a x).toNat < S16x128.size a)
instance k0_chk99.dec : ∀ (v82 : IVec S16 32) (v764 : IVec S16 32), Decidable (k0_chk99 v82 v764) := fun v82 v764 => decidable_of_iff' _ (Iff.of_eq (k0_chk99.eq_1 v82 v764))
theorem k0_idx99_inb : ∀ (v82 : IVec S16 32) (v764 : IVec S16 32) (k0_hw99 : k0_chk99 v82 v764), ∀ a x, ((![v82, v764] : Fin 2 → IVec S16 32) a x).toNat < S16x128.size a := fun v82 v764 k0_hw99 => k0_hw99

def k0_chk100 (v84 : IVec S16 32) (v770 : IVec S16 32) : Prop :=
  (∀ a x, ((![v84, v770] : Fin 2 → IVec S16 32) a x).toNat < S16x128.size a)
instance k0_chk100.dec : ∀ (v84 : IVec S16 32) (v770 : IVec S16 32), Decidable (k0_chk100 v84 v770) := fun v84 v770 => decidable_of_iff' _ (Iff.of_eq (k0_chk100.eq_1 v84 v770))
theorem k0_idx100_inb : ∀ (v84 : IVec S16 32) (v770 : IVec S16 32) (k0_hw100 : k0_chk100 v84 v770), ∀ a x, ((![v84, v770] : Fin 2 → IVec S16 32) a x).toNat < S16x128.size a := fun v84 v770 k0_hw100 => k0_hw100

def k0_chk101 (v78 : IVec S16 32) (v776 : IVec S16 32) : Prop :=
  (∀ a x, ((![v78, v776] : Fin 2 → IVec S16 32) a x).toNat < S16x128.size a)
instance k0_chk101.dec : ∀ (v78 : IVec S16 32) (v776 : IVec S16 32), Decidable (k0_chk101 v78 v776) := fun v78 v776 => decidable_of_iff' _ (Iff.of_eq (k0_chk101.eq_1 v78 v776))
theorem k0_idx101_inb : ∀ (v78 : IVec S16 32) (v776 : IVec S16 32) (k0_hw101 : k0_chk101 v78 v776), ∀ a x, ((![v78, v776] : Fin 2 → IVec S16 32) a x).toNat < S16x128.size a := fun v78 v776 k0_hw101 => k0_hw101

def k0_chk102 (v80 : IVec S16 32) (v782 : IVec S16 32) : Prop :=
  (∀ a x, ((![v80, v782] : Fin 2 → IVec S16 32) a x).toNat < S16x128.size a)
instance k0_chk102.dec : ∀ (v80 : IVec S16 32) (v782 : IVec S16 32), Decidable (k0_chk102 v80 v782) := fun v80 v782 => decidable_of_iff' _ (Iff.of_eq (k0_chk102.eq_1 v80 v782))
theorem k0_idx102_inb : ∀ (v80 : IVec S16 32) (v782 : IVec S16 32) (k0_hw102 : k0_chk102 v80 v782), ∀ a x, ((![v80, v782] : Fin 2 → IVec S16 32) a x).toNat < S16x128.size a := fun v80 v782 k0_hw102 => k0_hw102

def k0_chk103 (v82 : IVec S16 32) (v788 : IVec S16 32) : Prop :=
  (∀ a x, ((![v82, v788] : Fin 2 → IVec S16 32) a x).toNat < S16x128.size a)
instance k0_chk103.dec : ∀ (v82 : IVec S16 32) (v788 : IVec S16 32), Decidable (k0_chk103 v82 v788) := fun v82 v788 => decidable_of_iff' _ (Iff.of_eq (k0_chk103.eq_1 v82 v788))
theorem k0_idx103_inb : ∀ (v82 : IVec S16 32) (v788 : IVec S16 32) (k0_hw103 : k0_chk103 v82 v788), ∀ a x, ((![v82, v788] : Fin 2 → IVec S16 32) a x).toNat < S16x128.size a := fun v82 v788 k0_hw103 => k0_hw103

def k0_chk104 (v84 : IVec S16 32) (v794 : IVec S16 32) : Prop :=
  (∀ a x, ((![v84, v794] : Fin 2 → IVec S16 32) a x).toNat < S16x128.size a)
instance k0_chk104.dec : ∀ (v84 : IVec S16 32) (v794 : IVec S16 32), Decidable (k0_chk104 v84 v794) := fun v84 v794 => decidable_of_iff' _ (Iff.of_eq (k0_chk104.eq_1 v84 v794))
theorem k0_idx104_inb : ∀ (v84 : IVec S16 32) (v794 : IVec S16 32) (k0_hw104 : k0_chk104 v84 v794), ∀ a x, ((![v84, v794] : Fin 2 → IVec S16 32) a x).toNat < S16x128.size a := fun v84 v794 k0_hw104 => k0_hw104
def k0_off9 (i : grid0.Coords) (c768_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v748 : BitVec 32 := Scalar.addi v2 c768_i32
  let c0_i32_419 : BitVec 32 := 0#32
  ![v748.toNat, 0]

def k0_chk105 (v78 : IVec S16 32) (v811 : IVec S16 32) : Prop :=
  (∀ a x, ((![v78, v811] : Fin 2 → IVec S16 32) a x).toNat < S16x128.size a)
instance k0_chk105.dec : ∀ (v78 : IVec S16 32) (v811 : IVec S16 32), Decidable (k0_chk105 v78 v811) := fun v78 v811 => decidable_of_iff' _ (Iff.of_eq (k0_chk105.eq_1 v78 v811))
theorem k0_idx105_inb : ∀ (v78 : IVec S16 32) (v811 : IVec S16 32) (k0_hw105 : k0_chk105 v78 v811), ∀ a x, ((![v78, v811] : Fin 2 → IVec S16 32) a x).toNat < S16x128.size a := fun v78 v811 k0_hw105 => k0_hw105

def k0_chk106 (v80 : IVec S16 32) (v817 : IVec S16 32) : Prop :=
  (∀ a x, ((![v80, v817] : Fin 2 → IVec S16 32) a x).toNat < S16x128.size a)
instance k0_chk106.dec : ∀ (v80 : IVec S16 32) (v817 : IVec S16 32), Decidable (k0_chk106 v80 v817) := fun v80 v817 => decidable_of_iff' _ (Iff.of_eq (k0_chk106.eq_1 v80 v817))
theorem k0_idx106_inb : ∀ (v80 : IVec S16 32) (v817 : IVec S16 32) (k0_hw106 : k0_chk106 v80 v817), ∀ a x, ((![v80, v817] : Fin 2 → IVec S16 32) a x).toNat < S16x128.size a := fun v80 v817 k0_hw106 => k0_hw106

def k0_chk107 (v82 : IVec S16 32) (v823 : IVec S16 32) : Prop :=
  (∀ a x, ((![v82, v823] : Fin 2 → IVec S16 32) a x).toNat < S16x128.size a)
instance k0_chk107.dec : ∀ (v82 : IVec S16 32) (v823 : IVec S16 32), Decidable (k0_chk107 v82 v823) := fun v82 v823 => decidable_of_iff' _ (Iff.of_eq (k0_chk107.eq_1 v82 v823))
theorem k0_idx107_inb : ∀ (v82 : IVec S16 32) (v823 : IVec S16 32) (k0_hw107 : k0_chk107 v82 v823), ∀ a x, ((![v82, v823] : Fin 2 → IVec S16 32) a x).toNat < S16x128.size a := fun v82 v823 k0_hw107 => k0_hw107

def k0_chk108 (v84 : IVec S16 32) (v829 : IVec S16 32) : Prop :=
  (∀ a x, ((![v84, v829] : Fin 2 → IVec S16 32) a x).toNat < S16x128.size a)
instance k0_chk108.dec : ∀ (v84 : IVec S16 32) (v829 : IVec S16 32), Decidable (k0_chk108 v84 v829) := fun v84 v829 => decidable_of_iff' _ (Iff.of_eq (k0_chk108.eq_1 v84 v829))
theorem k0_idx108_inb : ∀ (v84 : IVec S16 32) (v829 : IVec S16 32) (k0_hw108 : k0_chk108 v84 v829), ∀ a x, ((![v84, v829] : Fin 2 → IVec S16 32) a x).toNat < S16x128.size a := fun v84 v829 k0_hw108 => k0_hw108

def k0_chk109 (v78 : IVec S16 32) (v835 : IVec S16 32) : Prop :=
  (∀ a x, ((![v78, v835] : Fin 2 → IVec S16 32) a x).toNat < S16x128.size a)
instance k0_chk109.dec : ∀ (v78 : IVec S16 32) (v835 : IVec S16 32), Decidable (k0_chk109 v78 v835) := fun v78 v835 => decidable_of_iff' _ (Iff.of_eq (k0_chk109.eq_1 v78 v835))
theorem k0_idx109_inb : ∀ (v78 : IVec S16 32) (v835 : IVec S16 32) (k0_hw109 : k0_chk109 v78 v835), ∀ a x, ((![v78, v835] : Fin 2 → IVec S16 32) a x).toNat < S16x128.size a := fun v78 v835 k0_hw109 => k0_hw109

def k0_chk110 (v80 : IVec S16 32) (v841 : IVec S16 32) : Prop :=
  (∀ a x, ((![v80, v841] : Fin 2 → IVec S16 32) a x).toNat < S16x128.size a)
instance k0_chk110.dec : ∀ (v80 : IVec S16 32) (v841 : IVec S16 32), Decidable (k0_chk110 v80 v841) := fun v80 v841 => decidable_of_iff' _ (Iff.of_eq (k0_chk110.eq_1 v80 v841))
theorem k0_idx110_inb : ∀ (v80 : IVec S16 32) (v841 : IVec S16 32) (k0_hw110 : k0_chk110 v80 v841), ∀ a x, ((![v80, v841] : Fin 2 → IVec S16 32) a x).toNat < S16x128.size a := fun v80 v841 k0_hw110 => k0_hw110

def k0_chk111 (v82 : IVec S16 32) (v847 : IVec S16 32) : Prop :=
  (∀ a x, ((![v82, v847] : Fin 2 → IVec S16 32) a x).toNat < S16x128.size a)
instance k0_chk111.dec : ∀ (v82 : IVec S16 32) (v847 : IVec S16 32), Decidable (k0_chk111 v82 v847) := fun v82 v847 => decidable_of_iff' _ (Iff.of_eq (k0_chk111.eq_1 v82 v847))
theorem k0_idx111_inb : ∀ (v82 : IVec S16 32) (v847 : IVec S16 32) (k0_hw111 : k0_chk111 v82 v847), ∀ a x, ((![v82, v847] : Fin 2 → IVec S16 32) a x).toNat < S16x128.size a := fun v82 v847 k0_hw111 => k0_hw111

def k0_chk112 (v84 : IVec S16 32) (v853 : IVec S16 32) : Prop :=
  (∀ a x, ((![v84, v853] : Fin 2 → IVec S16 32) a x).toNat < S16x128.size a)
instance k0_chk112.dec : ∀ (v84 : IVec S16 32) (v853 : IVec S16 32), Decidable (k0_chk112 v84 v853) := fun v84 v853 => decidable_of_iff' _ (Iff.of_eq (k0_chk112.eq_1 v84 v853))
theorem k0_idx112_inb : ∀ (v84 : IVec S16 32) (v853 : IVec S16 32) (k0_hw112 : k0_chk112 v84 v853), ∀ a x, ((![v84, v853] : Fin 2 → IVec S16 32) a x).toNat < S16x128.size a := fun v84 v853 k0_hw112 => k0_hw112
def k0_off10 (i : grid0.Coords) (c896_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v807 : BitVec 32 := Scalar.addi v2 c896_i32
  let c0_i32_454 : BitVec 32 := 0#32
  ![v807.toNat, 0]

def k0_chk113 (v78 : IVec S16 32) (v870 : IVec S16 32) : Prop :=
  (∀ a x, ((![v78, v870] : Fin 2 → IVec S16 32) a x).toNat < S16x128.size a)
instance k0_chk113.dec : ∀ (v78 : IVec S16 32) (v870 : IVec S16 32), Decidable (k0_chk113 v78 v870) := fun v78 v870 => decidable_of_iff' _ (Iff.of_eq (k0_chk113.eq_1 v78 v870))
theorem k0_idx113_inb : ∀ (v78 : IVec S16 32) (v870 : IVec S16 32) (k0_hw113 : k0_chk113 v78 v870), ∀ a x, ((![v78, v870] : Fin 2 → IVec S16 32) a x).toNat < S16x128.size a := fun v78 v870 k0_hw113 => k0_hw113

def k0_chk114 (v80 : IVec S16 32) (v876 : IVec S16 32) : Prop :=
  (∀ a x, ((![v80, v876] : Fin 2 → IVec S16 32) a x).toNat < S16x128.size a)
instance k0_chk114.dec : ∀ (v80 : IVec S16 32) (v876 : IVec S16 32), Decidable (k0_chk114 v80 v876) := fun v80 v876 => decidable_of_iff' _ (Iff.of_eq (k0_chk114.eq_1 v80 v876))
theorem k0_idx114_inb : ∀ (v80 : IVec S16 32) (v876 : IVec S16 32) (k0_hw114 : k0_chk114 v80 v876), ∀ a x, ((![v80, v876] : Fin 2 → IVec S16 32) a x).toNat < S16x128.size a := fun v80 v876 k0_hw114 => k0_hw114

def k0_chk115 (v82 : IVec S16 32) (v882 : IVec S16 32) : Prop :=
  (∀ a x, ((![v82, v882] : Fin 2 → IVec S16 32) a x).toNat < S16x128.size a)
instance k0_chk115.dec : ∀ (v82 : IVec S16 32) (v882 : IVec S16 32), Decidable (k0_chk115 v82 v882) := fun v82 v882 => decidable_of_iff' _ (Iff.of_eq (k0_chk115.eq_1 v82 v882))
theorem k0_idx115_inb : ∀ (v82 : IVec S16 32) (v882 : IVec S16 32) (k0_hw115 : k0_chk115 v82 v882), ∀ a x, ((![v82, v882] : Fin 2 → IVec S16 32) a x).toNat < S16x128.size a := fun v82 v882 k0_hw115 => k0_hw115

def k0_chk116 (v84 : IVec S16 32) (v888 : IVec S16 32) : Prop :=
  (∀ a x, ((![v84, v888] : Fin 2 → IVec S16 32) a x).toNat < S16x128.size a)
instance k0_chk116.dec : ∀ (v84 : IVec S16 32) (v888 : IVec S16 32), Decidable (k0_chk116 v84 v888) := fun v84 v888 => decidable_of_iff' _ (Iff.of_eq (k0_chk116.eq_1 v84 v888))
theorem k0_idx116_inb : ∀ (v84 : IVec S16 32) (v888 : IVec S16 32) (k0_hw116 : k0_chk116 v84 v888), ∀ a x, ((![v84, v888] : Fin 2 → IVec S16 32) a x).toNat < S16x128.size a := fun v84 v888 k0_hw116 => k0_hw116

def k0_chk117 (v78 : IVec S16 32) (v894 : IVec S16 32) : Prop :=
  (∀ a x, ((![v78, v894] : Fin 2 → IVec S16 32) a x).toNat < S16x128.size a)
instance k0_chk117.dec : ∀ (v78 : IVec S16 32) (v894 : IVec S16 32), Decidable (k0_chk117 v78 v894) := fun v78 v894 => decidable_of_iff' _ (Iff.of_eq (k0_chk117.eq_1 v78 v894))
theorem k0_idx117_inb : ∀ (v78 : IVec S16 32) (v894 : IVec S16 32) (k0_hw117 : k0_chk117 v78 v894), ∀ a x, ((![v78, v894] : Fin 2 → IVec S16 32) a x).toNat < S16x128.size a := fun v78 v894 k0_hw117 => k0_hw117

def k0_chk118 (v80 : IVec S16 32) (v900 : IVec S16 32) : Prop :=
  (∀ a x, ((![v80, v900] : Fin 2 → IVec S16 32) a x).toNat < S16x128.size a)
instance k0_chk118.dec : ∀ (v80 : IVec S16 32) (v900 : IVec S16 32), Decidable (k0_chk118 v80 v900) := fun v80 v900 => decidable_of_iff' _ (Iff.of_eq (k0_chk118.eq_1 v80 v900))
theorem k0_idx118_inb : ∀ (v80 : IVec S16 32) (v900 : IVec S16 32) (k0_hw118 : k0_chk118 v80 v900), ∀ a x, ((![v80, v900] : Fin 2 → IVec S16 32) a x).toNat < S16x128.size a := fun v80 v900 k0_hw118 => k0_hw118

def k0_chk119 (v82 : IVec S16 32) (v906 : IVec S16 32) : Prop :=
  (∀ a x, ((![v82, v906] : Fin 2 → IVec S16 32) a x).toNat < S16x128.size a)
instance k0_chk119.dec : ∀ (v82 : IVec S16 32) (v906 : IVec S16 32), Decidable (k0_chk119 v82 v906) := fun v82 v906 => decidable_of_iff' _ (Iff.of_eq (k0_chk119.eq_1 v82 v906))
theorem k0_idx119_inb : ∀ (v82 : IVec S16 32) (v906 : IVec S16 32) (k0_hw119 : k0_chk119 v82 v906), ∀ a x, ((![v82, v906] : Fin 2 → IVec S16 32) a x).toNat < S16x128.size a := fun v82 v906 k0_hw119 => k0_hw119

def k0_chk120 (v84 : IVec S16 32) (v912 : IVec S16 32) : Prop :=
  (∀ a x, ((![v84, v912] : Fin 2 → IVec S16 32) a x).toNat < S16x128.size a)
instance k0_chk120.dec : ∀ (v84 : IVec S16 32) (v912 : IVec S16 32), Decidable (k0_chk120 v84 v912) := fun v84 v912 => decidable_of_iff' _ (Iff.of_eq (k0_chk120.eq_1 v84 v912))
theorem k0_idx120_inb : ∀ (v84 : IVec S16 32) (v912 : IVec S16 32) (k0_hw120 : k0_chk120 v84 v912), ∀ a x, ((![v84, v912] : Fin 2 → IVec S16 32) a x).toNat < S16x128.size a := fun v84 v912 k0_hw120 => k0_hw120
def k0_off11 (i : grid0.Coords) (c1024_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v866 : BitVec 32 := Scalar.addi v2 c1024_i32
  let c0_i32_489 : BitVec 32 := 0#32
  ![v866.toNat, 0]

def k0_chk121 (v78 : IVec S16 32) (v929 : IVec S16 32) : Prop :=
  (∀ a x, ((![v78, v929] : Fin 2 → IVec S16 32) a x).toNat < S16x128.size a)
instance k0_chk121.dec : ∀ (v78 : IVec S16 32) (v929 : IVec S16 32), Decidable (k0_chk121 v78 v929) := fun v78 v929 => decidable_of_iff' _ (Iff.of_eq (k0_chk121.eq_1 v78 v929))
theorem k0_idx121_inb : ∀ (v78 : IVec S16 32) (v929 : IVec S16 32) (k0_hw121 : k0_chk121 v78 v929), ∀ a x, ((![v78, v929] : Fin 2 → IVec S16 32) a x).toNat < S16x128.size a := fun v78 v929 k0_hw121 => k0_hw121

def k0_chk122 (v80 : IVec S16 32) (v935 : IVec S16 32) : Prop :=
  (∀ a x, ((![v80, v935] : Fin 2 → IVec S16 32) a x).toNat < S16x128.size a)
instance k0_chk122.dec : ∀ (v80 : IVec S16 32) (v935 : IVec S16 32), Decidable (k0_chk122 v80 v935) := fun v80 v935 => decidable_of_iff' _ (Iff.of_eq (k0_chk122.eq_1 v80 v935))
theorem k0_idx122_inb : ∀ (v80 : IVec S16 32) (v935 : IVec S16 32) (k0_hw122 : k0_chk122 v80 v935), ∀ a x, ((![v80, v935] : Fin 2 → IVec S16 32) a x).toNat < S16x128.size a := fun v80 v935 k0_hw122 => k0_hw122

def k0_chk123 (v82 : IVec S16 32) (v941 : IVec S16 32) : Prop :=
  (∀ a x, ((![v82, v941] : Fin 2 → IVec S16 32) a x).toNat < S16x128.size a)
instance k0_chk123.dec : ∀ (v82 : IVec S16 32) (v941 : IVec S16 32), Decidable (k0_chk123 v82 v941) := fun v82 v941 => decidable_of_iff' _ (Iff.of_eq (k0_chk123.eq_1 v82 v941))
theorem k0_idx123_inb : ∀ (v82 : IVec S16 32) (v941 : IVec S16 32) (k0_hw123 : k0_chk123 v82 v941), ∀ a x, ((![v82, v941] : Fin 2 → IVec S16 32) a x).toNat < S16x128.size a := fun v82 v941 k0_hw123 => k0_hw123

def k0_chk124 (v84 : IVec S16 32) (v947 : IVec S16 32) : Prop :=
  (∀ a x, ((![v84, v947] : Fin 2 → IVec S16 32) a x).toNat < S16x128.size a)
instance k0_chk124.dec : ∀ (v84 : IVec S16 32) (v947 : IVec S16 32), Decidable (k0_chk124 v84 v947) := fun v84 v947 => decidable_of_iff' _ (Iff.of_eq (k0_chk124.eq_1 v84 v947))
theorem k0_idx124_inb : ∀ (v84 : IVec S16 32) (v947 : IVec S16 32) (k0_hw124 : k0_chk124 v84 v947), ∀ a x, ((![v84, v947] : Fin 2 → IVec S16 32) a x).toNat < S16x128.size a := fun v84 v947 k0_hw124 => k0_hw124

def k0_chk125 (v78 : IVec S16 32) (v953 : IVec S16 32) : Prop :=
  (∀ a x, ((![v78, v953] : Fin 2 → IVec S16 32) a x).toNat < S16x128.size a)
instance k0_chk125.dec : ∀ (v78 : IVec S16 32) (v953 : IVec S16 32), Decidable (k0_chk125 v78 v953) := fun v78 v953 => decidable_of_iff' _ (Iff.of_eq (k0_chk125.eq_1 v78 v953))
theorem k0_idx125_inb : ∀ (v78 : IVec S16 32) (v953 : IVec S16 32) (k0_hw125 : k0_chk125 v78 v953), ∀ a x, ((![v78, v953] : Fin 2 → IVec S16 32) a x).toNat < S16x128.size a := fun v78 v953 k0_hw125 => k0_hw125

def k0_chk126 (v80 : IVec S16 32) (v959 : IVec S16 32) : Prop :=
  (∀ a x, ((![v80, v959] : Fin 2 → IVec S16 32) a x).toNat < S16x128.size a)
instance k0_chk126.dec : ∀ (v80 : IVec S16 32) (v959 : IVec S16 32), Decidable (k0_chk126 v80 v959) := fun v80 v959 => decidable_of_iff' _ (Iff.of_eq (k0_chk126.eq_1 v80 v959))
theorem k0_idx126_inb : ∀ (v80 : IVec S16 32) (v959 : IVec S16 32) (k0_hw126 : k0_chk126 v80 v959), ∀ a x, ((![v80, v959] : Fin 2 → IVec S16 32) a x).toNat < S16x128.size a := fun v80 v959 k0_hw126 => k0_hw126

def k0_chk127 (v82 : IVec S16 32) (v965 : IVec S16 32) : Prop :=
  (∀ a x, ((![v82, v965] : Fin 2 → IVec S16 32) a x).toNat < S16x128.size a)
instance k0_chk127.dec : ∀ (v82 : IVec S16 32) (v965 : IVec S16 32), Decidable (k0_chk127 v82 v965) := fun v82 v965 => decidable_of_iff' _ (Iff.of_eq (k0_chk127.eq_1 v82 v965))
theorem k0_idx127_inb : ∀ (v82 : IVec S16 32) (v965 : IVec S16 32) (k0_hw127 : k0_chk127 v82 v965), ∀ a x, ((![v82, v965] : Fin 2 → IVec S16 32) a x).toNat < S16x128.size a := fun v82 v965 k0_hw127 => k0_hw127

def k0_chk128 (v84 : IVec S16 32) (v971 : IVec S16 32) : Prop :=
  (∀ a x, ((![v84, v971] : Fin 2 → IVec S16 32) a x).toNat < S16x128.size a)
instance k0_chk128.dec : ∀ (v84 : IVec S16 32) (v971 : IVec S16 32), Decidable (k0_chk128 v84 v971) := fun v84 v971 => decidable_of_iff' _ (Iff.of_eq (k0_chk128.eq_1 v84 v971))
theorem k0_idx128_inb : ∀ (v84 : IVec S16 32) (v971 : IVec S16 32) (k0_hw128 : k0_chk128 v84 v971), ∀ a x, ((![v84, v971] : Fin 2 → IVec S16 32) a x).toNat < S16x128.size a := fun v84 v971 k0_hw128 => k0_hw128
def k0_off12 (i : grid0.Coords) (c1152_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v925 : BitVec 32 := Scalar.addi v2 c1152_i32
  let c0_i32_524 : BitVec 32 := 0#32
  ![v925.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4x2048x8_S4x8x2048_0_2_1 : S4x2048x8.Transposes [0, 2, 1] S4x8x2048
  shapeCasts_S4x8x2048_S4x8x16x128 : S4x8x2048.ShapeCasts S4x8x16x128
  transposes_S4x8x16x128_S4x16x8x128_0_2_1_3 : S4x8x16x128.Transposes [0, 2, 1, 3] S4x16x8x128
  shapeCasts_S4x16x8x128_S4x128x128 : S4x16x8x128.ShapeCasts S4x128x128
  shapeCasts_S8x100000x128_S800000x128 : S8x100000x128.ShapeCasts S800000x128
  squeezes_S1x16x128_S16x128 : S1x16x128.Squeezes S16x128
  iota_S16_d0_w32_scVector : S16.Iotas .scVector 32 [0]
  broadcasts_S16_S16 : S16.Broadcasts S16
  h_S16x128 : 0 < S16x128.numel
  inb_S16x128_S1x16_0_0 : ∀ a, (![0, 0] : Fin 2 → Nat) a + S1x16.size a ≤ S16x128.size a
  h_S1x16 : 0 < S1x16.numel
  shapeCasts_S1x16_S16 : S1x16.ShapeCasts S16
  shapeCasts_S16_S1x16 : S16.ShapeCasts S1x16
  inb_S16x128_S1x16_0_16 : ∀ a, (![0, 16] : Fin 2 → Nat) a + S1x16.size a ≤ S16x128.size a
  inb_S16x128_S1x16_0_32 : ∀ a, (![0, 32] : Fin 2 → Nat) a + S1x16.size a ≤ S16x128.size a
  inb_S16x128_S1x16_0_48 : ∀ a, (![0, 48] : Fin 2 → Nat) a + S1x16.size a ≤ S16x128.size a
  inb_S16x128_S1x16_0_64 : ∀ a, (![0, 64] : Fin 2 → Nat) a + S1x16.size a ≤ S16x128.size a
  inb_S16x128_S1x16_0_80 : ∀ a, (![0, 80] : Fin 2 → Nat) a + S1x16.size a ≤ S16x128.size a
  inb_S16x128_S1x16_0_96 : ∀ a, (![0, 96] : Fin 2 → Nat) a + S1x16.size a ≤ S16x128.size a
  inb_S16x128_S1x16_0_112 : ∀ a, (![0, 112] : Fin 2 → Nat) a + S1x16.size a ≤ S16x128.size a
  inb_S16x128_S1x128_0_0 : ∀ a, (![0, 0] : Fin 2 → Nat) a + S1x128.size a ≤ S16x128.size a
  squeezes_S1x128_S128 : S1x128.Squeezes S128
  inb_S800000x128_S800000x128_0_0 : ∀ a, (![0, 0] : Fin 2 → Nat) a + S800000x128.size a ≤ S800000x128.size a
  gathers_S800000x128_S128x128 : S800000x128.Gathers 0 S128x128
  inb_S16x128_S1x16_1_0 : ∀ a, (![1, 0] : Fin 2 → Nat) a + S1x16.size a ≤ S16x128.size a
  inb_S16x128_S1x16_1_16 : ∀ a, (![1, 16] : Fin 2 → Nat) a + S1x16.size a ≤ S16x128.size a
  inb_S16x128_S1x16_1_32 : ∀ a, (![1, 32] : Fin 2 → Nat) a + S1x16.size a ≤ S16x128.size a
  inb_S16x128_S1x16_1_48 : ∀ a, (![1, 48] : Fin 2 → Nat) a + S1x16.size a ≤ S16x128.size a
  inb_S16x128_S1x16_1_64 : ∀ a, (![1, 64] : Fin 2 → Nat) a + S1x16.size a ≤ S16x128.size a
  inb_S16x128_S1x16_1_80 : ∀ a, (![1, 80] : Fin 2 → Nat) a + S1x16.size a ≤ S16x128.size a
  inb_S16x128_S1x16_1_96 : ∀ a, (![1, 96] : Fin 2 → Nat) a + S1x16.size a ≤ S16x128.size a
  inb_S16x128_S1x16_1_112 : ∀ a, (![1, 112] : Fin 2 → Nat) a + S1x16.size a ≤ S16x128.size a
  inb_S16x128_S1x128_1_0 : ∀ a, (![1, 0] : Fin 2 → Nat) a + S1x128.size a ≤ S16x128.size a
  inb_S16x128_S1x16_2_0 : ∀ a, (![2, 0] : Fin 2 → Nat) a + S1x16.size a ≤ S16x128.size a
  inb_S16x128_S1x16_2_16 : ∀ a, (![2, 16] : Fin 2 → Nat) a + S1x16.size a ≤ S16x128.size a
  inb_S16x128_S1x16_2_32 : ∀ a, (![2, 32] : Fin 2 → Nat) a + S1x16.size a ≤ S16x128.size a
  inb_S16x128_S1x16_2_48 : ∀ a, (![2, 48] : Fin 2 → Nat) a + S1x16.size a ≤ S16x128.size a
  inb_S16x128_S1x16_2_64 : ∀ a, (![2, 64] : Fin 2 → Nat) a + S1x16.size a ≤ S16x128.size a
  inb_S16x128_S1x16_2_80 : ∀ a, (![2, 80] : Fin 2 → Nat) a + S1x16.size a ≤ S16x128.size a
  inb_S16x128_S1x16_2_96 : ∀ a, (![2, 96] : Fin 2 → Nat) a + S1x16.size a ≤ S16x128.size a
  inb_S16x128_S1x16_2_112 : ∀ a, (![2, 112] : Fin 2 → Nat) a + S1x16.size a ≤ S16x128.size a
  inb_S16x128_S1x128_2_0 : ∀ a, (![2, 0] : Fin 2 → Nat) a + S1x128.size a ≤ S16x128.size a
  inb_S16x128_S1x16_3_0 : ∀ a, (![3, 0] : Fin 2 → Nat) a + S1x16.size a ≤ S16x128.size a
  inb_S16x128_S1x16_3_16 : ∀ a, (![3, 16] : Fin 2 → Nat) a + S1x16.size a ≤ S16x128.size a
  inb_S16x128_S1x16_3_32 : ∀ a, (![3, 32] : Fin 2 → Nat) a + S1x16.size a ≤ S16x128.size a
  inb_S16x128_S1x16_3_48 : ∀ a, (![3, 48] : Fin 2 → Nat) a + S1x16.size a ≤ S16x128.size a
  inb_S16x128_S1x16_3_64 : ∀ a, (![3, 64] : Fin 2 → Nat) a + S1x16.size a ≤ S16x128.size a
  inb_S16x128_S1x16_3_80 : ∀ a, (![3, 80] : Fin 2 → Nat) a + S1x16.size a ≤ S16x128.size a
  inb_S16x128_S1x16_3_96 : ∀ a, (![3, 96] : Fin 2 → Nat) a + S1x16.size a ≤ S16x128.size a
  inb_S16x128_S1x16_3_112 : ∀ a, (![3, 112] : Fin 2 → Nat) a + S1x16.size a ≤ S16x128.size a
  inb_S16x128_S1x128_3_0 : ∀ a, (![3, 0] : Fin 2 → Nat) a + S1x128.size a ≤ S16x128.size a
  inb_S16x128_S1x16_4_0 : ∀ a, (![4, 0] : Fin 2 → Nat) a + S1x16.size a ≤ S16x128.size a
  inb_S16x128_S1x16_4_16 : ∀ a, (![4, 16] : Fin 2 → Nat) a + S1x16.size a ≤ S16x128.size a
  inb_S16x128_S1x16_4_32 : ∀ a, (![4, 32] : Fin 2 → Nat) a + S1x16.size a ≤ S16x128.size a
  inb_S16x128_S1x16_4_48 : ∀ a, (![4, 48] : Fin 2 → Nat) a + S1x16.size a ≤ S16x128.size a
  inb_S16x128_S1x16_4_64 : ∀ a, (![4, 64] : Fin 2 → Nat) a + S1x16.size a ≤ S16x128.size a
  inb_S16x128_S1x16_4_80 : ∀ a, (![4, 80] : Fin 2 → Nat) a + S1x16.size a ≤ S16x128.size a
  inb_S16x128_S1x16_4_96 : ∀ a, (![4, 96] : Fin 2 → Nat) a + S1x16.size a ≤ S16x128.size a
  inb_S16x128_S1x16_4_112 : ∀ a, (![4, 112] : Fin 2 → Nat) a + S1x16.size a ≤ S16x128.size a
  inb_S16x128_S1x128_4_0 : ∀ a, (![4, 0] : Fin 2 → Nat) a + S1x128.size a ≤ S16x128.size a
  inb_S16x128_S1x16_5_0 : ∀ a, (![5, 0] : Fin 2 → Nat) a + S1x16.size a ≤ S16x128.size a
  inb_S16x128_S1x16_5_16 : ∀ a, (![5, 16] : Fin 2 → Nat) a + S1x16.size a ≤ S16x128.size a
  inb_S16x128_S1x16_5_32 : ∀ a, (![5, 32] : Fin 2 → Nat) a + S1x16.size a ≤ S16x128.size a
  inb_S16x128_S1x16_5_48 : ∀ a, (![5, 48] : Fin 2 → Nat) a + S1x16.size a ≤ S16x128.size a
  inb_S16x128_S1x16_5_64 : ∀ a, (![5, 64] : Fin 2 → Nat) a + S1x16.size a ≤ S16x128.size a
  inb_S16x128_S1x16_5_80 : ∀ a, (![5, 80] : Fin 2 → Nat) a + S1x16.size a ≤ S16x128.size a
  inb_S16x128_S1x16_5_96 : ∀ a, (![5, 96] : Fin 2 → Nat) a + S1x16.size a ≤ S16x128.size a
  inb_S16x128_S1x16_5_112 : ∀ a, (![5, 112] : Fin 2 → Nat) a + S1x16.size a ≤ S16x128.size a
  inb_S16x128_S1x128_5_0 : ∀ a, (![5, 0] : Fin 2 → Nat) a + S1x128.size a ≤ S16x128.size a
  inb_S16x128_S1x16_6_0 : ∀ a, (![6, 0] : Fin 2 → Nat) a + S1x16.size a ≤ S16x128.size a
  inb_S16x128_S1x16_6_16 : ∀ a, (![6, 16] : Fin 2 → Nat) a + S1x16.size a ≤ S16x128.size a
  inb_S16x128_S1x16_6_32 : ∀ a, (![6, 32] : Fin 2 → Nat) a + S1x16.size a ≤ S16x128.size a
  inb_S16x128_S1x16_6_48 : ∀ a, (![6, 48] : Fin 2 → Nat) a + S1x16.size a ≤ S16x128.size a
  inb_S16x128_S1x16_6_64 : ∀ a, (![6, 64] : Fin 2 → Nat) a + S1x16.size a ≤ S16x128.size a
  inb_S16x128_S1x16_6_80 : ∀ a, (![6, 80] : Fin 2 → Nat) a + S1x16.size a ≤ S16x128.size a
  inb_S16x128_S1x16_6_96 : ∀ a, (![6, 96] : Fin 2 → Nat) a + S1x16.size a ≤ S16x128.size a
  inb_S16x128_S1x16_6_112 : ∀ a, (![6, 112] : Fin 2 → Nat) a + S1x16.size a ≤ S16x128.size a
  inb_S16x128_S1x128_6_0 : ∀ a, (![6, 0] : Fin 2 → Nat) a + S1x128.size a ≤ S16x128.size a
  inb_S16x128_S1x16_7_0 : ∀ a, (![7, 0] : Fin 2 → Nat) a + S1x16.size a ≤ S16x128.size a
  inb_S16x128_S1x16_7_16 : ∀ a, (![7, 16] : Fin 2 → Nat) a + S1x16.size a ≤ S16x128.size a
  inb_S16x128_S1x16_7_32 : ∀ a, (![7, 32] : Fin 2 → Nat) a + S1x16.size a ≤ S16x128.size a
  inb_S16x128_S1x16_7_48 : ∀ a, (![7, 48] : Fin 2 → Nat) a + S1x16.size a ≤ S16x128.size a
  inb_S16x128_S1x16_7_64 : ∀ a, (![7, 64] : Fin 2 → Nat) a + S1x16.size a ≤ S16x128.size a
  inb_S16x128_S1x16_7_80 : ∀ a, (![7, 80] : Fin 2 → Nat) a + S1x16.size a ≤ S16x128.size a
  inb_S16x128_S1x16_7_96 : ∀ a, (![7, 96] : Fin 2 → Nat) a + S1x16.size a ≤ S16x128.size a
  inb_S16x128_S1x16_7_112 : ∀ a, (![7, 112] : Fin 2 → Nat) a + S1x16.size a ≤ S16x128.size a
  inb_S16x128_S1x128_7_0 : ∀ a, (![7, 0] : Fin 2 → Nat) a + S1x128.size a ≤ S16x128.size a
  inb_S16x128_S1x16_8_0 : ∀ a, (![8, 0] : Fin 2 → Nat) a + S1x16.size a ≤ S16x128.size a
  inb_S16x128_S1x16_8_16 : ∀ a, (![8, 16] : Fin 2 → Nat) a + S1x16.size a ≤ S16x128.size a
  inb_S16x128_S1x16_8_32 : ∀ a, (![8, 32] : Fin 2 → Nat) a + S1x16.size a ≤ S16x128.size a
  inb_S16x128_S1x16_8_48 : ∀ a, (![8, 48] : Fin 2 → Nat) a + S1x16.size a ≤ S16x128.size a
  inb_S16x128_S1x16_8_64 : ∀ a, (![8, 64] : Fin 2 → Nat) a + S1x16.size a ≤ S16x128.size a
  inb_S16x128_S1x16_8_80 : ∀ a, (![8, 80] : Fin 2 → Nat) a + S1x16.size a ≤ S16x128.size a
  inb_S16x128_S1x16_8_96 : ∀ a, (![8, 96] : Fin 2 → Nat) a + S1x16.size a ≤ S16x128.size a
  inb_S16x128_S1x16_8_112 : ∀ a, (![8, 112] : Fin 2 → Nat) a + S1x16.size a ≤ S16x128.size a
  inb_S16x128_S1x128_8_0 : ∀ a, (![8, 0] : Fin 2 → Nat) a + S1x128.size a ≤ S16x128.size a
  inb_S16x128_S1x16_9_0 : ∀ a, (![9, 0] : Fin 2 → Nat) a + S1x16.size a ≤ S16x128.size a
  inb_S16x128_S1x16_9_16 : ∀ a, (![9, 16] : Fin 2 → Nat) a + S1x16.size a ≤ S16x128.size a
  inb_S16x128_S1x16_9_32 : ∀ a, (![9, 32] : Fin 2 → Nat) a + S1x16.size a ≤ S16x128.size a
  inb_S16x128_S1x16_9_48 : ∀ a, (![9, 48] : Fin 2 → Nat) a + S1x16.size a ≤ S16x128.size a
  inb_S16x128_S1x16_9_64 : ∀ a, (![9, 64] : Fin 2 → Nat) a + S1x16.size a ≤ S16x128.size a
  inb_S16x128_S1x16_9_80 : ∀ a, (![9, 80] : Fin 2 → Nat) a + S1x16.size a ≤ S16x128.size a
  inb_S16x128_S1x16_9_96 : ∀ a, (![9, 96] : Fin 2 → Nat) a + S1x16.size a ≤ S16x128.size a
  inb_S16x128_S1x16_9_112 : ∀ a, (![9, 112] : Fin 2 → Nat) a + S1x16.size a ≤ S16x128.size a
  inb_S16x128_S1x128_9_0 : ∀ a, (![9, 0] : Fin 2 → Nat) a + S1x128.size a ≤ S16x128.size a
  inb_S16x128_S1x16_10_0 : ∀ a, (![10, 0] : Fin 2 → Nat) a + S1x16.size a ≤ S16x128.size a
  inb_S16x128_S1x16_10_16 : ∀ a, (![10, 16] : Fin 2 → Nat) a + S1x16.size a ≤ S16x128.size a
  inb_S16x128_S1x16_10_32 : ∀ a, (![10, 32] : Fin 2 → Nat) a + S1x16.size a ≤ S16x128.size a
  inb_S16x128_S1x16_10_48 : ∀ a, (![10, 48] : Fin 2 → Nat) a + S1x16.size a ≤ S16x128.size a
  inb_S16x128_S1x16_10_64 : ∀ a, (![10, 64] : Fin 2 → Nat) a + S1x16.size a ≤ S16x128.size a
  inb_S16x128_S1x16_10_80 : ∀ a, (![10, 80] : Fin 2 → Nat) a + S1x16.size a ≤ S16x128.size a
  inb_S16x128_S1x16_10_96 : ∀ a, (![10, 96] : Fin 2 → Nat) a + S1x16.size a ≤ S16x128.size a
  inb_S16x128_S1x16_10_112 : ∀ a, (![10, 112] : Fin 2 → Nat) a + S1x16.size a ≤ S16x128.size a
  inb_S16x128_S1x128_10_0 : ∀ a, (![10, 0] : Fin 2 → Nat) a + S1x128.size a ≤ S16x128.size a
  inb_S16x128_S1x16_11_0 : ∀ a, (![11, 0] : Fin 2 → Nat) a + S1x16.size a ≤ S16x128.size a
  inb_S16x128_S1x16_11_16 : ∀ a, (![11, 16] : Fin 2 → Nat) a + S1x16.size a ≤ S16x128.size a
  inb_S16x128_S1x16_11_32 : ∀ a, (![11, 32] : Fin 2 → Nat) a + S1x16.size a ≤ S16x128.size a
  inb_S16x128_S1x16_11_48 : ∀ a, (![11, 48] : Fin 2 → Nat) a + S1x16.size a ≤ S16x128.size a
  inb_S16x128_S1x16_11_64 : ∀ a, (![11, 64] : Fin 2 → Nat) a + S1x16.size a ≤ S16x128.size a
  inb_S16x128_S1x16_11_80 : ∀ a, (![11, 80] : Fin 2 → Nat) a + S1x16.size a ≤ S16x128.size a
  inb_S16x128_S1x16_11_96 : ∀ a, (![11, 96] : Fin 2 → Nat) a + S1x16.size a ≤ S16x128.size a
  inb_S16x128_S1x16_11_112 : ∀ a, (![11, 112] : Fin 2 → Nat) a + S1x16.size a ≤ S16x128.size a
  inb_S16x128_S1x128_11_0 : ∀ a, (![11, 0] : Fin 2 → Nat) a + S1x128.size a ≤ S16x128.size a
  inb_S16x128_S1x16_12_0 : ∀ a, (![12, 0] : Fin 2 → Nat) a + S1x16.size a ≤ S16x128.size a
  inb_S16x128_S1x16_12_16 : ∀ a, (![12, 16] : Fin 2 → Nat) a + S1x16.size a ≤ S16x128.size a
  inb_S16x128_S1x16_12_32 : ∀ a, (![12, 32] : Fin 2 → Nat) a + S1x16.size a ≤ S16x128.size a
  inb_S16x128_S1x16_12_48 : ∀ a, (![12, 48] : Fin 2 → Nat) a + S1x16.size a ≤ S16x128.size a
  inb_S16x128_S1x16_12_64 : ∀ a, (![12, 64] : Fin 2 → Nat) a + S1x16.size a ≤ S16x128.size a
  inb_S16x128_S1x16_12_80 : ∀ a, (![12, 80] : Fin 2 → Nat) a + S1x16.size a ≤ S16x128.size a
  inb_S16x128_S1x16_12_96 : ∀ a, (![12, 96] : Fin 2 → Nat) a + S1x16.size a ≤ S16x128.size a
  inb_S16x128_S1x16_12_112 : ∀ a, (![12, 112] : Fin 2 → Nat) a + S1x16.size a ≤ S16x128.size a
  inb_S16x128_S1x128_12_0 : ∀ a, (![12, 0] : Fin 2 → Nat) a + S1x128.size a ≤ S16x128.size a
  inb_S16x128_S1x16_13_0 : ∀ a, (![13, 0] : Fin 2 → Nat) a + S1x16.size a ≤ S16x128.size a
  inb_S16x128_S1x16_13_16 : ∀ a, (![13, 16] : Fin 2 → Nat) a + S1x16.size a ≤ S16x128.size a
  inb_S16x128_S1x16_13_32 : ∀ a, (![13, 32] : Fin 2 → Nat) a + S1x16.size a ≤ S16x128.size a
  inb_S16x128_S1x16_13_48 : ∀ a, (![13, 48] : Fin 2 → Nat) a + S1x16.size a ≤ S16x128.size a
  inb_S16x128_S1x16_13_64 : ∀ a, (![13, 64] : Fin 2 → Nat) a + S1x16.size a ≤ S16x128.size a
  inb_S16x128_S1x16_13_80 : ∀ a, (![13, 80] : Fin 2 → Nat) a + S1x16.size a ≤ S16x128.size a
  inb_S16x128_S1x16_13_96 : ∀ a, (![13, 96] : Fin 2 → Nat) a + S1x16.size a ≤ S16x128.size a
  inb_S16x128_S1x16_13_112 : ∀ a, (![13, 112] : Fin 2 → Nat) a + S1x16.size a ≤ S16x128.size a
  inb_S16x128_S1x128_13_0 : ∀ a, (![13, 0] : Fin 2 → Nat) a + S1x128.size a ≤ S16x128.size a
  inb_S16x128_S1x16_14_0 : ∀ a, (![14, 0] : Fin 2 → Nat) a + S1x16.size a ≤ S16x128.size a
  inb_S16x128_S1x16_14_16 : ∀ a, (![14, 16] : Fin 2 → Nat) a + S1x16.size a ≤ S16x128.size a
  inb_S16x128_S1x16_14_32 : ∀ a, (![14, 32] : Fin 2 → Nat) a + S1x16.size a ≤ S16x128.size a
  inb_S16x128_S1x16_14_48 : ∀ a, (![14, 48] : Fin 2 → Nat) a + S1x16.size a ≤ S16x128.size a
  inb_S16x128_S1x16_14_64 : ∀ a, (![14, 64] : Fin 2 → Nat) a + S1x16.size a ≤ S16x128.size a
  inb_S16x128_S1x16_14_80 : ∀ a, (![14, 80] : Fin 2 → Nat) a + S1x16.size a ≤ S16x128.size a
  inb_S16x128_S1x16_14_96 : ∀ a, (![14, 96] : Fin 2 → Nat) a + S1x16.size a ≤ S16x128.size a
  inb_S16x128_S1x16_14_112 : ∀ a, (![14, 112] : Fin 2 → Nat) a + S1x16.size a ≤ S16x128.size a
  inb_S16x128_S1x128_14_0 : ∀ a, (![14, 0] : Fin 2 → Nat) a + S1x128.size a ≤ S16x128.size a
  inb_S16x128_S1x16_15_0 : ∀ a, (![15, 0] : Fin 2 → Nat) a + S1x16.size a ≤ S16x128.size a
  inb_S16x128_S1x16_15_16 : ∀ a, (![15, 16] : Fin 2 → Nat) a + S1x16.size a ≤ S16x128.size a
  inb_S16x128_S1x16_15_32 : ∀ a, (![15, 32] : Fin 2 → Nat) a + S1x16.size a ≤ S16x128.size a
  inb_S16x128_S1x16_15_48 : ∀ a, (![15, 48] : Fin 2 → Nat) a + S1x16.size a ≤ S16x128.size a
  inb_S16x128_S1x16_15_64 : ∀ a, (![15, 64] : Fin 2 → Nat) a + S1x16.size a ≤ S16x128.size a
  inb_S16x128_S1x16_15_80 : ∀ a, (![15, 80] : Fin 2 → Nat) a + S1x16.size a ≤ S16x128.size a
  inb_S16x128_S1x16_15_96 : ∀ a, (![15, 96] : Fin 2 → Nat) a + S1x16.size a ≤ S16x128.size a
  inb_S16x128_S1x16_15_112 : ∀ a, (![15, 112] : Fin 2 → Nat) a + S1x16.size a ≤ S16x128.size a
  inb_S16x128_S1x128_15_0 : ∀ a, (![15, 0] : Fin 2 → Nat) a + S1x128.size a ≤ S16x128.size a
  shapeCasts_S65536x128_S1024x8x8x128 : S65536x128.ShapeCasts S1024x8x8x128
  transposes_S1024x8x8x128_S1024x8x8x128_0_2_1_3 : S1024x8x8x128.Transposes [0, 2, 1, 3] S1024x8x8x128
  shapeCasts_S1024x8x8x128_S4x2048x1024 : S1024x8x8x128.ShapeCasts S4x2048x1024
  hcc0_scratch8 : 0 + S_.numel ≤ 13
  hcc0_scratch9 : 1 + S_.numel ≤ 13
  hcc0_scratch10 : 2 + S_.numel ≤ 13
  hcc0_scratch11 : 3 + S_.numel ≤ 13
  hcc0_scratch12 : 4 + S_.numel ≤ 13
  hcc0_scratch13 : 5 + S_.numel ≤ 13
  hcc0_scratch14 : 6 + S_.numel ≤ 13
  hcc0_scratch15 : 7 + S_.numel ≤ 13
  hcc0_scratch16 : 8 + S_.numel ≤ 13
  hcc0_scratch17 : 9 + S_.numel ≤ 13
  hcc0_scratch18 : 10 + S_.numel ≤ 13
  hcc0_scratch19 : 11 + S_.numel ≤ 13
  hcc0_scoped0 : 12 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x16x128.size a ≤ S4x128x128.size a
  k0_off2_inb : ∀ i : grid0.Coords, ∀ a, (k0_off2 i) a + S128x128.size a ≤ S65536x128.size a
  k0_off3_inb : ∀ i : grid0.Coords, ∀ (r : Fin 2), ∀ a, (k0_off3 i (BitVec.ofNat 32 (128 * r.val))) a + S128x128.size a ≤ S65536x128.size a
  k0_off4_inb : ∀ i : grid0.Coords, ∀ (r : Fin 2), ∀ a, (k0_off4 i (BitVec.ofNat 32 (128 + 128 * r.val))) a + S128x128.size a ≤ S65536x128.size a
  k0_off5_inb : ∀ i : grid0.Coords, ∀ (r : Fin 2), ∀ a, (k0_off5 i (BitVec.ofNat 32 (256 + 128 * r.val))) a + S128x128.size a ≤ S65536x128.size a
  k0_off6_inb : ∀ i : grid0.Coords, ∀ (r : Fin 2), ∀ a, (k0_off6 i (BitVec.ofNat 32 (384 + 128 * r.val))) a + S128x128.size a ≤ S65536x128.size a
  k0_off7_inb : ∀ i : grid0.Coords, ∀ (r : Fin 2), ∀ a, (k0_off7 i (BitVec.ofNat 32 (512 + 128 * r.val))) a + S128x128.size a ≤ S65536x128.size a
  k0_off8_inb : ∀ i : grid0.Coords, ∀ (r : Fin 2), ∀ a, (k0_off8 i (BitVec.ofNat 32 (640 + 128 * r.val))) a + S128x128.size a ≤ S65536x128.size a
  k0_off9_inb : ∀ i : grid0.Coords, ∀ (r : Fin 2), ∀ a, (k0_off9 i (BitVec.ofNat 32 (768 + 128 * r.val))) a + S128x128.size a ≤ S65536x128.size a
  k0_off10_inb : ∀ i : grid0.Coords, ∀ (r : Fin 2), ∀ a, (k0_off10 i (BitVec.ofNat 32 (896 + 128 * r.val))) a + S128x128.size a ≤ S65536x128.size a
  k0_off11_inb : ∀ i : grid0.Coords, ∀ (r : Fin 2), ∀ a, (k0_off11 i (BitVec.ofNat 32 (1024 + 128 * r.val))) a + S128x128.size a ≤ S65536x128.size a
  k0_off12_inb : ∀ i : grid0.Coords, ∀ (r : Fin 7), ∀ a, (k0_off12 i (BitVec.ofNat 32 (1152 + 128 * r.val))) a + S128x128.size a ≤ S65536x128.size a

variable [Facts₀]

abbrev cc0_scratch8 : DmaSems sig S_ := SemArray.consecutive 0 S_ hcc0_scratch8
abbrev cc0_scratch9 : DmaSems sig S_ := SemArray.consecutive 1 S_ hcc0_scratch9
abbrev cc0_scratch10 : DmaSems sig S_ := SemArray.consecutive 2 S_ hcc0_scratch10
abbrev cc0_scratch11 : DmaSems sig S_ := SemArray.consecutive 3 S_ hcc0_scratch11
abbrev cc0_scratch12 : DmaSems sig S_ := SemArray.consecutive 4 S_ hcc0_scratch12
abbrev cc0_scratch13 : DmaSems sig S_ := SemArray.consecutive 5 S_ hcc0_scratch13
abbrev cc0_scratch14 : DmaSems sig S_ := SemArray.consecutive 6 S_ hcc0_scratch14
abbrev cc0_scratch15 : DmaSems sig S_ := SemArray.consecutive 7 S_ hcc0_scratch15
abbrev cc0_scratch16 : DmaSems sig S_ := SemArray.consecutive 8 S_ hcc0_scratch16
abbrev cc0_scratch17 : DmaSems sig S_ := SemArray.consecutive 9 S_ hcc0_scratch17
abbrev cc0_scratch18 : DmaSems sig S_ := SemArray.consecutive 10 S_ hcc0_scratch18
abbrev cc0_scratch19 : DmaSems sig S_ := SemArray.consecutive 11 S_ hcc0_scratch19
abbrev cc0_scoped0 : DmaSems sig S_ := SemArray.consecutive 12 S_ hcc0_scoped0

class Facts : Prop extends Facts₀ where

variable [Facts]
-- ==== ReferenceIdeal.lean ====
abbrev S4x2048x8 : Shape := ⟨3, ![4, 2048, 8]⟩
abbrev S8x100000x128 : Shape := ⟨3, ![8, 100000, 128]⟩
abbrev S1x100000x128 : Shape := ⟨3, ![1, 100000, 128]⟩
abbrev S100000x128 : Shape := ⟨2, ![100000, 128]⟩
abbrev S4x2048x1 : Shape := ⟨3, ![4, 2048, 1]⟩
abbrev S4x2048 : Shape := ⟨2, ![4, 2048]⟩
abbrev S_ : Shape := ⟨0, ![]⟩
abbrev S1 : Shape := ⟨1, ![1]⟩
abbrev S1x1x1 : Shape := ⟨3, ![1, 1, 1]⟩
abbrev S4x2048x128 : Shape := ⟨3, ![4, 2048, 128]⟩
abbrev S4x2048x1024 : Shape := ⟨3, ![4, 2048, 1024]⟩

abbrev nBuf : Space → Nat
  | .hbm => 219
  | .vmem => 0
  | .smem => 0
  | _ => 0

abbrev hbmTy0_0 (i : Nat) : BufTy := match i % 128 with
  | 0 => ⟨S4x2048x8, .i32⟩
  | 1 => ⟨S8x100000x128, .f32⟩
  | 2 => ⟨S1x100000x128, .f32⟩
  | 3 => ⟨S100000x128, .f32⟩
  | 4 => ⟨S4x2048x1, .i32⟩
  | 5 => ⟨S4x2048, .i32⟩
  | 6 => ⟨S_, .i32⟩
  | 7 => ⟨S4x2048, .i32⟩
  | 8 => ⟨S4x2048, .i1⟩
  | 9 => ⟨S_, .i32⟩
  | 10 => ⟨S4x2048, .i32⟩
  | 11 => ⟨S4x2048, .i32⟩
  | 12 => ⟨S4x2048, .i32⟩
  | 13 => ⟨S4x2048x1, .i32⟩
  | 14 => ⟨S1, .i32⟩
  | 15 => ⟨S_, .i32⟩
  | 16 => ⟨S4x2048x1, .i32⟩
  | 17 => ⟨S4x2048x1, .i1⟩
  | 18 => ⟨S1x1x1, .i32⟩
  | 19 => ⟨S4x2048x1, .i32⟩
  | 20 => ⟨S4x2048x1, .i1⟩
  | 21 => ⟨S4x2048x1, .i1⟩
  | 22 => ⟨S_, .i1⟩
  | 23 => ⟨S4x2048, .i1⟩
  | 24 => ⟨S4x2048x128, .f32⟩
  | 25 => ⟨S4x2048x128, .i1⟩
  | 26 => ⟨S_, .f32⟩
  | 27 => ⟨S4x2048x128, .f32⟩
  | 28 => ⟨S4x2048x128, .f32⟩
  | 29 => ⟨S1x100000x128, .f32⟩
  | 30 => ⟨S100000x128, .f32⟩
  | 31 => ⟨S4x2048x1, .i32⟩
  | 32 => ⟨S4x2048, .i32⟩
  | 33 => ⟨S_, .i32⟩
  | 34 => ⟨S4x2048, .i32⟩
  | 35 => ⟨S4x2048, .i1⟩
  | 36 => ⟨S_, .i32⟩
  | 37 => ⟨S4x2048, .i32⟩
  | 38 => ⟨S4x2048, .i32⟩
  | 39 => ⟨S4x2048, .i32⟩
  | 40 => ⟨S4x2048x1, .i32⟩
  | 41 => ⟨S1, .i32⟩
  | 42 => ⟨S_, .i32⟩
  | 43 => ⟨S4x2048x1, .i32⟩
  | 44 => ⟨S4x2048x1, .i1⟩
  | 45 => ⟨S1x1x1, .i32⟩
  | 46 => ⟨S4x2048x1, .i32⟩
  | 47 => ⟨S4x2048x1, .i1⟩
  | 48 => ⟨S4x2048x1, .i1⟩
  | 49 => ⟨S_, .i1⟩
  | 50 => ⟨S4x2048, .i1⟩
  | 51 => ⟨S4x2048x128, .f32⟩
  | 52 => ⟨S4x2048x128, .i1⟩
  | 53 => ⟨S_, .f32⟩
  | 54 => ⟨S4x2048x128, .f32⟩
  | 55 => ⟨S4x2048x128, .f32⟩
  | 56 => ⟨S1x100000x128, .f32⟩
  | 57 => ⟨S100000x128, .f32⟩
  | 58 => ⟨S4x2048x1, .i32⟩
  | 59 => ⟨S4x2048, .i32⟩
  | 60 => ⟨S_, .i32⟩
  | 61 => ⟨S4x2048, .i32⟩
  | 62 => ⟨S4x2048, .i1⟩
  | 63 => ⟨S_, .i32⟩
  | 64 => ⟨S4x2048, .i32⟩
  | 65 => ⟨S4x2048, .i32⟩
  | 66 => ⟨S4x2048, .i32⟩
  | 67 => ⟨S4x2048x1, .i32⟩
  | 68 => ⟨S1, .i32⟩
  | 69 => ⟨S_, .i32⟩
  | 70 => ⟨S4x2048x1, .i32⟩
  | 71 => ⟨S4x2048x1, .i1⟩
  | 72 => ⟨S1x1x1, .i32⟩
  | 73 => ⟨S4x2048x1, .i32⟩
  | 74 => ⟨S4x2048x1, .i1⟩
  | 75 => ⟨S4x2048x1, .i1⟩
  | 76 => ⟨S_, .i1⟩
  | 77 => ⟨S4x2048, .i1⟩
  | 78 => ⟨S4x2048x128, .f32⟩
  | 79 => ⟨S4x2048x128, .i1⟩
  | 80 => ⟨S_, .f32⟩
  | 81 => ⟨S4x2048x128, .f32⟩
  | 82 => ⟨S4x2048x128, .f32⟩
  | 83 => ⟨S1x100000x128, .f32⟩
  | 84 => ⟨S100000x128, .f32⟩
  | 85 => ⟨S4x2048x1, .i32⟩
  | 86 => ⟨S4x2048, .i32⟩
  | 87 => ⟨S_, .i32⟩
  | 88 => ⟨S4x2048, .i32⟩
  | 89 => ⟨S4x2048, .i1⟩
  | 90 => ⟨S_, .i32⟩
  | 91 => ⟨S4x2048, .i32⟩
  | 92 => ⟨S4x2048, .i32⟩
  | 93 => ⟨S4x2048, .i32⟩
  | 94 => ⟨S4x2048x1, .i32⟩
  | 95 => ⟨S1, .i32⟩
  | 96 => ⟨S_, .i32⟩
  | 97 => ⟨S4x2048x1, .i32⟩
  | 98 => ⟨S4x2048x1, .i1⟩
  | 99 => ⟨S1x1x1, .i32⟩
  | 100 => ⟨S4x2048x1, .i32⟩
  | 101 => ⟨S4x2048x1, .i1⟩
  | 102 => ⟨S4x2048x1, .i1⟩
  | 103 => ⟨S_, .i1⟩
  | 104 => ⟨S4x2048, .i1⟩
  | 105 => ⟨S4x2048x128, .f32⟩
  | 106 => ⟨S4x2048x128, .i1⟩
  | 107 => ⟨S_, .f32⟩
  | 108 => ⟨S4x2048x128, .f32⟩
  | 109 => ⟨S4x2048x128, .f32⟩
  | 110 => ⟨S1x100000x128, .f32⟩
  | 111 => ⟨S100000x128, .f32⟩
  | 112 => ⟨S4x2048x1, .i32⟩
  | 113 => ⟨S4x2048, .i32⟩
  | 114 => ⟨S_, .i32⟩
  | 115 => ⟨S4x2048, .i32⟩
  | 116 => ⟨S4x2048, .i1⟩
  | 117 => ⟨S_, .i32⟩
  | 118 => ⟨S4x2048, .i32⟩
  | 119 => ⟨S4x2048, .i32⟩
  | 120 => ⟨S4x2048, .i32⟩
  | 121 => ⟨S4x2048x1, .i32⟩
  | 122 => ⟨S1, .i32⟩
  | 123 => ⟨S_, .i32⟩
  | 124 => ⟨S4x2048x1, .i32⟩
  | 125 => ⟨S4x2048x1, .i1⟩
  | 126 => ⟨S1x1x1, .i32⟩
  | 127 => ⟨S4x2048x1, .i32⟩
  | _ => ⟨S4x2048x8, .i32⟩

abbrev hbmTy0_1 (i : Nat) : BufTy := match i % 128 with
  | 0 => ⟨S4x2048x1, .i1⟩
  | 1 => ⟨S4x2048x1, .i1⟩
  | 2 => ⟨S_, .i1⟩
  | 3 => ⟨S4x2048, .i1⟩
  | 4 => ⟨S4x2048x128, .f32⟩
  | 5 => ⟨S4x2048x128, .i1⟩
  | 6 => ⟨S_, .f32⟩
  | 7 => ⟨S4x2048x128, .f32⟩
  | 8 => ⟨S4x2048x128, .f32⟩
  | 9 => ⟨S1x100000x128, .f32⟩
  | 10 => ⟨S100000x128, .f32⟩
  | 11 => ⟨S4x2048x1, .i32⟩
  | 12 => ⟨S4x2048, .i32⟩
  | 13 => ⟨S_, .i32⟩
  | 14 => ⟨S4x2048, .i32⟩
  | 15 => ⟨S4x2048, .i1⟩
  | 16 => ⟨S_, .i32⟩
  | 17 => ⟨S4x2048, .i32⟩
  | 18 => ⟨S4x2048, .i32⟩
  | 19 => ⟨S4x2048, .i32⟩
  | 20 => ⟨S4x2048x1, .i32⟩
  | 21 => ⟨S1, .i32⟩
  | 22 => ⟨S_, .i32⟩
  | 23 => ⟨S4x2048x1, .i32⟩
  | 24 => ⟨S4x2048x1, .i1⟩
  | 25 => ⟨S1x1x1, .i32⟩
  | 26 => ⟨S4x2048x1, .i32⟩
  | 27 => ⟨S4x2048x1, .i1⟩
  | 28 => ⟨S4x2048x1, .i1⟩
  | 29 => ⟨S_, .i1⟩
  | 30 => ⟨S4x2048, .i1⟩
  | 31 => ⟨S4x2048x128, .f32⟩
  | 32 => ⟨S4x2048x128, .i1⟩
  | 33 => ⟨S_, .f32⟩
  | 34 => ⟨S4x2048x128, .f32⟩
  | 35 => ⟨S4x2048x128, .f32⟩
  | 36 => ⟨S1x100000x128, .f32⟩
  | 37 => ⟨S100000x128, .f32⟩
  | 38 => ⟨S4x2048x1, .i32⟩
  | 39 => ⟨S4x2048, .i32⟩
  | 40 => ⟨S_, .i32⟩
  | 41 => ⟨S4x2048, .i32⟩
  | 42 => ⟨S4x2048, .i1⟩
  | 43 => ⟨S_, .i32⟩
  | 44 => ⟨S4x2048, .i32⟩
  | 45 => ⟨S4x2048, .i32⟩
  | 46 => ⟨S4x2048, .i32⟩
  | 47 => ⟨S4x2048x1, .i32⟩
  | 48 => ⟨S1, .i32⟩
  | 49 => ⟨S_, .i32⟩
  | 50 => ⟨S4x2048x1, .i32⟩
  | 51 => ⟨S4x2048x1, .i1⟩
  | 52 => ⟨S1x1x1, .i32⟩
  | 53 => ⟨S4x2048x1, .i32⟩
  | 54 => ⟨S4x2048x1, .i1⟩
  | 55 => ⟨S4x2048x1, .i1⟩
  | 56 => ⟨S_, .i1⟩
  | 57 => ⟨S4x2048, .i1⟩
  | 58 => ⟨S4x2048x128, .f32⟩
  | 59 => ⟨S4x2048x128, .i1⟩
  | 60 => ⟨S_, .f32⟩
  | 61 => ⟨S4x2048x128, .f32⟩
  | 62 => ⟨S4x2048x128, .f32⟩
  | 63 => ⟨S1x100000x128, .f32⟩
  | 64 => ⟨S100000x128, .f32⟩
  | 65 => ⟨S4x2048x1, .i32⟩
  | 66 => ⟨S4x2048, .i32⟩
  | 67 => ⟨S_, .i32⟩
  | 68 => ⟨S4x2048, .i32⟩
  | 69 => ⟨S4x2048, .i1⟩
  | 70 => ⟨S_, .i32⟩
  | 71 => ⟨S4x2048, .i32⟩
  | 72 => ⟨S4x2048, .i32⟩
  | 73 => ⟨S4x2048, .i32⟩
  | 74 => ⟨S4x2048x1, .i32⟩
  | 75 => ⟨S1, .i32⟩
  | 76 => ⟨S_, .i32⟩
  | 77 => ⟨S4x2048x1, .i32⟩
  | 78 => ⟨S4x2048x1, .i1⟩
  | 79 => ⟨S1x1x1, .i32⟩
  | 80 => ⟨S4x2048x1, .i32⟩
  | 81 => ⟨S4x2048x1, .i1⟩
  | 82 => ⟨S4x2048x1, .i1⟩
  | 83 => ⟨S_, .i1⟩
  | 84 => ⟨S4x2048, .i1⟩
  | 85 => ⟨S4x2048x128, .f32⟩
  | 86 => ⟨S4x2048x128, .i1⟩
  | 87 => ⟨S_, .f32⟩
  | 88 => ⟨S4x2048x128, .f32⟩
  | 89 => ⟨S4x2048x128, .f32⟩
  | 90 => ⟨S4x2048x1024, .f32⟩
  | _ => ⟨S4x2048x8, .i32⟩

abbrev hbmTy (i : Nat) : BufTy := match i / 128 with
  | 0 => hbmTy0_0 i
  | 1 => hbmTy0_1 i
  | _ => ⟨S4x2048x8, .i32⟩

abbrev bufTy : (tb : Table) → Fin (tcTables nBuf tb) → BufTy
  | .hbm, ⟨i, _⟩ => hbmTy i
  | _, _ => ⟨S4x2048x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v19 : Ref sig .tc := ⟨.hbm, 109, rfl⟩
abbrev main_v20 : Ref sig .tc := ⟨.hbm, 110, rfl⟩
abbrev main_v21 : Ref sig .tc := ⟨.hbm, 111, rfl⟩
abbrev main_v22 : Ref sig .tc := ⟨.hbm, 112, rfl⟩
abbrev main_v23 : Ref sig .tc := ⟨.hbm, 113, rfl⟩
abbrev main_call4_c : Ref sig .tc := ⟨.hbm, 114, rfl⟩
abbrev main_call4_v0 : Ref sig .tc := ⟨.hbm, 115, rfl⟩
abbrev main_call4_v1 : Ref sig .tc := ⟨.hbm, 116, rfl⟩
abbrev main_call4_c_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_c_1 : Ref sig .tc := ⟨.hbm, 122, rfl⟩
abbrev main_call4_c_2 : Ref sig .tc := ⟨.hbm, 123, rfl⟩
abbrev main_call4_v6 : Ref sig .tc := ⟨.hbm, 124, rfl⟩
abbrev main_call4_v7 : Ref sig .tc := ⟨.hbm, 125, rfl⟩
abbrev main_call4_v8 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_c_3 : Ref sig .tc := ⟨.hbm, 130, rfl⟩
abbrev main_call4_v12 : Ref sig .tc := ⟨.hbm, 131, rfl⟩
abbrev main_call4_v13 : Ref sig .tc := ⟨.hbm, 132, rfl⟩
abbrev main_call4_v14 : Ref sig .tc := ⟨.hbm, 133, rfl⟩
abbrev main_call4_cst : Ref sig .tc := ⟨.hbm, 134, rfl⟩
abbrev main_call4_v15 : Ref sig .tc := ⟨.hbm, 135, rfl⟩
abbrev main_v24 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_call5_c : Ref sig .tc := ⟨.hbm, 141, rfl⟩
abbrev main_call5_v0 : Ref sig .tc := ⟨.hbm, 142, rfl⟩
abbrev main_call5_v1 : Ref sig .tc := ⟨.hbm, 143, rfl⟩
abbrev main_call5_c_0 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_c_1 : Ref sig .tc := ⟨.hbm, 149, rfl⟩
abbrev main_call5_c_2 : Ref sig .tc := ⟨.hbm, 150, rfl⟩
abbrev main_call5_v6 : Ref sig .tc := ⟨.hbm, 151, rfl⟩
abbrev main_call5_v7 : Ref sig .tc := ⟨.hbm, 152, rfl⟩
abbrev main_call5_v8 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_c_3 : Ref sig .tc := ⟨.hbm, 157, rfl⟩
abbrev main_call5_v12 : Ref sig .tc := ⟨.hbm, 158, rfl⟩
abbrev main_call5_v13 : Ref sig .tc := ⟨.hbm, 159, rfl⟩
abbrev main_call5_v14 : Ref sig .tc := ⟨.hbm, 160, rfl⟩
abbrev main_call5_cst : Ref sig .tc := ⟨.hbm, 161, rfl⟩
abbrev main_call5_v15 : Ref sig .tc := ⟨.hbm, 162, rfl⟩
abbrev main_v29 : Ref sig .tc := ⟨.hbm, 163, rfl⟩
abbrev main_v30 : Ref sig .tc := ⟨.hbm, 164, rfl⟩
abbrev main_v31 : Ref sig .tc := ⟨.hbm, 165, rfl⟩
abbrev main_v32 : Ref sig .tc := ⟨.hbm, 166, rfl⟩
abbrev main_v33 : Ref sig .tc := ⟨.hbm, 167, rfl⟩
abbrev main_call6_c : Ref sig .tc := ⟨.hbm, 168, rfl⟩
abbrev main_call6_v0 : Ref sig .tc := ⟨.hbm, 169, rfl⟩
abbrev main_call6_v1 : Ref sig .tc := ⟨.hbm, 170, rfl⟩
abbrev main_call6_c_0 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_v5 : Ref sig .tc := ⟨.hbm, 175, rfl⟩
abbrev main_call6_c_1 : Ref sig .tc := ⟨.hbm, 176, rfl⟩
abbrev main_call6_c_2 : Ref sig .tc := ⟨.hbm, 177, rfl⟩
abbrev main_call6_v6 : Ref sig .tc := ⟨.hbm, 178, rfl⟩
abbrev main_call6_v7 : Ref sig .tc := ⟨.hbm, 179, rfl⟩
abbrev main_call6_v8 : Ref sig .tc := ⟨.hbm, 180, rfl⟩
abbrev main_call6_v9 : Ref sig .tc := ⟨.hbm, 181, rfl⟩
abbrev main_call6_v10 : Ref sig .tc := ⟨.hbm, 182, rfl⟩
abbrev main_call6_v11 : Ref sig .tc := ⟨.hbm, 183, rfl⟩
abbrev main_call6_c_3 : Ref sig .tc := ⟨.hbm, 184, rfl⟩
abbrev main_call6_v12 : Ref sig .tc := ⟨.hbm, 185, rfl⟩
abbrev main_call6_v13 : Ref sig .tc := ⟨.hbm, 186, rfl⟩
abbrev main_call6_v14 : Ref sig .tc := ⟨.hbm, 187, rfl⟩
abbrev main_call6_cst : Ref sig .tc := ⟨.hbm, 188, rfl⟩
abbrev main_call6_v15 : Ref sig .tc := ⟨.hbm, 189, rfl⟩
abbrev main_v34 : Ref sig .tc := ⟨.hbm, 190, rfl⟩
abbrev main_v35 : Ref sig .tc := ⟨.hbm, 191, rfl⟩
abbrev main_v36 : Ref sig .tc := ⟨.hbm, 192, rfl⟩
abbrev main_v37 : Ref sig .tc := ⟨.hbm, 193, rfl⟩
abbrev main_v38 : Ref sig .tc := ⟨.hbm, 194, rfl⟩
abbrev main_call7_c : Ref sig .tc := ⟨.hbm, 195, rfl⟩
abbrev main_call7_v0 : Ref sig .tc := ⟨.hbm, 196, rfl⟩
abbrev main_call7_v1 : Ref sig .tc := ⟨.hbm, 197, rfl⟩
abbrev main_call7_c_0 : Ref sig .tc := ⟨.hbm, 198, rfl⟩
abbrev main_call7_v2 : Ref sig .tc := ⟨.hbm, 199, rfl⟩
abbrev main_call7_v3 : Ref sig .tc := ⟨.hbm, 200, rfl⟩
abbrev main_call7_v4 : Ref sig .tc := ⟨.hbm, 201, rfl⟩
abbrev main_call7_v5 : Ref sig .tc := ⟨.hbm, 202, rfl⟩
abbrev main_call7_c_1 : Ref sig .tc := ⟨.hbm, 203, rfl⟩
abbrev main_call7_c_2 : Ref sig .tc := ⟨.hbm, 204, rfl⟩
abbrev main_call7_v6 : Ref sig .tc := ⟨.hbm, 205, rfl⟩
abbrev main_call7_v7 : Ref sig .tc := ⟨.hbm, 206, rfl⟩
abbrev main_call7_v8 : Ref sig .tc := ⟨.hbm, 207, rfl⟩
abbrev main_call7_v9 : Ref sig .tc := ⟨.hbm, 208, rfl⟩
abbrev main_call7_v10 : Ref sig .tc := ⟨.hbm, 209, rfl⟩
abbrev main_call7_v11 : Ref sig .tc := ⟨.hbm, 210, rfl⟩
abbrev main_call7_c_3 : Ref sig .tc := ⟨.hbm, 211, rfl⟩
abbrev main_call7_v12 : Ref sig .tc := ⟨.hbm, 212, rfl⟩
abbrev main_call7_v13 : Ref sig .tc := ⟨.hbm, 213, rfl⟩
abbrev main_call7_v14 : Ref sig .tc := ⟨.hbm, 214, rfl⟩
abbrev main_call7_cst : Ref sig .tc := ⟨.hbm, 215, rfl⟩
abbrev main_call7_v15 : Ref sig .tc := ⟨.hbm, 216, rfl⟩
abbrev main_v39 : Ref sig .tc := ⟨.hbm, 217, rfl⟩
abbrev main_v40 : Ref sig .tc := ⟨.hbm, 218, rfl⟩

abbrev nD : Nat := 1
abbrev τ : Topo := Topo.v7x

variable {F : FTy → Type} [FloatOps F]

class Facts₀ : Prop where
  slices_S8x100000x128_S1x100000x128_0_0_0 : S8x100000x128.Slices ![0, 0, 0] S1x100000x128
  shapeCasts_S1x100000x128_S100000x128 : S1x100000x128.ShapeCasts S100000x128
  slices_S4x2048x8_S4x2048x1_0_0_0 : S4x2048x8.Slices ![0, 0, 0] S4x2048x1
  shapeCasts_S4x2048x1_S4x2048 : S4x2048x1.ShapeCasts S4x2048
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S1_S1x1x1_2 : S1.BroadcastsInDim S1x1x1 (![2] : Fin 1 → Fin S1x1x1.rank)
  bcast_S1x1x1_S4x2048x1_0_1_2 : S1x1x1.BroadcastsInDim S4x2048x1 (![0, 1, 2] : Fin 3 → Fin S4x2048x1.rank)
  reducesTo_S4x2048x1_S4x2048_d2 : S4x2048x1.ReducesTo [2] S4x2048
  h_S_ : 0 < S_.numel
  bcast_S4x2048_S4x2048x128_0_1 : S4x2048.BroadcastsInDim S4x2048x128 (![0, 1] : Fin 2 → Fin S4x2048x128.rank)
  bcast_S_S4x2048x128 : S_.BroadcastsInDim S4x2048x128 (![] : Fin 0 → Fin S4x2048x128.rank)
  slices_S8x100000x128_S1x100000x128_1_0_0 : S8x100000x128.Slices ![1, 0, 0] S1x100000x128
  slices_S4x2048x8_S4x2048x1_0_0_1 : S4x2048x8.Slices ![0, 0, 1] S4x2048x1
  slices_S8x100000x128_S1x100000x128_2_0_0 : S8x100000x128.Slices ![2, 0, 0] S1x100000x128
  slices_S4x2048x8_S4x2048x1_0_0_2 : S4x2048x8.Slices ![0, 0, 2] S4x2048x1
  slices_S8x100000x128_S1x100000x128_3_0_0 : S8x100000x128.Slices ![3, 0, 0] S1x100000x128
  slices_S4x2048x8_S4x2048x1_0_0_3 : S4x2048x8.Slices ![0, 0, 3] S4x2048x1
  slices_S8x100000x128_S1x100000x128_4_0_0 : S8x100000x128.Slices ![4, 0, 0] S1x100000x128
  slices_S4x2048x8_S4x2048x1_0_0_4 : S4x2048x8.Slices ![0, 0, 4] S4x2048x1
  slices_S8x100000x128_S1x100000x128_5_0_0 : S8x100000x128.Slices ![5, 0, 0] S1x100000x128
  slices_S4x2048x8_S4x2048x1_0_0_5 : S4x2048x8.Slices ![0, 0, 5] S4x2048x1
  slices_S8x100000x128_S1x100000x128_6_0_0 : S8x100000x128.Slices ![6, 0, 0] S1x100000x128
  slices_S4x2048x8_S4x2048x1_0_0_6 : S4x2048x8.Slices ![0, 0, 6] S4x2048x1
  slices_S8x100000x128_S1x100000x128_7_0_0 : S8x100000x128.Slices ![7, 0, 0] S1x100000x128
  slices_S4x2048x8_S4x2048x1_0_0_7 : S4x2048x8.Slices ![0, 0, 7] S4x2048x1
  concatenates_S4x2048x128_S4x2048x128_S4x2048x128_S4x2048x128_S4x2048x128_S4x2048x128_S4x2048x128_S4x2048x128_S4x2048x1024_d2 : Shape.Concatenates [S4x2048x128, S4x2048x128, S4x2048x128, S4x2048x128, S4x2048x128, S4x2048x128, S4x2048x128, S4x2048x128] S4x2048x1024 2
  gather_S100000x128_S4x2048x1_S4x2048x128_2_0_n_n_0_2_1128_wf : GatherDims.WF S100000x128 S4x2048x1 S4x2048x128 [2] [0] [] [0] [] 2 ![1, 128]

variable [Facts₀]

def gather_S100000x128_S4x2048x1_S4x2048x128_2_0_n_n_0_2_1128 : GatherDims S100000x128 S4x2048x1 S4x2048x128 where
  offsetDims := [2]
  collapsedSliceDims := [0]
  operandBatchingDims := []
  startIndicesBatchingDims := []
  startIndexMap := [0]
  indexVectorDim := 2
  sliceSizes := ![1, 128]
  wf := gather_S100000x128_S4x2048x1_S4x2048x128_2_0_n_n_0_2_1128_wf

class Facts : Prop extends Facts₀ where

variable [Facts]
-- ==== Proof.Setup.lean ====
/-
  The embedding-table lookup on the SparseCores: what the launch theorem is applied to. The program's
  thirty-two vector subcores (two SparseCores of sixteen tiles) each copy sixteen rows of the re-laid
  index array into tile memory, build sixteen lists of 128 row numbers of the stacked table, and move
  the listed rows through six staging buffers into their own 2048 rows of the result.
  Here: the names the launch theorem takes (the call table, the body table, the ghost state — the
  handshakes' rounds beside the transfers' counters), generic in the float instance.
-/
import proofs.«204676_g22814866277092_cont_8to1_1488_17_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204676_g22814866277092_cont_8to1_1488_17_alg».proof.Proof.Gen.KernelIdeal
import proofs.«204676_g22814866277092_cont_8to1_1488_17_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

abbrev EH : Emb UH (MT nD τ sig (HIx 1) (Elt F) ℕ UU ℕ) := embL

end Cert.Proof.KI

end
-- ==== Proof.Spec.lean ====
/-
  The lookup as one function of the two argument arrays. Eight embedding tables of 100000 rows of 128
  numbers are stacked in `tables : [8, 100000, 128]`; `x : [4, 2048, 8]` holds, per batch entry `b` and
  position `s`, one row number for each table. The result `[4, 2048, 1024]` concatenates the eight looked-up
  rows along the last axis: entry `(b, s, j)` is column `j % 128` of row `x[b, s, j / 128]` of table `j / 128`.
  A row number is read modulo 100000, which changes nothing where `0 ≤ x < 100000` (the precondition).
-/
import Idealize.ShloMosaic.PureOps
import Idealize.ShloMosaic.Lib.ValueIdx

noncomputable section

namespace Cert.Proof.Spec

open Idealize.ShloMosaic Idealize.ShloMosaic.ValueIdx

abbrev SX : Shape := ⟨3, ![4, 2048, 8]⟩
abbrev STb : Shape := ⟨3, ![8, 100000, 128]⟩
abbrev SRes : Shape := ⟨3, ![4, 2048, 1024]⟩

/-- Which table column `j` of the result comes from. -/
def tblOf (j : Fin 1024) : Fin 8 := ⟨j.val / 128, by have := j.isLt; omega⟩
/-- Which column of that table's row. -/
def colOf (j : Fin 1024) : Fin 128 := ⟨j.val % 128, Nat.mod_lt _ (by decide)⟩
/-- A word as a row number of a table. -/
def rowOf (w : BitVec 32) : Fin 100000 := ⟨w.toNat % 100000, Nat.mod_lt _ (by decide)⟩

/-- The result at batch entry `b`, position `s`, column `j`. -/
def gAt {F : FTy → Type} (x : IVec SX 32) (tb : FVec F STb .f32) (b : Fin 4) (s : Fin 2048) (j : Fin 1024) : F .f32 :=
  tb (ix3 (tblOf j) (rowOf (x (ix3 b s (tblOf j)))) (colOf j))

/-- The whole result array. -/
def G {F : FTy → Type} (x : IVec SX 32) (tb : FVec F STb .f32) : FVec F SRes .f32 :=
  fun i => gAt x tb (i 0) (i 1) (i 2)

theorem G_ix3 {F : FTy → Type} (x : IVec SX 32) (tb : FVec F STb .f32) (b : Fin 4) (s : Fin 2048) (j : Fin 1024) :
    G x tb (ix3 b s j) = gAt x tb b s j := rfl

end Cert.Proof.Spec

end
-- ==== Proof.KSpec.lean ====
/-
  The kernel side of the lookup as functions of arrays, index by index.
  The program re-lays `x : [4, 2048, 8]` as `xv : [4, 128, 128]` with `xv[b, 8·jb + t, l] = x[b, 128·jb + l, t]`
  (`xvOf`), stacks the eight tables as `[800000, 128]` with row `100000·t + r` the row `r` of table `t` (`tbOf`), and
  each of the 32 vector subcores writes 2048 rows of `out : [65536, 128]`: row `R` is the row of the stacked table whose
  number is the word `idxWord xv R` — an entry of `xv` plus `100000·t` —, where, with `w = R / 2048` the subcore's number,
  `g = (R % 2048) / 16` the group of sixteen rows and `ℓ = R % 16` the lane, the table is `t = 2·(g % 4) + ℓ / 8` and the entry is
  `xv[w / 8, 16·(w % 8) + t + 8·(g / 64), ℓ % 8 + 8·((g / 4) % 16)]`. The result is `out` re-laid (`resOf`): entry `(b, s, j)` is
  column `j % 128` of row `64·q + 8·(j / 128) + s % 8` with `q = (2048·b + s) / 8`.
-/
import proofs.«204676_g22814866277092_cont_8to1_1488_17_alg».proof.Proof.Spec

noncomputable section

namespace Cert.Proof.KSpec

open Idealize.ShloMosaic Idealize.ShloMosaic.ValueIdx Cert.Proof.Spec

abbrev SXV : Shape := ⟨3, ![4, 128, 128]⟩
abbrev STB2 : Shape := ⟨2, ![800000, 128]⟩
abbrev SOut : Shape := ⟨2, ![65536, 128]⟩

/-- The subcore number of output row `R`. -/
def widOf (R : Fin 65536) : Nat := R.val / 2048
/-- The group of sixteen rows, within the subcore's 2048. -/
def grpOf (R : Fin 65536) : Nat := (R.val % 2048) / 16
/-- The lane within the group. -/
def laneOf (R : Fin 65536) : Nat := R.val % 16
/-- The table the row comes from. -/
def tOf (R : Fin 65536) : Nat := 2 * (grpOf R % 4) + laneOf R / 8

theorem widOf_lt (R : Fin 65536) : widOf R < 32 := by unfold widOf; have := R.isLt; omega
theorem grpOf_lt (R : Fin 65536) : grpOf R < 128 := by unfold grpOf; omega
theorem laneOf_lt (R : Fin 65536) : laneOf R < 16 := by unfold laneOf; omega
theorem tOf_lt (R : Fin 65536) : tOf R < 8 := by unfold tOf; have := laneOf_lt R; omega

def xvB (R : Fin 65536) : Fin 4 := ⟨widOf R / 8, by have := widOf_lt R; omega⟩
def xvR (R : Fin 65536) : Fin 128 := ⟨(widOf R % 8) * 16 + (tOf R + 8 * (grpOf R / 64)), by have := tOf_lt R; have := grpOf_lt R; omega⟩
def xvL (R : Fin 65536) : Fin 128 := ⟨laneOf R % 8 + ((grpOf R / 4) % 16) * 8, by omega⟩

/-- The word the subcore writes into its list for output row `R`. -/
def idxWord (XV : IVec SXV 32) (R : Fin 65536) : BitVec 32 :=
  XV (ix3 (xvB R) (xvR R) (xvL R)) + BitVec.ofNat 32 (tOf R * 100000)

/-- The kernel's output array as a function of the re-laid index array and the stacked table. -/
def outOf {F : FTy → Type} (XV : IVec SXV 32) (TB : FVec F STB2 .f32) : FVec F SOut .f32 :=
  fun i => TB (ix2 (⟨(idxWord XV (i 0)).toNat % 800000, Nat.mod_lt _ (by decide)⟩ : Fin 800000) (i 1))

/-- `x` re-laid by the host operations before the call. -/
def xvOf (x : IVec SX 32) : IVec SXV 32 :=
  fun i => x (ix3 (i 0) (⟨((i 1).val / 8) * 128 + (i 2).val, by have := (i 1).isLt; have := (i 2).isLt; simp at *; omega⟩ : Fin 2048)
    (⟨(i 1).val % 8, Nat.mod_lt _ (by decide)⟩ : Fin 8))

/-- The eight tables stacked. -/
def tbOf {F : FTy → Type} (tb : FVec F STb .f32) : FVec F STB2 .f32 :=
  fun i => tb (ix3 (⟨(i 0).val / 100000, by have := (i 0).isLt; simp at *; omega⟩ : Fin 8)
    (⟨(i 0).val % 100000, Nat.mod_lt _ (by decide)⟩ : Fin 100000) (i 1))

/-- The output row that entry `(b, s, j)` of the result reads. -/
def resRow (b : Fin 4) (s : Fin 2048) (j : Fin 1024) : Fin 65536 :=
  ⟨(((b.val * 2048 + s.val) / 8) * 8 + j.val / 128) * 8 + s.val % 8, by have := b.isLt; have := s.isLt; have := j.isLt; omega⟩

/-- The output array re-laid by the host operations after the call. -/
def resOf {F : FTy → Type} (out : FVec F SOut .f32) : FVec F SRes .f32 :=
  fun i => out (ix2 (resRow (i 0) (i 1) (i 2)) (colOf (i 2)))

end Cert.Proof.KSpec

end
-- ==== Proof.TileIface.lean ====
/-
  What one vector subcore is handed and hands back. The subcore at SparseCore `L 0`, tile `L 1` has number
  `w = 2·(L 1) + (L 0)` and owns rows `[2048·w, 2048·(w + 1))` of the output array, as sixteen blocks of 128 rows:
  block `k` is block `16·w + k` of the 512 blocks of 128 rows the array divides into. It reads the re-laid index array
  and the stacked table through read shares. It hands its blocks back holding the lookup's rows (`KSpec.outOf`).
-/
import proofs.«204676_g22814866277092_cont_8to1_1488_17_alg».proof.Proof.Setup
import proofs.«204676_g22814866277092_cont_8to1_1488_17_alg».proof.Proof.KSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S4x128x128 EltTy.i32)
local notation "tV" => (Memref.whole Cert.KernelIdeal.main_v4_scv : Memref Cert.KernelIdeal.sig Kind.scVector Space.hbm Cert.KernelIdeal.S800000x128 EltTy.f32)
local notation "oV" => (Memref.whole Cert.KernelIdeal.main_v5_scv : Memref Cert.KernelIdeal.sig Kind.scVector Space.hbm Cert.KernelIdeal.S65536x128 EltTy.f32)
local notation "q0" => (Memref.whole Cert.KernelIdeal.cc0_scratch0 : Memref Cert.KernelIdeal.sig Kind.scVector Space.vmem Cert.KernelIdeal.S16x128 EltTy.i32)
local notation "q1" => (Memref.whole Cert.KernelIdeal.cc0_scratch1 : Memref Cert.KernelIdeal.sig Kind.scVector Space.vmem Cert.KernelIdeal.S16x128 EltTy.i32)
local notation "q2" => (Memref.whole Cert.KernelIdeal.cc0_scratch2 : Memref Cert.KernelIdeal.sig Kind.scVector Space.vmem Cert.KernelIdeal.S128x128 EltTy.f32)
local notation "q3" => (Memref.whole Cert.KernelIdeal.cc0_scratch3 : Memref Cert.KernelIdeal.sig Kind.scVector Space.vmem Cert.KernelIdeal.S128x128 EltTy.f32)
local notation "q4" => (Memref.whole Cert.KernelIdeal.cc0_scratch4 : Memref Cert.KernelIdeal.sig Kind.scVector Space.vmem Cert.KernelIdeal.S128x128 EltTy.f32)
local notation "q5" => (Memref.whole Cert.KernelIdeal.cc0_scratch5 : Memref Cert.KernelIdeal.sig Kind.scVector Space.vmem Cert.KernelIdeal.S128x128 EltTy.f32)
local notation "q6" => (Memref.whole Cert.KernelIdeal.cc0_scratch6 : Memref Cert.KernelIdeal.sig Kind.scVector Space.vmem Cert.KernelIdeal.S128x128 EltTy.f32)
local notation "q7" => (Memref.whole Cert.KernelIdeal.cc0_scratch7 : Memref Cert.KernelIdeal.sig Kind.scVector Space.vmem Cert.KernelIdeal.S128x128 EltTy.f32)

abbrev xLoc (d : Dev nD) : Loc nD τ sig := (SparseCore.T d).loc main_v3
abbrev tLoc (d : Dev nD) : Loc nD τ sig := (SparseCore.T d).loc main_v4
abbrev oLoc (d : Dev nD) : Loc nD τ sig := (SparseCore.T d).loc main_v5

abbrev cV (L : grid0.Coords) : Fin τ.nSC := (L 0).castLE hcore0
abbrev jV (L : grid0.Coords) : Fin τ.nSub := (L 1).castLE hsub0

/-- The output array's 65536 rows are 512 blocks of 128. -/
theorem odiv : 512 ∣ S65536x128.size 0 := ⟨128, rfl⟩
abbrev oRect (i : Fin 512) : Rect S65536x128 := Rect.part (s := S65536x128) (a₀ := 0) odiv i
/-- Block `i` of the output array, as a set of its indices. -/
abbrev oPart (i : Fin 512) : Finset S65536x128.Idx := ((oV).view.slice (oRect i)).set

/-- Block `k` of the subcore at `L`. -/
def chunkIx (L : grid0.Coords) (k : Fin 16) : Fin 512 :=
  ⟨(2 * (L 1).val + (L 0).val) * 16 + k.val, by
    have h0 : (L 0).val < 2 := (L 0).isLt
    have h1 : (L 1).val < 16 := (L 1).isLt
    have := k.isLt; omega⟩

/-- What the subcore at `L` holds of the three arrays: read shares of the index array at `XV` and of the table at `TB`,
    its sixteen output blocks at `fo`. -/
def held (d : Dev nD) (L : grid0.Coords) (qx qt : PosShare TreeShare) (XV : Buf (Elt F) (xLoc d)) (TB : Buf (Elt F) (tLoc d))
    (fo : Buf (Elt F) (oLoc d)) : sProp 𝕄 :=
  iprop((xLoc d ↦{qx} XV) ∗ (tLoc d ↦{qt} TB) ∗ bigSep Finset.univ fun k : Fin 16 => (oLoc d ↦[oPart (chunkIx L k)]{fullShare} fo))

variable [FloatOps F]

/-- The subcore's task, stated: from the three arrays held as above, the index array's words all row numbers of a
    table, its own scratch and semaphores and what it owes the launch, the kernel's function at `L` ends holding the
    same with the output blocks at the lookup's rows. -/
def TileBody : Prop :=
  ∀ (hF : (K (F := F)).Facts) (d : Dev nD) (L : grid0.Coords) (O : CellTallies nD τ sig (HIx 1)) (W : Waits sig (HIx 1)) (hO : ∀ g, O g none = 0)
    (qx qt : PosShare TreeShare) (XV : Buf (Elt F) (xLoc d)) (TB : Buf (Elt F) (tLoc d)) (fo : Buf (Elt F) (oLoc d))
    (hx : ∀ j, (XV j).toNat < 100000),
    iprop(levAts (K (F := F)).L (K (F := F)).lev ∗ emp ∗ held d L qx qt XV TB fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) tV (Memref.isWhole_whole _) oV (Memref.isWhole_whole _)
            q0 (Memref.isWhole_whole _) q1 (Memref.isWhole_whole _) q2 (Memref.isWhole_whole _) q3 (Memref.isWhole_whole _)
            q4 (Memref.isWhole_whole _) q5 (Memref.isWhole_whole _) q6 (Memref.isWhole_whole _) q7 (Memref.isWhole_whole _)
            cc0_scratch8 cc0_scratch9 cc0_scratch10 cc0_scratch11 cc0_scratch12 cc0_scratch13 cc0_scratch14 cc0_scratch15
            cc0_scratch16 cc0_scratch17 cc0_scratch18 cc0_scratch19 cc0_scoped0)
          fun _ => iprop(held d L qx qt XV TB (Cert.Proof.KSpec.outOf XV TB)
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI

end
-- ==== Proof.HostTerms.lean ====
/-
  The host operations around the call, as functions of arrays: the index array re-laid before the call
  (a transpose, a reshape, a transpose, a reshape), the tables stacked (a reshape), and the output array
  re-laid after it (a reshape, a transpose, a reshape) — each the composite of the printed operations.
-/
import proofs.«204676_g22814866277092_cont_8to1_1488_17_alg».proof.Proof.Gen.KernelIdeal
import proofs.«204676_g22814866277092_cont_8to1_1488_17_alg».proof.Proof.KSpec

noncomputable section

namespace Cert.Proof.KI

open Cert.KernelIdeal Cert.KernelIdeal.Gen Idealize.ShloMosaic

/-- The index array as the call finds it. -/
def XVp (x : IVec S4x2048x8 32) : IVec S4x128x128 32 :=
  shapeCast S4x128x128
    (transpose S4x16x8x128 [0, 2, 1, 3]
      (shapeCast S4x8x16x128 (transpose S4x8x2048 [0, 2, 1] x transposes_S4x2048x8_S4x8x2048_0_2_1) shapeCasts_S4x8x2048_S4x8x16x128)
      transposes_S4x8x16x128_S4x16x8x128_0_2_1_3)
    shapeCasts_S4x16x8x128_S4x128x128

/-- The tables as the call finds them. -/
def TBp {F : FTy → Type} (tb : FVec F S8x100000x128 .f32) : FVec F S800000x128 .f32 :=
  shapeCast S800000x128 tb shapeCasts_S8x100000x128_S800000x128

/-- The result, of the output array the call leaves. -/
def RESp {F : FTy → Type} (out : FVec F S65536x128 .f32) : FVec F S4x2048x1024 .f32 :=
  shapeCast S4x2048x1024
    (transpose S1024x8x8x128 [0, 2, 1, 3] (shapeCast S1024x8x8x128 out shapeCasts_S65536x128_S1024x8x8x128)
      transposes_S1024x8x8x128_S1024x8x8x128_0_2_1_3)
    shapeCasts_S1024x8x8x128_S4x2048x1024

end Cert.Proof.KI

end
-- ==== Proof.Launch.lean ====
/-
  The launch of the lookup: from one vector subcore's task (`TileBody`) to the run of the whole program.
  The call's three arrays are dealt to the thirty-two tiles at once. The re-laid index array and the stacked table, which
  every tile reads whole, go out as one read token each of the full share, the remainder staying with the TensorCore across
  the call; the output array goes out as its 512 blocks of 128 rows, sixteen to a tile (tile `i` of SparseCore `c` is
  subcore `2·i + c` and owns blocks `16·(2·i + c) + k`). A SparseCore's holdings are its sixteen tiles', so the split per
  SparseCore is the identity. Every block comes back holding the one function `outOf XV TB`, so the blocks join to the
  output array whole at that function. Around the call @main re-lays the two arguments (five operations) and the output
  (three); the arguments themselves are only read, and the result is the composite `RESp (outOf (XVp x) (TBp tb))`.
-/
import proofs.«204676_g22814866277092_cont_8to1_1488_17_alg».proof.Proof.TileIface
import proofs.«204676_g22814866277092_cont_8to1_1488_17_alg».proof.Proof.HostTerms

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S4x128x128 EltTy.i32)
local notation "tV" => (Memref.whole Cert.KernelIdeal.main_v4_scv : Memref Cert.KernelIdeal.sig Kind.scVector Space.hbm Cert.KernelIdeal.S800000x128 EltTy.f32)
local notation "oV" => (Memref.whole Cert.KernelIdeal.main_v5_scv : Memref Cert.KernelIdeal.sig Kind.scVector Space.hbm Cert.KernelIdeal.S65536x128 EltTy.f32)
local notation "q0" => (Memref.whole Cert.KernelIdeal.cc0_scratch0 : Memref Cert.KernelIdeal.sig Kind.scVector Space.vmem Cert.KernelIdeal.S16x128 EltTy.i32)
local notation "q1" => (Memref.whole Cert.KernelIdeal.cc0_scratch1 : Memref Cert.KernelIdeal.sig Kind.scVector Space.vmem Cert.KernelIdeal.S16x128 EltTy.i32)
local notation "q2" => (Memref.whole Cert.KernelIdeal.cc0_scratch2 : Memref Cert.KernelIdeal.sig Kind.scVector Space.vmem Cert.KernelIdeal.S128x128 EltTy.f32)
local notation "q3" => (Memref.whole Cert.KernelIdeal.cc0_scratch3 : Memref Cert.KernelIdeal.sig Kind.scVector Space.vmem Cert.KernelIdeal.S128x128 EltTy.f32)
local notation "q4" => (Memref.whole Cert.KernelIdeal.cc0_scratch4 : Memref Cert.KernelIdeal.sig Kind.scVector Space.vmem Cert.KernelIdeal.S128x128 EltTy.f32)
local notation "q5" => (Memref.whole Cert.KernelIdeal.cc0_scratch5 : Memref Cert.KernelIdeal.sig Kind.scVector Space.vmem Cert.KernelIdeal.S128x128 EltTy.f32)
local notation "q6" => (Memref.whole Cert.KernelIdeal.cc0_scratch6 : Memref Cert.KernelIdeal.sig Kind.scVector Space.vmem Cert.KernelIdeal.S128x128 EltTy.f32)
local notation "q7" => (Memref.whole Cert.KernelIdeal.cc0_scratch7 : Memref Cert.KernelIdeal.sig Kind.scVector Space.vmem Cert.KernelIdeal.S128x128 EltTy.f32)

/-! ## The launch memory, the arrays the call finds, the tiles -/

section Launch

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev rLoc (d : Dev nD) : Loc nD τ sig := (SparseCore.T d).loc main_v8

/-- The index array and the table as the call finds them, and the output array it leaves. -/
abbrev XVm (d : Dev nD) : Buf (Elt F) (xLoc d) := XVp (m (a0Loc d))
abbrev TBm (d : Dev nD) : Buf (Elt F) (tLoc d) := TBp (m (a1Loc d))
abbrev OUTm (d : Dev nD) : Buf (Elt F) (oLoc d) := Cert.Proof.KSpec.outOf (XVm m d) (TBm m d)

theorem bound_zero : grid0.bound 0 = 2 := rfl
theorem bound_one : grid0.bound 1 = 16 := rfl

def coordsV (c : Fin (grid0.bound 0)) (s : Fin (grid0.bound 1)) : grid0.Coords :=
  fun | 0 => c | 1 => s | ⟨_ + 2, h⟩ => absurd h (Nat.not_lt.2 (Nat.le_add_left _ _))

/-- The coordinates of tile `i` of SparseCore `c`. -/
abbrev coords (c : Fin 2) (i : Fin 16) : grid0.Coords := coordsV (Fin.cast bound_zero.symm c) (Fin.cast bound_one.symm i)

/-- Its number among the thirty-two subcores. -/
def tileIx (c : Fin 2) (i : Fin 16) : Fin 32 := ⟨2 * i.val + c.val, by omega⟩

/-- Its read share of the index array and of the table: the full share's read token of its number. -/
abbrev tq (c : Fin 2) (i : Fin 16) : PosShare TreeShare := Transfers.shareTok fullShare 32 (tileIx c i)

/-- What tile `i` of SparseCore `c` holds, its output blocks at `fo`. -/
abbrev tileHeld (d : Dev nD) (c : Fin 2) (i : Fin 16) (fo : Buf (Elt F) (oLoc d)) : sProp 𝕄 :=
  held d (coords c i) (tq c i) (tq c i) (XVm m d) (TBm m d) fo

variable [FloatOps F]

/-! ## What the handshakes carry -/

/-- The call hands each SparseCore its sixteen tiles' holdings, each tile its own; they come back with the output
    blocks at the lookup's rows. -/
def P : (K (F := F)).Pay (nD := nD) (Val := Elt F) (Name := ℕ) (U := UU) where
  st := fun q d c => match q with | 0 => bigSep Finset.univ fun i : Fin 16 => tileHeld m d (Fin.cast nCore_zero c) i (m (oLoc d))
  dn := fun q d c => match q with | 0 => bigSep Finset.univ fun i : Fin 16 => tileHeld m d (Fin.cast nCore_zero c) i (OUTm m d)
  go := fun q d c i => match q with | 0 => tileHeld m d (Fin.cast nCore_zero c) (Fin.cast nSub_zero i) (m (oLoc d))
  td := fun q d c i => match q with | 0 => tileHeld m d (Fin.cast nCore_zero c) (Fin.cast nSub_zero i) (OUTm m d)
  x := fun _ _ => iprop(emp)

omit [FloatOps F] in
instance held_storable (d : Dev nD) (L : grid0.Coords) (qx qt : PosShare TreeShare) (XV : Buf (Elt F) (xLoc d)) (TB : Buf (Elt F) (tLoc d))
    (fo : Buf (Elt F) (oLoc d)) : BI.Storable (upEmb : UEmb _ 𝕄) (held d L qx qt XV TB fo) := by
  unfold held; infer_instance

instance P_storable : (P (F := F) m).IsStorable where
  st q d c := match q with
    | 0 => (inferInstance : BI.Storable (upEmb : UEmb _ 𝕄) (bigSep Finset.univ fun i : Fin 16 => tileHeld m d (Fin.cast nCore_zero c) i (m (oLoc d))))
  dn q d c := match q with
    | 0 => (inferInstance : BI.Storable (upEmb : UEmb _ 𝕄) (bigSep Finset.univ fun i : Fin 16 => tileHeld m d (Fin.cast nCore_zero c) i (OUTm m d)))
  go q d c i := match q with
    | 0 => (inferInstance : BI.Storable (upEmb : UEmb _ 𝕄) (tileHeld m d (Fin.cast nCore_zero c) (Fin.cast nSub_zero i) (m (oLoc d))))
  td q d c i := match q with
    | 0 => (inferInstance : BI.Storable (upEmb : UEmb _ 𝕄) (tileHeld m d (Fin.cast nCore_zero c) (Fin.cast nSub_zero i) (OUTm m d)))

/-! ## The obligation: one subcore's task, as the launch asks it -/

theorem defs₀_vector (c : Fin τ.nSC) (s : Fin τ.nSub) :
    defs₀ (F := F) (.scVector c s) 0 ()
      = SparseCore.onTile hcore0 hsub0 (fun c s => cc0_k (coordsV c s)
          xV (Memref.isWhole_whole _) tV (Memref.isWhole_whole _) oV (Memref.isWhole_whole _)
          q0 (Memref.isWhole_whole _) q1 (Memref.isWhole_whole _) q2 (Memref.isWhole_whole _) q3 (Memref.isWhole_whole _)
          q4 (Memref.isWhole_whole _) q5 (Memref.isWhole_whole _) q6 (Memref.isWhole_whole _) q7 (Memref.isWhole_whole _)
          cc0_scratch8 cc0_scratch9 cc0_scratch10 cc0_scratch11 cc0_scratch12 cc0_scratch13 cc0_scratch14 cc0_scratch15
          cc0_scratch16 cc0_scratch17 cc0_scratch18 cc0_scratch19 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hbody : TileBody (F := F)) (hx : ∀ (d : Dev nD) j, (XVm m d j).toNat < 100000) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody facts d (coordsV ⟨_, hci.1⟩ ⟨_, hci.2⟩) O W hO (tq (Fin.cast nCore_zero c) (Fin.cast nSub_zero i)) (tq (Fin.cast nCore_zero c) (Fin.cast nSub_zero i))
    (XVm m d) (TBm m d) (m (oLoc d)) (hx d)).trans (wp_mono frame _ _ fun _ => obl_post)

/-! ## A SparseCore's holdings are its tiles' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => tileHeld m d (Fin.cast nCore_zero c) i (m (oLoc d))) ⊢ |={Set.univ}=> iprop(
      (bigSep Finset.univ fun i : Fin ((K (F := F)).nSub 0) => tileHeld m d (Fin.cast nCore_zero c) (Fin.cast nSub_zero i) (m (oLoc d)))
      ∗ ((bigSep Finset.univ fun i : Fin ((K (F := F)).nSub 0) => tileHeld m d (Fin.cast nCore_zero c) (Fin.cast nSub_zero i) (OUTm m d))
          -∗ bigSep Finset.univ fun i : Fin 16 => tileHeld m d (Fin.cast nCore_zero c) i (OUTm m d)))
  rw [bigSep_tasks (F := F) (fun i => tileHeld m d (Fin.cast nCore_zero c) i (m (oLoc d))),
    bigSep_tasks (F := F) (fun i => tileHeld m d (Fin.cast nCore_zero c) i (OUTm m d))]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The three arrays among the thirty-two tiles -/

/-- Tile `i` of SparseCore `c` is subcore `2·i + c`. -/
def tileEquiv : Fin 2 × Fin 16 ≃ Fin 32 where
  toFun p := tileIx p.1 p.2
  invFun j := (⟨j.val % 2, Nat.mod_lt _ (by decide)⟩, ⟨j.val / 2, by have := j.isLt; omega⟩)
  left_inv p := by
    obtain ⟨c, i⟩ := p
    have hc := c.isLt; have hi := i.isLt
    refine Prod.ext (Fin.ext ?_) (Fin.ext ?_)
    · show (2 * i.val + c.val) % 2 = c.val; omega
    · show (2 * i.val + c.val) / 2 = i.val; omega
  right_inv j := Fin.ext (by show 2 * (j.val / 2) + j.val % 2 = j.val; omega)

/-- Block `k` of that tile is block `16·(2·i + c) + k` of the 512. -/
def blockEquiv : Fin 2 × Fin 16 × Fin 16 ≃ Fin 512 where
  toFun p := chunkIx (coords p.1 p.2.1) p.2.2
  invFun j := (⟨(j.val / 16) % 2, Nat.mod_lt _ (by decide)⟩, ⟨j.val / 32, by have := j.isLt; omega⟩, ⟨j.val % 16, Nat.mod_lt _ (by decide)⟩)
  left_inv p := by
    obtain ⟨c, i, k⟩ := p
    have hc := c.isLt; have hi := i.isLt; have hk := k.isLt
    refine Prod.ext (Fin.ext ?_) (Prod.ext (Fin.ext ?_) (Fin.ext ?_))
    · show ((2 * i.val + c.val) * 16 + k.val) / 16 % 2 = c.val; omega
    · show ((2 * i.val + c.val) * 16 + k.val) / 32 = i.val; omega
    · show ((2 * i.val + c.val) * 16 + k.val) % 16 = k.val; omega
  right_inv j := Fin.ext (by show (2 * (j.val / 32) + j.val / 16 % 2) * 16 + j.val % 16 = j.val; omega)

omit [FloatOps F] in
theorem bigSep32 (Φ : Fin 32 → sProp 𝕄) :
    bigSep Finset.univ Φ = bigSep Finset.univ fun c : Fin 2 => bigSep Finset.univ fun i : Fin 16 => Φ (tileIx c i) := by
  rw [bigSep_univ_equiv tileEquiv Φ, bigSep_univ_prod]; rfl

omit [FloatOps F] in
theorem bigSep512 (Φ : Fin 512 → sProp 𝕄) :
    bigSep Finset.univ Φ = bigSep Finset.univ fun c : Fin 2 => bigSep Finset.univ fun i : Fin 16 => bigSep Finset.univ fun k : Fin 16 =>
      Φ (chunkIx (coords c i) k) := by
  rw [bigSep_univ_equiv blockEquiv Φ, bigSep_univ_prod]
  refine bigSep_congr fun c _ => ?_
  rw [bigSep_univ_prod]; rfl

omit [FloatOps F] in
theorem oPart_eq (j : Fin 512) : oPart j = (oRect j).set := by
  show ((View.whole (main_v5_scv : Ref sig .scVector)).slice (oRect j)).set = _
  rw [View.set_slice]; exact Finset.map_refl
omit [FloatOps F] in
theorem oParts_disjoint : ∀ i ∈ (Finset.univ : Finset (Fin 512)), ∀ j ∈ (Finset.univ : Finset (Fin 512)), i ≠ j → Disjoint (oPart i) (oPart j) :=
  fun i _ j _ h => by rw [oPart_eq, oPart_eq]; exact Rect.part_disjoint odiv h
omit [FloatOps F] in
theorem oParts_cover : (Finset.univ : Finset (Fin 512)).biUnion oPart = Finset.univ :=
  (Finset.biUnion_congr rfl fun i _ => oPart_eq i).trans (Rect.biUnion_part odiv)

omit [FloatOps F] in
/-- The output array whole is its 512 blocks, at one contents. -/
theorem oPts_blocks (d : Dev nD) (f : Buf (Elt F) (oLoc d)) :
    (oLoc d ↦{fullShare} f : sProp 𝕄) = bigSep Finset.univ fun j : Fin 512 => oLoc d ↦[oPart j]{fullShare} f := by
  rw [← pointsTo_biUnion Finset.univ (ℓ := oLoc d) oPart oParts_disjoint, oParts_cover]; try rfl

omit [FloatOps F] in
/-- All the tiles' holdings: one read token each of the index array and of the table, and the output array whole. -/
theorem tiles_eq (d : Dev nD) (XV : Buf (Elt F) (xLoc d)) (TB : Buf (Elt F) (tLoc d)) (fo : Buf (Elt F) (oLoc d)) :
    (bigSep Finset.univ fun c : Fin 2 => bigSep Finset.univ fun i : Fin 16 => held d (coords c i) (tq c i) (tq c i) XV TB fo : sProp 𝕄)
      = iprop((bigSep Finset.univ fun j : Fin 32 => xLoc d ↦{Transfers.shareTok fullShare 32 j} XV)
          ∗ (bigSep Finset.univ fun j : Fin 32 => tLoc d ↦{Transfers.shareTok fullShare 32 j} TB)
          ∗ (oLoc d ↦{fullShare} fo)) := by
  rw [oPts_blocks, bigSep512, bigSep32 (fun j => (xLoc d ↦{Transfers.shareTok fullShare 32 j} XV : sProp 𝕄)),
    bigSep32 (fun j => (tLoc d ↦{Transfers.shareTok fullShare 32 j} TB : sProp 𝕄)), ← bigSep_sep', ← bigSep_sep']
  refine bigSep_congr fun c _ => ?_
  rw [← bigSep_sep', ← bigSep_sep']
  rfl

omit [FloatOps F] in
theorem tiles_split (d : Dev nD) (XV : Buf (Elt F) (xLoc d)) (TB : Buf (Elt F) (tLoc d)) (fo : Buf (Elt F) (oLoc d)) :
    iprop((xLoc d ↦{fullShare} XV) ∗ (tLoc d ↦{fullShare} TB) ∗ (oLoc d ↦{fullShare} fo))
      ⊢ (iprop((xLoc d ↦{Transfers.shareDrop fullShare 32} XV) ∗ (tLoc d ↦{Transfers.shareDrop fullShare 32} TB)
          ∗ bigSep Finset.univ fun c : Fin 2 => bigSep Finset.univ fun i : Fin 16 => held d (coords c i) (tq c i) (tq c i) XV TB fo) : sProp 𝕄) := by
  rw [tiles_eq]
  iintro ⟨Hx, Ht, Ho⟩
  ihave Hx' := (Transfers.pointsTo_toks_split (ℓ := xLoc d) (S := Finset.univ) (f := XV) fullShare 32) $$ Hx
  ihave Ht' := (Transfers.pointsTo_toks_split (ℓ := tLoc d) (S := Finset.univ) (f := TB) fullShare 32) $$ Ht
  icases Hx' with ⟨Hxr, Hxt⟩
  icases Ht' with ⟨Htr, Htt⟩
  isplitl [Hxr]; · iexact Hxr
  isplitl [Htr]; · iexact Htr
  isplitl [Hxt]; · iexact Hxt
  isplitl [Htt]; · iexact Htt
  iexact Ho

omit [FloatOps F] in
theorem tiles_join (d : Dev nD) (XV : Buf (Elt F) (xLoc d)) (TB : Buf (Elt F) (tLoc d)) (fo : Buf (Elt F) (oLoc d)) :
    (iprop((xLoc d ↦{Transfers.shareDrop fullShare 32} XV) ∗ (tLoc d ↦{Transfers.shareDrop fullShare 32} TB)
        ∗ bigSep Finset.univ fun c : Fin 2 => bigSep Finset.univ fun i : Fin 16 => held d (coords c i) (tq c i) (tq c i) XV TB fo) : sProp 𝕄)
      ⊢ iprop((xLoc d ↦{fullShare} XV) ∗ (tLoc d ↦{fullShare} TB) ∗ (oLoc d ↦{fullShare} fo)) := by
  rw [tiles_eq]
  iintro ⟨Hxr, Htr, Hxt, Htt, Ho⟩
  isplitl [Hxr Hxt]
  · iapply (Transfers.pointsTo_toks_join (ℓ := xLoc d) (S := Finset.univ) (f := XV) fullShare 32)
    isplitl [Hxr]; · iexact Hxr
    iexact Hxt
  isplitl [Htr Htt]
  · iapply (Transfers.pointsTo_toks_join (ℓ := tLoc d) (S := Finset.univ) (f := TB) fullShare 32)
    isplitl [Htr]; · iexact Htr
    iexact Htt
  iexact Ho

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)

/-- The TensorCore's arrays, all unscoped. -/
abbrev S11 : Finset (DevRef τ sig) := {a0', a1', v0', v1', v2', v3', v4', v5', v6', v7', v8'}

/-- The host operations, as @main prints them. -/
abbrev op0 : HloOp τ sig (Elt F) := StableHlo.unary main_arg0 main_v0 ((transpose S4x8x2048 [0, 2, 1] · transposes_S4x2048x8_S4x8x2048_0_2_1) : (⟨S4x2048x8, .i32⟩ : BufTy).Contents (Elt F) → (⟨S4x8x2048, .i32⟩ : BufTy).Contents (Elt F))
abbrev op1 : HloOp τ sig (Elt F) := StableHlo.reshape main_v0 main_v1 rfl shapeCasts_S4x8x2048_S4x8x16x128
abbrev op2 : HloOp τ sig (Elt F) := StableHlo.unary main_v1 main_v2 ((transpose S4x16x8x128 [0, 2, 1, 3] · transposes_S4x8x16x128_S4x16x8x128_0_2_1_3) : (⟨S4x8x16x128, .i32⟩ : BufTy).Contents (Elt F) → (⟨S4x16x8x128, .i32⟩ : BufTy).Contents (Elt F))
abbrev op3 : HloOp τ sig (Elt F) := StableHlo.reshape main_v2 main_v3 rfl shapeCasts_S4x16x8x128_S4x128x128
abbrev op4 : HloOp τ sig (Elt F) := StableHlo.reshape main_arg1 main_v4 rfl shapeCasts_S8x100000x128_S800000x128
abbrev op6 : HloOp τ sig (Elt F) := StableHlo.reshape main_v5 main_v6 rfl shapeCasts_S65536x128_S1024x8x8x128
abbrev op7 : HloOp τ sig (Elt F) := StableHlo.unary main_v6 main_v7 ((transpose S1024x8x8x128 [0, 2, 1, 3] · transposes_S1024x8x8x128_S1024x8x8x128_0_2_1_3) : (⟨S1024x8x8x128, .f32⟩ : BufTy).Contents (Elt F) → (⟨S1024x8x8x128, .f32⟩ : BufTy).Contents (Elt F))
abbrev op8 : HloOp τ sig (Elt F) := StableHlo.reshape main_v7 main_v8 rfl shapeCasts_S1024x8x8x128_S4x2048x1024

omit [FloatOps F] in
theorem h0 : (op0 (F := F)).bufs ⊆ S11 := show ({a0', v0'} : Finset (DevRef τ sig)) ⊆ S11 by decide
omit [FloatOps F] in
theorem h1 : (op1 (F := F)).bufs ⊆ S11 := show ({v0', v1'} : Finset (DevRef τ sig)) ⊆ S11 by decide
omit [FloatOps F] in
theorem h2 : (op2 (F := F)).bufs ⊆ S11 := show ({v1', v2'} : Finset (DevRef τ sig)) ⊆ S11 by decide
omit [FloatOps F] in
theorem h3 : (op3 (F := F)).bufs ⊆ S11 := show ({v2', v3'} : Finset (DevRef τ sig)) ⊆ S11 by decide
omit [FloatOps F] in
theorem h4 : (op4 (F := F)).bufs ⊆ S11 := show ({a1', v4'} : Finset (DevRef τ sig)) ⊆ S11 by decide
omit [FloatOps F] in
theorem h6 : (op6 (F := F)).bufs ⊆ S11 := show ({v5', v6'} : Finset (DevRef τ sig)) ⊆ S11 by decide
omit [FloatOps F] in
theorem h7 : (op7 (F := F)).bufs ⊆ S11 := show ({v6', v7'} : Finset (DevRef τ sig)) ⊆ S11 by decide
omit [FloatOps F] in
theorem h8 : (op8 (F := F)).bufs ⊆ S11 := show ({v7', v8'} : Finset (DevRef τ sig)) ⊆ S11 by decide

abbrev w0Loc (d : Dev nD) : Loc nD τ sig := (SparseCore.T d).loc main_v0
abbrev w1Loc (d : Dev nD) : Loc nD τ sig := (SparseCore.T d).loc main_v1
abbrev w2Loc (d : Dev nD) : Loc nD τ sig := (SparseCore.T d).loc main_v2
abbrev w6Loc (d : Dev nD) : Loc nD τ sig := (SparseCore.T d).loc main_v6
abbrev w7Loc (d : Dev nD) : Loc nD τ sig := (SparseCore.T d).loc main_v7

/-- The eleven arrays, each whole at given contents. -/
def pts11 (d : Dev nD) (f0 : Buf (Elt F) (a0Loc d)) (f1 : Buf (Elt F) (a1Loc d))
    (g0 : Buf (Elt F) (w0Loc d)) (g1 : Buf (Elt F) (w1Loc d)) (g2 : Buf (Elt F) (w2Loc d))
    (fx : Buf (Elt F) (xLoc d)) (ft : Buf (Elt F) (tLoc d)) (fo : Buf (Elt F) (oLoc d))
    (g6 : Buf (Elt F) (w6Loc d)) (g7 : Buf (Elt F) (w7Loc d)) (fr : Buf (Elt F) (rLoc d)) : sProp 𝕄 :=
  iprop((a0Loc d ↦{fullShare} f0) ∗ (a1Loc d ↦{fullShare} f1) ∗ (w0Loc d ↦{fullShare} g0) ∗ (w1Loc d ↦{fullShare} g1)
    ∗ (w2Loc d ↦{fullShare} g2) ∗ (xLoc d ↦{fullShare} fx) ∗ (tLoc d ↦{fullShare} ft) ∗ (oLoc d ↦{fullShare} fo)
    ∗ (w6Loc d ↦{fullShare} g6) ∗ (w7Loc d ↦{fullShare} g7) ∗ (rLoc d ↦{fullShare} fr))

omit [FloatOps F] in
theorem held_S11 (d : Dev nD) (W : Valuation τ sig (Elt F)) :
    (StableHlo.held (T d) S11 W : sProp 𝕄) = pts11 d (W a0') (W a1') (W v0') (W v1') (W v2') (W v3') (W v4') (W v5') (W v6') (W v7') (W v8') := by
  unfold StableHlo.held S11 pts11
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = pts11 d (W main_arg0) (W main_arg1) (W main_v0) (W main_v1) (W main_v2) (W main_v3) (W main_v4) (W main_v5) (W main_v6) (W main_v7) (W main_v8) := by
  unfold unscopedBufs pts11
  rw [show (Finset.univ.filter fun b : Ref sig .tc => ¬ b.isScoped) = {main_arg0, main_arg1, main_v0, main_v1, main_v2, main_v3, main_v4, main_v5, main_v6, main_v7, main_v8} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The launch valuation; the valuation the call finds; the one it leaves; the last. -/
def V0 (d : Dev nD) : Valuation τ sig (Elt F) := fun b => m (d, b)
def V5 (d : Dev nD) : Valuation τ sig (Elt F) :=
  (op4 (F := F)).result ((op3 (F := F)).result ((op2 (F := F)).result ((op1 (F := F)).result ((op0 (F := F)).result (V0 m d)))))
def V6 (d : Dev nD) : Valuation τ sig (Elt F) := Function.update (V5 m d) v5' (OUTm m d)
def V9 (d : Dev nD) : Valuation τ sig (Elt F) := (op8 (F := F)).result ((op7 (F := F)).result ((op6 (F := F)).result (V6 m d)))

omit [FloatOps F] in
theorem unscoped_held (d : Dev nD) : (unscopedBufs d (fun b => m ((SparseCore.T d).loc b)) : sProp 𝕄) = StableHlo.held (T d) S11 (V0 m d) := by
  rw [unscopedBufs_eq, held_S11]; rfl

omit [FloatOps F] in
theorem V5_a0 (d : Dev nD) : V5 m d a0' = m (a0Loc d) := by
  unfold V5
  simp (disch := decide) only [op0, op1, op2, op3, op4, StableHlo.reshape_result_ne', StableHlo.unary_result_ne']
  rfl
omit [FloatOps F] in
theorem V5_a1 (d : Dev nD) : V5 m d a1' = m (a1Loc d) := by
  unfold V5
  simp (disch := decide) only [op0, op1, op2, op3, op4, StableHlo.reshape_result_ne', StableHlo.unary_result_ne']
  rfl
omit [FloatOps F] in
theorem V5_x (d : Dev nD) : V5 m d v3' = XVm m d := by
  unfold V5
  simp (disch := decide) only [op0, op1, op2, op3, op4, StableHlo.reshape_result', StableHlo.unary_result', StableHlo.reshape_result_ne', StableHlo.unary_result_ne']
  rfl
omit [FloatOps F] in
theorem V5_t (d : Dev nD) : V5 m d v4' = TBm m d := by
  unfold V5
  simp (disch := decide) only [op0, op1, op2, op3, op4, StableHlo.reshape_result', StableHlo.unary_result', StableHlo.reshape_result_ne', StableHlo.unary_result_ne']
  rfl
omit [FloatOps F] in
theorem V5_o (d : Dev nD) : V5 m d v5' = m (oLoc d) := by
  unfold V5
  simp (disch := decide) only [op0, op1, op2, op3, op4, StableHlo.reshape_result_ne', StableHlo.unary_result_ne']
  rfl

omit [FloatOps F] in
theorem V6_ne (d : Dev nD) {b : DevRef τ sig} (h : b ≠ v5') : V6 m d b = V5 m d b := Function.update_of_ne h _ _
omit [FloatOps F] in
theorem V6_o (d : Dev nD) : V6 m d v5' = OUTm m d := Function.update_self _ _ _

omit [FloatOps F] in
theorem V9_a0 (d : Dev nD) : V9 m d a0' = m (a0Loc d) := by
  unfold V9
  simp (disch := decide) only [op6, op7, op8, StableHlo.reshape_result_ne', StableHlo.unary_result_ne']
  rw [V6_ne m d (by decide), V5_a0]
omit [FloatOps F] in
theorem V9_a1 (d : Dev nD) : V9 m d a1' = m (a1Loc d) := by
  unfold V9
  simp (disch := decide) only [op6, op7, op8, StableHlo.reshape_result_ne', StableHlo.unary_result_ne']
  rw [V6_ne m d (by decide), V5_a1]
omit [FloatOps F] in
theorem V9_r (d : Dev nD) : V9 m d v8' = RESp (OUTm m d) := by
  unfold V9
  simp (disch := decide) only [op6, op7, op8, StableHlo.reshape_result', StableHlo.unary_result', StableHlo.reshape_result_ne', StableHlo.unary_result_ne']
  rw [V6_o]
  rfl

omit [FloatOps F] in
theorem held_V5 (d : Dev nD) :
    (StableHlo.held (T d) S11 ((op4 (F := F)).result ((op3 (F := F)).result ((op2 (F := F)).result ((op1 (F := F)).result ((op0 (F := F)).result (V0 m d)))))) : sProp 𝕄)
      = pts11 d (V5 m d a0') (V5 m d a1') (V5 m d v0') (V5 m d v1') (V5 m d v2') (XVm m d) (TBm m d) (m (oLoc d)) (V5 m d v6') (V5 m d v7') (V5 m d v8') := by
  show (StableHlo.held (T d) S11 (V5 m d) : sProp 𝕄) = _
  rw [held_S11, V5_x, V5_t, V5_o]
omit [FloatOps F] in
theorem held_V6 (d : Dev nD) :
    (StableHlo.held (T d) S11 (V6 m d) : sProp 𝕄) = pts11 d (V5 m d a0') (V5 m d a1') (V5 m d v0') (V5 m d v1') (V5 m d v2') (XVm m d) (TBm m d) (OUTm m d)
      (V5 m d v6') (V5 m d v7') (V5 m d v8') := by
  rw [held_S11, V6_o, V6_ne m d (show a0' ≠ v5' by decide), V6_ne m d (show a1' ≠ v5' by decide), V6_ne m d (show v0' ≠ v5' by decide),
    V6_ne m d (show v1' ≠ v5' by decide), V6_ne m d (show v2' ≠ v5' by decide), V6_ne m d (show v3' ≠ v5' by decide), V6_ne m d (show v4' ≠ v5' by decide),
    V6_ne m d (show v6' ≠ v5' by decide), V6_ne m d (show v7' ≠ v5' by decide), V6_ne m d (show v8' ≠ v5' by decide), V5_x, V5_t]
omit [FloatOps F] in
theorem held_V9 (d : Dev nD) :
    (StableHlo.held (T d) S11 ((op8 (F := F)).result ((op7 (F := F)).result ((op6 (F := F)).result (V6 m d)))) : sProp 𝕄)
      = pts11 d (m (a0Loc d)) (m (a1Loc d)) (V9 m d v0') (V9 m d v1') (V9 m d v2') (V9 m d v3') (V9 m d v4') (V9 m d v5') (V9 m d v6') (V9 m d v7') (RESp (OUTm m d)) := by
  show (StableHlo.held (T d) S11 (V9 m d) : sProp 𝕄) = _
  rw [held_S11, V9_a0, V9_a1, V9_r]

/-- What the call takes for the two SparseCores, and what it hands back. -/
theorem st0_eq (d : Dev nD) : (bigSep Finset.univ fun c : Fin ((K (F := F)).nCore 0) => (P m).st 0 d c)
    = bigSep Finset.univ fun c : Fin 2 => bigSep Finset.univ fun i : Fin 16 => held d (coords c i) (tq c i) (tq c i) (XVm m d) (TBm m d) (m (oLoc d)) := by
  show (bigSep Finset.univ fun c : Fin 2 => bigSep Finset.univ fun i : Fin 16 => tileHeld m d (Fin.cast nCore_zero c) i (m (oLoc d))) = _
  exact bigSep_congr fun c _ => bigSep_congr fun i _ => by rw [show Fin.cast nCore_zero c = c from Fin.ext rfl]
theorem dn0_eq (d : Dev nD) : (bigSep Finset.univ fun c : Fin ((K (F := F)).nCore 0) => (P m).dn 0 d c)
    = bigSep Finset.univ fun c : Fin 2 => bigSep Finset.univ fun i : Fin 16 => held d (coords c i) (tq c i) (tq c i) (XVm m d) (TBm m d) (OUTm m d) := by
  show (bigSep Finset.univ fun c : Fin 2 => bigSep Finset.univ fun i : Fin 16 => tileHeld m d (Fin.cast nCore_zero c) i (OUTm m d)) = _
  exact bigSep_congr fun c _ => bigSep_congr fun i _ => by rw [show Fin.cast nCore_zero c = c from Fin.ext rfl]

/-- What @main leaves the claim: the two arguments at their launch contents, the result the output array re-laid. -/
abbrev FIN (d : Dev nD) : sProp 𝕄 :=
  iprop((a0Loc d ↦{fullShare} m (a0Loc d)) ∗ (a1Loc d ↦{fullShare} m (a1Loc d)) ∗ (rLoc d ↦{fullShare} RESp (OUTm m d)))

set_option maxRecDepth 16384 in
/-- @main on device `d`'s TensorCore: the five operations that re-lay the arguments, the call — the arrays dealt to the
    thirty-two tiles and gathered back, the output array at the lookup's rows —, the three that re-lay the output. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (StableHlo.wp_hlo_within 𝒱 (T d) none Set.univ (op := op0) (S := S11) h0 (V := V0 m d)) $$ [Hb Hheld]
  · isplitl [Hb] <;> iassumption
  iintro ⟨Hb, Hheld⟩
  rw [wp_ret]; imodintro
  iapply (StableHlo.wp_hlo_within 𝒱 (T d) none Set.univ (op := op1) (S := S11) h1 (V := (op0 (F := F)).result (V0 m d))) $$ [Hb Hheld]
  · isplitl [Hb] <;> iassumption
  iintro ⟨Hb, Hheld⟩
  rw [wp_ret]; imodintro
  iapply (StableHlo.wp_hlo_within 𝒱 (T d) none Set.univ (op := op2) (S := S11) h2 (V := (op1 (F := F)).result ((op0 (F := F)).result (V0 m d)))) $$ [Hb Hheld]
  · isplitl [Hb] <;> iassumption
  iintro ⟨Hb, Hheld⟩
  rw [wp_ret]; imodintro
  iapply (StableHlo.wp_hlo_within 𝒱 (T d) none Set.univ (op := op3) (S := S11) h3 (V := (op2 (F := F)).result ((op1 (F := F)).result ((op0 (F := F)).result (V0 m d))))) $$ [Hb Hheld]
  · isplitl [Hb] <;> iassumption
  iintro ⟨Hb, Hheld⟩
  rw [wp_ret]; imodintro
  iapply (StableHlo.wp_hlo_within 𝒱 (T d) none Set.univ (op := op4) (S := S11) h4 (V := (op3 (F := F)).result ((op2 (F := F)).result ((op1 (F := F)).result ((op0 (F := F)).result (V0 m d)))))) $$ [Hb Hheld]
  · isplitl [Hb] <;> iassumption
  iintro ⟨Hb, Hheld⟩
  rw [wp_ret]; imodintro
  -- the call
  ihave Hh := (Entails.of_eq (held_V5 m d)) $$ Hheld
  unfold pts11
  icases Hh with ⟨Ha0, Ha1, H0, H1, H2, Hx, Ht, Ho, H6, H7, H8⟩
  ihave Hs := (tiles_split d (XVm m d) (TBm m d) (m (oLoc d))) $$ [Hx Ht Ho]
  · isplitl [Hx]; · iexact Hx
    isplitl [Ht]; · iexact Ht
    iexact Ho
  icases Hs with ⟨Hxr, Htr, Htiles⟩
  iapply ((K (F := F)).wp_run (D (F := F)) 𝒱 (EH := EH) (P := P m) κ d 0) $$ [Hst Htiles Hb Ha0 Ha1 H0 H1 H2 H6 H7 H8 Hxr Htr]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  ihave Hj := (tiles_join d (XVm m d) (TBm m d) (OUTm m d)) $$ [Hxr Htr Hdn']
  · isplitl [Hxr]; · iexact Hxr
    isplitl [Htr]; · iexact Htr
    iexact Hdn'
  icases Hj with ⟨Hx, Ht, Ho⟩
  -- the three operations after it
  iapply (StableHlo.wp_hlo_within 𝒱 (T d) none Set.univ (op := op6) (S := S11) h6 (V := V6 m d)) $$ [Hb Ha0 Ha1 H0 H1 H2 Hx Ht Ho H6 H7 H8]
  · isplitl [Hb]; · iexact Hb
    rw [held_V6]; unfold pts11
    isplitl [Ha0]; · iexact Ha0
    isplitl [Ha1]; · iexact Ha1
    isplitl [H0]; · iexact H0
    isplitl [H1]; · iexact H1
    isplitl [H2]; · iexact H2
    isplitl [Hx]; · iexact Hx
    isplitl [Ht]; · iexact Ht
    isplitl [Ho]; · iexact Ho
    isplitl [H6]; · iexact H6
    isplitl [H7]; · iexact H7
    iexact H8
  iintro ⟨Hb, Hheld⟩
  rw [wp_ret]; imodintro
  iapply (StableHlo.wp_hlo_within 𝒱 (T d) none Set.univ (op := op7) (S := S11) h7 (V := (op6 (F := F)).result (V6 m d))) $$ [Hb Hheld]
  · isplitl [Hb] <;> iassumption
  iintro ⟨Hb, Hheld⟩
  rw [wp_ret]; imodintro
  iapply (StableHlo.wp_hlo_within 𝒱 (T d) none Set.univ (op := op8) (S := S11) h8 (V := (op7 (F := F)).result ((op6 (F := F)).result (V6 m d)))) $$ [Hb Hheld]
  · isplitl [Hb] <;> iassumption
  iintro ⟨Hb, Hheld⟩
  ihave Hh := (Entails.of_eq (held_V9 m d)) $$ Hheld
  unfold pts11
  icases Hh with ⟨Ha0, Ha1, -, -, -, -, -, -, -, -, Hr⟩
  rw [wp_ret]; imodintro; imodintro
  isplitl [Hst]; · iexact Hst
  isplitl [Ha0]; · iexact Ha0
  isplitl [Ha1]; · iexact Ha1
  iexact Hr

def fq (d : Dev nD) (s' : Phys nD τ sig (Elt F)) : Prop :=
  s'.mem.mem (a0Loc d) = m (a0Loc d) ∧ s'.mem.mem (a1Loc d) = m (a1Loc d) ∧ s'.mem.mem (rLoc d) = RESp (OUTm m d)

set_option maxRecDepth 16384 in
theorem hfin (d : Dev nD) (s' : Phys nD τ sig (Elt F)) : iprop(FIN m d ∗ SI s') ⊢ (⌜fq m d s'⌝ : sProp 𝕄) := by
  iintro ⟨⟨Ha0, Ha1, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h2, HSI, -⟩
  ihave H := (SI_pointsTo_agree (st := s') (ℓ := rLoc d) (I := Finset.univ) (q := fullShare) (f := RESp (OUTm m d))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

end Launch

/-! ## The program's run -/

variable [FloatOps F]

/-- The run of the whole program, from one subcore's task: every weakly fair execution terminates with the result array the
    lookup's rows re-laid and the two arguments unchanged. -/
theorem run_main [∀ e, Nonempty (Elt F e)] (hbody : TileBody (F := F)) (m : (ℓ : Loc nD τ sig) → Buf (Elt F) ℓ) (ρ : Dev nD → PrngReg)
    (hx : ∀ (d : Dev nD) j, (XVp (m ((SparseCore.T d).loc main_arg0)) j).toNat < 100000) :
    θ_run (Cert.KernelIdeal.defs (F := F)) (Cert.KernelIdeal.threads (F := F)) ⟨m, fun _ => 0, ρ⟩ (fun r => ∀ c : Dev nD,
      r.2.mem ((c.tc : Thread nD τ).loc main_v8) = RESp (Cert.Proof.KSpec.outOf (XVp (m ((c.tc : Thread nD τ).loc main_arg0))) (TBp (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => tileObl m hbody hx)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun _ h c => ⟨(h c).2.2, (h c).1, (h c).2.1⟩)

end Cert.Proof.KI

end
-- ==== Proof.HostValue.lean ====
/-
  The host operations around the call, read index by index: the re-laid index array, the stacked tables and the
  re-laid output array are the closed forms of the kernel-side description, and the kernel-side description composed
  is the lookup itself.
-/
import proofs.«204676_g22814866277092_cont_8to1_1488_17_alg».proof.Proof.HostTerms
import Idealize.ShloMosaic.Lib.Pipeline.Value

noncomputable section

namespace Cert.Proof.KI

open Cert.KernelIdeal Idealize.ShloMosaic Idealize.ShloMosaic.ValueIdx Cert.Proof.Spec Cert.Proof.KSpec

/-- The index array before the call: transposing `[4, 2048, 8]` to `[4, 8, 2048]`, splitting the last axis as
    `16 × 128`, exchanging the two middle axes and merging them reads, at `(b, r, l)`, the entry
    `(b, 128·(r / 8) + l, r % 8)` of `x`. -/
theorem XVp_eq (x : IVec S4x2048x8 32) : XVp x = xvOf x := by
  funext j
  obtain ⟨b, r, l, rfl⟩ : ∃ (b : Fin 4) (r : Fin 128) (l : Fin 128), j = ix3 b r l := ⟨j 0, j 1, j 2, eq_ix3 j⟩
  have hb := b.isLt
  have hr := r.isLt
  have hl := l.isLt
  unfold XVp
  -- merging the two middle axes: (b, r, l) of [4,128,128] is (b, r / 8, r % 8, l) of [4,16,8,128]
  refine (shapeCast_apply _ _ _
    (ix4 b (⟨r.val / 8, by omega⟩ : Fin 16) (⟨r.val % 8, by omega⟩ : Fin 8) l)
    (by rw [Shape.rowMajor_val_four, Shape.rowMajor_val_three]
        show ((b.val * 16 + r.val / 8) * 8 + r.val % 8) * 128 + l.val = (b.val * 128 + r.val) * 128 + l.val
        omega)).trans ?_
  -- exchanging the middle axes: (b, jb, t, l) of [4,16,8,128] is (b, t, jb, l) of [4,8,16,128]
  refine (transpose_apply _ _ _ _
    (ix4 b (⟨r.val % 8, by omega⟩ : Fin 8) (⟨r.val / 8, by omega⟩ : Fin 16) l)
    (fun a => match a with | ⟨0, _⟩ => rfl | ⟨1, _⟩ => rfl | ⟨2, _⟩ => rfl | ⟨3, _⟩ => rfl)).trans ?_
  -- splitting the last axis: (b, t, jb, l) of [4,8,16,128] is (b, t, 128·jb + l) of [4,8,2048]
  refine (shapeCast_apply _ _ _
    (ix3 b (⟨r.val % 8, by omega⟩ : Fin 8) (⟨(r.val / 8) * 128 + l.val, by omega⟩ : Fin 2048))
    (by rw [Shape.rowMajor_val_three, Shape.rowMajor_val_four]
        show (b.val * 8 + r.val % 8) * 2048 + ((r.val / 8) * 128 + l.val)
          = ((b.val * 8 + r.val % 8) * 16 + r.val / 8) * 128 + l.val
        omega)).trans ?_
  -- the first transpose: (b, t, s) of [4,8,2048] is (b, s, t) of x
  exact transpose_apply _ _ _ _
    (ix3 b (⟨(r.val / 8) * 128 + l.val, by omega⟩ : Fin 2048) (⟨r.val % 8, by omega⟩ : Fin 8))
    (fun a => match a with | ⟨0, _⟩ => rfl | ⟨1, _⟩ => rfl | ⟨2, _⟩ => rfl)

/-- The tables before the call: row `R` of the stack is row `R % 100000` of table `R / 100000`. -/
theorem TBp_eq {F : FTy → Type} (tb : FVec F S8x100000x128 .f32) : TBp tb = tbOf tb := by
  funext j
  obtain ⟨R, c, rfl⟩ : ∃ (R : Fin 800000) (c : Fin 128), j = ix2 R c := ⟨j 0, j 1, eq_ix2 j⟩
  have hR := R.isLt
  have hc := c.isLt
  unfold TBp
  exact shapeCast_apply _ _ _
    (ix3 (⟨R.val / 100000, by omega⟩ : Fin 8) (⟨R.val % 100000, by omega⟩ : Fin 100000) c)
    (by rw [Shape.rowMajor_val_three, Shape.rowMajor_val_two]
        show ((R.val / 100000) * 100000 + R.val % 100000) * 128 + c.val = R.val * 128 + c.val
        omega)

/-- The result after the call: splitting the output's rows as `1024 × 8 × 8`, exchanging the two inner factors and
    regrouping as `[4, 2048, 1024]` reads, at `(b, s, j)`, column `j % 128` of the row `resRow b s j`. -/
theorem RESp_eq {F : FTy → Type} (out : FVec F S65536x128 .f32) : RESp out = resOf out := by
  funext i
  obtain ⟨b, s, j, rfl⟩ : ∃ (b : Fin 4) (s : Fin 2048) (j : Fin 1024), i = ix3 b s j := ⟨i 0, i 1, i 2, eq_ix3 i⟩
  have hb := b.isLt
  have hs := s.isLt
  have hj := j.isLt
  unfold RESp
  -- regrouping: (b, s, j) of [4,2048,1024] is ((2048·b + s) / 8, s % 8, j / 128, j % 128) of [1024,8,8,128]
  refine (shapeCast_apply _ _ _
    (ix4 (⟨(b.val * 2048 + s.val) / 8, by omega⟩ : Fin 1024) (⟨s.val % 8, by omega⟩ : Fin 8)
      (⟨j.val / 128, by omega⟩ : Fin 8) (⟨j.val % 128, by omega⟩ : Fin 128))
    (by rw [Shape.rowMajor_val_four, Shape.rowMajor_val_three]
        show ((((b.val * 2048 + s.val) / 8) * 8 + s.val % 8) * 8 + j.val / 128) * 128 + j.val % 128
          = (b.val * 2048 + s.val) * 1024 + j.val
        omega)).trans ?_
  -- exchanging the inner factors
  refine (transpose_apply _ _ _ _
    (ix4 (⟨(b.val * 2048 + s.val) / 8, by omega⟩ : Fin 1024) (⟨j.val / 128, by omega⟩ : Fin 8)
      (⟨s.val % 8, by omega⟩ : Fin 8) (⟨j.val % 128, by omega⟩ : Fin 128))
    (fun a => match a with | ⟨0, _⟩ => rfl | ⟨1, _⟩ => rfl | ⟨2, _⟩ => rfl | ⟨3, _⟩ => rfl)).trans ?_
  -- splitting the rows: (q, a, c, col) of [1024,8,8,128] is row 64·q + 8·a + c of the output
  exact shapeCast_apply _ _ _ (ix2 (resRow b s j) (colOf j))
    (by rw [Shape.rowMajor_val_two, Shape.rowMajor_val_four]
        show ((((b.val * 2048 + s.val) / 8) * 8 + j.val / 128) * 8 + s.val % 8) * 128 + j.val % 128
          = ((((b.val * 2048 + s.val) / 8) * 8 + j.val / 128) * 8 + s.val % 8) * 128 + j.val % 128
        rfl)

/-- Re-laying keeps every entry a row number: each entry of the re-laid array is an entry of `x`. -/
theorem xv_range (x : IVec S4x2048x8 32) (hx : ∀ i, (x i).toNat < 100000) : ∀ j, (xvOf x j).toNat < 100000 :=
  fun _ => hx _

/-- The output row that result entry `(b, s, j)` reads, as a number: `64·(256·b + s / 8) + 8·(j / 128) + s % 8`. -/
theorem resRow_val (b : Fin 4) (s : Fin 2048) (j : Fin 1024) :
    (resRow b s j).val = 64 * (256 * b.val + s.val / 8) + 8 * (j.val / 128) + s.val % 8 := by
  have hb := b.isLt
  have hs := s.isLt
  have hj := j.isLt
  simp only [resRow]
  omega

/-- Its subcore: `(256·b + s / 8) / 32 = 8·b + (s / 8) / 32`. -/
theorem widOf_resRow (b : Fin 4) (s : Fin 2048) (j : Fin 1024) :
    widOf (resRow b s j) = 8 * b.val + (s.val / 8) / 32 := by
  have hb := b.isLt
  have hs := s.isLt
  have hj := j.isLt
  unfold widOf
  rw [resRow_val]
  omega

/-- Its group of sixteen rows within the subcore's 2048: `4·((s / 8) % 32) + (j / 128) / 2`. -/
theorem grpOf_resRow (b : Fin 4) (s : Fin 2048) (j : Fin 1024) :
    grpOf (resRow b s j) = 4 * ((s.val / 8) % 32) + (j.val / 128) / 2 := by
  have hb := b.isLt
  have hs := s.isLt
  have hj := j.isLt
  unfold grpOf
  rw [resRow_val]
  omega

/-- Its lane: `8·((j / 128) % 2) + s % 8`. -/
theorem laneOf_resRow (b : Fin 4) (s : Fin 2048) (j : Fin 1024) :
    laneOf (resRow b s j) = 8 * ((j.val / 128) % 2) + s.val % 8 := by
  have hb := b.isLt
  have hs := s.isLt
  have hj := j.isLt
  unfold laneOf
  rw [resRow_val]
  omega

/-- Its table: `2·((j / 128) / 2) + (j / 128) % 2 = j / 128`. -/
theorem tOf_resRow (b : Fin 4) (s : Fin 2048) (j : Fin 1024) : tOf (resRow b s j) = j.val / 128 := by
  have hj := j.isLt
  unfold tOf
  rw [grpOf_resRow, laneOf_resRow]
  omega

/-- The entry of the re-laid index array that output row `resRow b s j` uses is `x[b, s, j / 128]`: with
    `u = s / 8`, its row is `r = 16·(u / 32) + j / 128 + 8·((u % 32) / 16)` and its lane `l = s % 8 + 8·(u % 16)`, so
    `r % 8 = j / 128` and `128·(r / 8) + l = 8·u + s % 8 = s`. -/
theorem xvOf_resRow (x : IVec S4x2048x8 32) (b : Fin 4) (s : Fin 2048) (j : Fin 1024) :
    xvOf x (ix3 (xvB (resRow b s j)) (xvR (resRow b s j)) (xvL (resRow b s j))) = x (ix3 b s (tblOf j)) := by
  have hb := b.isLt
  have hs := s.isLt
  have hj := j.isLt
  have hB : (xvB (resRow b s j)).val = b.val := by
    simp only [xvB]
    rw [widOf_resRow]
    omega
  have hR : (xvR (resRow b s j)).val = 16 * ((s.val / 8) / 32) + (j.val / 128 + 8 * (((s.val / 8) % 32) / 16)) := by
    simp only [xvR]
    rw [widOf_resRow, tOf_resRow, grpOf_resRow]
    omega
  have hL : (xvL (resRow b s j)).val = s.val % 8 + 8 * ((s.val / 8) % 16) := by
    simp only [xvL]
    rw [laneOf_resRow, grpOf_resRow]
    omega
  refine congrArg x (funext fun a => ?_)
  match a with
  | ⟨0, _⟩ => exact Fin.ext hB
  | ⟨1, _⟩ =>
    refine Fin.ext ?_
    show ((xvR (resRow b s j)).val / 8) * 128 + (xvL (resRow b s j)).val = s.val
    rw [hR, hL]
    omega
  | ⟨2, _⟩ =>
    refine Fin.ext ?_
    show (xvR (resRow b s j)).val % 8 = j.val / 128
    rw [hR]
    omega

/-- The word written for output row `resRow b s j` is `x[b, s, j / 128] + 100000·(j / 128)`, and the sum does not wrap. -/
theorem idxWord_resRow (x : IVec S4x2048x8 32) (hx : ∀ i, (x i).toNat < 100000) (b : Fin 4) (s : Fin 2048) (j : Fin 1024) :
    (idxWord (xvOf x) (resRow b s j)).toNat = (x (ix3 b s (tblOf j))).toNat + (j.val / 128) * 100000 := by
  have hj := j.isLt
  have h := hx (ix3 b s (tblOf j))
  unfold idxWord
  rw [xvOf_resRow, tOf_resRow, BitVec.toNat_add, BitVec.toNat_ofNat]
  omega

/-- The kernel-side description composed is the lookup. -/
theorem bridge {F : FTy → Type} (x : IVec S4x2048x8 32) (tb : FVec F S8x100000x128 .f32)
    (hx : ∀ i, (x i).toNat < 100000) : resOf (outOf (xvOf x) (tbOf tb)) = G x tb := by
  funext i
  obtain ⟨b, s, j, rfl⟩ : ∃ (b : Fin 4) (s : Fin 2048) (j : Fin 1024), i = ix3 b s j := ⟨i 0, i 1, i 2, eq_ix3 i⟩
  have hj := j.isLt
  have h := hx (ix3 b s (tblOf j))
  have hw := idxWord_resRow x hx b s j
  rw [G_ix3]
  unfold gAt
  refine congrArg tb (funext fun a => ?_)
  match a with
  | ⟨0, _⟩ =>
    refine Fin.ext ?_
    show ((idxWord (xvOf x) (resRow b s j)).toNat % 800000) / 100000 = j.val / 128
    rw [hw]
    omega
  | ⟨1, _⟩ =>
    refine Fin.ext ?_
    show ((idxWord (xvOf x) (resRow b s j)).toNat % 800000) % 100000 = (x (ix3 b s (tblOf j))).toNat % 100000
    rw [hw]
    omega
  | ⟨2, _⟩ => rfl

end Cert.Proof.KI

end
-- ==== Proof.PreRange.lean ====
/-
  The precondition read back: a row number in range. The predicate ends in two reductions by `and` over
  all axes; the second is of the array `(0 ≤ x) ∧ (x ≤ 99999)`, both comparisons signed. When the
  predicate holds every element of that array is 1, and a word that is non-negative and at most 99999 as a
  signed integer is, as a natural number, below 100000.
-/
import proofs.«204676_g22814866277092_cont_8to1_1488_17_alg».proof.Pre_input_domain
import proofs.«204676_g22814866277092_cont_8to1_1488_17_alg».proof.Proof.Gen.Pre_input_domain
import Idealize.ShloMosaic.Lib.ReduceAll
import Idealize.ShloMosaic.Lib.ValueIdx

namespace Cert.Proof.PreRange

open Idealize.ShloMosaic

instance : Subsingleton Cert.Pre_input_domain.S_.Idx := ⟨fun a b => funext fun d => d.elim0⟩

/-- A word that is non-negative and at most 99999, both signed, is below 100000 as a natural number. -/
theorem word_range (v : BitVec 32)
    (e : IntOp.andi (IntOp.cmpi .sge v 0#32) (IntOp.cmpi .sle v 99999#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Under the precondition every row number is below 100000. -/
theorem range {F : FTy → Type} [FloatOps F] (x : IVec Cert.Pre_input_domain.S4x2048x8 32)
    (tb : FVec F Cert.Pre_input_domain.S8x100000x128 .f32)
    (h : Cert.Pre_input_domain.fn (F := F) x tb = fun _ => 1#1) : ∀ i, (x i).toNat < 100000 := by
  intro i
  have e := congrFun h ValueIdx.ix0
  dsimp only [Cert.Pre_input_domain.fn] at e
  have e2 := (IntOp.andi_eq_one.1 e).2
  have e3 := Host.reduce_andi_all _ _ _ _ _ e2 i
  exact word_range (x i) e3

end Cert.Proof.PreRange
-- ==== Proof.Assemble.lean ====
/-
  The kernel side assembled: under the precondition the whole program runs and leaves in its result array the lookup
  `Spec.G` of the two arguments, the arguments unchanged. The precondition makes every row number less than 100000
  (`PreRange.range`), and re-laying keeps the entries (`xv_range`), which is what the run asks of the array the call
  finds; the run's result `RESp (outOf (XVp x) (TBp tb))` is, through the host operations' closed forms, the
  kernel-side description composed, and that is the lookup (`bridge`).
-/
import proofs.«204676_g22814866277092_cont_8to1_1488_17_alg».proof.Proof.Launch
import proofs.«204676_g22814866277092_cont_8to1_1488_17_alg».proof.Proof.HostValue
import proofs.«204676_g22814866277092_cont_8to1_1488_17_alg».proof.Proof.PreRange

noncomputable section

namespace Cert.Proof.KI

open Cert.KernelIdeal Idealize.ShloMosaic Idealize.SL.Sem

variable {F : FTy → Type} [FloatOps F]

/-- The run of the whole program under the precondition, from one subcore's task: the result array ends at the lookup of
    the two arguments, the arguments unchanged. -/
theorem kernel_run [∀ e, Nonempty (Elt F e)] (hbody : TileBody (F := F)) (m : (ℓ : Loc nD τ sig) → Buf (Elt F) ℓ) (ρ : Dev nD → PrngReg)
    (hpre : ∀ c : Dev nD, Cert.Pre_input_domain.fn (F := F) (m ((c.tc : Thread nD τ).loc main_arg0)) (m ((c.tc : Thread nD τ).loc main_arg1)) = fun _ => 1#1) :
    θ_run (Cert.KernelIdeal.defs (F := F)) (Cert.KernelIdeal.threads (F := F)) ⟨m, fun _ => 0, ρ⟩ (fun r => ∀ c : Dev nD,
      r.2.mem ((c.tc : Thread nD τ).loc main_v8) = Cert.Proof.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hr : ∀ (c : Dev nD) i, (m ((c.tc : Thread nD τ).loc main_arg0) i).toNat < 100000 :=
    fun c => Cert.Proof.PreRange.range _ _ (hpre c)
  refine (θ_run (Cert.KernelIdeal.defs (F := F)) _ _).mono (fun _ h c => ⟨(h c).1.trans ?_, (h c).2⟩)
    (run_main hbody m ρ (fun d j => by rw [XVp_eq]; exact xv_range _ (hr d) j))
  rw [RESp_eq, XVp_eq, TBp_eq]
  exact bridge _ _ (hr c)

end Cert.Proof.KI

end
-- ==== Proof.SetupB.lean ====
/-
  The embedding-table lookup on the SparseCores: what the launch theorem is applied to. The program's
  thirty-two vector subcores (two SparseCores of sixteen tiles) each copy sixteen rows of the re-laid
  index array into tile memory, build sixteen lists of 128 row numbers of the stacked table, and move
  the listed rows through six staging buffers into their own 2048 rows of the result.
  Here: the names the launch theorem takes (the call table, the body table, the ghost state — the
  handshakes' rounds beside the transfers' counters), generic in the float instance.
-/
import proofs.«204676_g22814866277092_cont_8to1_1488_17_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204676_g22814866277092_cont_8to1_1488_17_alg».proof.Proof.Gen.Kernel
import proofs.«204676_g22814866277092_cont_8to1_1488_17_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

abbrev EH : Emb UH (MT nD τ sig (HIx 1) (Elt F) ℕ UU ℕ) := embL

end Cert.Proof.KB

end
-- ==== Proof.TileIfaceB.lean ====
/-
  What one vector subcore is handed and hands back. The subcore at SparseCore `L 0`, tile `L 1` has number
  `w = 2·(L 1) + (L 0)` and owns rows `[2048·w, 2048·(w + 1))` of the output array, as sixteen blocks of 128 rows:
  block `k` is block `16·w + k` of the 512 blocks of 128 rows the array divides into. It reads the re-laid index array
  and the stacked table through read shares. It hands its blocks back holding the lookup's rows (`KSpec.outOf`).
-/
import proofs.«204676_g22814866277092_cont_8to1_1488_17_alg».proof.Proof.SetupB
import proofs.«204676_g22814866277092_cont_8to1_1488_17_alg».proof.Proof.KSpec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S4x128x128 EltTy.i32)
local notation "tV" => (Memref.whole Cert.Kernel.main_v4_scv : Memref Cert.Kernel.sig Kind.scVector Space.hbm Cert.Kernel.S800000x128 EltTy.f32)
local notation "oV" => (Memref.whole Cert.Kernel.main_v5_scv : Memref Cert.Kernel.sig Kind.scVector Space.hbm Cert.Kernel.S65536x128 EltTy.f32)
local notation "q0" => (Memref.whole Cert.Kernel.cc0_scratch0 : Memref Cert.Kernel.sig Kind.scVector Space.vmem Cert.Kernel.S16x128 EltTy.i32)
local notation "q1" => (Memref.whole Cert.Kernel.cc0_scratch1 : Memref Cert.Kernel.sig Kind.scVector Space.vmem Cert.Kernel.S16x128 EltTy.i32)
local notation "q2" => (Memref.whole Cert.Kernel.cc0_scratch2 : Memref Cert.Kernel.sig Kind.scVector Space.vmem Cert.Kernel.S128x128 EltTy.f32)
local notation "q3" => (Memref.whole Cert.Kernel.cc0_scratch3 : Memref Cert.Kernel.sig Kind.scVector Space.vmem Cert.Kernel.S128x128 EltTy.f32)
local notation "q4" => (Memref.whole Cert.Kernel.cc0_scratch4 : Memref Cert.Kernel.sig Kind.scVector Space.vmem Cert.Kernel.S128x128 EltTy.f32)
local notation "q5" => (Memref.whole Cert.Kernel.cc0_scratch5 : Memref Cert.Kernel.sig Kind.scVector Space.vmem Cert.Kernel.S128x128 EltTy.f32)
local notation "q6" => (Memref.whole Cert.Kernel.cc0_scratch6 : Memref Cert.Kernel.sig Kind.scVector Space.vmem Cert.Kernel.S128x128 EltTy.f32)
local notation "q7" => (Memref.whole Cert.Kernel.cc0_scratch7 : Memref Cert.Kernel.sig Kind.scVector Space.vmem Cert.Kernel.S128x128 EltTy.f32)

abbrev xLoc (d : Dev nD) : Loc nD τ sig := (SparseCore.T d).loc main_v3
abbrev tLoc (d : Dev nD) : Loc nD τ sig := (SparseCore.T d).loc main_v4
abbrev oLoc (d : Dev nD) : Loc nD τ sig := (SparseCore.T d).loc main_v5

abbrev cV (L : grid0.Coords) : Fin τ.nSC := (L 0).castLE hcore0
abbrev jV (L : grid0.Coords) : Fin τ.nSub := (L 1).castLE hsub0

/-- The output array's 65536 rows are 512 blocks of 128. -/
theorem odiv : 512 ∣ S65536x128.size 0 := ⟨128, rfl⟩
abbrev oRect (i : Fin 512) : Rect S65536x128 := Rect.part (s := S65536x128) (a₀ := 0) odiv i
/-- Block `i` of the output array, as a set of its indices. -/
abbrev oPart (i : Fin 512) : Finset S65536x128.Idx := ((oV).view.slice (oRect i)).set

/-- Block `k` of the subcore at `L`. -/
def chunkIx (L : grid0.Coords) (k : Fin 16) : Fin 512 :=
  ⟨(2 * (L 1).val + (L 0).val) * 16 + k.val, by
    have h0 : (L 0).val < 2 := (L 0).isLt
    have h1 : (L 1).val < 16 := (L 1).isLt
    have := k.isLt; omega⟩

/-- What the subcore at `L` holds of the three arrays: read shares of the index array at `XV` and of the table at `TB`,
    its sixteen output blocks at `fo`. -/
def held (d : Dev nD) (L : grid0.Coords) (qx qt : PosShare TreeShare) (XV : Buf (Elt F) (xLoc d)) (TB : Buf (Elt F) (tLoc d))
    (fo : Buf (Elt F) (oLoc d)) : sProp 𝕄 :=
  iprop((xLoc d ↦{qx} XV) ∗ (tLoc d ↦{qt} TB) ∗ bigSep Finset.univ fun k : Fin 16 => (oLoc d ↦[oPart (chunkIx L k)]{fullShare} fo))

variable [FloatOps F]

/-- The subcore's task, stated: from the three arrays held as above, the index array's words all row numbers of a
    table, its own scratch and semaphores and what it owes the launch, the kernel's function at `L` ends holding the
    same with the output blocks at the lookup's rows. -/
def TileBody : Prop :=
  ∀ (hF : (K (F := F)).Facts) (d : Dev nD) (L : grid0.Coords) (O : CellTallies nD τ sig (HIx 1)) (W : Waits sig (HIx 1)) (hO : ∀ g, O g none = 0)
    (qx qt : PosShare TreeShare) (XV : Buf (Elt F) (xLoc d)) (TB : Buf (Elt F) (tLoc d)) (fo : Buf (Elt F) (oLoc d))
    (hx : ∀ j, (XV j).toNat < 100000),
    iprop(levAts (K (F := F)).L (K (F := F)).lev ∗ emp ∗ held d L qx qt XV TB fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) tV (Memref.isWhole_whole _) oV (Memref.isWhole_whole _)
            q0 (Memref.isWhole_whole _) q1 (Memref.isWhole_whole _) q2 (Memref.isWhole_whole _) q3 (Memref.isWhole_whole _)
            q4 (Memref.isWhole_whole _) q5 (Memref.isWhole_whole _) q6 (Memref.isWhole_whole _) q7 (Memref.isWhole_whole _)
            cc0_scratch8 cc0_scratch9 cc0_scratch10 cc0_scratch11 cc0_scratch12 cc0_scratch13 cc0_scratch14 cc0_scratch15
            cc0_scratch16 cc0_scratch17 cc0_scratch18 cc0_scratch19 cc0_scoped0)
          fun _ => iprop(held d L qx qt XV TB (Cert.Proof.KSpec.outOf XV TB)
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB

end
-- ==== Proof.HostTermsB.lean ====
/-
  The host operations around the call, as functions of arrays: the index array re-laid before the call
  (a transpose, a reshape, a transpose, a reshape), the tables stacked (a reshape), and the output array
  re-laid after it (a reshape, a transpose, a reshape) — each the composite of the printed operations.
-/
import proofs.«204676_g22814866277092_cont_8to1_1488_17_alg».proof.Proof.Gen.Kernel
import proofs.«204676_g22814866277092_cont_8to1_1488_17_alg».proof.Proof.KSpec

noncomputable section

namespace Cert.Proof.KB

open Cert.Kernel Cert.Kernel.Gen Idealize.ShloMosaic

/-- The index array as the call finds it. -/
def XVp (x : IVec S4x2048x8 32) : IVec S4x128x128 32 :=
  shapeCast S4x128x128
    (transpose S4x16x8x128 [0, 2, 1, 3]
      (shapeCast S4x8x16x128 (transpose S4x8x2048 [0, 2, 1] x transposes_S4x2048x8_S4x8x2048_0_2_1) shapeCasts_S4x8x2048_S4x8x16x128)
      transposes_S4x8x16x128_S4x16x8x128_0_2_1_3)
    shapeCasts_S4x16x8x128_S4x128x128

/-- The tables as the call finds them. -/
def TBp {F : FTy → Type} (tb : FVec F S8x100000x128 .f32) : FVec F S800000x128 .f32 :=
  shapeCast S800000x128 tb shapeCasts_S8x100000x128_S800000x128

/-- The result, of the output array the call leaves. -/
def RESp {F : FTy → Type} (out : FVec F S65536x128 .f32) : FVec F S4x2048x1024 .f32 :=
  shapeCast S4x2048x1024
    (transpose S1024x8x8x128 [0, 2, 1, 3] (shapeCast S1024x8x8x128 out shapeCasts_S65536x128_S1024x8x8x128)
      transposes_S1024x8x8x128_S1024x8x8x128_0_2_1_3)
    shapeCasts_S1024x8x8x128_S4x2048x1024

end Cert.Proof.KB

end
-- ==== Proof.LaunchB.lean ====
/-
  The launch of the lookup: from one vector subcore's task (`TileBody`) to the run of the whole program.
  The call's three arrays are dealt to the thirty-two tiles at once. The re-laid index array and the stacked table, which
  every tile reads whole, go out as one read token each of the full share, the remainder staying with the TensorCore across
  the call; the output array goes out as its 512 blocks of 128 rows, sixteen to a tile (tile `i` of SparseCore `c` is
  subcore `2·i + c` and owns blocks `16·(2·i + c) + k`). A SparseCore's holdings are its sixteen tiles', so the split per
  SparseCore is the identity. Every block comes back holding the one function `outOf XV TB`, so the blocks join to the
  output array whole at that function. Around the call @main re-lays the two arguments (five operations) and the output
  (three); the arguments themselves are only read, and the result is the composite `RESp (outOf (XVp x) (TBp tb))`.
-/
import proofs.«204676_g22814866277092_cont_8to1_1488_17_alg».proof.Proof.TileIfaceB
import proofs.«204676_g22814866277092_cont_8to1_1488_17_alg».proof.Proof.HostTermsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S4x128x128 EltTy.i32)
local notation "tV" => (Memref.whole Cert.Kernel.main_v4_scv : Memref Cert.Kernel.sig Kind.scVector Space.hbm Cert.Kernel.S800000x128 EltTy.f32)
local notation "oV" => (Memref.whole Cert.Kernel.main_v5_scv : Memref Cert.Kernel.sig Kind.scVector Space.hbm Cert.Kernel.S65536x128 EltTy.f32)
local notation "q0" => (Memref.whole Cert.Kernel.cc0_scratch0 : Memref Cert.Kernel.sig Kind.scVector Space.vmem Cert.Kernel.S16x128 EltTy.i32)
local notation "q1" => (Memref.whole Cert.Kernel.cc0_scratch1 : Memref Cert.Kernel.sig Kind.scVector Space.vmem Cert.Kernel.S16x128 EltTy.i32)
local notation "q2" => (Memref.whole Cert.Kernel.cc0_scratch2 : Memref Cert.Kernel.sig Kind.scVector Space.vmem Cert.Kernel.S128x128 EltTy.f32)
local notation "q3" => (Memref.whole Cert.Kernel.cc0_scratch3 : Memref Cert.Kernel.sig Kind.scVector Space.vmem Cert.Kernel.S128x128 EltTy.f32)
local notation "q4" => (Memref.whole Cert.Kernel.cc0_scratch4 : Memref Cert.Kernel.sig Kind.scVector Space.vmem Cert.Kernel.S128x128 EltTy.f32)
local notation "q5" => (Memref.whole Cert.Kernel.cc0_scratch5 : Memref Cert.Kernel.sig Kind.scVector Space.vmem Cert.Kernel.S128x128 EltTy.f32)
local notation "q6" => (Memref.whole Cert.Kernel.cc0_scratch6 : Memref Cert.Kernel.sig Kind.scVector Space.vmem Cert.Kernel.S128x128 EltTy.f32)
local notation "q7" => (Memref.whole Cert.Kernel.cc0_scratch7 : Memref Cert.Kernel.sig Kind.scVector Space.vmem Cert.Kernel.S128x128 EltTy.f32)

/-! ## The launch memory, the arrays the call finds, the tiles -/

section Launch

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev rLoc (d : Dev nD) : Loc nD τ sig := (SparseCore.T d).loc main_v8

/-- The index array and the table as the call finds them, and the output array it leaves. -/
abbrev XVm (d : Dev nD) : Buf (Elt F) (xLoc d) := XVp (m (a0Loc d))
abbrev TBm (d : Dev nD) : Buf (Elt F) (tLoc d) := TBp (m (a1Loc d))
abbrev OUTm (d : Dev nD) : Buf (Elt F) (oLoc d) := Cert.Proof.KSpec.outOf (XVm m d) (TBm m d)

theorem bound_zero : grid0.bound 0 = 2 := rfl
theorem bound_one : grid0.bound 1 = 16 := rfl

def coordsV (c : Fin (grid0.bound 0)) (s : Fin (grid0.bound 1)) : grid0.Coords :=
  fun | 0 => c | 1 => s | ⟨_ + 2, h⟩ => absurd h (Nat.not_lt.2 (Nat.le_add_left _ _))

/-- The coordinates of tile `i` of SparseCore `c`. -/
abbrev coords (c : Fin 2) (i : Fin 16) : grid0.Coords := coordsV (Fin.cast bound_zero.symm c) (Fin.cast bound_one.symm i)

/-- Its number among the thirty-two subcores. -/
def tileIx (c : Fin 2) (i : Fin 16) : Fin 32 := ⟨2 * i.val + c.val, by omega⟩

/-- Its read share of the index array and of the table: the full share's read token of its number. -/
abbrev tq (c : Fin 2) (i : Fin 16) : PosShare TreeShare := Transfers.shareTok fullShare 32 (tileIx c i)

/-- What tile `i` of SparseCore `c` holds, its output blocks at `fo`. -/
abbrev tileHeld (d : Dev nD) (c : Fin 2) (i : Fin 16) (fo : Buf (Elt F) (oLoc d)) : sProp 𝕄 :=
  held d (coords c i) (tq c i) (tq c i) (XVm m d) (TBm m d) fo

variable [FloatOps F]

/-! ## What the handshakes carry -/

/-- The call hands each SparseCore its sixteen tiles' holdings, each tile its own; they come back with the output
    blocks at the lookup's rows. -/
def P : (K (F := F)).Pay (nD := nD) (Val := Elt F) (Name := ℕ) (U := UU) where
  st := fun q d c => match q with | 0 => bigSep Finset.univ fun i : Fin 16 => tileHeld m d (Fin.cast nCore_zero c) i (m (oLoc d))
  dn := fun q d c => match q with | 0 => bigSep Finset.univ fun i : Fin 16 => tileHeld m d (Fin.cast nCore_zero c) i (OUTm m d)
  go := fun q d c i => match q with | 0 => tileHeld m d (Fin.cast nCore_zero c) (Fin.cast nSub_zero i) (m (oLoc d))
  td := fun q d c i => match q with | 0 => tileHeld m d (Fin.cast nCore_zero c) (Fin.cast nSub_zero i) (OUTm m d)
  x := fun _ _ => iprop(emp)

omit [FloatOps F] in
instance held_storable (d : Dev nD) (L : grid0.Coords) (qx qt : PosShare TreeShare) (XV : Buf (Elt F) (xLoc d)) (TB : Buf (Elt F) (tLoc d))
    (fo : Buf (Elt F) (oLoc d)) : BI.Storable (upEmb : UEmb _ 𝕄) (held d L qx qt XV TB fo) := by
  unfold held; infer_instance

instance P_storable : (P (F := F) m).IsStorable where
  st q d c := match q with
    | 0 => (inferInstance : BI.Storable (upEmb : UEmb _ 𝕄) (bigSep Finset.univ fun i : Fin 16 => tileHeld m d (Fin.cast nCore_zero c) i (m (oLoc d))))
  dn q d c := match q with
    | 0 => (inferInstance : BI.Storable (upEmb : UEmb _ 𝕄) (bigSep Finset.univ fun i : Fin 16 => tileHeld m d (Fin.cast nCore_zero c) i (OUTm m d)))
  go q d c i := match q with
    | 0 => (inferInstance : BI.Storable (upEmb : UEmb _ 𝕄) (tileHeld m d (Fin.cast nCore_zero c) (Fin.cast nSub_zero i) (m (oLoc d))))
  td q d c i := match q with
    | 0 => (inferInstance : BI.Storable (upEmb : UEmb _ 𝕄) (tileHeld m d (Fin.cast nCore_zero c) (Fin.cast nSub_zero i) (OUTm m d)))

/-! ## The obligation: one subcore's task, as the launch asks it -/

theorem defs₀_vector (c : Fin τ.nSC) (s : Fin τ.nSub) :
    defs₀ (F := F) (.scVector c s) 0 ()
      = SparseCore.onTile hcore0 hsub0 (fun c s => cc0_k (coordsV c s)
          xV (Memref.isWhole_whole _) tV (Memref.isWhole_whole _) oV (Memref.isWhole_whole _)
          q0 (Memref.isWhole_whole _) q1 (Memref.isWhole_whole _) q2 (Memref.isWhole_whole _) q3 (Memref.isWhole_whole _)
          q4 (Memref.isWhole_whole _) q5 (Memref.isWhole_whole _) q6 (Memref.isWhole_whole _) q7 (Memref.isWhole_whole _)
          cc0_scratch8 cc0_scratch9 cc0_scratch10 cc0_scratch11 cc0_scratch12 cc0_scratch13 cc0_scratch14 cc0_scratch15
          cc0_scratch16 cc0_scratch17 cc0_scratch18 cc0_scratch19 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hbody : TileBody (F := F)) (hx : ∀ (d : Dev nD) j, (XVm m d j).toNat < 100000) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody facts d (coordsV ⟨_, hci.1⟩ ⟨_, hci.2⟩) O W hO (tq (Fin.cast nCore_zero c) (Fin.cast nSub_zero i)) (tq (Fin.cast nCore_zero c) (Fin.cast nSub_zero i))
    (XVm m d) (TBm m d) (m (oLoc d)) (hx d)).trans (wp_mono frame _ _ fun _ => obl_post)

/-! ## A SparseCore's holdings are its tiles' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => tileHeld m d (Fin.cast nCore_zero c) i (m (oLoc d))) ⊢ |={Set.univ}=> iprop(
      (bigSep Finset.univ fun i : Fin ((K (F := F)).nSub 0) => tileHeld m d (Fin.cast nCore_zero c) (Fin.cast nSub_zero i) (m (oLoc d)))
      ∗ ((bigSep Finset.univ fun i : Fin ((K (F := F)).nSub 0) => tileHeld m d (Fin.cast nCore_zero c) (Fin.cast nSub_zero i) (OUTm m d))
          -∗ bigSep Finset.univ fun i : Fin 16 => tileHeld m d (Fin.cast nCore_zero c) i (OUTm m d)))
  rw [bigSep_tasks (F := F) (fun i => tileHeld m d (Fin.cast nCore_zero c) i (m (oLoc d))),
    bigSep_tasks (F := F) (fun i => tileHeld m d (Fin.cast nCore_zero c) i (OUTm m d))]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The three arrays among the thirty-two tiles -/

/-- Tile `i` of SparseCore `c` is subcore `2·i + c`. -/
def tileEquiv : Fin 2 × Fin 16 ≃ Fin 32 where
  toFun p := tileIx p.1 p.2
  invFun j := (⟨j.val % 2, Nat.mod_lt _ (by decide)⟩, ⟨j.val / 2, by have := j.isLt; omega⟩)
  left_inv p := by
    obtain ⟨c, i⟩ := p
    have hc := c.isLt; have hi := i.isLt
    refine Prod.ext (Fin.ext ?_) (Fin.ext ?_)
    · show (2 * i.val + c.val) % 2 = c.val; omega
    · show (2 * i.val + c.val) / 2 = i.val; omega
  right_inv j := Fin.ext (by show 2 * (j.val / 2) + j.val % 2 = j.val; omega)

/-- Block `k` of that tile is block `16·(2·i + c) + k` of the 512. -/
def blockEquiv : Fin 2 × Fin 16 × Fin 16 ≃ Fin 512 where
  toFun p := chunkIx (coords p.1 p.2.1) p.2.2
  invFun j := (⟨(j.val / 16) % 2, Nat.mod_lt _ (by decide)⟩, ⟨j.val / 32, by have := j.isLt; omega⟩, ⟨j.val % 16, Nat.mod_lt _ (by decide)⟩)
  left_inv p := by
    obtain ⟨c, i, k⟩ := p
    have hc := c.isLt; have hi := i.isLt; have hk := k.isLt
    refine Prod.ext (Fin.ext ?_) (Prod.ext (Fin.ext ?_) (Fin.ext ?_))
    · show ((2 * i.val + c.val) * 16 + k.val) / 16 % 2 = c.val; omega
    · show ((2 * i.val + c.val) * 16 + k.val) / 32 = i.val; omega
    · show ((2 * i.val + c.val) * 16 + k.val) % 16 = k.val; omega
  right_inv j := Fin.ext (by show (2 * (j.val / 32) + j.val / 16 % 2) * 16 + j.val % 16 = j.val; omega)

omit [FloatOps F] in
theorem bigSep32 (Φ : Fin 32 → sProp 𝕄) :
    bigSep Finset.univ Φ = bigSep Finset.univ fun c : Fin 2 => bigSep Finset.univ fun i : Fin 16 => Φ (tileIx c i) := by
  rw [bigSep_univ_equiv tileEquiv Φ, bigSep_univ_prod]; rfl

omit [FloatOps F] in
theorem bigSep512 (Φ : Fin 512 → sProp 𝕄) :
    bigSep Finset.univ Φ = bigSep Finset.univ fun c : Fin 2 => bigSep Finset.univ fun i : Fin 16 => bigSep Finset.univ fun k : Fin 16 =>
      Φ (chunkIx (coords c i) k) := by
  rw [bigSep_univ_equiv blockEquiv Φ, bigSep_univ_prod]
  refine bigSep_congr fun c _ => ?_
  rw [bigSep_univ_prod]; rfl

omit [FloatOps F] in
theorem oPart_eq (j : Fin 512) : oPart j = (oRect j).set := by
  show ((View.whole (main_v5_scv : Ref sig .scVector)).slice (oRect j)).set = _
  rw [View.set_slice]; exact Finset.map_refl
omit [FloatOps F] in
theorem oParts_disjoint : ∀ i ∈ (Finset.univ : Finset (Fin 512)), ∀ j ∈ (Finset.univ : Finset (Fin 512)), i ≠ j → Disjoint (oPart i) (oPart j) :=
  fun i _ j _ h => by rw [oPart_eq, oPart_eq]; exact Rect.part_disjoint odiv h
omit [FloatOps F] in
theorem oParts_cover : (Finset.univ : Finset (Fin 512)).biUnion oPart = Finset.univ :=
  (Finset.biUnion_congr rfl fun i _ => oPart_eq i).trans (Rect.biUnion_part odiv)

omit [FloatOps F] in
/-- The output array whole is its 512 blocks, at one contents. -/
theorem oPts_blocks (d : Dev nD) (f : Buf (Elt F) (oLoc d)) :
    (oLoc d ↦{fullShare} f : sProp 𝕄) = bigSep Finset.univ fun j : Fin 512 => oLoc d ↦[oPart j]{fullShare} f := by
  rw [← pointsTo_biUnion Finset.univ (ℓ := oLoc d) oPart oParts_disjoint, oParts_cover]; try rfl

omit [FloatOps F] in
/-- All the tiles' holdings: one read token each of the index array and of the table, and the output array whole. -/
theorem tiles_eq (d : Dev nD) (XV : Buf (Elt F) (xLoc d)) (TB : Buf (Elt F) (tLoc d)) (fo : Buf (Elt F) (oLoc d)) :
    (bigSep Finset.univ fun c : Fin 2 => bigSep Finset.univ fun i : Fin 16 => held d (coords c i) (tq c i) (tq c i) XV TB fo : sProp 𝕄)
      = iprop((bigSep Finset.univ fun j : Fin 32 => xLoc d ↦{Transfers.shareTok fullShare 32 j} XV)
          ∗ (bigSep Finset.univ fun j : Fin 32 => tLoc d ↦{Transfers.shareTok fullShare 32 j} TB)
          ∗ (oLoc d ↦{fullShare} fo)) := by
  rw [oPts_blocks, bigSep512, bigSep32 (fun j => (xLoc d ↦{Transfers.shareTok fullShare 32 j} XV : sProp 𝕄)),
    bigSep32 (fun j => (tLoc d ↦{Transfers.shareTok fullShare 32 j} TB : sProp 𝕄)), ← bigSep_sep', ← bigSep_sep']
  refine bigSep_congr fun c _ => ?_
  rw [← bigSep_sep', ← bigSep_sep']
  rfl

omit [FloatOps F] in
theorem tiles_split (d : Dev nD) (XV : Buf (Elt F) (xLoc d)) (TB : Buf (Elt F) (tLoc d)) (fo : Buf (Elt F) (oLoc d)) :
    iprop((xLoc d ↦{fullShare} XV) ∗ (tLoc d ↦{fullShare} TB) ∗ (oLoc d ↦{fullShare} fo))
      ⊢ (iprop((xLoc d ↦{Transfers.shareDrop fullShare 32} XV) ∗ (tLoc d ↦{Transfers.shareDrop fullShare 32} TB)
          ∗ bigSep Finset.univ fun c : Fin 2 => bigSep Finset.univ fun i : Fin 16 => held d (coords c i) (tq c i) (tq c i) XV TB fo) : sProp 𝕄) := by
  rw [tiles_eq]
  iintro ⟨Hx, Ht, Ho⟩
  ihave Hx' := (Transfers.pointsTo_toks_split (ℓ := xLoc d) (S := Finset.univ) (f := XV) fullShare 32) $$ Hx
  ihave Ht' := (Transfers.pointsTo_toks_split (ℓ := tLoc d) (S := Finset.univ) (f := TB) fullShare 32) $$ Ht
  icases Hx' with ⟨Hxr, Hxt⟩
  icases Ht' with ⟨Htr, Htt⟩
  isplitl [Hxr]; · iexact Hxr
  isplitl [Htr]; · iexact Htr
  isplitl [Hxt]; · iexact Hxt
  isplitl [Htt]; · iexact Htt
  iexact Ho

omit [FloatOps F] in
theorem tiles_join (d : Dev nD) (XV : Buf (Elt F) (xLoc d)) (TB : Buf (Elt F) (tLoc d)) (fo : Buf (Elt F) (oLoc d)) :
    (iprop((xLoc d ↦{Transfers.shareDrop fullShare 32} XV) ∗ (tLoc d ↦{Transfers.shareDrop fullShare 32} TB)
        ∗ bigSep Finset.univ fun c : Fin 2 => bigSep Finset.univ fun i : Fin 16 => held d (coords c i) (tq c i) (tq c i) XV TB fo) : sProp 𝕄)
      ⊢ iprop((xLoc d ↦{fullShare} XV) ∗ (tLoc d ↦{fullShare} TB) ∗ (oLoc d ↦{fullShare} fo)) := by
  rw [tiles_eq]
  iintro ⟨Hxr, Htr, Hxt, Htt, Ho⟩
  isplitl [Hxr Hxt]
  · iapply (Transfers.pointsTo_toks_join (ℓ := xLoc d) (S := Finset.univ) (f := XV) fullShare 32)
    isplitl [Hxr]; · iexact Hxr
    iexact Hxt
  isplitl [Htr Htt]
  · iapply (Transfers.pointsTo_toks_join (ℓ := tLoc d) (S := Finset.univ) (f := TB) fullShare 32)
    isplitl [Htr]; · iexact Htr
    iexact Htt
  iexact Ho

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)

/-- The TensorCore's arrays, all unscoped. -/
abbrev S11 : Finset (DevRef τ sig) := {a0', a1', v0', v1', v2', v3', v4', v5', v6', v7', v8'}

/-- The host operations, as @main prints them. -/
abbrev op0 : HloOp τ sig (Elt F) := StableHlo.unary main_arg0 main_v0 ((transpose S4x8x2048 [0, 2, 1] · transposes_S4x2048x8_S4x8x2048_0_2_1) : (⟨S4x2048x8, .i32⟩ : BufTy).Contents (Elt F) → (⟨S4x8x2048, .i32⟩ : BufTy).Contents (Elt F))
abbrev op1 : HloOp τ sig (Elt F) := StableHlo.reshape main_v0 main_v1 rfl shapeCasts_S4x8x2048_S4x8x16x128
abbrev op2 : HloOp τ sig (Elt F) := StableHlo.unary main_v1 main_v2 ((transpose S4x16x8x128 [0, 2, 1, 3] · transposes_S4x8x16x128_S4x16x8x128_0_2_1_3) : (⟨S4x8x16x128, .i32⟩ : BufTy).Contents (Elt F) → (⟨S4x16x8x128, .i32⟩ : BufTy).Contents (Elt F))
abbrev op3 : HloOp τ sig (Elt F) := StableHlo.reshape main_v2 main_v3 rfl shapeCasts_S4x16x8x128_S4x128x128
abbrev op4 : HloOp τ sig (Elt F) := StableHlo.reshape main_arg1 main_v4 rfl shapeCasts_S8x100000x128_S800000x128
abbrev op6 : HloOp τ sig (Elt F) := StableHlo.reshape main_v5 main_v6 rfl shapeCasts_S65536x128_S1024x8x8x128
abbrev op7 : HloOp τ sig (Elt F) := StableHlo.unary main_v6 main_v7 ((transpose S1024x8x8x128 [0, 2, 1, 3] · transposes_S1024x8x8x128_S1024x8x8x128_0_2_1_3) : (⟨S1024x8x8x128, .f32⟩ : BufTy).Contents (Elt F) → (⟨S1024x8x8x128, .f32⟩ : BufTy).Contents (Elt F))
abbrev op8 : HloOp τ sig (Elt F) := StableHlo.reshape main_v7 main_v8 rfl shapeCasts_S1024x8x8x128_S4x2048x1024

omit [FloatOps F] in
theorem h0 : (op0 (F := F)).bufs ⊆ S11 := show ({a0', v0'} : Finset (DevRef τ sig)) ⊆ S11 by decide
omit [FloatOps F] in
theorem h1 : (op1 (F := F)).bufs ⊆ S11 := show ({v0', v1'} : Finset (DevRef τ sig)) ⊆ S11 by decide
omit [FloatOps F] in
theorem h2 : (op2 (F := F)).bufs ⊆ S11 := show ({v1', v2'} : Finset (DevRef τ sig)) ⊆ S11 by decide
omit [FloatOps F] in
theorem h3 : (op3 (F := F)).bufs ⊆ S11 := show ({v2', v3'} : Finset (DevRef τ sig)) ⊆ S11 by decide
omit [FloatOps F] in
theorem h4 : (op4 (F := F)).bufs ⊆ S11 := show ({a1', v4'} : Finset (DevRef τ sig)) ⊆ S11 by decide
omit [FloatOps F] in
theorem h6 : (op6 (F := F)).bufs ⊆ S11 := show ({v5', v6'} : Finset (DevRef τ sig)) ⊆ S11 by decide
omit [FloatOps F] in
theorem h7 : (op7 (F := F)).bufs ⊆ S11 := show ({v6', v7'} : Finset (DevRef τ sig)) ⊆ S11 by decide
omit [FloatOps F] in
theorem h8 : (op8 (F := F)).bufs ⊆ S11 := show ({v7', v8'} : Finset (DevRef τ sig)) ⊆ S11 by decide

abbrev w0Loc (d : Dev nD) : Loc nD τ sig := (SparseCore.T d).loc main_v0
abbrev w1Loc (d : Dev nD) : Loc nD τ sig := (SparseCore.T d).loc main_v1
abbrev w2Loc (d : Dev nD) : Loc nD τ sig := (SparseCore.T d).loc main_v2
abbrev w6Loc (d : Dev nD) : Loc nD τ sig := (SparseCore.T d).loc main_v6
abbrev w7Loc (d : Dev nD) : Loc nD τ sig := (SparseCore.T d).loc main_v7

/-- The eleven arrays, each whole at given contents. -/
def pts11 (d : Dev nD) (f0 : Buf (Elt F) (a0Loc d)) (f1 : Buf (Elt F) (a1Loc d))
    (g0 : Buf (Elt F) (w0Loc d)) (g1 : Buf (Elt F) (w1Loc d)) (g2 : Buf (Elt F) (w2Loc d))
    (fx : Buf (Elt F) (xLoc d)) (ft : Buf (Elt F) (tLoc d)) (fo : Buf (Elt F) (oLoc d))
    (g6 : Buf (Elt F) (w6Loc d)) (g7 : Buf (Elt F) (w7Loc d)) (fr : Buf (Elt F) (rLoc d)) : sProp 𝕄 :=
  iprop((a0Loc d ↦{fullShare} f0) ∗ (a1Loc d ↦{fullShare} f1) ∗ (w0Loc d ↦{fullShare} g0) ∗ (w1Loc d ↦{fullShare} g1)
    ∗ (w2Loc d ↦{fullShare} g2) ∗ (xLoc d ↦{fullShare} fx) ∗ (tLoc d ↦{fullShare} ft) ∗ (oLoc d ↦{fullShare} fo)
    ∗ (w6Loc d ↦{fullShare} g6) ∗ (w7Loc d ↦{fullShare} g7) ∗ (rLoc d ↦{fullShare} fr))

omit [FloatOps F] in
theorem held_S11 (d : Dev nD) (W : Valuation τ sig (Elt F)) :
    (StableHlo.held (T d) S11 W : sProp 𝕄) = pts11 d (W a0') (W a1') (W v0') (W v1') (W v2') (W v3') (W v4') (W v5') (W v6') (W v7') (W v8') := by
  unfold StableHlo.held S11 pts11
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = pts11 d (W main_arg0) (W main_arg1) (W main_v0) (W main_v1) (W main_v2) (W main_v3) (W main_v4) (W main_v5) (W main_v6) (W main_v7) (W main_v8) := by
  unfold unscopedBufs pts11
  rw [show (Finset.univ.filter fun b : Ref sig .tc => ¬ b.isScoped) = {main_arg0, main_arg1, main_v0, main_v1, main_v2, main_v3, main_v4, main_v5, main_v6, main_v7, main_v8} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The launch valuation; the valuation the call finds; the one it leaves; the last. -/
def V0 (d : Dev nD) : Valuation τ sig (Elt F) := fun b => m (d, b)
def V5 (d : Dev nD) : Valuation τ sig (Elt F) :=
  (op4 (F := F)).result ((op3 (F := F)).result ((op2 (F := F)).result ((op1 (F := F)).result ((op0 (F := F)).result (V0 m d)))))
def V6 (d : Dev nD) : Valuation τ sig (Elt F) := Function.update (V5 m d) v5' (OUTm m d)
def V9 (d : Dev nD) : Valuation τ sig (Elt F) := (op8 (F := F)).result ((op7 (F := F)).result ((op6 (F := F)).result (V6 m d)))

omit [FloatOps F] in
theorem unscoped_held (d : Dev nD) : (unscopedBufs d (fun b => m ((SparseCore.T d).loc b)) : sProp 𝕄) = StableHlo.held (T d) S11 (V0 m d) := by
  rw [unscopedBufs_eq, held_S11]; rfl

omit [FloatOps F] in
theorem V5_a0 (d : Dev nD) : V5 m d a0' = m (a0Loc d) := by
  unfold V5
  simp (disch := decide) only [op0, op1, op2, op3, op4, StableHlo.reshape_result_ne', StableHlo.unary_result_ne']
  rfl
omit [FloatOps F] in
theorem V5_a1 (d : Dev nD) : V5 m d a1' = m (a1Loc d) := by
  unfold V5
  simp (disch := decide) only [op0, op1, op2, op3, op4, StableHlo.reshape_result_ne', StableHlo.unary_result_ne']
  rfl
omit [FloatOps F] in
theorem V5_x (d : Dev nD) : V5 m d v3' = XVm m d := by
  unfold V5
  simp (disch := decide) only [op0, op1, op2, op3, op4, StableHlo.reshape_result', StableHlo.unary_result', StableHlo.reshape_result_ne', StableHlo.unary_result_ne']
  rfl
omit [FloatOps F] in
theorem V5_t (d : Dev nD) : V5 m d v4' = TBm m d := by
  unfold V5
  simp (disch := decide) only [op0, op1, op2, op3, op4, StableHlo.reshape_result', StableHlo.unary_result', StableHlo.reshape_result_ne', StableHlo.unary_result_ne']
  rfl
omit [FloatOps F] in
theorem V5_o (d : Dev nD) : V5 m d v5' = m (oLoc d) := by
  unfold V5
  simp (disch := decide) only [op0, op1, op2, op3, op4, StableHlo.reshape_result_ne', StableHlo.unary_result_ne']
  rfl

omit [FloatOps F] in
theorem V6_ne (d : Dev nD) {b : DevRef τ sig} (h : b ≠ v5') : V6 m d b = V5 m d b := Function.update_of_ne h _ _
omit [FloatOps F] in
theorem V6_o (d : Dev nD) : V6 m d v5' = OUTm m d := Function.update_self _ _ _

omit [FloatOps F] in
theorem V9_a0 (d : Dev nD) : V9 m d a0' = m (a0Loc d) := by
  unfold V9
  simp (disch := decide) only [op6, op7, op8, StableHlo.reshape_result_ne', StableHlo.unary_result_ne']
  rw [V6_ne m d (by decide), V5_a0]
omit [FloatOps F] in
theorem V9_a1 (d : Dev nD) : V9 m d a1' = m (a1Loc d) := by
  unfold V9
  simp (disch := decide) only [op6, op7, op8, StableHlo.reshape_result_ne', StableHlo.unary_result_ne']
  rw [V6_ne m d (by decide), V5_a1]
omit [FloatOps F] in
theorem V9_r (d : Dev nD) : V9 m d v8' = RESp (OUTm m d) := by
  unfold V9
  simp (disch := decide) only [op6, op7, op8, StableHlo.reshape_result', StableHlo.unary_result', StableHlo.reshape_result_ne', StableHlo.unary_result_ne']
  rw [V6_o]
  rfl

omit [FloatOps F] in
theorem held_V5 (d : Dev nD) :
    (StableHlo.held (T d) S11 ((op4 (F := F)).result ((op3 (F := F)).result ((op2 (F := F)).result ((op1 (F := F)).result ((op0 (F := F)).result (V0 m d)))))) : sProp 𝕄)
      = pts11 d (V5 m d a0') (V5 m d a1') (V5 m d v0') (V5 m d v1') (V5 m d v2') (XVm m d) (TBm m d) (m (oLoc d)) (V5 m d v6') (V5 m d v7') (V5 m d v8') := by
  show (StableHlo.held (T d) S11 (V5 m d) : sProp 𝕄) = _
  rw [held_S11, V5_x, V5_t, V5_o]
omit [FloatOps F] in
theorem held_V6 (d : Dev nD) :
    (StableHlo.held (T d) S11 (V6 m d) : sProp 𝕄) = pts11 d (V5 m d a0') (V5 m d a1') (V5 m d v0') (V5 m d v1') (V5 m d v2') (XVm m d) (TBm m d) (OUTm m d)
      (V5 m d v6') (V5 m d v7') (V5 m d v8') := by
  rw [held_S11, V6_o, V6_ne m d (show a0' ≠ v5' by decide), V6_ne m d (show a1' ≠ v5' by decide), V6_ne m d (show v0' ≠ v5' by decide),
    V6_ne m d (show v1' ≠ v5' by decide), V6_ne m d (show v2' ≠ v5' by decide), V6_ne m d (show v3' ≠ v5' by decide), V6_ne m d (show v4' ≠ v5' by decide),
    V6_ne m d (show v6' ≠ v5' by decide), V6_ne m d (show v7' ≠ v5' by decide), V6_ne m d (show v8' ≠ v5' by decide), V5_x, V5_t]
omit [FloatOps F] in
theorem held_V9 (d : Dev nD) :
    (StableHlo.held (T d) S11 ((op8 (F := F)).result ((op7 (F := F)).result ((op6 (F := F)).result (V6 m d)))) : sProp 𝕄)
      = pts11 d (m (a0Loc d)) (m (a1Loc d)) (V9 m d v0') (V9 m d v1') (V9 m d v2') (V9 m d v3') (V9 m d v4') (V9 m d v5') (V9 m d v6') (V9 m d v7') (RESp (OUTm m d)) := by
  show (StableHlo.held (T d) S11 (V9 m d) : sProp 𝕄) = _
  rw [held_S11, V9_a0, V9_a1, V9_r]

/-- What the call takes for the two SparseCores, and what it hands back. -/
theorem st0_eq (d : Dev nD) : (bigSep Finset.univ fun c : Fin ((K (F := F)).nCore 0) => (P m).st 0 d c)
    = bigSep Finset.univ fun c : Fin 2 => bigSep Finset.univ fun i : Fin 16 => held d (coords c i) (tq c i) (tq c i) (XVm m d) (TBm m d) (m (oLoc d)) := by
  show (bigSep Finset.univ fun c : Fin 2 => bigSep Finset.univ fun i : Fin 16 => tileHeld m d (Fin.cast nCore_zero c) i (m (oLoc d))) = _
  exact bigSep_congr fun c _ => bigSep_congr fun i _ => by rw [show Fin.cast nCore_zero c = c from Fin.ext rfl]
theorem dn0_eq (d : Dev nD) : (bigSep Finset.univ fun c : Fin ((K (F := F)).nCore 0) => (P m).dn 0 d c)
    = bigSep Finset.univ fun c : Fin 2 => bigSep Finset.univ fun i : Fin 16 => held d (coords c i) (tq c i) (tq c i) (XVm m d) (TBm m d) (OUTm m d) := by
  show (bigSep Finset.univ fun c : Fin 2 => bigSep Finset.univ fun i : Fin 16 => tileHeld m d (Fin.cast nCore_zero c) i (OUTm m d)) = _
  exact bigSep_congr fun c _ => bigSep_congr fun i _ => by rw [show Fin.cast nCore_zero c = c from Fin.ext rfl]

/-- What @main leaves the claim: the two arguments at their launch contents, the result the output array re-laid. -/
abbrev FIN (d : Dev nD) : sProp 𝕄 :=
  iprop((a0Loc d ↦{fullShare} m (a0Loc d)) ∗ (a1Loc d ↦{fullShare} m (a1Loc d)) ∗ (rLoc d ↦{fullShare} RESp (OUTm m d)))

set_option maxRecDepth 16384 in
/-- @main on device `d`'s TensorCore: the five operations that re-lay the arguments, the call — the arrays dealt to the
    thirty-two tiles and gathered back, the output array at the lookup's rows —, the three that re-lay the output. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (StableHlo.wp_hlo_within 𝒱 (T d) none Set.univ (op := op0) (S := S11) h0 (V := V0 m d)) $$ [Hb Hheld]
  · isplitl [Hb] <;> iassumption
  iintro ⟨Hb, Hheld⟩
  rw [wp_ret]; imodintro
  iapply (StableHlo.wp_hlo_within 𝒱 (T d) none Set.univ (op := op1) (S := S11) h1 (V := (op0 (F := F)).result (V0 m d))) $$ [Hb Hheld]
  · isplitl [Hb] <;> iassumption
  iintro ⟨Hb, Hheld⟩
  rw [wp_ret]; imodintro
  iapply (StableHlo.wp_hlo_within 𝒱 (T d) none Set.univ (op := op2) (S := S11) h2 (V := (op1 (F := F)).result ((op0 (F := F)).result (V0 m d)))) $$ [Hb Hheld]
  · isplitl [Hb] <;> iassumption
  iintro ⟨Hb, Hheld⟩
  rw [wp_ret]; imodintro
  iapply (StableHlo.wp_hlo_within 𝒱 (T d) none Set.univ (op := op3) (S := S11) h3 (V := (op2 (F := F)).result ((op1 (F := F)).result ((op0 (F := F)).result (V0 m d))))) $$ [Hb Hheld]
  · isplitl [Hb] <;> iassumption
  iintro ⟨Hb, Hheld⟩
  rw [wp_ret]; imodintro
  iapply (StableHlo.wp_hlo_within 𝒱 (T d) none Set.univ (op := op4) (S := S11) h4 (V := (op3 (F := F)).result ((op2 (F := F)).result ((op1 (F := F)).result ((op0 (F := F)).result (V0 m d)))))) $$ [Hb Hheld]
  · isplitl [Hb] <;> iassumption
  iintro ⟨Hb, Hheld⟩
  rw [wp_ret]; imodintro
  -- the call
  ihave Hh := (Entails.of_eq (held_V5 m d)) $$ Hheld
  unfold pts11
  icases Hh with ⟨Ha0, Ha1, H0, H1, H2, Hx, Ht, Ho, H6, H7, H8⟩
  ihave Hs := (tiles_split d (XVm m d) (TBm m d) (m (oLoc d))) $$ [Hx Ht Ho]
  · isplitl [Hx]; · iexact Hx
    isplitl [Ht]; · iexact Ht
    iexact Ho
  icases Hs with ⟨Hxr, Htr, Htiles⟩
  iapply ((K (F := F)).wp_run (D (F := F)) 𝒱 (EH := EH) (P := P m) κ d 0) $$ [Hst Htiles Hb Ha0 Ha1 H0 H1 H2 H6 H7 H8 Hxr Htr]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  ihave Hj := (tiles_join d (XVm m d) (TBm m d) (OUTm m d)) $$ [Hxr Htr Hdn']
  · isplitl [Hxr]; · iexact Hxr
    isplitl [Htr]; · iexact Htr
    iexact Hdn'
  icases Hj with ⟨Hx, Ht, Ho⟩
  -- the three operations after it
  iapply (StableHlo.wp_hlo_within 𝒱 (T d) none Set.univ (op := op6) (S := S11) h6 (V := V6 m d)) $$ [Hb Ha0 Ha1 H0 H1 H2 Hx Ht Ho H6 H7 H8]
  · isplitl [Hb]; · iexact Hb
    rw [held_V6]; unfold pts11
    isplitl [Ha0]; · iexact Ha0
    isplitl [Ha1]; · iexact Ha1
    isplitl [H0]; · iexact H0
    isplitl [H1]; · iexact H1
    isplitl [H2]; · iexact H2
    isplitl [Hx]; · iexact Hx
    isplitl [Ht]; · iexact Ht
    isplitl [Ho]; · iexact Ho
    isplitl [H6]; · iexact H6
    isplitl [H7]; · iexact H7
    iexact H8
  iintro ⟨Hb, Hheld⟩
  rw [wp_ret]; imodintro
  iapply (StableHlo.wp_hlo_within 𝒱 (T d) none Set.univ (op := op7) (S := S11) h7 (V := (op6 (F := F)).result (V6 m d))) $$ [Hb Hheld]
  · isplitl [Hb] <;> iassumption
  iintro ⟨Hb, Hheld⟩
  rw [wp_ret]; imodintro
  iapply (StableHlo.wp_hlo_within 𝒱 (T d) none Set.univ (op := op8) (S := S11) h8 (V := (op7 (F := F)).result ((op6 (F := F)).result (V6 m d)))) $$ [Hb Hheld]
  · isplitl [Hb] <;> iassumption
  iintro ⟨Hb, Hheld⟩
  ihave Hh := (Entails.of_eq (held_V9 m d)) $$ Hheld
  unfold pts11
  icases Hh with ⟨Ha0, Ha1, -, -, -, -, -, -, -, -, Hr⟩
  rw [wp_ret]; imodintro; imodintro
  isplitl [Hst]; · iexact Hst
  isplitl [Ha0]; · iexact Ha0
  isplitl [Ha1]; · iexact Ha1
  iexact Hr

def fq (d : Dev nD) (s' : Phys nD τ sig (Elt F)) : Prop :=
  s'.mem.mem (a0Loc d) = m (a0Loc d) ∧ s'.mem.mem (a1Loc d) = m (a1Loc d) ∧ s'.mem.mem (rLoc d) = RESp (OUTm m d)

set_option maxRecDepth 16384 in
theorem hfin (d : Dev nD) (s' : Phys nD τ sig (Elt F)) : iprop(FIN m d ∗ SI s') ⊢ (⌜fq m d s'⌝ : sProp 𝕄) := by
  iintro ⟨⟨Ha0, Ha1, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h2, HSI, -⟩
  ihave H := (SI_pointsTo_agree (st := s') (ℓ := rLoc d) (I := Finset.univ) (q := fullShare) (f := RESp (OUTm m d))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

end Launch

/-! ## The program's run -/

variable [FloatOps F]

/-- The run of the whole program, from one subcore's task: every weakly fair execution terminates with the result array the
    lookup's rows re-laid and the two arguments unchanged. -/
theorem run_main [∀ e, Nonempty (Elt F e)] (hbody : TileBody (F := F)) (m : (ℓ : Loc nD τ sig) → Buf (Elt F) ℓ) (ρ : Dev nD → PrngReg)
    (hx : ∀ (d : Dev nD) j, (XVp (m ((SparseCore.T d).loc main_arg0)) j).toNat < 100000) :
    θ_run (Cert.Kernel.defs (F := F)) (Cert.Kernel.threads (F := F)) ⟨m, fun _ => 0, ρ⟩ (fun r => ∀ c : Dev nD,
      r.2.mem ((c.tc : Thread nD τ).loc main_v8) = RESp (Cert.Proof.KSpec.outOf (XVp (m ((c.tc : Thread nD τ).loc main_arg0))) (TBp (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => tileObl m hbody hx)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun _ h c => ⟨(h c).2.2, (h c).1, (h c).2.1⟩)

end Cert.Proof.KB

end
-- ==== Proof.HostValueB.lean ====
/-
  The host operations around the call, read index by index: the re-laid index array, the stacked tables and the
  re-laid output array are the closed forms of the kernel-side description, and the kernel-side description composed
  is the lookup itself.
-/
import proofs.«204676_g22814866277092_cont_8to1_1488_17_alg».proof.Proof.HostTermsB
import Idealize.ShloMosaic.Lib.Pipeline.Value

noncomputable section

namespace Cert.Proof.KB

open Cert.Kernel Idealize.ShloMosaic Idealize.ShloMosaic.ValueIdx Cert.Proof.Spec Cert.Proof.KSpec

/-- The index array before the call: transposing `[4, 2048, 8]` to `[4, 8, 2048]`, splitting the last axis as
    `16 × 128`, exchanging the two middle axes and merging them reads, at `(b, r, l)`, the entry
    `(b, 128·(r / 8) + l, r % 8)` of `x`. -/
theorem XVp_eq (x : IVec S4x2048x8 32) : XVp x = xvOf x := by
  funext j
  obtain ⟨b, r, l, rfl⟩ : ∃ (b : Fin 4) (r : Fin 128) (l : Fin 128), j = ix3 b r l := ⟨j 0, j 1, j 2, eq_ix3 j⟩
  have hb := b.isLt
  have hr := r.isLt
  have hl := l.isLt
  unfold XVp
  -- merging the two middle axes: (b, r, l) of [4,128,128] is (b, r / 8, r % 8, l) of [4,16,8,128]
  refine (shapeCast_apply _ _ _
    (ix4 b (⟨r.val / 8, by omega⟩ : Fin 16) (⟨r.val % 8, by omega⟩ : Fin 8) l)
    (by rw [Shape.rowMajor_val_four, Shape.rowMajor_val_three]
        show ((b.val * 16 + r.val / 8) * 8 + r.val % 8) * 128 + l.val = (b.val * 128 + r.val) * 128 + l.val
        omega)).trans ?_
  -- exchanging the middle axes: (b, jb, t, l) of [4,16,8,128] is (b, t, jb, l) of [4,8,16,128]
  refine (transpose_apply _ _ _ _
    (ix4 b (⟨r.val % 8, by omega⟩ : Fin 8) (⟨r.val / 8, by omega⟩ : Fin 16) l)
    (fun a => match a with | ⟨0, _⟩ => rfl | ⟨1, _⟩ => rfl | ⟨2, _⟩ => rfl | ⟨3, _⟩ => rfl)).trans ?_
  -- splitting the last axis: (b, t, jb, l) of [4,8,16,128] is (b, t, 128·jb + l) of [4,8,2048]
  refine (shapeCast_apply _ _ _
    (ix3 b (⟨r.val % 8, by omega⟩ : Fin 8) (⟨(r.val / 8) * 128 + l.val, by omega⟩ : Fin 2048))
    (by rw [Shape.rowMajor_val_three, Shape.rowMajor_val_four]
        show (b.val * 8 + r.val % 8) * 2048 + ((r.val / 8) * 128 + l.val)
          = ((b.val * 8 + r.val % 8) * 16 + r.val / 8) * 128 + l.val
        omega)).trans ?_
  -- the first transpose: (b, t, s) of [4,8,2048] is (b, s, t) of x
  exact transpose_apply _ _ _ _
    (ix3 b (⟨(r.val / 8) * 128 + l.val, by omega⟩ : Fin 2048) (⟨r.val % 8, by omega⟩ : Fin 8))
    (fun a => match a with | ⟨0, _⟩ => rfl | ⟨1, _⟩ => rfl | ⟨2, _⟩ => rfl)

/-- The tables before the call: row `R` of the stack is row `R % 100000` of table `R / 100000`. -/
theorem TBp_eq {F : FTy → Type} (tb : FVec F S8x100000x128 .f32) : TBp tb = tbOf tb := by
  funext j
  obtain ⟨R, c, rfl⟩ : ∃ (R : Fin 800000) (c : Fin 128), j = ix2 R c := ⟨j 0, j 1, eq_ix2 j⟩
  have hR := R.isLt
  have hc := c.isLt
  unfold TBp
  exact shapeCast_apply _ _ _
    (ix3 (⟨R.val / 100000, by omega⟩ : Fin 8) (⟨R.val % 100000, by omega⟩ : Fin 100000) c)
    (by rw [Shape.rowMajor_val_three, Shape.rowMajor_val_two]
        show ((R.val / 100000) * 100000 + R.val % 100000) * 128 + c.val = R.val * 128 + c.val
        omega)

/-- The result after the call: splitting the output's rows as `1024 × 8 × 8`, exchanging the two inner factors and
    regrouping as `[4, 2048, 1024]` reads, at `(b, s, j)`, column `j % 128` of the row `resRow b s j`. -/
theorem RESp_eq {F : FTy → Type} (out : FVec F S65536x128 .f32) : RESp out = resOf out := by
  funext i
  obtain ⟨b, s, j, rfl⟩ : ∃ (b : Fin 4) (s : Fin 2048) (j : Fin 1024), i = ix3 b s j := ⟨i 0, i 1, i 2, eq_ix3 i⟩
  have hb := b.isLt
  have hs := s.isLt
  have hj := j.isLt
  unfold RESp
  -- regrouping: (b, s, j) of [4,2048,1024] is ((2048·b + s) / 8, s % 8, j / 128, j % 128) of [1024,8,8,128]
  refine (shapeCast_apply _ _ _
    (ix4 (⟨(b.val * 2048 + s.val) / 8, by omega⟩ : Fin 1024) (⟨s.val % 8, by omega⟩ : Fin 8)
      (⟨j.val / 128, by omega⟩ : Fin 8) (⟨j.val % 128, by omega⟩ : Fin 128))
    (by rw [Shape.rowMajor_val_four, Shape.rowMajor_val_three]
        show ((((b.val * 2048 + s.val) / 8) * 8 + s.val % 8) * 8 + j.val / 128) * 128 + j.val % 128
          = (b.val * 2048 + s.val) * 1024 + j.val
        omega)).trans ?_
  -- exchanging the inner factors
  refine (transpose_apply _ _ _ _
    (ix4 (⟨(b.val * 2048 + s.val) / 8, by omega⟩ : Fin 1024) (⟨j.val / 128, by omega⟩ : Fin 8)
      (⟨s.val % 8, by omega⟩ : Fin 8) (⟨j.val % 128, by omega⟩ : Fin 128))
    (fun a => match a with | ⟨0, _⟩ => rfl | ⟨1, _⟩ => rfl | ⟨2, _⟩ => rfl | ⟨3, _⟩ => rfl)).trans ?_
  -- splitting the rows: (q, a, c, col) of [1024,8,8,128] is row 64·q + 8·a + c of the output
  exact shapeCast_apply _ _ _ (ix2 (resRow b s j) (colOf j))
    (by rw [Shape.rowMajor_val_two, Shape.rowMajor_val_four]
        show ((((b.val * 2048 + s.val) / 8) * 8 + j.val / 128) * 8 + s.val % 8) * 128 + j.val % 128
          = ((((b.val * 2048 + s.val) / 8) * 8 + j.val / 128) * 8 + s.val % 8) * 128 + j.val % 128
        rfl)

/-- Re-laying keeps every entry a row number: each entry of the re-laid array is an entry of `x`. -/
theorem xv_range (x : IVec S4x2048x8 32) (hx : ∀ i, (x i).toNat < 100000) : ∀ j, (xvOf x j).toNat < 100000 :=
  fun _ => hx _

/-- The output row that result entry `(b, s, j)` reads, as a number: `64·(256·b + s / 8) + 8·(j / 128) + s % 8`. -/
theorem resRow_val (b : Fin 4) (s : Fin 2048) (j : Fin 1024) :
    (resRow b s j).val = 64 * (256 * b.val + s.val / 8) + 8 * (j.val / 128) + s.val % 8 := by
  have hb := b.isLt
  have hs := s.isLt
  have hj := j.isLt
  simp only [resRow]
  omega

/-- Its subcore: `(256·b + s / 8) / 32 = 8·b + (s / 8) / 32`. -/
theorem widOf_resRow (b : Fin 4) (s : Fin 2048) (j : Fin 1024) :
    widOf (resRow b s j) = 8 * b.val + (s.val / 8) / 32 := by
  have hb := b.isLt
  have hs := s.isLt
  have hj := j.isLt
  unfold widOf
  rw [resRow_val]
  omega

/-- Its group of sixteen rows within the subcore's 2048: `4·((s / 8) % 32) + (j / 128) / 2`. -/
theorem grpOf_resRow (b : Fin 4) (s : Fin 2048) (j : Fin 1024) :
    grpOf (resRow b s j) = 4 * ((s.val / 8) % 32) + (j.val / 128) / 2 := by
  have hb := b.isLt
  have hs := s.isLt
  have hj := j.isLt
  unfold grpOf
  rw [resRow_val]
  omega

/-- Its lane: `8·((j / 128) % 2) + s % 8`. -/
theorem laneOf_resRow (b : Fin 4) (s : Fin 2048) (j : Fin 1024) :
    laneOf (resRow b s j) = 8 * ((j.val / 128) % 2) + s.val % 8 := by
  have hb := b.isLt
  have hs := s.isLt
  have hj := j.isLt
  unfold laneOf
  rw [resRow_val]
  omega

/-- Its table: `2·((j / 128) / 2) + (j / 128) % 2 = j / 128`. -/
theorem tOf_resRow (b : Fin 4) (s : Fin 2048) (j : Fin 1024) : tOf (resRow b s j) = j.val / 128 := by
  have hj := j.isLt
  unfold tOf
  rw [grpOf_resRow, laneOf_resRow]
  omega

/-- The entry of the re-laid index array that output row `resRow b s j` uses is `x[b, s, j / 128]`: with
    `u = s / 8`, its row is `r = 16·(u / 32) + j / 128 + 8·((u % 32) / 16)` and its lane `l = s % 8 + 8·(u % 16)`, so
    `r % 8 = j / 128` and `128·(r / 8) + l = 8·u + s % 8 = s`. -/
theorem xvOf_resRow (x : IVec S4x2048x8 32) (b : Fin 4) (s : Fin 2048) (j : Fin 1024) :
    xvOf x (ix3 (xvB (resRow b s j)) (xvR (resRow b s j)) (xvL (resRow b s j))) = x (ix3 b s (tblOf j)) := by
  have hb := b.isLt
  have hs := s.isLt
  have hj := j.isLt
  have hB : (xvB (resRow b s j)).val = b.val := by
    simp only [xvB]
    rw [widOf_resRow]
    omega
  have hR : (xvR (resRow b s j)).val = 16 * ((s.val / 8) / 32) + (j.val / 128 + 8 * (((s.val / 8) % 32) / 16)) := by
    simp only [xvR]
    rw [widOf_resRow, tOf_resRow, grpOf_resRow]
    omega
  have hL : (xvL (resRow b s j)).val = s.val % 8 + 8 * ((s.val / 8) % 16) := by
    simp only [xvL]
    rw [laneOf_resRow, grpOf_resRow]
    omega
  refine congrArg x (funext fun a => ?_)
  match a with
  | ⟨0, _⟩ => exact Fin.ext hB
  | ⟨1, _⟩ =>
    refine Fin.ext ?_
    show ((xvR (resRow b s j)).val / 8) * 128 + (xvL (resRow b s j)).val = s.val
    rw [hR, hL]
    omega
  | ⟨2, _⟩ =>
    refine Fin.ext ?_
    show (xvR (resRow b s j)).val % 8 = j.val / 128
    rw [hR]
    omega

/-- The word written for output row `resRow b s j` is `x[b, s, j / 128] + 100000·(j / 128)`, and the sum does not wrap. -/
theorem idxWord_resRow (x : IVec S4x2048x8 32) (hx : ∀ i, (x i).toNat < 100000) (b : Fin 4) (s : Fin 2048) (j : Fin 1024) :
    (idxWord (xvOf x) (resRow b s j)).toNat = (x (ix3 b s (tblOf j))).toNat + (j.val / 128) * 100000 := by
  have hj := j.isLt
  have h := hx (ix3 b s (tblOf j))
  unfold idxWord
  rw [xvOf_resRow, tOf_resRow, BitVec.toNat_add, BitVec.toNat_ofNat]
  omega

/-- The kernel-side description composed is the lookup. -/
theorem bridge {F : FTy → Type} (x : IVec S4x2048x8 32) (tb : FVec F S8x100000x128 .f32)
    (hx : ∀ i, (x i).toNat < 100000) : resOf (outOf (xvOf x) (tbOf tb)) = G x tb := by
  funext i
  obtain ⟨b, s, j, rfl⟩ : ∃ (b : Fin 4) (s : Fin 2048) (j : Fin 1024), i = ix3 b s j := ⟨i 0, i 1, i 2, eq_ix3 i⟩
  have hj := j.isLt
  have h := hx (ix3 b s (tblOf j))
  have hw := idxWord_resRow x hx b s j
  rw [G_ix3]
  unfold gAt
  refine congrArg tb (funext fun a => ?_)
  match a with
  | ⟨0, _⟩ =>
    refine Fin.ext ?_
    show ((idxWord (xvOf x) (resRow b s j)).toNat % 800000) / 100000 = j.val / 128
    rw [hw]
    omega
  | ⟨1, _⟩ =>
    refine Fin.ext ?_
    show ((idxWord (xvOf x) (resRow b s j)).toNat % 800000) % 100000 = (x (ix3 b s (tblOf j))).toNat % 100000
    rw [hw]
    omega
  | ⟨2, _⟩ => rfl

end Cert.Proof.KB

end
-- ==== Proof.AssembleB.lean ====
/-
  The kernel side assembled: under the precondition the whole program runs and leaves in its result array the lookup
  `Spec.G` of the two arguments, the arguments unchanged. The precondition makes every row number less than 100000
  (`PreRange.range`), and re-laying keeps the entries (`xv_range`), which is what the run asks of the array the call
  finds; the run's result `RESp (outOf (XVp x) (TBp tb))` is, through the host operations' closed forms, the
  kernel-side description composed, and that is the lookup (`bridge`).
-/
import proofs.«204676_g22814866277092_cont_8to1_1488_17_alg».proof.Proof.LaunchB
import proofs.«204676_g22814866277092_cont_8to1_1488_17_alg».proof.Proof.HostValueB
import proofs.«204676_g22814866277092_cont_8to1_1488_17_alg».proof.Proof.PreRange

noncomputable section

namespace Cert.Proof.KB

open Cert.Kernel Idealize.ShloMosaic Idealize.SL.Sem

variable {F : FTy → Type} [FloatOps F]

/-- The run of the whole program under the precondition, from one subcore's task: the result array ends at the lookup of
    the two arguments, the arguments unchanged. -/
theorem kernel_run [∀ e, Nonempty (Elt F e)] (hbody : TileBody (F := F)) (m : (ℓ : Loc nD τ sig) → Buf (Elt F) ℓ) (ρ : Dev nD → PrngReg)
    (hpre : ∀ c : Dev nD, Cert.Pre_input_domain.fn (F := F) (m ((c.tc : Thread nD τ).loc main_arg0)) (m ((c.tc : Thread nD τ).loc main_arg1)) = fun _ => 1#1) :
    θ_run (Cert.Kernel.defs (F := F)) (Cert.Kernel.threads (F := F)) ⟨m, fun _ => 0, ρ⟩ (fun r => ∀ c : Dev nD,
      r.2.mem ((c.tc : Thread nD τ).loc main_v8) = Cert.Proof.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hr : ∀ (c : Dev nD) i, (m ((c.tc : Thread nD τ).loc main_arg0) i).toNat < 100000 :=
    fun c => Cert.Proof.PreRange.range _ _ (hpre c)
  refine (θ_run (Cert.Kernel.defs (F := F)) _ _).mono (fun _ h c => ⟨(h c).1.trans ?_, (h c).2⟩)
    (run_main hbody m ρ (fun d j => by rw [XVp_eq]; exact xv_range _ (hr d) j))
  rw [RESp_eq, XVp_eq, TBp_eq]
  exact bridge _ _ (hr c)

end Cert.Proof.KB

end
-- ==== Proof.RefOps.lean ====
/-
  The reference as one straight line of host operations. Its `@main` slices table `i` out of the stacked
  tables and column `i` out of the row numbers, reshapes both, and calls `_take` on them, for `i = 0 … 7`;
  then it concatenates the eight results along the last axis. A call runs the callee's body on the call's own
  buffers, so `@main` is the list `ops` below: eight stretches of twenty-seven operations (four of `@main`'s
  own, then the twenty-three of one `_take`, the select of its `_where` among them), then the concatenate.
  This module states the list, proves `@main` equal to it, and reads the run back: every execution ends with
  each buffer at the fold of the list over the contents at the start.
-/
import proofs.«204676_g22814866277092_cont_8to1_1488_17_alg».proof.Proof.Gen.ReferenceIdeal
import Idealize.ShloMosaic.Lib.StableHlo.Run

noncomputable section

namespace Cert.Proof.RefOps

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The twenty-three operations of one call of `_take` on a table `a0` and row numbers `a1`, over the call's
    buffers `φ`: a negative row number is wrapped by adding 100000 (`φ.call0.v0`, the select of `_where`); the
    mask `0 ≤ row ≤ 99999` is reduced by `and` over its last axis of size one (`φ.v12`); the rows are gathered
    (`φ.v13`) and kept where the mask holds, a fill value elsewhere (`φ.v16`, the call's result). -/
abbrev takeOps (a0 : TRef sig ⟨S100000x128, .f32⟩) (a1 : TRef sig ⟨S4x2048, .i32⟩) (φ : fn_take.Bufs) :
    List (HloOp τ sig (Elt F)) :=
  [ StableHlo.TRef.nullary φ.c (constantI S_ 32 0#32),
    StableHlo.TRef.unary φ.c φ.v0 (broadcastInDim S4x2048 ![] bcast_S_S4x2048),
    StableHlo.TRef.binary a1 φ.v0 φ.v1 (cmpi .slt),
    StableHlo.TRef.nullary φ.c_0 (constantI S_ 32 100000#32),
    StableHlo.TRef.unary φ.c_0 φ.v2 (broadcastInDim S4x2048 ![] bcast_S_S4x2048),
    StableHlo.TRef.binary a1 φ.v2 φ.v3 addi,
    StableHlo.TRef.ternary φ.v1 φ.v3 a1 φ.call0.v0 select,
    StableHlo.TRef.unary φ.call0.v0 φ.v5 (broadcastInDim S4x2048x1 ![0, 1] bcast_S4x2048_S4x2048x1_0_1),
    StableHlo.TRef.nullary φ.c_1 (constantI S1 32 99999#32),
    StableHlo.TRef.nullary φ.c_2 (constantI S_ 32 0#32),
    StableHlo.TRef.unary φ.c_2 φ.v6 (broadcastInDim S4x2048x1 ![] bcast_S_S4x2048x1),
    StableHlo.TRef.binary φ.v5 φ.v6 φ.v7 (cmpi .sge),
    StableHlo.TRef.unary φ.c_1 φ.v8 (broadcastInDim S1x1x1 ![2] bcast_S1_S1x1x1_2),
    StableHlo.TRef.unary φ.v8 φ.v9 (broadcastInDim S4x2048x1 ![0, 1, 2] bcast_S1x1x1_S4x2048x1_0_1_2),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S4x2048x1_S4x2048_d2 h_S_),
    StableHlo.TRef.binary a0 φ.v5 φ.v13 (fun x i => Host.gather gather_S100000x128_S4x2048x1_S4x2048x128_2_0_n_n_0_2_1128 x i),
    StableHlo.TRef.unary φ.v12 φ.v14 (broadcastInDim S4x2048x128 ![0, 1] bcast_S4x2048_S4x2048x128_0_1),
    StableHlo.TRef.nullary φ.cst (constant S_ .f32 0x7FC00000#32),
    StableHlo.TRef.unary φ.cst φ.v15 (broadcastInDim S4x2048x128 ![] bcast_S_S4x2048x128),
    StableHlo.TRef.ternary φ.v14 φ.v13 φ.v15 φ.v16 select ]

/-- The buffers those operations write, in order. -/
abbrev takeW (φ : fn_take.Bufs) : List (Ref sig .tc) :=
  [ φ.c.ref, φ.v0.ref, φ.v1.ref, φ.c_0.ref, φ.v2.ref, φ.v3.ref, φ.call0.v0.ref, φ.v5.ref, φ.c_1.ref, φ.c_2.ref, φ.v6.ref, φ.v7.ref, φ.v8.ref, φ.v9.ref, φ.v10.ref, φ.v11.ref, φ.c_3.ref, φ.v12.ref, φ.v13.ref, φ.v14.ref, φ.cst.ref, φ.v15.ref, φ.v16.ref ]

/-- Table 0: its slice of the tables and of the row numbers, both reshaped, then `_take` on them. -/
abbrev seg0 : List (HloOp τ sig (Elt F)) :=
  [ StableHlo.unary main_arg1 main_v0 ((extractStridedSlice S1x100000x128 ![0, 0, 0] · slices_S8x100000x128_S1x100000x128_0_0_0) : (⟨S8x100000x128, .f32⟩ : BufTy).Contents (Elt F) → (⟨S1x100000x128, .f32⟩ : BufTy).Contents (Elt F)),
    StableHlo.reshape main_v0 main_v1 rfl shapeCasts_S1x100000x128_S100000x128,
    StableHlo.unary main_arg0 main_v2 ((extractStridedSlice S4x2048x1 ![0, 0, 0] · slices_S4x2048x8_S4x2048x1_0_0_0) : (⟨S4x2048x8, .i32⟩ : BufTy).Contents (Elt F) → (⟨S4x2048x1, .i32⟩ : BufTy).Contents (Elt F)),
    StableHlo.reshape main_v2 main_v3 rfl shapeCasts_S4x2048x1_S4x2048 ]
  ++ takeOps (.of main_v1) (.of main_v3) main_call0

/-- The buffers stretch 0 writes. -/
abbrev segW0 : List (Ref sig .tc) :=
  [ main_v0, main_v1, main_v2, main_v3 ] ++ takeW main_call0

/-- Table 1: its slice of the tables and of the row numbers, both reshaped, then `_take` on them. -/
abbrev seg1 : List (HloOp τ sig (Elt F)) :=
  [ StableHlo.unary main_arg1 main_v5 ((extractStridedSlice S1x100000x128 ![1, 0, 0] · slices_S8x100000x128_S1x100000x128_1_0_0) : (⟨S8x100000x128, .f32⟩ : BufTy).Contents (Elt F) → (⟨S1x100000x128, .f32⟩ : BufTy).Contents (Elt F)),
    StableHlo.reshape main_v5 main_v6 rfl shapeCasts_S1x100000x128_S100000x128,
    StableHlo.unary main_arg0 main_v7 ((extractStridedSlice S4x2048x1 ![0, 0, 1] · slices_S4x2048x8_S4x2048x1_0_0_1) : (⟨S4x2048x8, .i32⟩ : BufTy).Contents (Elt F) → (⟨S4x2048x1, .i32⟩ : BufTy).Contents (Elt F)),
    StableHlo.reshape main_v7 main_v8 rfl shapeCasts_S4x2048x1_S4x2048 ]
  ++ takeOps (.of main_v6) (.of main_v8) main_call1

/-- The buffers stretch 1 writes. -/
abbrev segW1 : List (Ref sig .tc) :=
  [ main_v5, main_v6, main_v7, main_v8 ] ++ takeW main_call1

/-- Table 2: its slice of the tables and of the row numbers, both reshaped, then `_take` on them. -/
abbrev seg2 : List (HloOp τ sig (Elt F)) :=
  [ StableHlo.unary main_arg1 main_v10 ((extractStridedSlice S1x100000x128 ![2, 0, 0] · slices_S8x100000x128_S1x100000x128_2_0_0) : (⟨S8x100000x128, .f32⟩ : BufTy).Contents (Elt F) → (⟨S1x100000x128, .f32⟩ : BufTy).Contents (Elt F)),
    StableHlo.reshape main_v10 main_v11 rfl shapeCasts_S1x100000x128_S100000x128,
    StableHlo.unary main_arg0 main_v12 ((extractStridedSlice S4x2048x1 ![0, 0, 2] · slices_S4x2048x8_S4x2048x1_0_0_2) : (⟨S4x2048x8, .i32⟩ : BufTy).Contents (Elt F) → (⟨S4x2048x1, .i32⟩ : BufTy).Contents (Elt F)),
    StableHlo.reshape main_v12 main_v13 rfl shapeCasts_S4x2048x1_S4x2048 ]
  ++ takeOps (.of main_v11) (.of main_v13) main_call2

/-- The buffers stretch 2 writes. -/
abbrev segW2 : List (Ref sig .tc) :=
  [ main_v10, main_v11, main_v12, main_v13 ] ++ takeW main_call2

/-- Table 3: its slice of the tables and of the row numbers, both reshaped, then `_take` on them. -/
abbrev seg3 : List (HloOp τ sig (Elt F)) :=
  [ StableHlo.unary main_arg1 main_v15 ((extractStridedSlice S1x100000x128 ![3, 0, 0] · slices_S8x100000x128_S1x100000x128_3_0_0) : (⟨S8x100000x128, .f32⟩ : BufTy).Contents (Elt F) → (⟨S1x100000x128, .f32⟩ : BufTy).Contents (Elt F)),
    StableHlo.reshape main_v15 main_v16 rfl shapeCasts_S1x100000x128_S100000x128,
    StableHlo.unary main_arg0 main_v17 ((extractStridedSlice S4x2048x1 ![0, 0, 3] · slices_S4x2048x8_S4x2048x1_0_0_3) : (⟨S4x2048x8, .i32⟩ : BufTy).Contents (Elt F) → (⟨S4x2048x1, .i32⟩ : BufTy).Contents (Elt F)),
    StableHlo.reshape main_v17 main_v18 rfl shapeCasts_S4x2048x1_S4x2048 ]
  ++ takeOps (.of main_v16) (.of main_v18) main_call3

/-- The buffers stretch 3 writes. -/
abbrev segW3 : List (Ref sig .tc) :=
  [ main_v15, main_v16, main_v17, main_v18 ] ++ takeW main_call3

/-- Table 4: its slice of the tables and of the row numbers, both reshaped, then `_take` on them. -/
abbrev seg4 : List (HloOp τ sig (Elt F)) :=
  [ StableHlo.unary main_arg1 main_v20 ((extractStridedSlice S1x100000x128 ![4, 0, 0] · slices_S8x100000x128_S1x100000x128_4_0_0) : (⟨S8x100000x128, .f32⟩ : BufTy).Contents (Elt F) → (⟨S1x100000x128, .f32⟩ : BufTy).Contents (Elt F)),
    StableHlo.reshape main_v20 main_v21 rfl shapeCasts_S1x100000x128_S100000x128,
    StableHlo.unary main_arg0 main_v22 ((extractStridedSlice S4x2048x1 ![0, 0, 4] · slices_S4x2048x8_S4x2048x1_0_0_4) : (⟨S4x2048x8, .i32⟩ : BufTy).Contents (Elt F) → (⟨S4x2048x1, .i32⟩ : BufTy).Contents (Elt F)),
    StableHlo.reshape main_v22 main_v23 rfl shapeCasts_S4x2048x1_S4x2048 ]
  ++ takeOps (.of main_v21) (.of main_v23) main_call4

/-- The buffers stretch 4 writes. -/
abbrev segW4 : List (Ref sig .tc) :=
  [ main_v20, main_v21, main_v22, main_v23 ] ++ takeW main_call4

/-- Table 5: its slice of the tables and of the row numbers, both reshaped, then `_take` on them. -/
abbrev seg5 : List (HloOp τ sig (Elt F)) :=
  [ StableHlo.unary main_arg1 main_v25 ((extractStridedSlice S1x100000x128 ![5, 0, 0] · slices_S8x100000x128_S1x100000x128_5_0_0) : (⟨S8x100000x128, .f32⟩ : BufTy).Contents (Elt F) → (⟨S1x100000x128, .f32⟩ : BufTy).Contents (Elt F)),
    StableHlo.reshape main_v25 main_v26 rfl shapeCasts_S1x100000x128_S100000x128,
    StableHlo.unary main_arg0 main_v27 ((extractStridedSlice S4x2048x1 ![0, 0, 5] · slices_S4x2048x8_S4x2048x1_0_0_5) : (⟨S4x2048x8, .i32⟩ : BufTy).Contents (Elt F) → (⟨S4x2048x1, .i32⟩ : BufTy).Contents (Elt F)),
    StableHlo.reshape main_v27 main_v28 rfl shapeCasts_S4x2048x1_S4x2048 ]
  ++ takeOps (.of main_v26) (.of main_v28) main_call5

/-- The buffers stretch 5 writes. -/
abbrev segW5 : List (Ref sig .tc) :=
  [ main_v25, main_v26, main_v27, main_v28 ] ++ takeW main_call5

/-- Table 6: its slice of the tables and of the row numbers, both reshaped, then `_take` on them. -/
abbrev seg6 : List (HloOp τ sig (Elt F)) :=
  [ StableHlo.unary main_arg1 main_v30 ((extractStridedSlice S1x100000x128 ![6, 0, 0] · slices_S8x100000x128_S1x100000x128_6_0_0) : (⟨S8x100000x128, .f32⟩ : BufTy).Contents (Elt F) → (⟨S1x100000x128, .f32⟩ : BufTy).Contents (Elt F)),
    StableHlo.reshape main_v30 main_v31 rfl shapeCasts_S1x100000x128_S100000x128,
    StableHlo.unary main_arg0 main_v32 ((extractStridedSlice S4x2048x1 ![0, 0, 6] · slices_S4x2048x8_S4x2048x1_0_0_6) : (⟨S4x2048x8, .i32⟩ : BufTy).Contents (Elt F) → (⟨S4x2048x1, .i32⟩ : BufTy).Contents (Elt F)),
    StableHlo.reshape main_v32 main_v33 rfl shapeCasts_S4x2048x1_S4x2048 ]
  ++ takeOps (.of main_v31) (.of main_v33) main_call6

/-- The buffers stretch 6 writes. -/
abbrev segW6 : List (Ref sig .tc) :=
  [ main_v30, main_v31, main_v32, main_v33 ] ++ takeW main_call6

/-- Table 7: its slice of the tables and of the row numbers, both reshaped, then `_take` on them. -/
abbrev seg7 : List (HloOp τ sig (Elt F)) :=
  [ StableHlo.unary main_arg1 main_v35 ((extractStridedSlice S1x100000x128 ![7, 0, 0] · slices_S8x100000x128_S1x100000x128_7_0_0) : (⟨S8x100000x128, .f32⟩ : BufTy).Contents (Elt F) → (⟨S1x100000x128, .f32⟩ : BufTy).Contents (Elt F)),
    StableHlo.reshape main_v35 main_v36 rfl shapeCasts_S1x100000x128_S100000x128,
    StableHlo.unary main_arg0 main_v37 ((extractStridedSlice S4x2048x1 ![0, 0, 7] · slices_S4x2048x8_S4x2048x1_0_0_7) : (⟨S4x2048x8, .i32⟩ : BufTy).Contents (Elt F) → (⟨S4x2048x1, .i32⟩ : BufTy).Contents (Elt F)),
    StableHlo.reshape main_v37 main_v38 rfl shapeCasts_S4x2048x1_S4x2048 ]
  ++ takeOps (.of main_v36) (.of main_v38) main_call7

/-- The buffers stretch 7 writes. -/
abbrev segW7 : List (Ref sig .tc) :=
  [ main_v35, main_v36, main_v37, main_v38 ] ++ takeW main_call7

/-- The concatenate of the eight results along the last axis. -/
abbrev catOp : HloOp τ sig (Elt F) :=
  StableHlo.nary ![main_v4, main_v9, main_v14, main_v19, main_v24, main_v29, main_v34, main_v39] main_v40 (fun u => concatenate S4x2048x1024 2 [⟨S4x2048x128, u 0⟩, ⟨S4x2048x128, u 1⟩, ⟨S4x2048x128, u 2⟩, ⟨S4x2048x128, u 3⟩, ⟨S4x2048x128, u 4⟩, ⟨S4x2048x128, u 5⟩, ⟨S4x2048x128, u 6⟩, ⟨S4x2048x128, u 7⟩] concatenates_S4x2048x128_S4x2048x128_S4x2048x128_S4x2048x128_S4x2048x128_S4x2048x128_S4x2048x128_S4x2048x128_S4x2048x1024_d2)

/-- `@main`'s 217 operations, in order. -/
abbrev ops : List (HloOp τ sig (Elt F)) :=
  seg0 ++ (seg1 ++ (seg2 ++ (seg3 ++ (seg4 ++ (seg5 ++ (seg6 ++ (seg7 ++ [catOp])))))))

/-! ## `@main` is that line -/

/-- One call of `_take` is its twenty-three operations in order: the body unfolded, the inner call of `_where`
    with it, and the sequencing reassociated. -/
theorem take_eq (a0 : TRef sig ⟨S100000x128, .f32⟩) (a1 : TRef sig ⟨S4x2048, .i32⟩) (φ : fn_take.Bufs) :
    fn_take.body (F := F) a0 a1 φ = seq (takeOps a0 a1 φ) := by
  simp only [fn_take.body, fn_where.body, seq, bind_assoc, pure_bind]

/-- `@main` is the line `ops`: each stretch is four operations followed by a call, the calls are their lines
    (`take_eq`), and a line followed by a line is their concatenation (`seq_append`). -/
theorem main_eq (c : Dev nD) : main (F := F) c = seq ops := by
  simp only [main, take_eq, seq_append, seq, bind_assoc, pure_bind]

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every buffer a call of `_take` touches is a TensorCore buffer. -/
theorem takeOps_sub (a0 : TRef sig ⟨S100000x128, .f32⟩) (a1 : TRef sig ⟨S4x2048, .i32⟩) (φ : fn_take.Bufs) :
    (takeOps (F := F) a0 a1 φ).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem seg0_sub : (seg0 : List (HloOp τ sig (Elt F))).Forall fun op => op.bufs ⊆ tcRefs τ sig :=
  List.forall_append.mpr ⟨⟨unary_bufs_sub .., reshape_bufs_sub .., unary_bufs_sub .., reshape_bufs_sub ..⟩, takeOps_sub ..⟩
theorem seg1_sub : (seg1 : List (HloOp τ sig (Elt F))).Forall fun op => op.bufs ⊆ tcRefs τ sig :=
  List.forall_append.mpr ⟨⟨unary_bufs_sub .., reshape_bufs_sub .., unary_bufs_sub .., reshape_bufs_sub ..⟩, takeOps_sub ..⟩
theorem seg2_sub : (seg2 : List (HloOp τ sig (Elt F))).Forall fun op => op.bufs ⊆ tcRefs τ sig :=
  List.forall_append.mpr ⟨⟨unary_bufs_sub .., reshape_bufs_sub .., unary_bufs_sub .., reshape_bufs_sub ..⟩, takeOps_sub ..⟩
theorem seg3_sub : (seg3 : List (HloOp τ sig (Elt F))).Forall fun op => op.bufs ⊆ tcRefs τ sig :=
  List.forall_append.mpr ⟨⟨unary_bufs_sub .., reshape_bufs_sub .., unary_bufs_sub .., reshape_bufs_sub ..⟩, takeOps_sub ..⟩
theorem seg4_sub : (seg4 : List (HloOp τ sig (Elt F))).Forall fun op => op.bufs ⊆ tcRefs τ sig :=
  List.forall_append.mpr ⟨⟨unary_bufs_sub .., reshape_bufs_sub .., unary_bufs_sub .., reshape_bufs_sub ..⟩, takeOps_sub ..⟩
theorem seg5_sub : (seg5 : List (HloOp τ sig (Elt F))).Forall fun op => op.bufs ⊆ tcRefs τ sig :=
  List.forall_append.mpr ⟨⟨unary_bufs_sub .., reshape_bufs_sub .., unary_bufs_sub .., reshape_bufs_sub ..⟩, takeOps_sub ..⟩
theorem seg6_sub : (seg6 : List (HloOp τ sig (Elt F))).Forall fun op => op.bufs ⊆ tcRefs τ sig :=
  List.forall_append.mpr ⟨⟨unary_bufs_sub .., reshape_bufs_sub .., unary_bufs_sub .., reshape_bufs_sub ..⟩, takeOps_sub ..⟩
theorem seg7_sub : (seg7 : List (HloOp τ sig (Elt F))).Forall fun op => op.bufs ⊆ tcRefs τ sig :=
  List.forall_append.mpr ⟨⟨unary_bufs_sub .., reshape_bufs_sub .., unary_bufs_sub .., reshape_bufs_sub ..⟩, takeOps_sub ..⟩

theorem ops_sub : (ops : List (HloOp τ sig (Elt F))).Forall fun op => op.bufs ⊆ tcRefs τ sig :=
  List.forall_append.mpr ⟨seg0_sub, List.forall_append.mpr ⟨seg1_sub, List.forall_append.mpr ⟨seg2_sub,
    List.forall_append.mpr ⟨seg3_sub, List.forall_append.mpr ⟨seg4_sub, List.forall_append.mpr ⟨seg5_sub,
    List.forall_append.mpr ⟨seg6_sub, List.forall_append.mpr ⟨seg7_sub, nary_bufs_sub ..⟩⟩⟩⟩⟩⟩⟩⟩

/-- From any memory with zero counters, every weakly fair execution of `@main` terminates, and every final state
    has each buffer at the fold of the line over the contents at the start. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What a stretch writes -/

/-- The fold over two lines in a row is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- An operation writing the one buffer `y` writes inside any list that holds `y`. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- A call of `_take` writes its own buffers only: inside any list that holds them. -/
theorem takeOps_writes (a0 : TRef sig ⟨S100000x128, .f32⟩) (a1 : TRef sig ⟨S4x2048, .i32⟩) (φ : fn_take.Bufs)
    (W : List (Ref sig .tc)) (hW : ∀ r ∈ takeW φ, r ∈ W) :
    (takeOps (F := F) a0 a1 φ).Forall fun op => op.writes ⊆ (W.map (Proc.devRef (τ := τ) .tc)).toFinset :=
  ⟨single_sub_of_mem (hW _ (by simp)), single_sub_of_mem (hW _ (by simp)), single_sub_of_mem (hW _ (by simp)), single_sub_of_mem (hW _ (by simp)), single_sub_of_mem (hW _ (by simp)), single_sub_of_mem (hW _ (by simp)), single_sub_of_mem (hW _ (by simp)), single_sub_of_mem (hW _ (by simp)), single_sub_of_mem (hW _ (by simp)), single_sub_of_mem (hW _ (by simp)), single_sub_of_mem (hW _ (by simp)), single_sub_of_mem (hW _ (by simp)), single_sub_of_mem (hW _ (by simp)), single_sub_of_mem (hW _ (by simp)), single_sub_of_mem (hW _ (by simp)), single_sub_of_mem (hW _ (by simp)), single_sub_of_mem (hW _ (by simp)), single_sub_of_mem (hW _ (by simp)), single_sub_of_mem (hW _ (by simp)), single_sub_of_mem (hW _ (by simp)), single_sub_of_mem (hW _ (by simp)), single_sub_of_mem (hW _ (by simp)), single_sub_of_mem (hW _ (by simp))⟩

/-- Two lines in a row write inside the two lists in a row. -/
theorem writes_append {l₁ l₂ : List (HloOp τ sig (Elt F))} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset :=
  List.forall_append.mpr
    ⟨h₁.imp fun _ h => h.trans fun x hx => by
        simp only [List.mem_toFinset, List.map_append, List.mem_append] at hx ⊢; exact Or.inl hx,
      h₂.imp fun _ h => h.trans fun x hx => by
        simp only [List.mem_toFinset, List.map_append, List.mem_append] at hx ⊢; exact Or.inr hx⟩

theorem seg0_writes : (seg0 : List (HloOp τ sig (Elt F))).Forall fun op =>
    op.writes ⊆ ((segW0).map (Proc.devRef (τ := τ) .tc)).toFinset :=
  List.forall_append.mpr ⟨⟨single_sub_of_mem (by decide), single_sub_of_mem (by decide), single_sub_of_mem (by decide),
    single_sub_of_mem (by decide)⟩, takeOps_writes _ _ _ _ fun _ hr => List.mem_append_right _ hr⟩
/-- Stretch 0 leaves every buffer outside its own as it was. -/
theorem seg0_frame (V : Valuation τ sig (Elt F)) {r : Ref sig .tc} (hr : r ∉ segW0) :
    after seg0 V (Proc.devRef .tc r) = V (Proc.devRef .tc r) :=
  after_of_writes_sub seg0 V seg0_writes hr

theorem seg1_writes : (seg1 : List (HloOp τ sig (Elt F))).Forall fun op =>
    op.writes ⊆ ((segW1).map (Proc.devRef (τ := τ) .tc)).toFinset :=
  List.forall_append.mpr ⟨⟨single_sub_of_mem (by decide), single_sub_of_mem (by decide), single_sub_of_mem (by decide),
    single_sub_of_mem (by decide)⟩, takeOps_writes _ _ _ _ fun _ hr => List.mem_append_right _ hr⟩
/-- Stretch 1 leaves every buffer outside its own as it was. -/
theorem seg1_frame (V : Valuation τ sig (Elt F)) {r : Ref sig .tc} (hr : r ∉ segW1) :
    after seg1 V (Proc.devRef .tc r) = V (Proc.devRef .tc r) :=
  after_of_writes_sub seg1 V seg1_writes hr

theorem seg2_writes : (seg2 : List (HloOp τ sig (Elt F))).Forall fun op =>
    op.writes ⊆ ((segW2).map (Proc.devRef (τ := τ) .tc)).toFinset :=
  List.forall_append.mpr ⟨⟨single_sub_of_mem (by decide), single_sub_of_mem (by decide), single_sub_of_mem (by decide),
    single_sub_of_mem (by decide)⟩, takeOps_writes _ _ _ _ fun _ hr => List.mem_append_right _ hr⟩
/-- Stretch 2 leaves every buffer outside its own as it was. -/
theorem seg2_frame (V : Valuation τ sig (Elt F)) {r : Ref sig .tc} (hr : r ∉ segW2) :
    after seg2 V (Proc.devRef .tc r) = V (Proc.devRef .tc r) :=
  after_of_writes_sub seg2 V seg2_writes hr

theorem seg3_writes : (seg3 : List (HloOp τ sig (Elt F))).Forall fun op =>
    op.writes ⊆ ((segW3).map (Proc.devRef (τ := τ) .tc)).toFinset :=
  List.forall_append.mpr ⟨⟨single_sub_of_mem (by decide), single_sub_of_mem (by decide), single_sub_of_mem (by decide),
    single_sub_of_mem (by decide)⟩, takeOps_writes _ _ _ _ fun _ hr => List.mem_append_right _ hr⟩
/-- Stretch 3 leaves every buffer outside its own as it was. -/
theorem seg3_frame (V : Valuation τ sig (Elt F)) {r : Ref sig .tc} (hr : r ∉ segW3) :
    after seg3 V (Proc.devRef .tc r) = V (Proc.devRef .tc r) :=
  after_of_writes_sub seg3 V seg3_writes hr

theorem seg4_writes : (seg4 : List (HloOp τ sig (Elt F))).Forall fun op =>
    op.writes ⊆ ((segW4).map (Proc.devRef (τ := τ) .tc)).toFinset :=
  List.forall_append.mpr ⟨⟨single_sub_of_mem (by decide), single_sub_of_mem (by decide), single_sub_of_mem (by decide),
    single_sub_of_mem (by decide)⟩, takeOps_writes _ _ _ _ fun _ hr => List.mem_append_right _ hr⟩
/-- Stretch 4 leaves every buffer outside its own as it was. -/
theorem seg4_frame (V : Valuation τ sig (Elt F)) {r : Ref sig .tc} (hr : r ∉ segW4) :
    after seg4 V (Proc.devRef .tc r) = V (Proc.devRef .tc r) :=
  after_of_writes_sub seg4 V seg4_writes hr

theorem seg5_writes : (seg5 : List (HloOp τ sig (Elt F))).Forall fun op =>
    op.writes ⊆ ((segW5).map (Proc.devRef (τ := τ) .tc)).toFinset :=
  List.forall_append.mpr ⟨⟨single_sub_of_mem (by decide), single_sub_of_mem (by decide), single_sub_of_mem (by decide),
    single_sub_of_mem (by decide)⟩, takeOps_writes _ _ _ _ fun _ hr => List.mem_append_right _ hr⟩
/-- Stretch 5 leaves every buffer outside its own as it was. -/
theorem seg5_frame (V : Valuation τ sig (Elt F)) {r : Ref sig .tc} (hr : r ∉ segW5) :
    after seg5 V (Proc.devRef .tc r) = V (Proc.devRef .tc r) :=
  after_of_writes_sub seg5 V seg5_writes hr

theorem seg6_writes : (seg6 : List (HloOp τ sig (Elt F))).Forall fun op =>
    op.writes ⊆ ((segW6).map (Proc.devRef (τ := τ) .tc)).toFinset :=
  List.forall_append.mpr ⟨⟨single_sub_of_mem (by decide), single_sub_of_mem (by decide), single_sub_of_mem (by decide),
    single_sub_of_mem (by decide)⟩, takeOps_writes _ _ _ _ fun _ hr => List.mem_append_right _ hr⟩
/-- Stretch 6 leaves every buffer outside its own as it was. -/
theorem seg6_frame (V : Valuation τ sig (Elt F)) {r : Ref sig .tc} (hr : r ∉ segW6) :
    after seg6 V (Proc.devRef .tc r) = V (Proc.devRef .tc r) :=
  after_of_writes_sub seg6 V seg6_writes hr

theorem seg7_writes : (seg7 : List (HloOp τ sig (Elt F))).Forall fun op =>
    op.writes ⊆ ((segW7).map (Proc.devRef (τ := τ) .tc)).toFinset :=
  List.forall_append.mpr ⟨⟨single_sub_of_mem (by decide), single_sub_of_mem (by decide), single_sub_of_mem (by decide),
    single_sub_of_mem (by decide)⟩, takeOps_writes _ _ _ _ fun _ hr => List.mem_append_right _ hr⟩
/-- Stretch 7 leaves every buffer outside its own as it was. -/
theorem seg7_frame (V : Valuation τ sig (Elt F)) {r : Ref sig .tc} (hr : r ∉ segW7) :
    after seg7 V (Proc.devRef .tc r) = V (Proc.devRef .tc r) :=
  after_of_writes_sub seg7 V seg7_writes hr

/-- Every buffer the line writes: the stretches' and the result. -/
abbrev opsW : List (Ref sig .tc) :=
  segW0 ++ (segW1 ++ (segW2 ++ (segW3 ++ (segW4 ++ (segW5 ++ (segW6 ++ (segW7 ++ [main_v40])))))))

theorem ops_writes : (ops : List (HloOp τ sig (Elt F))).Forall fun op =>
    op.writes ⊆ (opsW.map (Proc.devRef (τ := τ) .tc)).toFinset :=
  writes_append seg0_writes (writes_append seg1_writes (writes_append seg2_writes (writes_append seg3_writes
    (writes_append seg4_writes (writes_append seg5_writes (writes_append seg6_writes (writes_append seg7_writes
      (single_sub_of_mem (W := [main_v40]) (by decide) : catOp.writes ⊆ _))))))))

/-- The line leaves the row numbers as they were. -/
theorem ops_arg0 (V : Valuation τ sig (Elt F)) : after ops V (Proc.devRef .tc main_arg0) = V (Proc.devRef .tc main_arg0) :=
  after_of_writes_sub ops V ops_writes (by decide)

/-- The line leaves the tables as they were. -/
theorem ops_arg1 (V : Valuation τ sig (Elt F)) : after ops V (Proc.devRef .tc main_arg1) = V (Proc.devRef .tc main_arg1) :=
  after_of_writes_sub ops V ops_writes (by decide)

end Cert.Proof.RefOps

end
-- ==== Proof.RefTake.lean ====
/-
  One call of `_take` as a function, and what it is under the precondition. The callee wraps a negative row
  number by adding 100000, builds the mask `0 ≤ row ≤ 99999`, gathers the rows (the gather clamps a start
  index into the table), and keeps a gathered row where the mask holds, a fill value elsewhere. Where every
  row number `w` has `w.toNat < 100000` the wrap is the identity, the mask is all ones and the clamp is the
  identity: entry `(b, s, c)` is the table at row `idx[b, s]`, column `c`. The slices and reshapes that cut
  table `k` and column `k` of the row numbers out of the arguments are read at an index here too.
-/
import proofs.«204676_g22814866277092_cont_8to1_1488_17_alg».proof.Proof.Gen.ReferenceIdeal
import Idealize.ShloMosaic.Lib.ValueIdx
import Idealize.ShloMosaic.Lib.Pipeline.Value
import Idealize.ShloMosaic.PureOps.Reduce

noncomputable section

namespace Cert.Proof.RefTake

open Cert.ReferenceIdeal Cert.ReferenceIdeal.Gen Idealize.ShloMosaic Idealize.ShloMosaic.ValueIdx

variable {F : FTy → Type} [FloatOps F]

/-! ## The callee as a function -/

/-- The row numbers with a negative one wrapped by adding 100000 (the select of `_where`). -/
def wrapIdx (idx : IVec S4x2048 32) : IVec S4x2048 32 :=
  select (cmpi .slt idx (broadcastInDim S4x2048 ![] bcast_S_S4x2048 (constantI S_ 32 0#32)))
    (addi idx (broadcastInDim S4x2048 ![] bcast_S_S4x2048 (constantI S_ 32 100000#32))) idx

/-- The wrapped row numbers as start indices: a trailing axis of size one. -/
def startIdx (idx : IVec S4x2048 32) : IVec S4x2048x1 32 :=
  broadcastInDim S4x2048x1 ![0, 1] bcast_S4x2048_S4x2048x1_0_1 (wrapIdx idx)

/-- The mask `0 ≤ row ≤ 99999`, both comparisons signed, reduced by `and` over the trailing axis. -/
def inRange (idx : IVec S4x2048 32) : IVec S4x2048 1 :=
  Host.reduce IntOp.andi
    (andi (cmpi .sge (startIdx idx) (broadcastInDim S4x2048x1 ![] bcast_S_S4x2048x1 (constantI S_ 32 0#32)))
      (cmpi .sle (startIdx idx) (broadcastInDim S4x2048x1 ![0, 1, 2] bcast_S1x1x1_S4x2048x1_0_1_2
        (broadcastInDim S1x1x1 ![2] bcast_S1_S1x1x1_2 (constantI S1 32 99999#32)))))
    (constantI S_ 1 1#1) reducesTo_S4x2048x1_S4x2048_d2 h_S_

/-- `_take` of a table and an array of row numbers: the gathered rows where the mask holds, the fill value elsewhere. -/
def takeVal (tbl : FVec F S100000x128 .f32) (idx : IVec S4x2048 32) : FVec F S4x2048x128 .f32 :=
  select (broadcastInDim S4x2048x128 ![0, 1] bcast_S4x2048_S4x2048x128_0_1 (inRange idx))
    (Host.gather gather_S100000x128_S4x2048x1_S4x2048x128_2_0_n_n_0_2_1128 tbl (startIdx idx))
    (broadcastInDim S4x2048x128 ![] bcast_S_S4x2048x128 (constant S_ .f32 0x7FC00000#32))

/-- Table `k` cut out of the stacked tables: the slice, then the reshape dropping the unit axis. -/
def tblAt (tb : FVec F S8x100000x128 .f32) (k : Fin 8) : FVec F S100000x128 .f32 :=
  shapeCast S100000x128 (extractStridedSlice S1x100000x128 ![k.val, 0, 0] tb (by revert k; decide))
    shapeCasts_S1x100000x128_S100000x128

/-- Column `k` cut out of the row numbers: the slice, then the reshape dropping the unit axis. -/
def idxAt (x : IVec S4x2048x8 32) (k : Fin 8) : IVec S4x2048 32 :=
  shapeCast S4x2048 (extractStridedSlice S4x2048x1 ![0, 0, k.val] x (by revert k; decide))
    shapeCasts_S4x2048x1_S4x2048

/-! ## Words in range -/

/-- A word below 100000 is its own natural number as a signed integer. -/
theorem toInt_of_lt (w : BitVec 32) (h : w.toNat < 100000) : w.toInt = (w.toNat : Int) := by
  rw [BitVec.toInt_eq_toNat_cond]; split <;> omega

/-- A word below 100000 is not negative as a signed integer. -/
theorem not_neg_of_lt (w : BitVec 32) (h : w.toNat < 100000) : IntOp.cmpi .slt w 0#32 = 0#1 := by
  have h0 : (0#32 : BitVec 32).toInt = 0 := by decide
  have hs : w.slt 0#32 = false := by
    rw [BitVec.slt_eq_decide, toInt_of_lt w h, h0]; exact decide_eq_false (by omega)
  simp only [IntOp.cmpi, hs]; decide

/-- A word below 100000 passes the mask `0 ≤ w ≤ 99999`, both comparisons signed. -/
theorem mask_of_lt (w : BitVec 32) (h : w.toNat < 100000) :
    IntOp.andi (IntOp.cmpi .sge w 0#32) (IntOp.cmpi .sle w 99999#32) = 1#1 := by
  have h0 : (0#32 : BitVec 32).toInt = 0 := by decide
  have h9 : (99999#32 : BitVec 32).toInt = 99999 := by decide
  have e1 : (0#32 : BitVec 32).sle w = true := by
    rw [BitVec.sle_eq_decide, toInt_of_lt w h, h0]; exact decide_eq_true (by omega)
  have e2 : w.sle 99999#32 = true := by
    rw [BitVec.sle_eq_decide, toInt_of_lt w h, h9]; exact decide_eq_true (by omega)
  simp only [IntOp.cmpi, e1, e2]; decide

/-- A word below 100000, read as a signed integer and clamped to the last row, is itself. -/
theorem clamp_of_lt (w : BitVec 32) (h : w.toNat < 100000) : min w.toInt.toNat (100000 - 1) = w.toNat := by
  rw [toInt_of_lt w h]; omega

/-- A fold by `and` from 1 over words that are all 1 is 1. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_ones x hx l

/-! ## The gather at an index -/

/-- The gather of rows read at `(b, s, c)`: the table at the row the start index `i5[b, s, 0]` names — read
    signed and clamped to the table —, column `c`. -/
theorem gather_apply (tbl : FVec F S100000x128 .f32) (i5 : IVec S4x2048x1 32) (b : Fin 4) (s : Fin 2048) (c : Fin 128) :
    Host.gather gather_S100000x128_S4x2048x1_S4x2048x128_2_0_n_n_0_2_1128 tbl i5 (ix3 b s c)
      = tbl (ix2 ⟨min (i5 (ix3 b s 0)).toInt.toNat (100000 - 1), by omega⟩ c) := by
  -- the row: the start index on the one mapped axis, nothing from the offset (the axis is collapsed)
  have h0 : gather_S100000x128_S4x2048x1_S4x2048x128_2_0_n_n_0_2_1128.start (ix3 b s c) i5 (0 : Fin 2) + gather_S100000x128_S4x2048x1_S4x2048x128_2_0_n_n_0_2_1128.offCoord (ix3 b s c) (0 : Fin 2)
      = min (i5 (ix3 b s 0)).toInt.toNat (100000 - 1) := by
    rw [GatherDims.offCoord_eq_zero _ _ _ (fun h => ((GatherDims.mem_sKept _ _).mp h).1 (List.mem_singleton.mpr rfl)), Nat.add_zero]
    unfold GatherDims.start
    rw [dif_pos (show (0 : Fin 2) ∈ gather_S100000x128_S4x2048x1_S4x2048x128_2_0_n_n_0_2_1128.startIndexMap from List.mem_singleton.mpr rfl)]
    have hsi : gather_S100000x128_S4x2048x1_S4x2048x128_2_0_n_n_0_2_1128.siIdx (ix3 b s c) ⟨List.idxOf (0 : Fin 2) gather_S100000x128_S4x2048x1_S4x2048x128_2_0_n_n_0_2_1128.startIndexMap,
        List.idxOf_lt_length_iff.2 (List.mem_singleton.mpr rfl)⟩ = ix3 b s 0 := by
      funext q; refine Fin.ext ?_
      match q with
      | ⟨0, _⟩ => rfl
      | ⟨1, _⟩ => rfl
      | ⟨2, _⟩ => rfl
    rw [hsi]
    rfl
  -- the column: no start index on the unmapped axis, the result's offset coordinate
  have h1 : gather_S100000x128_S4x2048x1_S4x2048x128_2_0_n_n_0_2_1128.start (ix3 b s c) i5 (1 : Fin 2) + gather_S100000x128_S4x2048x1_S4x2048x128_2_0_n_n_0_2_1128.offCoord (ix3 b s c) (1 : Fin 2) = c.val := by
    have hs : gather_S100000x128_S4x2048x1_S4x2048x128_2_0_n_n_0_2_1128.start (ix3 b s c) i5 (1 : Fin 2) = 0 := by
      unfold GatherDims.start; rw [dif_neg (by decide)]
    have ho : gather_S100000x128_S4x2048x1_S4x2048x128_2_0_n_n_0_2_1128.offCoord (ix3 b s c) (1 : Fin 2) = c.val := by
      unfold GatherDims.offCoord
      rw [dif_pos ((GatherDims.mem_sKept _ _).mpr ⟨by decide, by decide⟩)]
      rfl
    rw [hs, ho, Nat.zero_add]
  unfold Host.gather
  congr 1
  funext a
  refine Fin.ext ?_
  show gather_S100000x128_S4x2048x1_S4x2048x128_2_0_n_n_0_2_1128.start (ix3 b s c) i5 a + gather_S100000x128_S4x2048x1_S4x2048x128_2_0_n_n_0_2_1128.batchCoord (ix3 b s c) a + gather_S100000x128_S4x2048x1_S4x2048x128_2_0_n_n_0_2_1128.offCoord (ix3 b s c) a = _
  rw [GatherDims.batchCoord_eq_zero _ _ _ List.not_mem_nil, Nat.add_zero]
  match a with
  | ⟨0, _⟩ => exact h0
  | ⟨1, _⟩ => exact h1

/-! ## One call at an index -/

section Apply

variable (idx : IVec S4x2048 32) (h : ∀ p, (idx p).toNat < 100000)
include h

/-- In range, the wrap is the identity. -/
theorem wrapIdx_apply (p : S4x2048.Idx) : wrapIdx idx p = idx p := by
  show Scalar.select (IntOp.cmpi .slt (idx p) 0#32) _ (idx p) = idx p
  rw [not_neg_of_lt _ (h p)]
  exact select_zero _ _

/-- The start index at `(b, s, 0)` is the row number at `(b, s)`. -/
theorem startIdx_apply (b : Fin 4) (s : Fin 2048) (z : Fin 1) : startIdx idx (ix3 b s z) = idx (ix2 b s) := by
  unfold startIdx
  refine (broadcastInDim_apply (s := S4x2048) (t := S4x2048x1) ![0, 1] bcast_S4x2048_S4x2048x1_0_1 (wrapIdx idx) (ix3 b s z) (ix2 b s)
    (fun a => by
      match a with
      | ⟨0, _⟩ => rfl
      | ⟨1, _⟩ => rfl)).trans ?_
  exact wrapIdx_apply idx h _

/-- In range, the mask is all ones. -/
theorem inRange_apply (p : S4x2048.Idx) : inRange idx p = 1#1 := by
  unfold inRange
  rw [Host.reduce_eq_foldl]
  refine foldl_andi_ones _ (fun i => ?_) _
  obtain ⟨b, s, z, rfl⟩ : ∃ (b : Fin 4) (s : Fin 2048) (z : Fin 1), i = ix3 b s z := ⟨i 0, i 1, i 2, eq_ix3 i⟩
  show IntOp.andi (IntOp.cmpi .sge (startIdx idx (ix3 b s z)) 0#32) (IntOp.cmpi .sle (startIdx idx (ix3 b s z)) 99999#32) = 1#1
  rw [startIdx_apply idx h b s z]
  exact mask_of_lt _ (h _)

/-- In range, `_take` at `(b, s, c)` is the table at row `idx[b, s]`, column `c`. -/
theorem takeVal_apply (tbl : FVec F S100000x128 .f32) (b : Fin 4) (s : Fin 2048) (c : Fin 128) :
    takeVal tbl idx (ix3 b s c) = tbl (ix2 ⟨(idx (ix2 b s)).toNat, h _⟩ c) := by
  unfold takeVal
  rw [select_apply]
  have hm : broadcastInDim S4x2048x128 ![0, 1] bcast_S4x2048_S4x2048x128_0_1 (inRange idx) (ix3 b s c) = 1#1 :=
    (broadcastInDim_apply (s := S4x2048) (t := S4x2048x128) ![0, 1] bcast_S4x2048_S4x2048x128_0_1 (inRange idx) (ix3 b s c) (ix2 b s)
      (fun a => by
        match a with
        | ⟨0, _⟩ => rfl
        | ⟨1, _⟩ => rfl)).trans (inRange_apply idx h _)
  rw [hm, select_one, gather_apply]
  congr 2
  refine Fin.ext ?_
  show min (startIdx idx (ix3 b s 0)).toInt.toNat (100000 - 1) = _
  rw [startIdx_apply idx h]
  exact clamp_of_lt _ (h _)

end Apply

/-- Table `k` at `(r, c)` is the stacked tables at `(k, r, c)`. -/
theorem tblAt_apply (tb : FVec F S8x100000x128 .f32) (k : Fin 8) (r : Fin 100000) (c : Fin 128) :
    tblAt tb k (ix2 r c) = tb (ix3 k r c) := by
  unfold tblAt
  rw [shapeCast_apply _ _ (ix2 r c) (ix3 (0 : Fin 1) r c) (by
    rw [Shape.rowMajor_val_three, Shape.rowMajor_val_two]; simp)]
  exact extractStridedSlice_apply _ _ _ _ (ix3 k r c) (fun a => by
    match a with
    | ⟨0, _⟩ => show k.val = k.val + 0; omega
    | ⟨1, _⟩ => show r.val = 0 + r.val; omega
    | ⟨2, _⟩ => show c.val = 0 + c.val; omega)

/-- Column `k` of the row numbers at `(b, s)` is the row numbers at `(b, s, k)`. -/
theorem idxAt_apply (x : IVec S4x2048x8 32) (k : Fin 8) (b : Fin 4) (s : Fin 2048) :
    idxAt x k (ix2 b s) = x (ix3 b s k) := by
  unfold idxAt
  rw [shapeCast_apply _ _ (ix2 b s) (ix3 b s (0 : Fin 1)) (by
    rw [Shape.rowMajor_val_three, Shape.rowMajor_val_two]; simp)]
  exact extractStridedSlice_apply _ _ _ _ (ix3 b s k) (fun a => by
    match a with
    | ⟨0, _⟩ => show b.val = 0 + b.val; omega
    | ⟨1, _⟩ => show s.val = 0 + s.val; omega
    | ⟨2, _⟩ => show k.val = k.val + 0; omega)

end Cert.Proof.RefTake

end
-- ==== Proof.RefRun.lean ====
/-
  The reference's run and value. Its line of operations (`RefOps.ops`) is eight stretches, one per table, then
  a concatenate. Each stretch leaves in its result buffer `_take` of table `k` and column `k` of the row
  numbers (`seg_k_res`) and touches none of the buffers the other stretches or the concatenate read, so the
  fold of the whole line at the result is the concatenation of the eight lookups (`tail0`). Under the
  precondition every row number is in range, so each lookup is the plain gather (`RefTake.takeVal_apply`), and
  the concatenation's entry `(b, s, j)` is lookup `j / 128` at column `j % 128`: the function `Spec.G`.
-/
import proofs.«204676_g22814866277092_cont_8to1_1488_17_alg».proof.Defs
import proofs.«204676_g22814866277092_cont_8to1_1488_17_alg».proof.Proof.Gen.ReferenceIdeal
import proofs.«204676_g22814866277092_cont_8to1_1488_17_alg».proof.Proof.Gen.Pre_input_domain
import proofs.«204676_g22814866277092_cont_8to1_1488_17_alg».proof.Proof.Spec
import proofs.«204676_g22814866277092_cont_8to1_1488_17_alg».proof.Proof.PreRange
import proofs.«204676_g22814866277092_cont_8to1_1488_17_alg».proof.Proof.RefOps
import proofs.«204676_g22814866277092_cont_8to1_1488_17_alg».proof.Proof.RefTake

noncomputable section

namespace Cert.Proof.RefRun

open Cert.ReferenceIdeal Cert.ReferenceIdeal.Gen Idealize.ShloMosaic Idealize.ShloMosaic.TcCoe Idealize.SL.Sem
  Idealize.ShloMosaic.StableHlo Idealize.ShloMosaic.ValueIdx
open Cert.Proof.RefOps Cert.Proof.RefTake

variable {F : FTy → Type} [FloatOps F]

/-! ## The line's value at the result -/

/-- The lookup in table `k`: `_take` of that table and of column `k` of the row numbers. -/
def T (x : IVec S4x2048x8 32) (tb : FVec F S8x100000x128 .f32) (k : Fin 8) : FVec F S4x2048x128 .f32 :=
  takeVal (tblAt tb k) (idxAt x k)

/-- Eight arrays concatenated along the last axis. -/
def cat8 (u0 u1 u2 u3 u4 u5 u6 u7 : FVec F S4x2048x128 .f32) : FVec F S4x2048x1024 .f32 :=
  concatenate S4x2048x1024 2 [⟨S4x2048x128, u0⟩, ⟨S4x2048x128, u1⟩, ⟨S4x2048x128, u2⟩, ⟨S4x2048x128, u3⟩,
    ⟨S4x2048x128, u4⟩, ⟨S4x2048x128, u5⟩, ⟨S4x2048x128, u6⟩, ⟨S4x2048x128, u7⟩]
    concatenates_S4x2048x128_S4x2048x128_S4x2048x128_S4x2048x128_S4x2048x128_S4x2048x128_S4x2048x128_S4x2048x128_S4x2048x1024_d2

/-- Stretch 0 leaves the lookup in table 0 in its result buffer: its twenty-seven operations composed. -/
theorem seg0_res (W : Valuation τ sig (Elt F)) :
    after seg0 W (Proc.devRef .tc main_v4) = T (W (Proc.devRef .tc main_arg0)) (W (Proc.devRef .tc main_arg1)) 0 := by
  simp only [List.cons_append, List.nil_append]
  after_results_simp
  rfl

/-- Stretch 1 leaves the lookup in table 1 in its result buffer: its twenty-seven operations composed. -/
theorem seg1_res (W : Valuation τ sig (Elt F)) :
    after seg1 W (Proc.devRef .tc main_v9) = T (W (Proc.devRef .tc main_arg0)) (W (Proc.devRef .tc main_arg1)) 1 := by
  simp only [List.cons_append, List.nil_append]
  after_results_simp
  rfl

/-- Stretch 2 leaves the lookup in table 2 in its result buffer: its twenty-seven operations composed. -/
theorem seg2_res (W : Valuation τ sig (Elt F)) :
    after seg2 W (Proc.devRef .tc main_v14) = T (W (Proc.devRef .tc main_arg0)) (W (Proc.devRef .tc main_arg1)) 2 := by
  simp only [List.cons_append, List.nil_append]
  after_results_simp
  rfl

/-- Stretch 3 leaves the lookup in table 3 in its result buffer: its twenty-seven operations composed. -/
theorem seg3_res (W : Valuation τ sig (Elt F)) :
    after seg3 W (Proc.devRef .tc main_v19) = T (W (Proc.devRef .tc main_arg0)) (W (Proc.devRef .tc main_arg1)) 3 := by
  simp only [List.cons_append, List.nil_append]
  after_results_simp
  rfl

/-- Stretch 4 leaves the lookup in table 4 in its result buffer: its twenty-seven operations composed. -/
theorem seg4_res (W : Valuation τ sig (Elt F)) :
    after seg4 W (Proc.devRef .tc main_v24) = T (W (Proc.devRef .tc main_arg0)) (W (Proc.devRef .tc main_arg1)) 4 := by
  simp only [List.cons_append, List.nil_append]
  after_results_simp
  rfl

/-- Stretch 5 leaves the lookup in table 5 in its result buffer: its twenty-seven operations composed. -/
theorem seg5_res (W : Valuation τ sig (Elt F)) :
    after seg5 W (Proc.devRef .tc main_v29) = T (W (Proc.devRef .tc main_arg0)) (W (Proc.devRef .tc main_arg1)) 5 := by
  simp only [List.cons_append, List.nil_append]
  after_results_simp
  rfl

/-- Stretch 6 leaves the lookup in table 6 in its result buffer: its twenty-seven operations composed. -/
theorem seg6_res (W : Valuation τ sig (Elt F)) :
    after seg6 W (Proc.devRef .tc main_v34) = T (W (Proc.devRef .tc main_arg0)) (W (Proc.devRef .tc main_arg1)) 6 := by
  simp only [List.cons_append, List.nil_append]
  after_results_simp
  rfl

/-- Stretch 7 leaves the lookup in table 7 in its result buffer: its twenty-seven operations composed. -/
theorem seg7_res (W : Valuation τ sig (Elt F)) :
    after seg7 W (Proc.devRef .tc main_v39) = T (W (Proc.devRef .tc main_arg0)) (W (Proc.devRef .tc main_arg1)) 7 := by
  simp only [List.cons_append, List.nil_append]
  after_results_simp
  rfl

/-- The concatenate alone: the eight operands' contents, concatenated. -/
theorem tail8 (W : Valuation τ sig (Elt F)) :
    after [catOp] W (Proc.devRef .tc main_v40)
      = cat8 (W (Proc.devRef .tc main_v4)) (W (Proc.devRef .tc main_v9)) (W (Proc.devRef .tc main_v14)) (W (Proc.devRef .tc main_v19)) (W (Proc.devRef .tc main_v24)) (W (Proc.devRef .tc main_v29)) (W (Proc.devRef .tc main_v34)) (W (Proc.devRef .tc main_v39)) :=
by
  simp only [after_cons, after_nil]
  rw [nary_result]
  rfl

/-- From stretch 7 on: table 7 is looked up, the earlier results are read as they stand. -/
theorem tail7 (W : Valuation τ sig (Elt F)) :
    after (seg7 ++ ([catOp])) W (Proc.devRef .tc main_v40)
      = cat8 (W (Proc.devRef .tc main_v4))
        (W (Proc.devRef .tc main_v9))
        (W (Proc.devRef .tc main_v14))
        (W (Proc.devRef .tc main_v19))
        (W (Proc.devRef .tc main_v24))
        (W (Proc.devRef .tc main_v29))
        (W (Proc.devRef .tc main_v34))
        (T (W (Proc.devRef .tc main_arg0)) (W (Proc.devRef .tc main_arg1)) 7) := by
  rw [after_append, tail8, seg7_frame W (r := main_v4) (by decide),
    seg7_frame W (r := main_v9) (by decide),
    seg7_frame W (r := main_v14) (by decide),
    seg7_frame W (r := main_v19) (by decide),
    seg7_frame W (r := main_v24) (by decide),
    seg7_frame W (r := main_v29) (by decide),
    seg7_frame W (r := main_v34) (by decide),
    seg7_res]

/-- From stretch 6 on: tables 6 to 7 are looked up, the earlier results are read as they stand. -/
theorem tail6 (W : Valuation τ sig (Elt F)) :
    after (seg6 ++ (seg7 ++ ([catOp]))) W (Proc.devRef .tc main_v40)
      = cat8 (W (Proc.devRef .tc main_v4))
        (W (Proc.devRef .tc main_v9))
        (W (Proc.devRef .tc main_v14))
        (W (Proc.devRef .tc main_v19))
        (W (Proc.devRef .tc main_v24))
        (W (Proc.devRef .tc main_v29))
        (T (W (Proc.devRef .tc main_arg0)) (W (Proc.devRef .tc main_arg1)) 6)
        (T (W (Proc.devRef .tc main_arg0)) (W (Proc.devRef .tc main_arg1)) 7) := by
  rw [after_append, tail7, seg6_frame W (r := main_v4) (by decide),
    seg6_frame W (r := main_v9) (by decide),
    seg6_frame W (r := main_v14) (by decide),
    seg6_frame W (r := main_v19) (by decide),
    seg6_frame W (r := main_v24) (by decide),
    seg6_frame W (r := main_v29) (by decide),
    seg6_res,
    seg6_frame W (r := main_arg0) (by decide),
    seg6_frame W (r := main_arg1) (by decide)]

/-- From stretch 5 on: tables 5 to 7 are looked up, the earlier results are read as they stand. -/
theorem tail5 (W : Valuation τ sig (Elt F)) :
    after (seg5 ++ (seg6 ++ (seg7 ++ ([catOp])))) W (Proc.devRef .tc main_v40)
      = cat8 (W (Proc.devRef .tc main_v4))
        (W (Proc.devRef .tc main_v9))
        (W (Proc.devRef .tc main_v14))
        (W (Proc.devRef .tc main_v19))
        (W (Proc.devRef .tc main_v24))
        (T (W (Proc.devRef .tc main_arg0)) (W (Proc.devRef .tc main_arg1)) 5)
        (T (W (Proc.devRef .tc main_arg0)) (W (Proc.devRef .tc main_arg1)) 6)
        (T (W (Proc.devRef .tc main_arg0)) (W (Proc.devRef .tc main_arg1)) 7) := by
  rw [after_append, tail6, seg5_frame W (r := main_v4) (by decide),
    seg5_frame W (r := main_v9) (by decide),
    seg5_frame W (r := main_v14) (by decide),
    seg5_frame W (r := main_v19) (by decide),
    seg5_frame W (r := main_v24) (by decide),
    seg5_res,
    seg5_frame W (r := main_arg0) (by decide),
    seg5_frame W (r := main_arg1) (by decide)]

/-- From stretch 4 on: tables 4 to 7 are looked up, the earlier results are read as they stand. -/
theorem tail4 (W : Valuation τ sig (Elt F)) :
    after (seg4 ++ (seg5 ++ (seg6 ++ (seg7 ++ ([catOp]))))) W (Proc.devRef .tc main_v40)
      = cat8 (W (Proc.devRef .tc main_v4))
        (W (Proc.devRef .tc main_v9))
        (W (Proc.devRef .tc main_v14))
        (W (Proc.devRef .tc main_v19))
        (T (W (Proc.devRef .tc main_arg0)) (W (Proc.devRef .tc main_arg1)) 4)
        (T (W (Proc.devRef .tc main_arg0)) (W (Proc.devRef .tc main_arg1)) 5)
        (T (W (Proc.devRef .tc main_arg0)) (W (Proc.devRef .tc main_arg1)) 6)
        (T (W (Proc.devRef .tc main_arg0)) (W (Proc.devRef .tc main_arg1)) 7) := by
  rw [after_append, tail5, seg4_frame W (r := main_v4) (by decide),
    seg4_frame W (r := main_v9) (by decide),
    seg4_frame W (r := main_v14) (by decide),
    seg4_frame W (r := main_v19) (by decide),
    seg4_res,
    seg4_frame W (r := main_arg0) (by decide),
    seg4_frame W (r := main_arg1) (by decide)]

/-- From stretch 3 on: tables 3 to 7 are looked up, the earlier results are read as they stand. -/
theorem tail3 (W : Valuation τ sig (Elt F)) :
    after (seg3 ++ (seg4 ++ (seg5 ++ (seg6 ++ (seg7 ++ ([catOp])))))) W (Proc.devRef .tc main_v40)
      = cat8 (W (Proc.devRef .tc main_v4))
        (W (Proc.devRef .tc main_v9))
        (W (Proc.devRef .tc main_v14))
        (T (W (Proc.devRef .tc main_arg0)) (W (Proc.devRef .tc main_arg1)) 3)
        (T (W (Proc.devRef .tc main_arg0)) (W (Proc.devRef .tc main_arg1)) 4)
        (T (W (Proc.devRef .tc main_arg0)) (W (Proc.devRef .tc main_arg1)) 5)
        (T (W (Proc.devRef .tc main_arg0)) (W (Proc.devRef .tc main_arg1)) 6)
        (T (W (Proc.devRef .tc main_arg0)) (W (Proc.devRef .tc main_arg1)) 7) := by
  rw [after_append, tail4, seg3_frame W (r := main_v4) (by decide),
    seg3_frame W (r := main_v9) (by decide),
    seg3_frame W (r := main_v14) (by decide),
    seg3_res,
    seg3_frame W (r := main_arg0) (by decide),
    seg3_frame W (r := main_arg1) (by decide)]

/-- From stretch 2 on: tables 2 to 7 are looked up, the earlier results are read as they stand. -/
theorem tail2 (W : Valuation τ sig (Elt F)) :
    after (seg2 ++ (seg3 ++ (seg4 ++ (seg5 ++ (seg6 ++ (seg7 ++ ([catOp]))))))) W (Proc.devRef .tc main_v40)
      = cat8 (W (Proc.devRef .tc main_v4))
        (W (Proc.devRef .tc main_v9))
        (T (W (Proc.devRef .tc main_arg0)) (W (Proc.devRef .tc main_arg1)) 2)
        (T (W (Proc.devRef .tc main_arg0)) (W (Proc.devRef .tc main_arg1)) 3)
        (T (W (Proc.devRef .tc main_arg0)) (W (Proc.devRef .tc main_arg1)) 4)
        (T (W (Proc.devRef .tc main_arg0)) (W (Proc.devRef .tc main_arg1)) 5)
        (T (W (Proc.devRef .tc main_arg0)) (W (Proc.devRef .tc main_arg1)) 6)
        (T (W (Proc.devRef .tc main_arg0)) (W (Proc.devRef .tc main_arg1)) 7) := by
  rw [after_append, tail3, seg2_frame W (r := main_v4) (by decide),
    seg2_frame W (r := main_v9) (by decide),
    seg2_res,
    seg2_frame W (r := main_arg0) (by decide),
    seg2_frame W (r := main_arg1) (by decide)]

/-- From stretch 1 on: tables 1 to 7 are looked up, the earlier results are read as they stand. -/
theorem tail1 (W : Valuation τ sig (Elt F)) :
    after (seg1 ++ (seg2 ++ (seg3 ++ (seg4 ++ (seg5 ++ (seg6 ++ (seg7 ++ ([catOp])))))))) W (Proc.devRef .tc main_v40)
      = cat8 (W (Proc.devRef .tc main_v4))
        (T (W (Proc.devRef .tc main_arg0)) (W (Proc.devRef .tc main_arg1)) 1)
        (T (W (Proc.devRef .tc main_arg0)) (W (Proc.devRef .tc main_arg1)) 2)
        (T (W (Proc.devRef .tc main_arg0)) (W (Proc.devRef .tc main_arg1)) 3)
        (T (W (Proc.devRef .tc main_arg0)) (W (Proc.devRef .tc main_arg1)) 4)
        (T (W (Proc.devRef .tc main_arg0)) (W (Proc.devRef .tc main_arg1)) 5)
        (T (W (Proc.devRef .tc main_arg0)) (W (Proc.devRef .tc main_arg1)) 6)
        (T (W (Proc.devRef .tc main_arg0)) (W (Proc.devRef .tc main_arg1)) 7) := by
  rw [after_append, tail2, seg1_frame W (r := main_v4) (by decide),
    seg1_res,
    seg1_frame W (r := main_arg0) (by decide),
    seg1_frame W (r := main_arg1) (by decide)]

/-- From stretch 0 on: tables 0 to 7 are looked up, the earlier results are read as they stand. -/
theorem tail0 (W : Valuation τ sig (Elt F)) :
    after (seg0 ++ (seg1 ++ (seg2 ++ (seg3 ++ (seg4 ++ (seg5 ++ (seg6 ++ (seg7 ++ ([catOp]))))))))) W (Proc.devRef .tc main_v40)
      = cat8 (T (W (Proc.devRef .tc main_arg0)) (W (Proc.devRef .tc main_arg1)) 0)
        (T (W (Proc.devRef .tc main_arg0)) (W (Proc.devRef .tc main_arg1)) 1)
        (T (W (Proc.devRef .tc main_arg0)) (W (Proc.devRef .tc main_arg1)) 2)
        (T (W (Proc.devRef .tc main_arg0)) (W (Proc.devRef .tc main_arg1)) 3)
        (T (W (Proc.devRef .tc main_arg0)) (W (Proc.devRef .tc main_arg1)) 4)
        (T (W (Proc.devRef .tc main_arg0)) (W (Proc.devRef .tc main_arg1)) 5)
        (T (W (Proc.devRef .tc main_arg0)) (W (Proc.devRef .tc main_arg1)) 6)
        (T (W (Proc.devRef .tc main_arg0)) (W (Proc.devRef .tc main_arg1)) 7) := by
  rw [after_append, tail1, seg0_res,
    seg0_frame W (r := main_arg0) (by decide),
    seg0_frame W (r := main_arg1) (by decide)]

/-! ## The concatenation at an index -/

/-- Eight arrays concatenated, read at `(b, s, j)`: array `j / 128` at column `j % 128`. -/
theorem cat8_apply (u : Fin 8 → FVec F S4x2048x128 .f32) (b : Fin 4) (s : Fin 2048) (j : Fin 1024) :
    cat8 (u 0) (u 1) (u 2) (u 3) (u 4) (u 5) (u 6) (u 7) (ix3 b s j)
      = u (Spec.tblOf j) (ix3 b s (Spec.colOf j)) := by
  unfold cat8
  exact concatenate_ofFn_apply (t := S4x2048x1024) (s₁ := S4x2048x128) 2 u
    concatenates_S4x2048x128_S4x2048x128_S4x2048x128_S4x2048x128_S4x2048x128_S4x2048x128_S4x2048x128_S4x2048x128_S4x2048x1024_d2 rfl 128 rfl (ix3 b s j) (Spec.tblOf j) rfl (ix3 b s (Spec.colOf j)) rfl
    (fun a ha => by
      match a with
      | ⟨0, _⟩ => rfl
      | ⟨1, _⟩ => rfl
      | ⟨2, _⟩ => exact absurd rfl ha)

/-! ## The value -/

/-- With every row number in range, the concatenation of the eight lookups is `Spec.G`. -/
theorem cat8_T_eq (x : IVec S4x2048x8 32) (tb : FVec F S8x100000x128 .f32) (hx : ∀ i, (x i).toNat < 100000) :
    cat8 (T x tb 0) (T x tb 1) (T x tb 2) (T x tb 3) (T x tb 4) (T x tb 5) (T x tb 6) (T x tb 7) = Spec.G x tb := by
  funext i
  obtain ⟨b, s, j, rfl⟩ : ∃ (b : Fin 4) (s : Fin 2048) (j : Fin 1024), i = ix3 b s j := ⟨i 0, i 1, i 2, eq_ix3 i⟩
  rw [cat8_apply (T x tb) b s j, Spec.G_ix3]
  -- column `k` of the row numbers is in range with them
  have hk : ∀ (k : Fin 8) (p : S4x2048.Idx), (idxAt x k p).toNat < 100000 := by
    intro k p
    obtain ⟨b', s', rfl⟩ : ∃ (b' : Fin 4) (s' : Fin 2048), p = ix2 b' s' := ⟨p 0, p 1, eq_ix2 p⟩
    rw [idxAt_apply]; exact hx _
  unfold T Spec.gAt
  rw [takeVal_apply (idxAt x (Spec.tblOf j)) (hk _) (tblAt tb (Spec.tblOf j)) b s (Spec.colOf j), tblAt_apply]
  congr 2
  refine Fin.ext ?_
  show (idxAt x (Spec.tblOf j) (ix2 b s)).toNat = (x (ix3 b s (Spec.tblOf j))).toNat % 100000
  rw [idxAt_apply, Nat.mod_eq_of_lt (hx _)]

/-- The fold of the whole line at the result buffer, with every row number in range, is `Spec.G` of the arguments. -/
theorem ops_res (W : Valuation τ sig (Elt F))
    (hx : ∀ i, ((W (Proc.devRef .tc main_arg0) : IVec S4x2048x8 32) i).toNat < 100000) :
    after ops W (Proc.devRef .tc main_v40)
      = Spec.G (W (Proc.devRef .tc main_arg0)) (W (Proc.devRef .tc main_arg1)) :=
  (tail0 W).trans (cat8_T_eq _ _ hx)

/-! ## The run -/

/-- Under the precondition every weakly fair execution of the reference terminates with the result buffer at
    `Spec.G` of the two arguments and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v40) = Cert.Proof.Spec.G (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ h c =>
      ⟨(h c main_v40).trans (ops_res (launchContents m c) (Cert.Proof.PreRange.range _ _ (hpre c))),
        (h c main_arg0).trans (ops_arg0 _),
        (h c main_arg1).trans (ops_arg1 _)⟩)
    (run_main (F := Ideal) m ρ)

end Cert.Proof.RefRun

end
-- ==== Proof.Claims.lean ====
/-
  The five conjuncts of the claim, each from the runs. The kernel side's run (`kernel_run`, from one vector subcore's
  task) is read at the word-level program and at the idealized one; the reference's is `RefRun.run`. A frame is a run
  with the result's value dropped. For the algebraic conjunct the idealized program and the reference, run from memories
  that agree on the two arguments, both end with the result at the lookup `Spec.G` of those arguments — the
  precondition of the one is the precondition of the other, the argument arrays being equal —, so the common value is
  that function. The idealization rewrote no operation, so there is nothing to preserve.
-/
import proofs.«204676_g22814866277092_cont_8to1_1488_17_alg».proof.Proof.Assemble
import proofs.«204676_g22814866277092_cont_8to1_1488_17_alg».proof.Proof.AssembleB
import proofs.«204676_g22814866277092_cont_8to1_1488_17_alg».proof.Proof.RefRun

noncomputable section

namespace Cert.Proof.Claims

open Idealize.ShloMosaic Idealize.SL.Sem

/-- The word-level program's frame, from one subcore's task there. -/
theorem frame_KB (hbody : Cert.Proof.KB.TileBody (F := Bits)) : Cert.frame_Kernel := fun m ρ hpre =>
  (θ_run (Cert.Kernel.defs (F := Bits)) _ _).mono (fun _ h c => (h c).2) (Cert.Proof.KB.kernel_run hbody m ρ hpre)

/-- The idealized program's frame, from one subcore's task there. -/
theorem frame_KI (hbody : Cert.Proof.KI.TileBody (F := Ideal)) : Cert.frame_KernelIdeal := fun m ρ hpre =>
  (θ_run (Cert.KernelIdeal.defs (F := Ideal)) _ _).mono (fun _ h c => (h c).2) (Cert.Proof.KI.kernel_run hbody m ρ hpre)

/-- The reference's frame. -/
theorem frame_R : Cert.frame_ReferenceIdeal := fun m ρ hpre =>
  (θ_run (Cert.ReferenceIdeal.defs (F := Ideal)) _ _).mono (fun _ h c => (h c).2) (Cert.Proof.RefRun.run m ρ hpre)

/-- The idealization rewrote no operation. -/
theorem preserves : Cert.preserves_Kernel_KernelIdeal := trivial

/-- From memories agreeing on the arguments both programs end with the result at the lookup of those arguments. -/
theorem algebraic (hbody : Cert.Proof.KI.TileBody (F := Ideal)) : Cert.algebraic_KernelIdeal_ReferenceIdeal := by
  intro m ρ m' ρ' hpre hagree
  refine ⟨fun c => Cert.Proof.Spec.G (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Proof.KI.kernel_run hbody m ρ hpre, ?_⟩
  have hpre' : Cert.Pre_ReferenceIdeal m' := fun c => by
    have h := hpre c
    rw [← (hagree c).1, ← (hagree c).2] at h
    exact h
  refine (θ_run (Cert.ReferenceIdeal.defs (F := Ideal)) _ _).mono (fun _ h c => ⟨(h c).1.trans ?_, (h c).2⟩)
    (Cert.Proof.RefRun.run m' ρ' hpre')
  rw [(hagree c).1, (hagree c).2]

end Cert.Proof.Claims

end
-- ==== Proof.TileRes.lean ====
/-
  Bookkeeping for one vector subcore: a big separating conjunction over sixteen indices written out; a thread's own
  semaphores and buffers taken out of the family the launch hands it, by a list of distinct members; the table's read
  share cut into six read tokens (one per gather that can be outstanding) and a remainder; and the subcore's sixteen
  output blocks in the spelling the program slices them in: block `k` starts at row `4096·(L 1) + 2048·(L 0) + 128·k`,
  which is block `16·(2·(L 1) + (L 0)) + k` of the 512.
-/
import proofs.«204676_g22814866277092_cont_8to1_1488_17_alg».proof.Proof.TileIface

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S4x128x128 EltTy.i32)
local notation "tV" => (Memref.whole Cert.KernelIdeal.main_v4_scv : Memref Cert.KernelIdeal.sig Kind.scVector Space.hbm Cert.KernelIdeal.S800000x128 EltTy.f32)
local notation "oV" => (Memref.whole Cert.KernelIdeal.main_v5_scv : Memref Cert.KernelIdeal.sig Kind.scVector Space.hbm Cert.KernelIdeal.S65536x128 EltTy.f32)
local notation "q0" => (Memref.whole Cert.KernelIdeal.cc0_scratch0 : Memref Cert.KernelIdeal.sig Kind.scVector Space.vmem Cert.KernelIdeal.S16x128 EltTy.i32)
local notation "q1" => (Memref.whole Cert.KernelIdeal.cc0_scratch1 : Memref Cert.KernelIdeal.sig Kind.scVector Space.vmem Cert.KernelIdeal.S16x128 EltTy.i32)
local notation "q2" => (Memref.whole Cert.KernelIdeal.cc0_scratch2 : Memref Cert.KernelIdeal.sig Kind.scVector Space.vmem Cert.KernelIdeal.S128x128 EltTy.f32)
local notation "q3" => (Memref.whole Cert.KernelIdeal.cc0_scratch3 : Memref Cert.KernelIdeal.sig Kind.scVector Space.vmem Cert.KernelIdeal.S128x128 EltTy.f32)
local notation "q4" => (Memref.whole Cert.KernelIdeal.cc0_scratch4 : Memref Cert.KernelIdeal.sig Kind.scVector Space.vmem Cert.KernelIdeal.S128x128 EltTy.f32)
local notation "q5" => (Memref.whole Cert.KernelIdeal.cc0_scratch5 : Memref Cert.KernelIdeal.sig Kind.scVector Space.vmem Cert.KernelIdeal.S128x128 EltTy.f32)
local notation "q6" => (Memref.whole Cert.KernelIdeal.cc0_scratch6 : Memref Cert.KernelIdeal.sig Kind.scVector Space.vmem Cert.KernelIdeal.S128x128 EltTy.f32)
local notation "q7" => (Memref.whole Cert.KernelIdeal.cc0_scratch7 : Memref Cert.KernelIdeal.sig Kind.scVector Space.vmem Cert.KernelIdeal.S128x128 EltTy.f32)

/-! ## Sixteen conjuncts -/

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## Members of a family, by a list -/

/-- A conjunction over a finite set with the members a duplicate-free list names taken out in front. -/
theorem bigSep_take {I : Type} [DecidableEq I] (Φ : I → sProp 𝕄) :
    ∀ (l : List I) (s : Finset I), l.Nodup → (∀ i ∈ l, i ∈ s) →
      bigSep s Φ = l.foldr (fun i acc => iprop(Φ i ∗ acc)) (bigSep (l.foldl Finset.erase s) Φ)
  | [], s, _, _ => rfl
  | i :: l, s, hn, hm => by
    have hi : i ∈ s := hm i List.mem_cons_self
    have hn' := List.nodup_cons.mp hn
    rw [SparseCore.bigSep_erase' hi, List.foldr_cons, List.foldl_cons,
      bigSep_take Φ l (s.erase i) hn'.2 fun j hj =>
        Finset.mem_erase.mpr ⟨fun e => hn'.1 (e ▸ hj), hm j (List.mem_cons_of_mem _ hj)⟩]

/-- The DMA semaphores the kernel names, in the order of its operands. -/
def ownSemList : List (SemLoc sig) :=
  [SemLoc.dma cc0_scratch8.sem, SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scratch18.sem, SemLoc.dma cc0_scratch19.sem, SemLoc.dma cc0_scoped0.sem]

/-- The scratch buffers the kernel names. -/
def ownBufList : List (Ref sig .scVector) :=
  [cc0_scratch0, cc0_scratch1, cc0_scratch2, cc0_scratch3, cc0_scratch4, cc0_scratch5, cc0_scratch6, cc0_scratch7]

theorem ownSemList_nodup : ownSemList.Nodup := by decide
theorem ownBufList_nodup : ownBufList.Nodup := by decide
theorem ownSemList_scoped : ∀ sm ∈ ownSemList, (sm : SemLoc sig).isScoped .scVector = true := by decide

abbrev cellsOf (d : Dev nD) (c : Fin τ.nSC) (i : Fin τ.nSub) : List (GSem nD τ sig) := ownSemList.map fun sm => (V d c i, sm)
abbrev refsOf (c : Fin τ.nSC) (i : Fin τ.nSub) : List (DevRef τ sig) := ownBufList.map fun b => (Proc.scVector c i).devRef b

theorem ownSems0_split (d : Dev nD) (c : Fin τ.nSC) (i : Fin τ.nSub) :
    (ownSems0 (V d c i) : sProp 𝕄)
      = (cellsOf d c i).foldr (fun g acc => iprop(semVal g 0 ∗ acc))
          (bigSep ((cellsOf d c i).foldl Finset.erase (ownCells (V d c i))) fun g => semVal g 0) := by
  unfold SparseCore.Cfg.ownSems0
  refine bigSep_take _ _ _ ?_ ?_
  · exact List.Nodup.map (fun a b e => (Prod.mk.inj e).2) ownSemList_nodup
  · intro g hg
    obtain ⟨sm, hsm, rfl⟩ := List.mem_map.mp hg
    exact mem_ownCells.mpr ⟨rfl, ownSemList_scoped sm hsm⟩

theorem ownBufs_split (d : Dev nD) (c : Fin τ.nSC) (i : Fin τ.nSub) :
    (ownBufs (V d c i) : sProp 𝕄)
      = (refsOf c i).foldr (fun b acc => iprop((∃ f, ((d, b) : Loc nD τ sig) ↦{fullShare} f) ∗ acc))
          (bigSep ((refsOf c i).foldl Finset.erase (ownRefs (τ := τ) (.scVector c i))) fun b => iprop(∃ f, ((d, b) : Loc nD τ sig) ↦{fullShare} f)) := by
  unfold SparseCore.Cfg.ownBufs
  refine bigSep_take _ _ _ ?_ ?_
  · exact List.Nodup.map (Proc.devRef_injective _) ownBufList_nodup
  · intro b hb
    obtain ⟨r, hr, rfl⟩ := List.mem_map.mp hb
    simp only [ownBufList, List.mem_cons, List.not_mem_nil, or_false] at hr
    rcases hr with rfl | rfl | rfl | rfl | rfl | rfl | rfl | rfl <;> exact SparseCore.Cfg.mem_ownRefs_of_owner rfl

/-! ## The table's read tokens -/

section Tokens
variable {ℓ : Loc nD τ sig} {S : Finset (Idx ℓ)} {f : Buf (Elt F) ℓ}

theorem tok_step (q : PosShare TreeShare) (k : ℕ) :
    (ℓ ↦[S]{Transfers.shareDrop q k} f : sProp 𝕄) ⊣⊢ iprop((ℓ ↦[S]{Transfers.shareDrop q (k + 1)} f) ∗ ℓ ↦[S]{Transfers.shareTokN q k} f) :=
  pointsTo_share (PosShare.mem_left_op_right _)

theorem tok_step0 (q : PosShare TreeShare) :
    (ℓ ↦[S]{q} f : sProp 𝕄) ⊣⊢ iprop((ℓ ↦[S]{Transfers.shareDrop q 1} f) ∗ ℓ ↦[S]{Transfers.shareTokN q 0} f) :=
  tok_step q 0

/-- A read share as six read tokens and what remains. -/
theorem toks6 (q : PosShare TreeShare) :
    (ℓ ↦[S]{q} f : sProp 𝕄) ⊣⊢ iprop((ℓ ↦[S]{Transfers.shareDrop q 6} f) ∗ (ℓ ↦[S]{Transfers.shareTokN q 0} f) ∗ (ℓ ↦[S]{Transfers.shareTokN q 1} f)
      ∗ (ℓ ↦[S]{Transfers.shareTokN q 2} f) ∗ (ℓ ↦[S]{Transfers.shareTokN q 3} f) ∗ (ℓ ↦[S]{Transfers.shareTokN q 4} f) ∗ (ℓ ↦[S]{Transfers.shareTokN q 5} f)) := by
  constructor
  · iintro H
    ihave H := (tok_step0 (F := F) (S := S) (f := f) q).1 $$ H; icases H with ⟨H, T0⟩
    ihave H := (tok_step (F := F) (S := S) (f := f) q 1).1 $$ H; icases H with ⟨H, T1⟩
    ihave H := (tok_step (F := F) (S := S) (f := f) q 2).1 $$ H; icases H with ⟨H, T2⟩
    ihave H := (tok_step (F := F) (S := S) (f := f) q 3).1 $$ H; icases H with ⟨H, T3⟩
    ihave H := (tok_step (F := F) (S := S) (f := f) q 4).1 $$ H; icases H with ⟨H, T4⟩
    ihave H := (tok_step (F := F) (S := S) (f := f) q 5).1 $$ H; icases H with ⟨H, T5⟩
    isplitl [H]; · iexact H
    isplitl [T0]; · iexact T0
    isplitl [T1]; · iexact T1
    isplitl [T2]; · iexact T2
    isplitl [T3]; · iexact T3
    isplitl [T4]; · iexact T4
    iexact T5
  · iintro ⟨H, T0, T1, T2, T3, T4, T5⟩
    ihave H := (tok_step (F := F) (S := S) (f := f) q 5).2 $$ [H T5]; · isplitl [H] <;> iassumption
    ihave H := (tok_step (F := F) (S := S) (f := f) q 4).2 $$ [H T4]; · isplitl [H] <;> iassumption
    ihave H := (tok_step (F := F) (S := S) (f := f) q 3).2 $$ [H T3]; · isplitl [H] <;> iassumption
    ihave H := (tok_step (F := F) (S := S) (f := f) q 2).2 $$ [H T2]; · isplitl [H] <;> iassumption
    ihave H := (tok_step (F := F) (S := S) (f := f) q 1).2 $$ [H T1]; · isplitl [H] <;> iassumption
    ihave H := (tok_step0 (F := F) (S := S) (f := f) q).2 $$ [H T0]; · isplitl [H] <;> iassumption
    iexact H
end Tokens

/-! ## The output blocks as the program slices them -/

/-- The rectangle of 128 rows at row `4096·(L 1) + 2048·(L 0) + 128·k` is block `k` of the subcore at `L`. -/
theorem chunk_rect (L : grid0.Coords) (k : Fin 16) (off : Fin 2 → Nat) (h : ∀ a, off a + S128x128.size a ≤ S65536x128.size a)
    (e : off = ![4096 * (L 1).val + 2048 * (L 0).val + 128 * k.val, 0]) :
    Rect.unit (s := S65536x128) off S128x128.size h = oRect (chunkIx L k) := by
  subst e
  unfold oRect Rect.part Rect.block
  congr 1 <;> funext a
  · match a with
    | 0 => simp [Shape.partIx, Shape.partSize, chunkIx]; omega
    | 1 => simp [Shape.partIx, Shape.partSize]
  · match a with
    | 0 => simp [Shape.partSize]
    | 1 => simp [Shape.partSize]

end Cert.Proof.KI

end
-- ==== Proof.IdxBound.lean ====
/-
  Every word of one row of a subcore's list buffer is a row number of the stacked table. A row is written by
  eight stores of sixteen lanes; each stored word is a word of the index buffer, below 100000, plus a lane
  offset, a multiple of 100000 that is at most 700000; a word of the row lies under one of the eight stores, and what
  is read there is what the last store covering it wrote.
-/
import proofs.«204676_g22814866277092_cont_8to1_1488_17_alg».proof.Proof.TileIface
import Idealize.ShloMosaic.Lib.Writes

noncomputable section

namespace Cert.Proof.KI

open Cert.KernelIdeal Cert.KernelIdeal.Gen

open Idealize.ShloMosaic
open Idealize.ShloMosaic.SparseCore (S V T)

local notation "q0" => (Memref.whole Cert.KernelIdeal.cc0_scratch0 : Memref Cert.KernelIdeal.sig Kind.scVector Space.vmem Cert.KernelIdeal.S16x128 EltTy.i32)
local notation "q1" => (Memref.whole Cert.KernelIdeal.cc0_scratch1 : Memref Cert.KernelIdeal.sig Kind.scVector Space.vmem Cert.KernelIdeal.S16x128 EltTy.i32)

/-! ## The lane offsets

Lanes 0–7 of the four offset vectors hold `2m·100000` and lanes 8–15 `(2m + 1)·100000`, `m = 0, 1, 2, 3`: whichever
way the lane test falls, the word is at most 700000. -/

theorem pay7_le (y : S16.Idx) : (k0_pay7 y).toNat ≤ 700000 := by
  show (IntOp.muli (IntOp.addi (Scalar.select (IntOp.cmpi .slt _ 8#32) 0#32 1#32) 0#32) 100000#32).toNat ≤ 700000
  unfold Scalar.select
  split <;> decide

theorem pay8_le (y : S16.Idx) : (k0_pay8 y).toNat ≤ 700000 := by
  show (IntOp.muli (IntOp.addi (Scalar.select (IntOp.cmpi .slt _ 8#32) 0#32 1#32) 2#32) 100000#32).toNat ≤ 700000
  unfold Scalar.select
  split <;> decide

theorem pay9_le (y : S16.Idx) : (k0_pay9 y).toNat ≤ 700000 := by
  show (IntOp.muli (IntOp.addi (Scalar.select (IntOp.cmpi .slt _ 8#32) 0#32 1#32) 4#32) 100000#32).toNat ≤ 700000
  unfold Scalar.select
  split <;> decide

theorem pay10_le (y : S16.Idx) : (k0_pay10 y).toNat ≤ 700000 := by
  show (IntOp.muli (IntOp.addi (Scalar.select (IntOp.cmpi .slt _ 8#32) 0#32 1#32) 6#32) 100000#32).toNat ≤ 700000
  unfold Scalar.select
  split <;> decide

/-! ## A list of stores, read where one of the first few covers -/

/-- After the stores `L ++ Lt` (last store first), an element that some store of `L` covers holds a word of a store of
    `L`: whatever holds of every word the stores of `L` write holds of what is read there. -/
theorem read_writes_pred {sig : RefSig} {κ : Kind} {sp : Space} {s : Shape} {e : EltTy} {Val : EltTy → Type}
    (v : View sig κ sp s e) (f : v.ty.Contents Val) (P : Val e → Prop) (y : s.Idx) (Lt : List (View.Piece Val s e)) :
    ∀ L : List (View.Piece Val s e), (∀ p ∈ L, ∀ x : p.1.shape.Idx, P (p.2 x)) → (∃ p ∈ L, y ∈ p.1.set) →
      P (v.read Val (v.writes Val f (L ++ Lt)) y)
  | [], _, h => by obtain ⟨_, hm, _⟩ := h; exact absurd hm List.not_mem_nil
  | p :: L, hP, h => by
    by_cases hy : y ∈ p.1.set
    · obtain ⟨x, rfl⟩ : ∃ x, p.1.emb x = y := p.1.exists_idx_of_mem hy
      obtain ⟨r, w⟩ := p
      rw [List.cons_append, View.read_writes_cons_emb]
      exact hP ⟨r, w⟩ List.mem_cons_self x
    · have hy' : y ∉ Finset.univ.map p.1.emb := by rwa [Rect.map_emb_univ]
      rw [List.cons_append, View.writes_cons, View.read_slice_write_of_not_mem p.1 _ _ _ hy']
      refine read_writes_pred v f P y Lt L (fun p' hp' => hP p' (List.mem_cons_of_mem _ hp')) ?_
      obtain ⟨p', hm, hy''⟩ := h
      rcases List.mem_cons.mp hm with rfl | hm
      · exact absurd hy'' hy
      · exact ⟨p', hm, hy''⟩

/-! ## One row of the list buffer -/

/-- A word read through the window "row `c`, viewed as 128 lanes" is the buffer's word at `(c, lane)`. -/
theorem read_row_window {Val : EltTy → Type} (r : Rect S16x128) (hs : ∀ a, r.stride a = 1) (hq : r.shape.Squeezes S128)
    (W : (q1).view.ty.Contents Val) (x : S128.Idx) :
    View.read Val (((q1).slice r hs).squeeze S128 hq).view W x
      = View.read Val (q1).view W (r.emb (Shape.reshapeEquiv hq.numel_eq x)) := by
  rw [View.read_apply, View.read_apply]; rfl

/-- Membership in a sixteen-lane store of row `c` at lane offset `o`. -/
theorem mem_row_piece (c o : Nat) (kk : ∀ a, (![c, o] : Fin 2 → Nat) a + S1x16.size a ≤ S16x128.size a) (y : S16x128.Idx)
    (h0 : (y 0).val = c) (h1 : o ≤ (y 1).val) (h2 : (y 1).val < o + 16) :
    y ∈ (Rect.unit (s := S16x128) ![c, o] S1x16.size kk).set := by
  refine Rect.mem_set_unit.mpr fun a => ?_
  match a with
  | ⟨0, _⟩ => show c ≤ (y 0).val ∧ (y 0).val < c + 1; omega
  | ⟨1, _⟩ => show o ≤ (y 1).val ∧ (y 1).val < o + 16; omega

/-- A stored word: a word of the index buffer plus a lane offset, a sum that does not wrap and stays below 800000. -/
theorem piece_word_lt {F : FTy → Type} (RD : Vec F S16x128 .i32) (hRD : ∀ j, (RD j).toNat < 100000) (Rk Ck : IVec S16 32)
    (hk : ∀ a x, ((![Rk, Ck] : Fin 2 → IVec S16 32) a x).toNat < S16x128.size a) (OFF : IVec S16 32)
    (hOFF : ∀ y, (OFF y).toNat ≤ 700000) (ek : S16.ShapeCasts S1x16) (x : S1x16.Idx) :
    (shapeCast S1x16 (addi (loadIdx RD ![Rk, Ck] hk) OFF) ek x).toNat < 800000 := by
  have h1 := hRD (idxAt ![Rk, Ck] hk (Shape.reshapeEquiv ek x))
  have h2 := hOFF (Shape.reshapeEquiv ek x)
  show (RD (idxAt ![Rk, Ck] hk (Shape.reshapeEquiv ek x)) + OFF (Shape.reshapeEquiv ek x)).toNat < 800000
  rw [BitVec.toNat_add]
  omega

/-- Every word of row `c` of the list buffer, after the row's eight stores (over whatever was stored before), is below
    800000: a row number of the stacked table. -/
theorem hin_row {F : FTy → Type} [FloatOps F] (d : Dev nD) (L : grid0.Coords)
    (f0 : Buf (Elt F) ((V d (cV L) (jV L)).loc cc0_scratch0)) (hf0 : ∀ j, (f0 j).toNat < 100000)
    (c : Nat) (hr : ∀ a, (![c, 0] : Fin 2 → Nat) a + S1x128.size a ≤ S16x128.size a)
    (hs : ∀ a, (Rect.unit (s := S16x128) ![c, 0] S1x128.size hr).stride a = 1)
    (hq : (Rect.unit (s := S16x128) ![c, 0] S1x128.size hr).shape.Squeezes S128)
    (g : Buf (Elt F) ((V d (cV L) (jV L)).loc cc0_scratch1)) (Lt : List (View.Piece (Elt F) S16x128 .i32))
    (R0 C0 R1 C1 R2 C2 R3 C3 R4 C4 R5 C5 R6 C6 R7 C7 : IVec S16 32)
    (h0 : ∀ a x, ((![R0, C0] : Fin 2 → IVec S16 32) a x).toNat < S16x128.size a)
    (h1 : ∀ a x, ((![R1, C1] : Fin 2 → IVec S16 32) a x).toNat < S16x128.size a)
    (h2 : ∀ a x, ((![R2, C2] : Fin 2 → IVec S16 32) a x).toNat < S16x128.size a)
    (h3 : ∀ a x, ((![R3, C3] : Fin 2 → IVec S16 32) a x).toNat < S16x128.size a)
    (h4 : ∀ a x, ((![R4, C4] : Fin 2 → IVec S16 32) a x).toNat < S16x128.size a)
    (h5 : ∀ a x, ((![R5, C5] : Fin 2 → IVec S16 32) a x).toNat < S16x128.size a)
    (h6 : ∀ a x, ((![R6, C6] : Fin 2 → IVec S16 32) a x).toNat < S16x128.size a)
    (h7 : ∀ a x, ((![R7, C7] : Fin 2 → IVec S16 32) a x).toNat < S16x128.size a)
    (k0 : ∀ a, (![c, 0] : Fin 2 → Nat) a + S1x16.size a ≤ S16x128.size a)
    (k1 : ∀ a, (![c, 16] : Fin 2 → Nat) a + S1x16.size a ≤ S16x128.size a)
    (k2 : ∀ a, (![c, 32] : Fin 2 → Nat) a + S1x16.size a ≤ S16x128.size a)
    (k3 : ∀ a, (![c, 48] : Fin 2 → Nat) a + S1x16.size a ≤ S16x128.size a)
    (k4 : ∀ a, (![c, 64] : Fin 2 → Nat) a + S1x16.size a ≤ S16x128.size a)
    (k5 : ∀ a, (![c, 80] : Fin 2 → Nat) a + S1x16.size a ≤ S16x128.size a)
    (k6 : ∀ a, (![c, 96] : Fin 2 → Nat) a + S1x16.size a ≤ S16x128.size a)
    (k7 : ∀ a, (![c, 112] : Fin 2 → Nat) a + S1x16.size a ≤ S16x128.size a)
    (e0 e1 e2 e3 e4 e5 e6 e7 : S16.ShapeCasts S1x16) :
    ∀ x, (View.read (Elt F) (((q1).slice (Rect.unit (s := S16x128) ![c, 0] S1x128.size hr) hs).squeeze S128 hq).view
        ((q1).view.writes (Elt F) g
          (⟨Rect.unit (s := S16x128) ![c, 112] S1x16.size k7, shapeCast S1x16 (addi (loadIdx (View.read (Elt F) ((q0).access (Rect.whole S16x128)) f0) ![R7, C7] h7) k0_pay10) e7⟩ ::
           ⟨Rect.unit (s := S16x128) ![c, 96] S1x16.size k6, shapeCast S1x16 (addi (loadIdx (View.read (Elt F) ((q0).access (Rect.whole S16x128)) f0) ![R6, C6] h6) k0_pay9) e6⟩ ::
           ⟨Rect.unit (s := S16x128) ![c, 80] S1x16.size k5, shapeCast S1x16 (addi (loadIdx (View.read (Elt F) ((q0).access (Rect.whole S16x128)) f0) ![R5, C5] h5) k0_pay8) e5⟩ ::
           ⟨Rect.unit (s := S16x128) ![c, 64] S1x16.size k4, shapeCast S1x16 (addi (loadIdx (View.read (Elt F) ((q0).access (Rect.whole S16x128)) f0) ![R4, C4] h4) k0_pay7) e4⟩ ::
           ⟨Rect.unit (s := S16x128) ![c, 48] S1x16.size k3, shapeCast S1x16 (addi (loadIdx (View.read (Elt F) ((q0).access (Rect.whole S16x128)) f0) ![R3, C3] h3) k0_pay10) e3⟩ ::
           ⟨Rect.unit (s := S16x128) ![c, 32] S1x16.size k2, shapeCast S1x16 (addi (loadIdx (View.read (Elt F) ((q0).access (Rect.whole S16x128)) f0) ![R2, C2] h2) k0_pay9) e2⟩ ::
           ⟨Rect.unit (s := S16x128) ![c, 16] S1x16.size k1, shapeCast S1x16 (addi (loadIdx (View.read (Elt F) ((q0).access (Rect.whole S16x128)) f0) ![R1, C1] h1) k0_pay8) e1⟩ ::
           ⟨Rect.unit (s := S16x128) ![c, 0] S1x16.size k0, shapeCast S1x16 (addi (loadIdx (View.read (Elt F) ((q0).access (Rect.whole S16x128)) f0) ![R0, C0] h0) k0_pay7) e0⟩ :: Lt)) x).toNat < 800000 := by
  intro x
  have hRD : ∀ j, (View.read (Elt F) ((q0).access (Rect.whole S16x128)) f0 j).toNat < 100000 := by
    intro j
    rw [View.read_apply]
    exact hf0 _
  rw [read_row_window]
  -- the word's place in the buffer: row c, lane x 0
  have hx0 : (x 0).val < 128 := (x 0).isLt
  obtain ⟨y, hy, hy0, hy1⟩ : ∃ y : S16x128.Idx,
      (Rect.unit (s := S16x128) ![c, 0] S1x128.size hr).emb (Shape.reshapeEquiv hq.numel_eq x) = y ∧ (y 0).val = c ∧ (y 1).val = (x 0).val := by
    refine ⟨_, rfl, ?_, ?_⟩
    · have hz0 : ((Shape.reshapeEquiv hq.numel_eq x) 0).val < 1 := ((Shape.reshapeEquiv hq.numel_eq x) 0).isLt
      show c + 1 * ((Shape.reshapeEquiv hq.numel_eq x) 0).val = c
      omega
    · have hz0 : ((Shape.reshapeEquiv hq.numel_eq x) 0).val < 1 := ((Shape.reshapeEquiv hq.numel_eq x) 0).isLt
      have hz := Shape.rowMajor_reshapeEquiv hq.numel_eq x
      rw [Shape.rowMajor_val_two, Shape.rowMajor_val_one] at hz
      have hz' : ((Shape.reshapeEquiv hq.numel_eq x) 0).val * 128 + ((Shape.reshapeEquiv hq.numel_eq x) 1).val = (x 0).val := hz
      show 0 + 1 * ((Shape.reshapeEquiv hq.numel_eq x) 1).val = (x 0).val
      omega
  rw [hy]
  refine read_writes_pred (q1).view g (fun w : Elt F .i32 => BitVec.toNat w < 800000) y Lt [_, _, _, _, _, _, _, _] ?_ ?_
  · -- every word the eight stores write is below 800000
    intro p hp
    simp only [List.mem_cons, List.not_mem_nil, or_false] at hp
    rcases hp with rfl | rfl | rfl | rfl | rfl | rfl | rfl | rfl
    · exact fun z => piece_word_lt _ hRD R7 C7 h7 k0_pay10 pay10_le e7 z
    · exact fun z => piece_word_lt _ hRD R6 C6 h6 k0_pay9 pay9_le e6 z
    · exact fun z => piece_word_lt _ hRD R5 C5 h5 k0_pay8 pay8_le e5 z
    · exact fun z => piece_word_lt _ hRD R4 C4 h4 k0_pay7 pay7_le e4 z
    · exact fun z => piece_word_lt _ hRD R3 C3 h3 k0_pay10 pay10_le e3 z
    · exact fun z => piece_word_lt _ hRD R2 C2 h2 k0_pay9 pay9_le e2 z
    · exact fun z => piece_word_lt _ hRD R1 C1 h1 k0_pay8 pay8_le e1 z
    · exact fun z => piece_word_lt _ hRD R0 C0 h0 k0_pay7 pay7_le e0 z
  · -- lane x 0 lies under store (x 0) / 16
    by_cases c7 : 112 ≤ (x 0).val
    · exact ⟨_, List.mem_cons_self, mem_row_piece c 112 k7 y hy0 (by omega) (by omega)⟩
    by_cases c6 : 96 ≤ (x 0).val
    · exact ⟨_, List.mem_cons_of_mem _ List.mem_cons_self, mem_row_piece c 96 k6 y hy0 (by omega) (by omega)⟩
    by_cases c5 : 80 ≤ (x 0).val
    · exact ⟨_, List.mem_cons_of_mem _ (List.mem_cons_of_mem _ List.mem_cons_self), mem_row_piece c 80 k5 y hy0 (by omega) (by omega)⟩
    by_cases c4 : 64 ≤ (x 0).val
    · exact ⟨_, List.mem_cons_of_mem _ (List.mem_cons_of_mem _ (List.mem_cons_of_mem _ List.mem_cons_self)),
        mem_row_piece c 64 k4 y hy0 (by omega) (by omega)⟩
    by_cases c3 : 48 ≤ (x 0).val
    · exact ⟨_, List.mem_cons_of_mem _ (List.mem_cons_of_mem _ (List.mem_cons_of_mem _ (List.mem_cons_of_mem _ List.mem_cons_self))),
        mem_row_piece c 48 k3 y hy0 (by omega) (by omega)⟩
    by_cases c2 : 32 ≤ (x 0).val
    · exact ⟨_, List.mem_cons_of_mem _ (List.mem_cons_of_mem _ (List.mem_cons_of_mem _ (List.mem_cons_of_mem _
          (List.mem_cons_of_mem _ List.mem_cons_self)))),
        mem_row_piece c 32 k2 y hy0 (by omega) (by omega)⟩
    by_cases c1 : 16 ≤ (x 0).val
    · exact ⟨_, List.mem_cons_of_mem _ (List.mem_cons_of_mem _ (List.mem_cons_of_mem _ (List.mem_cons_of_mem _
          (List.mem_cons_of_mem _ (List.mem_cons_of_mem _ List.mem_cons_self))))),
        mem_row_piece c 16 k1 y hy0 (by omega) (by omega)⟩
    · exact ⟨_, List.mem_cons_of_mem _ (List.mem_cons_of_mem _ (List.mem_cons_of_mem _ (List.mem_cons_of_mem _
          (List.mem_cons_of_mem _ (List.mem_cons_of_mem _ (List.mem_cons_of_mem _ List.mem_cons_self)))))),
        mem_row_piece c 0 k0 y hy0 (by omega) (by omega)⟩

end Cert.Proof.KI

end
-- ==== Proof.IdxValue.lean ====
/-
  The subcore's list of row numbers, as values. The subcore at SparseCore `L 0`, tile `L 1`, number
  `w = 2·(L 1) + (L 0)`, copies rows `[16·(w % 8), 16·(w % 8) + 16)` of plane `w / 8` of the re-laid index array
  into its first scratch buffer, and fills its second, `[16, 128]`, sixteen lanes at a time: at chunk `c`, lanes
  `[16·k, 16·k + 16)`, with `G = 8·c + k`, lane `ℓ` gets the copied word at row `ℓ / 8 + 2·(G % 4) + 8·(G / 64)`,
  column `ℓ % 8 + 8·((G / 4) % 16)`, plus `100000·(ℓ / 8 + 2·(G % 4))`. The word at `(c, p)` is the row number of the
  stacked table for output row `2048·w + 128·c + p` (`KSpec.idxWord`): here the arithmetic that says so, piece by
  piece, and what a window of the filled buffer reads.
-/
import proofs.«204676_g22814866277092_cont_8to1_1488_17_alg».proof.Proof.TileIface
import Idealize.ShloMosaic.Lib.Writes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.ValueIdx

variable {F : FTy → Type}

local notation "xV" => (Memref.whole Cert.KernelIdeal.main_v3_scv : Memref Cert.KernelIdeal.sig Kind.scVector Space.hbm Cert.KernelIdeal.S4x128x128 EltTy.i32)
local notation "q0" => (Memref.whole Cert.KernelIdeal.cc0_scratch0 : Memref Cert.KernelIdeal.sig Kind.scVector Space.vmem Cert.KernelIdeal.S16x128 EltTy.i32)
local notation "q1" => (Memref.whole Cert.KernelIdeal.cc0_scratch1 : Memref Cert.KernelIdeal.sig Kind.scVector Space.vmem Cert.KernelIdeal.S16x128 EltTy.i32)

/-! ## The subcore's number and its rows -/

/-- The subcore's number: two per tile index, the SparseCore the low bit. -/
def wOf (L : grid0.Coords) : Nat := 2 * (L 1).val + (L 0).val

theorem wOf_lt (L : grid0.Coords) : wOf L < 32 := by
  have h0 : (L 0).val < 2 := (L 0).isLt
  have h1 : (L 1).val < 16 := (L 1).isLt
  unfold wOf; omega

/-- Where the subcore's rows of the index array start: plane `w / 8`, row `16·(w % 8)`. -/
theorem k0_off1_eq : ∀ i : grid0.Coords, k0_off1 i = ![(2 * (i 1).val + (i 0).val) / 8, ((2 * (i 1).val + (i 0).val) % 8) * 16, 0] := by
  decide +kernel

/-- The output row of the list's word at `(c, p)`. -/
def listRow (L : grid0.Coords) (c : Fin 16) (p : Fin 128) : Fin 65536 :=
  ⟨2048 * wOf L + 128 * c.val + p.val, by have := wOf_lt L; have := c.isLt; have := p.isLt; omega⟩

/-- The list the subcore builds: at `(c, p)` the row number of the stacked table for its output row `128·c + p`. -/
def listW (XV : IVec S4x128x128 32) (L : grid0.Coords) : S16x128.Idx → BitVec 32 :=
  fun i => Cert.Proof.KSpec.idxWord XV (listRow L (i 0) (i 1))

theorem listW_ix2 (XV : IVec S4x128x128 32) (L : grid0.Coords) (c : Fin 16) (p : Fin 128) :
    listW XV L (ix2 c p) = Cert.Proof.KSpec.idxWord XV (listRow L c p) := rfl

/-- A list word as a number: the index array's entry plus 100000 times the table. -/
theorem idxWord_toNat (XV : IVec S4x128x128 32) (hx : ∀ j, (XV j).toNat < 100000) (R : Fin 65536) :
    (Cert.Proof.KSpec.idxWord XV R).toNat
      = (XV (ix3 (Cert.Proof.KSpec.xvB R) (Cert.Proof.KSpec.xvR R) (Cert.Proof.KSpec.xvL R))).toNat + Cert.Proof.KSpec.tOf R * 100000 := by
  unfold Cert.Proof.KSpec.idxWord
  have h1 := hx (ix3 (Cert.Proof.KSpec.xvB R) (Cert.Proof.KSpec.xvR R) (Cert.Proof.KSpec.xvL R))
  have h2 := Cert.Proof.KSpec.tOf_lt R
  rw [BitVec.toNat_add, BitVec.toNat_ofNat]
  have h3 : Cert.Proof.KSpec.tOf R * 100000 % 2 ^ 32 = Cert.Proof.KSpec.tOf R * 100000 := Nat.mod_eq_of_lt (by omega)
  rw [h3]
  exact Nat.mod_eq_of_lt (by omega)

theorem listW_toNat (XV : IVec S4x128x128 32) (L : grid0.Coords) (hx : ∀ j, (XV j).toNat < 100000) (i : S16x128.Idx) :
    (listW XV L i).toNat
      = (XV (ix3 (Cert.Proof.KSpec.xvB (listRow L (i 0) (i 1))) (Cert.Proof.KSpec.xvR (listRow L (i 0) (i 1)))
            (Cert.Proof.KSpec.xvL (listRow L (i 0) (i 1))))).toNat
        + Cert.Proof.KSpec.tOf (listRow L (i 0) (i 1)) * 100000 :=
  idxWord_toNat XV hx _

/-- No wrap: a list word is below 800000. -/
theorem listW_lt (XV : IVec S4x128x128 32) (L : grid0.Coords) (hx : ∀ j, (XV j).toNat < 100000) (i : S16x128.Idx) :
    (listW XV L i).toNat < 800000 := by
  rw [listW_toNat XV L hx i]
  have h1 := hx (ix3 (Cert.Proof.KSpec.xvB (listRow L (i 0) (i 1))) (Cert.Proof.KSpec.xvR (listRow L (i 0) (i 1)))
            (Cert.Proof.KSpec.xvL (listRow L (i 0) (i 1))))
  have h2 := Cert.Proof.KSpec.tOf_lt (listRow L (i 0) (i 1))
  omega

/-! ## A list of stores that agree with one function -/

/-- Every store of the list writes, at each of its own indices, `W` at the place it lands. -/
def AllW (W : S16x128.Idx → BitVec 32) (Lst : List (View.Piece (Elt F) S16x128 .i32)) : Prop :=
  ∀ p ∈ Lst, ∀ x : p.1.shape.Idx, p.2 x = W (p.1.emb x)

theorem allW_nil (W : S16x128.Idx → BitVec 32) : AllW (F := F) W [] :=
  fun _ h => absurd h List.not_mem_nil

theorem allW_cons (W : S16x128.Idx → BitVec 32) (p : View.Piece (Elt F) S16x128 .i32)
    (Lst : List (View.Piece (Elt F) S16x128 .i32)) (hp : ∀ x : p.1.shape.Idx, p.2 x = W (p.1.emb x)) (h : AllW W Lst) :
    AllW W (p :: Lst) := fun q hq => by
  rcases List.mem_cons.mp hq with rfl | hq
  · exact hp
  · exact h q hq

/-- Row `c` of the list buffer, read through its window after stores that agree with `W` and cover the row, is
    `W` along that row. -/
theorem row_read (d : Dev nD) (L : grid0.Coords) (W : S16x128.Idx → BitVec 32) (c : Nat) (hc : c < 16)
    (hr : ∀ a, (![c, 0] : Fin 2 → Nat) a + S1x128.size a ≤ S16x128.size a)
    (hs : ∀ a, (Rect.unit (s := S16x128) ![c, 0] S1x128.size hr).stride a = 1)
    (hq : (Rect.unit (s := S16x128) ![c, 0] S1x128.size hr).shape.Squeezes S128)
    (g : Buf (Elt F) ((V d (cV L) (jV L)).loc cc0_scratch1))
    (Lst : List (View.Piece (Elt F) S16x128 .i32)) (hA : AllW W Lst)
    (hcov : ∀ p : Fin 128, ∃ q ∈ Lst, (ix2 (⟨c, hc⟩ : Fin 16) p : S16x128.Idx) ∈ q.1.set) :
    ∀ x : S128.Idx, View.read (Elt F) (((q1).slice (Rect.unit (s := S16x128) ![c, 0] S1x128.size hr) hs).squeeze S128 hq).view
        ((q1).view.writes (Elt F) g Lst) x = W (ix2 (⟨c, hc⟩ : Fin 16) (x 0)) := by
  intro x
  -- the window's word `x` is the whole buffer's word at the window's place
  have e : View.read (Elt F) (((q1).slice (Rect.unit (s := S16x128) ![c, 0] S1x128.size hr) hs).squeeze S128 hq).view
        ((q1).view.writes (Elt F) g Lst) x
      = View.read (Elt F) (q1).view ((q1).view.writes (Elt F) g Lst)
          ((Rect.unit (s := S16x128) ![c, 0] S1x128.size hr).emb ((Shape.reshapeEquiv hq.numel_eq) x)) := by
    rw [View.read_apply, View.read_apply]; rfl
  have hy : (Rect.unit (s := S16x128) ![c, 0] S1x128.size hr).emb ((Shape.reshapeEquiv hq.numel_eq) x)
      = ix2 (⟨c, hc⟩ : Fin 16) (x 0) := by
    have hx : Shape.reshapeEquiv hq.numel_eq x = (ix2 (0 : Fin 1) (x 0) : S1x128.Idx) :=
      Shape.reshapeEquiv_eq_of_rowMajor _ (by
        rw [Shape.rowMajor_val_two, Shape.rowMajor_val_one]
        show 0 * 128 + (x 0).val = (x 0).val
        omega)
    rw [hx]
    funext a; refine Fin.ext ?_
    rw [Rect.emb_apply]
    match a with
    | ⟨0, _⟩ => show c + 1 * 0 = c; omega
    | ⟨1, _⟩ => show 0 + 1 * (x 0).val = (x 0).val; omega
  rw [e, hy]
  exact View.read_writes_apply_of_pieces _ _ W Lst (fun p hp y => hA p hp y) _ (hcov (x 0))

/-- Eight stores of sixteen lanes each, at lanes `[16·k, 16·k + 16)` of row `c`, cover the row, whatever came before. -/
theorem cover_row (c : Nat) (hc : c < 16) (w0 w1 w2 w3 w4 w5 w6 w7 : S1x16.Idx → Elt F .i32)
    (h0 : ∀ a, (![c, 0] : Fin 2 → Nat) a + S1x16.size a ≤ S16x128.size a)
    (h1 : ∀ a, (![c, 16] : Fin 2 → Nat) a + S1x16.size a ≤ S16x128.size a)
    (h2 : ∀ a, (![c, 32] : Fin 2 → Nat) a + S1x16.size a ≤ S16x128.size a)
    (h3 : ∀ a, (![c, 48] : Fin 2 → Nat) a + S1x16.size a ≤ S16x128.size a)
    (h4 : ∀ a, (![c, 64] : Fin 2 → Nat) a + S1x16.size a ≤ S16x128.size a)
    (h5 : ∀ a, (![c, 80] : Fin 2 → Nat) a + S1x16.size a ≤ S16x128.size a)
    (h6 : ∀ a, (![c, 96] : Fin 2 → Nat) a + S1x16.size a ≤ S16x128.size a)
    (h7 : ∀ a, (![c, 112] : Fin 2 → Nat) a + S1x16.size a ≤ S16x128.size a)
    (Lt : List (View.Piece (Elt F) S16x128 .i32)) :
    ∀ p : Fin 128, ∃ q ∈ ((⟨Rect.unit (s := S16x128) ![c, 112] S1x16.size h7, w7⟩ : View.Piece (Elt F) S16x128 .i32)
        :: ⟨Rect.unit (s := S16x128) ![c, 96] S1x16.size h6, w6⟩ :: ⟨Rect.unit (s := S16x128) ![c, 80] S1x16.size h5, w5⟩
        :: ⟨Rect.unit (s := S16x128) ![c, 64] S1x16.size h4, w4⟩ :: ⟨Rect.unit (s := S16x128) ![c, 48] S1x16.size h3, w3⟩
        :: ⟨Rect.unit (s := S16x128) ![c, 32] S1x16.size h2, w2⟩ :: ⟨Rect.unit (s := S16x128) ![c, 16] S1x16.size h1, w1⟩
        :: ⟨Rect.unit (s := S16x128) ![c, 0] S1x16.size h0, w0⟩ :: Lt),
      (ix2 (⟨c, hc⟩ : Fin 16) p : S16x128.Idx) ∈ q.1.set := by
  intro p
  -- the store whose sixteen lanes hold `p`
  have key : ∀ (o : Nat) (ho : ∀ a, (![c, o] : Fin 2 → Nat) a + S1x16.size a ≤ S16x128.size a), o ≤ p.val → p.val < o + 16 →
      (ix2 (⟨c, hc⟩ : Fin 16) p : S16x128.Idx) ∈ (Rect.unit (s := S16x128) ![c, o] S1x16.size ho).set := by
    intro o ho hlo hhi
    rw [Rect.mem_set_unit]
    intro a
    match a with
    | ⟨0, _⟩ => exact ⟨Nat.le_refl c, by show c < c + 1; omega⟩
    | ⟨1, _⟩ => exact ⟨hlo, by show p.val < o + 16; omega⟩
  have hp := p.isLt
  by_cases c7 : 112 ≤ p.val
  · exact ⟨_, List.mem_cons_self, key 112 h7 c7 (by omega)⟩
  by_cases c6 : 96 ≤ p.val
  · exact ⟨_, List.mem_cons_of_mem _ List.mem_cons_self, key 96 h6 c6 (by omega)⟩
  by_cases c5 : 80 ≤ p.val
  · exact ⟨_, List.mem_cons_of_mem _ (List.mem_cons_of_mem _ List.mem_cons_self), key 80 h5 c5 (by omega)⟩
  by_cases c4 : 64 ≤ p.val
  · exact ⟨_, List.mem_cons_of_mem _ (List.mem_cons_of_mem _ (List.mem_cons_of_mem _ List.mem_cons_self)), key 64 h4 c4 (by omega)⟩
  by_cases c3 : 48 ≤ p.val
  · exact ⟨_, List.mem_cons_of_mem _ (List.mem_cons_of_mem _ (List.mem_cons_of_mem _ (List.mem_cons_of_mem _ List.mem_cons_self))),
      key 48 h3 c3 (by omega)⟩
  by_cases c2 : 32 ≤ p.val
  · exact ⟨_, List.mem_cons_of_mem _ (List.mem_cons_of_mem _ (List.mem_cons_of_mem _ (List.mem_cons_of_mem _
      (List.mem_cons_of_mem _ List.mem_cons_self)))), key 32 h2 c2 (by omega)⟩
  by_cases c1 : 16 ≤ p.val
  · exact ⟨_, List.mem_cons_of_mem _ (List.mem_cons_of_mem _ (List.mem_cons_of_mem _ (List.mem_cons_of_mem _
      (List.mem_cons_of_mem _ (List.mem_cons_of_mem _ List.mem_cons_self))))), key 16 h1 c1 (by omega)⟩
  · exact ⟨_, List.mem_cons_of_mem _ (List.mem_cons_of_mem _ (List.mem_cons_of_mem _ (List.mem_cons_of_mem _
      (List.mem_cons_of_mem _ (List.mem_cons_of_mem _ (List.mem_cons_of_mem _ List.mem_cons_self)))))), key 0 h0 (Nat.zero_le _) (by omega)⟩

/-! ## One store's sixteen words -/

/-- The plane of the index array the subcore copies from. -/
def planeOf (L : grid0.Coords) : Fin 4 := ⟨wOf L / 8, by have := wOf_lt L; omega⟩
/-- Row `r` of the copied sixteen, as a row of that plane. -/
def rowAt (L : grid0.Coords) (r : Fin 16) : Fin 128 := ⟨16 * (wOf L % 8) + r.val, by have := r.isLt; omega⟩

/-- The sixteen words stored at chunk `c`, lanes `[16·k, 16·k + 16)`: with `G = 8·c + k`, lane `ℓ` loads the copied
    word at row `ℓ / 8 + 2·(G % 4) + 8·(G / 64)`, column `ℓ % 8 + 8·((G / 4) % 16)` and adds
    `100000·(ℓ / 8 + 2·(G % 4))`; that is the list's word at `(c, 16·k + ℓ)`. -/
theorem piece_word (XV : IVec S4x128x128 32) (L : grid0.Coords) (RD : S16x128.Idx → BitVec 32)
    (hRD : ∀ (r : Fin 16) (l : Fin 128), RD (ix2 r l) = XV (ix3 (planeOf L) (rowAt L r) l))
    (c k : Nat) (hc : c < 16) (hk : k < 8) (RV CV OFF : IVec S16 32)
    (h : ∀ a x, ((![RV, CV] : Fin 2 → IVec S16 32) a x).toNat < S16x128.size a)
    (hV : ∀ lane : Fin 16,
      (RV (ix1 lane)).toNat = lane.val / 8 + 2 * ((8 * c + k) % 4) + 8 * ((8 * c + k) / 64)
        ∧ (CV (ix1 lane)).toNat = lane.val % 8 + 8 * (((8 * c + k) / 4) % 16)
        ∧ OFF (ix1 lane) = BitVec.ofNat 32 ((lane.val / 8 + 2 * ((8 * c + k) % 4)) * 100000))
    (hk' : ∀ a, (![c, 16 * k] : Fin 2 → Nat) a + S1x16.size a ≤ S16x128.size a) (e : S16.ShapeCasts S1x16) :
    ∀ x : S1x16.Idx, shapeCast S1x16 (addi (loadIdx (F := F) (e := .i32) RD ![RV, CV] h) OFF) e x
      = listW XV L ((Rect.unit (s := S16x128) ![c, 16 * k] S1x16.size hk').emb x) := by
  intro x
  obtain ⟨z, lane, rfl⟩ : ∃ (z : Fin 1) (lane : Fin 16), x = ix2 z lane := ⟨x 0, x 1, eq_ix2 x⟩
  obtain rfl : z = 0 := Subsingleton.elim _ _
  obtain ⟨hR, hC, hO⟩ := hV lane
  have hl := lane.isLt
  have hw := wOf_lt L
  -- the left side: the loaded word plus the offset
  have hleft : shapeCast S1x16 (addi (loadIdx (F := F) (e := .i32) RD ![RV, CV] h) OFF) e (ix2 0 lane)
      = RD (ix2 (⟨(RV (ix1 lane)).toNat, h 0 (ix1 lane)⟩ : Fin 16) (⟨(CV (ix1 lane)).toNat, h 1 (ix1 lane)⟩ : Fin 128))
        + OFF (ix1 lane) := by
    rw [shapeCast_apply _ e (ix2 0 lane) (ix1 lane) (by
      rw [Shape.rowMajor_val_one, Shape.rowMajor_val_two]
      show lane.val = 0 * 16 + lane.val
      omega)]
    show RD (idxAt ![RV, CV] h (ix1 lane)) + OFF (ix1 lane) = _
    congr 2
    funext a
    match a with
    | ⟨0, _⟩ => rfl
    | ⟨1, _⟩ => rfl
  -- the right side: the list's word at `(c, 16·k + ℓ)`
  have hright : (Rect.unit (s := S16x128) ![c, 16 * k] S1x16.size hk').emb (ix2 0 lane)
      = ix2 (⟨c, hc⟩ : Fin 16) (⟨16 * k + lane.val, by omega⟩ : Fin 128) := by
    funext a; refine Fin.ext ?_
    rw [Rect.emb_apply]
    match a with
    | ⟨0, _⟩ => show c + 1 * 0 = c; omega
    | ⟨1, _⟩ => show 16 * k + 1 * lane.val = 16 * k + lane.val; omega
  rw [hleft, hright, hRD, hO, listW_ix2]
  -- the output row's subcore, group and lane
  have hRow : (listRow L (⟨c, hc⟩ : Fin 16) (⟨16 * k + lane.val, by omega⟩ : Fin 128)).val
      = 2048 * wOf L + 128 * c + (16 * k + lane.val) := rfl
  have h1 : Cert.Proof.KSpec.widOf (listRow L (⟨c, hc⟩ : Fin 16) (⟨16 * k + lane.val, by omega⟩ : Fin 128)) = wOf L := by
    unfold Cert.Proof.KSpec.widOf; rw [hRow]; omega
  have h2 : Cert.Proof.KSpec.grpOf (listRow L (⟨c, hc⟩ : Fin 16) (⟨16 * k + lane.val, by omega⟩ : Fin 128)) = 8 * c + k := by
    unfold Cert.Proof.KSpec.grpOf; rw [hRow]; omega
  have h3 : Cert.Proof.KSpec.laneOf (listRow L (⟨c, hc⟩ : Fin 16) (⟨16 * k + lane.val, by omega⟩ : Fin 128)) = lane.val := by
    unfold Cert.Proof.KSpec.laneOf; rw [hRow]; omega
  have h4 : Cert.Proof.KSpec.tOf (listRow L (⟨c, hc⟩ : Fin 16) (⟨16 * k + lane.val, by omega⟩ : Fin 128))
      = 2 * ((8 * c + k) % 4) + lane.val / 8 := by
    unfold Cert.Proof.KSpec.tOf; rw [h2, h3]
  unfold Cert.Proof.KSpec.idxWord
  have eB : Cert.Proof.KSpec.xvB (listRow L (⟨c, hc⟩ : Fin 16) (⟨16 * k + lane.val, by omega⟩ : Fin 128)) = planeOf L :=
    Fin.ext (by show Cert.Proof.KSpec.widOf _ / 8 = wOf L / 8; rw [h1])
  have eR : Cert.Proof.KSpec.xvR (listRow L (⟨c, hc⟩ : Fin 16) (⟨16 * k + lane.val, by omega⟩ : Fin 128))
      = rowAt L (⟨(RV (ix1 lane)).toNat, h 0 (ix1 lane)⟩ : Fin 16) :=
    Fin.ext (by
      show (Cert.Proof.KSpec.widOf _ % 8) * 16 + (Cert.Proof.KSpec.tOf _ + 8 * (Cert.Proof.KSpec.grpOf _ / 64))
        = 16 * (wOf L % 8) + (RV (ix1 lane)).toNat
      rw [h1, h4, h2, hR]; omega)
  have eL : Cert.Proof.KSpec.xvL (listRow L (⟨c, hc⟩ : Fin 16) (⟨16 * k + lane.val, by omega⟩ : Fin 128))
      = (⟨(CV (ix1 lane)).toNat, h 1 (ix1 lane)⟩ : Fin 128) :=
    Fin.ext (by
      show Cert.Proof.KSpec.laneOf _ % 8 + ((Cert.Proof.KSpec.grpOf _ / 4) % 16) * 8 = (CV (ix1 lane)).toNat
      rw [h3, h2, hC]; omega)
  rw [eB, eR, eL, h4,
    show (lane.val / 8 + 2 * ((8 * c + k) % 4)) * 100000 = (2 * ((8 * c + k) % 4) + lane.val / 8) * 100000 from by omega]

/-! ## The copied rows -/

/-- What the first scratch buffer reads after the copy: at `(r, l)`, plane `w / 8`, row `16·(w % 8) + r`, column `l`
    of the index array. -/
theorem rd_eq (d : Dev nD) (L : grid0.Coords) (XV : Buf (Elt F) (xLoc d))
    (f0 : Buf (Elt F) ((V d (cV L) (jV L)).loc cc0_scratch0)) (r : Fin 16) (l : Fin 128) :
    View.read (Elt F) ((q0).access (Rect.whole S16x128))
        (View.write (Elt F) (q0).view f0
          (ReadAs.same.apply (View.read (Elt F)
            (((xV).slice (Rect.unit (s := S4x128x128) (k0_off1 L) S1x16x128.size (k0_off1_inb L)) (fun _ => rfl)).squeeze S16x128
              squeezes_S1x16x128_S16x128).view XV)) Finset.univ) (ix2 r l)
      = XV (ix3 (planeOf L) (rowAt L r) l) := by
  rw [View.write_whole_univ]
  -- the word read is the index array's at the copied window's place
  have e1 : View.read (Elt F) ((q0).access (Rect.whole S16x128))
        (ReadAs.same.apply (View.read (Elt F)
            (((xV).slice (Rect.unit (s := S4x128x128) (k0_off1 L) S1x16x128.size (k0_off1_inb L)) (fun _ => rfl)).squeeze S16x128
              squeezes_S1x16x128_S16x128).view XV)) (ix2 r l)
      = XV ((Rect.unit (s := S4x128x128) (k0_off1 L) S1x16x128.size (k0_off1_inb L)).emb
          ((Shape.reshapeEquiv squeezes_S1x16x128_S16x128.numel_eq) ((Rect.whole S16x128).emb (ix2 r l)))) := by
    rfl
  have e2 : (Rect.whole S16x128).emb (ix2 r l) = ix2 r l := by
    funext a; refine Fin.ext ?_
    rw [Rect.emb_apply]
    match a with
    | ⟨0, _⟩ => show 0 + 1 * r.val = r.val; omega
    | ⟨1, _⟩ => show 0 + 1 * l.val = l.val; omega
  have e3 : Shape.reshapeEquiv squeezes_S1x16x128_S16x128.numel_eq (ix2 r l) = (ix3 (0 : Fin 1) r l : S1x16x128.Idx) :=
    Shape.reshapeEquiv_eq_of_rowMajor _ (by
      rw [Shape.rowMajor_val_three, Shape.rowMajor_val_two]
      show (0 * 16 + r.val) * 128 + l.val = r.val * 128 + l.val
      omega)
  rw [e1, e2, e3]
  congr 1
  funext a; refine Fin.ext ?_
  rw [Rect.emb_apply, Rect.off_unit, Rect.stride_unit]
  match a with
  | ⟨0, h0⟩ =>
    have hk : k0_off1 L ⟨0, h0⟩ = (2 * (L 1).val + (L 0).val) / 8 := congrFun (k0_off1_eq L) ⟨0, h0⟩
    show k0_off1 L ⟨0, h0⟩ + 1 * 0 = wOf L / 8
    rw [hk]; unfold wOf; omega
  | ⟨1, h1⟩ =>
    have hk : k0_off1 L ⟨1, h1⟩ = ((2 * (L 1).val + (L 0).val) % 8) * 16 := congrFun (k0_off1_eq L) ⟨1, h1⟩
    show k0_off1 L ⟨1, h1⟩ + 1 * r.val = 16 * (wOf L % 8) + r.val
    rw [hk]; unfold wOf; omega
  | ⟨2, h2⟩ =>
    have hk : k0_off1 L ⟨2, h2⟩ = 0 := congrFun (k0_off1_eq L) ⟨2, h2⟩
    show k0_off1 L ⟨2, h2⟩ + 1 * l.val = l.val
    rw [hk]; omega

end Cert.Proof.KI

end
-- ==== Proof.TileEnds.lean ====
/-
  The two ends of a subcore's run, as facts about its two index buffers. After the fetch, every word of the first
  buffer is a word of the index array, hence a row number of a table. At the end, the second buffer, held row by
  row — fourteen rows, each at contents of its own, and the remainder — is one buffer again.
-/
import proofs.«204676_g22814866277092_cont_8to1_1488_17_alg».proof.Proof.TileIface
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S4x128x128 EltTy.i32)
local notation "q0" => (Memref.whole Cert.KernelIdeal.cc0_scratch0 : Memref Cert.KernelIdeal.sig Kind.scVector Space.vmem Cert.KernelIdeal.S16x128 EltTy.i32)
local notation "q1" => (Memref.whole Cert.KernelIdeal.cc0_scratch1 : Memref Cert.KernelIdeal.sig Kind.scVector Space.vmem Cert.KernelIdeal.S16x128 EltTy.i32)

/-! ## The first buffer after the fetch -/

/-- The fetch overwrites the whole buffer with sixteen rows of the index array: each word of the buffer is then a
    word of the index array, whichever rows they are. -/
theorem q0_lt [FloatOps F] (d : Dev nD) (L : grid0.Coords) (XV : Buf (Elt F) (xLoc d)) (hx : ∀ j, (XV j).toNat < 100000)
    (f0 : Buf (Elt F) ((V d (cV L) (jV L)).loc cc0_scratch0)) :
    ∀ j, ((View.write (Elt F) (q0).view f0
      (ReadAs.same.apply (View.read (Elt F) (((xV).slice (Rect.unit (s := S4x128x128) (k0_off1 L) S1x16x128.size (k0_off1_inb L)) (fun _ => rfl)).squeeze S16x128
        squeezes_S1x16x128_S16x128).view XV)) Finset.univ) j).toNat < 100000 := by
  intro j
  rw [View.write_whole_univ]
  show (View.read (Elt F) (((xV).slice (Rect.unit (s := S4x128x128) (k0_off1 L) S1x16x128.size (k0_off1_inb L)) (fun _ => rfl)).squeeze S16x128
        squeezes_S1x16x128_S16x128).view XV j).toNat < 100000
  rw [show ∀ i, View.read (Elt F) (((xV).slice (Rect.unit (s := S4x128x128) (k0_off1 L) S1x16x128.size (k0_off1_inb L)) (fun _ => rfl)).squeeze S16x128
        squeezes_S1x16x128_S16x128).view XV i = XV ((((xV).slice (Rect.unit (s := S4x128x128) (k0_off1 L) S1x16x128.size (k0_off1_inb L)) (fun _ => rfl)).squeeze S16x128
        squeezes_S1x16x128_S16x128).view.emb i) from fun i => (View.read_apply _ _).trans (cast_eq _ _)]
  exact hx _

/-! ## Rows of the second buffer -/

/-- Two different rows of the buffer have no element in common. -/
theorem rows_disjoint (a b : Nat) (hab : a ≠ b)
    (ha : ∀ i, (![a, 0] : Fin 2 → Nat) i + S1x128.size i ≤ S16x128.size i) (hb : ∀ i, (![b, 0] : Fin 2 → Nat) i + S1x128.size i ≤ S16x128.size i)
    (hsa : ∀ i, (Rect.unit (s := S16x128) ![a, 0] S1x128.size ha).stride i = 1) (hsb : ∀ i, (Rect.unit (s := S16x128) ![b, 0] S1x128.size hb).stride i = 1)
    (hqa : (Rect.unit (s := S16x128) ![a, 0] S1x128.size ha).shape.Squeezes S128) (hqb : (Rect.unit (s := S16x128) ![b, 0] S1x128.size hb).shape.Squeezes S128) :
    Disjoint (((q1).slice (Rect.unit (s := S16x128) ![a, 0] S1x128.size ha) hsa).squeeze S128 hqa).view.set
             (((q1).slice (Rect.unit (s := S16x128) ![b, 0] S1x128.size hb) hsb).squeeze S128 hqb).view.set := by
  simp only [Memref.view, View.set_reshape, View.set_slice]
  refine (Finset.disjoint_map _).mpr (Rect.disjoint_of_separated _ _ 0 ?_)
  rcases Nat.lt_or_gt_of_ne hab with h | h
  · exact .inl (.inr (by show a + 1 * (1 - 1) < b; omega))
  · exact .inr (.inr (by show b + 1 * (1 - 1) < a; omega))

/-! ## Putting carved-out parts back -/

/-- The separating conjunction of a list of assertions (of one assertion, itself). -/
def sepL : List (sProp 𝕄) → sProp 𝕄
  | [] => iprop(emp)
  | [B] => B
  | B :: B' :: Bs => iprop(B ∗ sepL (B' :: Bs))

/-- Parts `p₁, p₂, …` can be carved one after the other out of the elements `S`: each lies within what the earlier ones left. -/
def Carved {ℓ : Loc nD τ sig} : List (Finset (Idx ℓ) × Buf (Elt F) ℓ) → Finset (Idx ℓ) → Prop
  | [], _ => True
  | p :: rs, S => p.1 ⊆ S ∧ Carved rs (S \ p.1)

/-- Parts carved one after the other out of the elements `S` of a buffer, each held at contents of its own, and what is
    left of `S`, are `S` again at some contents: the last part carved goes back first. -/
theorem join_parts (ℓ : Loc nD τ sig) (q : PosShare TreeShare) :
    ∀ (rs : List (Finset (Idx ℓ) × Buf (Elt F) ℓ)) (S : Finset (Idx ℓ)) (g : Buf (Elt F) ℓ), Carved rs S →
      iprop((ℓ ↦[rs.foldl (fun T p => T \ p.1) S]{q} g) ∗ sepL (F := F) (rs.map fun p => iprop(ℓ ↦[p.1]{q} p.2)))
        ⊢ (iprop(∃ f, ℓ ↦[S]{q} f) : sProp 𝕄)
  | [], S, g, _ => Laws.sep_emp.1.trans (exists_intro (Φ := fun f => iprop(ℓ ↦[S]{q} f)) g)
  | [p], S, g, hS =>
    (Laws.sep_comm.1.trans (pointsTo_join_subset hS.1)).trans (exists_intro (Φ := fun f => iprop(ℓ ↦[S]{q} f)) _)
  | p :: p' :: rs, S, g, hS => by
    refine Laws.sep_left_comm.1.trans ((Laws.sep_mono_right (join_parts ℓ q (p' :: rs) (S \ p.1) g hS.2)).trans ?_)
    refine Laws.sep_exists_left.1.trans (exists_elim fun f => ?_)
    exact (pointsTo_join_subset hS.1).trans (exists_intro (Φ := fun f => iprop(ℓ ↦[S]{q} f)) _)

/-! ## The second buffer at the end of the run -/

/-- Fourteen rows of the buffer, each at contents of its own, and the remainder are the whole buffer at some contents. -/
theorem q1_join [FloatOps F] (d : Dev nD) (L : grid0.Coords)
    (hr0 : ∀ a, (![0, 0] : Fin 2 → Nat) a + S1x128.size a ≤ S16x128.size a)
    (hr1 : ∀ a, (![1, 0] : Fin 2 → Nat) a + S1x128.size a ≤ S16x128.size a)
    (hr2 : ∀ a, (![2, 0] : Fin 2 → Nat) a + S1x128.size a ≤ S16x128.size a)
    (hr3 : ∀ a, (![3, 0] : Fin 2 → Nat) a + S1x128.size a ≤ S16x128.size a)
    (hr4 : ∀ a, (![4, 0] : Fin 2 → Nat) a + S1x128.size a ≤ S16x128.size a)
    (hr5 : ∀ a, (![5, 0] : Fin 2 → Nat) a + S1x128.size a ≤ S16x128.size a)
    (hr6 : ∀ a, (![6, 0] : Fin 2 → Nat) a + S1x128.size a ≤ S16x128.size a)
    (hr7 : ∀ a, (![7, 0] : Fin 2 → Nat) a + S1x128.size a ≤ S16x128.size a)
    (hr8 : ∀ a, (![8, 0] : Fin 2 → Nat) a + S1x128.size a ≤ S16x128.size a)
    (hr9 : ∀ a, (![9, 0] : Fin 2 → Nat) a + S1x128.size a ≤ S16x128.size a)
    (hr10 : ∀ a, (![10, 0] : Fin 2 → Nat) a + S1x128.size a ≤ S16x128.size a)
    (hr11 : ∀ a, (![11, 0] : Fin 2 → Nat) a + S1x128.size a ≤ S16x128.size a)
    (hr12 : ∀ a, (![12, 0] : Fin 2 → Nat) a + S1x128.size a ≤ S16x128.size a)
    (hr13 : ∀ a, (![13, 0] : Fin 2 → Nat) a + S1x128.size a ≤ S16x128.size a)
    (hs0 : ∀ a, (Rect.unit (s := S16x128) ![0, 0] S1x128.size hr0).stride a = 1)
    (hs1 : ∀ a, (Rect.unit (s := S16x128) ![1, 0] S1x128.size hr1).stride a = 1)
    (hs2 : ∀ a, (Rect.unit (s := S16x128) ![2, 0] S1x128.size hr2).stride a = 1)
    (hs3 : ∀ a, (Rect.unit (s := S16x128) ![3, 0] S1x128.size hr3).stride a = 1)
    (hs4 : ∀ a, (Rect.unit (s := S16x128) ![4, 0] S1x128.size hr4).stride a = 1)
    (hs5 : ∀ a, (Rect.unit (s := S16x128) ![5, 0] S1x128.size hr5).stride a = 1)
    (hs6 : ∀ a, (Rect.unit (s := S16x128) ![6, 0] S1x128.size hr6).stride a = 1)
    (hs7 : ∀ a, (Rect.unit (s := S16x128) ![7, 0] S1x128.size hr7).stride a = 1)
    (hs8 : ∀ a, (Rect.unit (s := S16x128) ![8, 0] S1x128.size hr8).stride a = 1)
    (hs9 : ∀ a, (Rect.unit (s := S16x128) ![9, 0] S1x128.size hr9).stride a = 1)
    (hs10 : ∀ a, (Rect.unit (s := S16x128) ![10, 0] S1x128.size hr10).stride a = 1)
    (hs11 : ∀ a, (Rect.unit (s := S16x128) ![11, 0] S1x128.size hr11).stride a = 1)
    (hs12 : ∀ a, (Rect.unit (s := S16x128) ![12, 0] S1x128.size hr12).stride a = 1)
    (hs13 : ∀ a, (Rect.unit (s := S16x128) ![13, 0] S1x128.size hr13).stride a = 1)
    (hq0 : (Rect.unit (s := S16x128) ![0, 0] S1x128.size hr0).shape.Squeezes S128)
    (hq1 : (Rect.unit (s := S16x128) ![1, 0] S1x128.size hr1).shape.Squeezes S128)
    (hq2 : (Rect.unit (s := S16x128) ![2, 0] S1x128.size hr2).shape.Squeezes S128)
    (hq3 : (Rect.unit (s := S16x128) ![3, 0] S1x128.size hr3).shape.Squeezes S128)
    (hq4 : (Rect.unit (s := S16x128) ![4, 0] S1x128.size hr4).shape.Squeezes S128)
    (hq5 : (Rect.unit (s := S16x128) ![5, 0] S1x128.size hr5).shape.Squeezes S128)
    (hq6 : (Rect.unit (s := S16x128) ![6, 0] S1x128.size hr6).shape.Squeezes S128)
    (hq7 : (Rect.unit (s := S16x128) ![7, 0] S1x128.size hr7).shape.Squeezes S128)
    (hq8 : (Rect.unit (s := S16x128) ![8, 0] S1x128.size hr8).shape.Squeezes S128)
    (hq9 : (Rect.unit (s := S16x128) ![9, 0] S1x128.size hr9).shape.Squeezes S128)
    (hq10 : (Rect.unit (s := S16x128) ![10, 0] S1x128.size hr10).shape.Squeezes S128)
    (hq11 : (Rect.unit (s := S16x128) ![11, 0] S1x128.size hr11).shape.Squeezes S128)
    (hq12 : (Rect.unit (s := S16x128) ![12, 0] S1x128.size hr12).shape.Squeezes S128)
    (hq13 : (Rect.unit (s := S16x128) ![13, 0] S1x128.size hr13).shape.Squeezes S128)
    (g g0 g1 g2 g3 g4 g5 g6 g7 g8 g9 g10 g11 g12 g13 : Buf (Elt F) ((q1).view.loc (V d (cV L) (jV L)))) :
    iprop(((q1).view.loc (V d (cV L) (jV L)) ↦[((((((((((((((Finset.univ \ (((q1).slice (Rect.unit (s := S16x128) ![0, 0] S1x128.size hr0) hs0).squeeze S128 hq0).view.set) \ (((q1).slice (Rect.unit (s := S16x128) ![1, 0] S1x128.size hr1) hs1).squeeze S128 hq1).view.set) \ (((q1).slice (Rect.unit (s := S16x128) ![2, 0] S1x128.size hr2) hs2).squeeze S128 hq2).view.set) \ (((q1).slice (Rect.unit (s := S16x128) ![3, 0] S1x128.size hr3) hs3).squeeze S128 hq3).view.set) \ (((q1).slice (Rect.unit (s := S16x128) ![4, 0] S1x128.size hr4) hs4).squeeze S128 hq4).view.set) \ (((q1).slice (Rect.unit (s := S16x128) ![5, 0] S1x128.size hr5) hs5).squeeze S128 hq5).view.set) \ (((q1).slice (Rect.unit (s := S16x128) ![6, 0] S1x128.size hr6) hs6).squeeze S128 hq6).view.set) \ (((q1).slice (Rect.unit (s := S16x128) ![7, 0] S1x128.size hr7) hs7).squeeze S128 hq7).view.set) \ (((q1).slice (Rect.unit (s := S16x128) ![8, 0] S1x128.size hr8) hs8).squeeze S128 hq8).view.set) \ (((q1).slice (Rect.unit (s := S16x128) ![9, 0] S1x128.size hr9) hs9).squeeze S128 hq9).view.set) \ (((q1).slice (Rect.unit (s := S16x128) ![10, 0] S1x128.size hr10) hs10).squeeze S128 hq10).view.set) \ (((q1).slice (Rect.unit (s := S16x128) ![11, 0] S1x128.size hr11) hs11).squeeze S128 hq11).view.set) \ (((q1).slice (Rect.unit (s := S16x128) ![12, 0] S1x128.size hr12) hs12).squeeze S128 hq12).view.set) \ (((q1).slice (Rect.unit (s := S16x128) ![13, 0] S1x128.size hr13) hs13).squeeze S128 hq13).view.set)]{fullShare} g)
        ∗ ((q1).view.loc (V d (cV L) (jV L)) ↦[(((q1).slice (Rect.unit (s := S16x128) ![0, 0] S1x128.size hr0) hs0).squeeze S128 hq0).view.set]{fullShare} g0)
        ∗ ((q1).view.loc (V d (cV L) (jV L)) ↦[(((q1).slice (Rect.unit (s := S16x128) ![1, 0] S1x128.size hr1) hs1).squeeze S128 hq1).view.set]{fullShare} g1)
        ∗ ((q1).view.loc (V d (cV L) (jV L)) ↦[(((q1).slice (Rect.unit (s := S16x128) ![2, 0] S1x128.size hr2) hs2).squeeze S128 hq2).view.set]{fullShare} g2)
        ∗ ((q1).view.loc (V d (cV L) (jV L)) ↦[(((q1).slice (Rect.unit (s := S16x128) ![3, 0] S1x128.size hr3) hs3).squeeze S128 hq3).view.set]{fullShare} g3)
        ∗ ((q1).view.loc (V d (cV L) (jV L)) ↦[(((q1).slice (Rect.unit (s := S16x128) ![4, 0] S1x128.size hr4) hs4).squeeze S128 hq4).view.set]{fullShare} g4)
        ∗ ((q1).view.loc (V d (cV L) (jV L)) ↦[(((q1).slice (Rect.unit (s := S16x128) ![5, 0] S1x128.size hr5) hs5).squeeze S128 hq5).view.set]{fullShare} g5)
        ∗ ((q1).view.loc (V d (cV L) (jV L)) ↦[(((q1).slice (Rect.unit (s := S16x128) ![6, 0] S1x128.size hr6) hs6).squeeze S128 hq6).view.set]{fullShare} g6)
        ∗ ((q1).view.loc (V d (cV L) (jV L)) ↦[(((q1).slice (Rect.unit (s := S16x128) ![7, 0] S1x128.size hr7) hs7).squeeze S128 hq7).view.set]{fullShare} g7)
        ∗ ((q1).view.loc (V d (cV L) (jV L)) ↦[(((q1).slice (Rect.unit (s := S16x128) ![8, 0] S1x128.size hr8) hs8).squeeze S128 hq8).view.set]{fullShare} g8)
        ∗ ((q1).view.loc (V d (cV L) (jV L)) ↦[(((q1).slice (Rect.unit (s := S16x128) ![9, 0] S1x128.size hr9) hs9).squeeze S128 hq9).view.set]{fullShare} g9)
        ∗ ((q1).view.loc (V d (cV L) (jV L)) ↦[(((q1).slice (Rect.unit (s := S16x128) ![10, 0] S1x128.size hr10) hs10).squeeze S128 hq10).view.set]{fullShare} g10)
        ∗ ((q1).view.loc (V d (cV L) (jV L)) ↦[(((q1).slice (Rect.unit (s := S16x128) ![11, 0] S1x128.size hr11) hs11).squeeze S128 hq11).view.set]{fullShare} g11)
        ∗ ((q1).view.loc (V d (cV L) (jV L)) ↦[(((q1).slice (Rect.unit (s := S16x128) ![12, 0] S1x128.size hr12) hs12).squeeze S128 hq12).view.set]{fullShare} g12)
        ∗ ((q1).view.loc (V d (cV L) (jV L)) ↦[(((q1).slice (Rect.unit (s := S16x128) ![13, 0] S1x128.size hr13) hs13).squeeze S128 hq13).view.set]{fullShare} g13))
      ⊢ (iprop(∃ f, (V d (cV L) (jV L)).loc cc0_scratch1 ↦{fullShare} f) : sProp 𝕄) := by
  refine join_parts (F := F) ((q1).view.loc (V d (cV L) (jV L))) fullShare
    [((((q1).slice (Rect.unit (s := S16x128) ![0, 0] S1x128.size hr0) hs0).squeeze S128 hq0).view.set, g0),
      ((((q1).slice (Rect.unit (s := S16x128) ![1, 0] S1x128.size hr1) hs1).squeeze S128 hq1).view.set, g1),
      ((((q1).slice (Rect.unit (s := S16x128) ![2, 0] S1x128.size hr2) hs2).squeeze S128 hq2).view.set, g2),
      ((((q1).slice (Rect.unit (s := S16x128) ![3, 0] S1x128.size hr3) hs3).squeeze S128 hq3).view.set, g3),
      ((((q1).slice (Rect.unit (s := S16x128) ![4, 0] S1x128.size hr4) hs4).squeeze S128 hq4).view.set, g4),
      ((((q1).slice (Rect.unit (s := S16x128) ![5, 0] S1x128.size hr5) hs5).squeeze S128 hq5).view.set, g5),
      ((((q1).slice (Rect.unit (s := S16x128) ![6, 0] S1x128.size hr6) hs6).squeeze S128 hq6).view.set, g6),
      ((((q1).slice (Rect.unit (s := S16x128) ![7, 0] S1x128.size hr7) hs7).squeeze S128 hq7).view.set, g7),
      ((((q1).slice (Rect.unit (s := S16x128) ![8, 0] S1x128.size hr8) hs8).squeeze S128 hq8).view.set, g8),
      ((((q1).slice (Rect.unit (s := S16x128) ![9, 0] S1x128.size hr9) hs9).squeeze S128 hq9).view.set, g9),
      ((((q1).slice (Rect.unit (s := S16x128) ![10, 0] S1x128.size hr10) hs10).squeeze S128 hq10).view.set, g10),
      ((((q1).slice (Rect.unit (s := S16x128) ![11, 0] S1x128.size hr11) hs11).squeeze S128 hq11).view.set, g11),
      ((((q1).slice (Rect.unit (s := S16x128) ![12, 0] S1x128.size hr12) hs12).squeeze S128 hq12).view.set, g12),
      ((((q1).slice (Rect.unit (s := S16x128) ![13, 0] S1x128.size hr13) hs13).squeeze S128 hq13).view.set, g13)]
    Finset.univ g ?_
  refine ⟨?_, ?_, ?_, ?_, ?_, ?_, ?_, ?_, ?_, ?_, ?_, ?_, ?_, ?_, trivial⟩
  all_goals
    repeat' (first
      | refine Finset.subset_sdiff.2 ⟨?_, rows_disjoint _ _ (by decide) _ _ _ _ _ _⟩
      | exact Finset.subset_univ _)

end Cert.Proof.KI

end
-- ==== Proof.ChunkValue.lean ====
/-
  The value of one output block. A block of 128 output rows is written from a staging buffer that a gather filled: row
  `j` of the staging buffer is the row of the stacked table that word `j` of the block's list names. The list's word for
  row `j` of block `c` is the row number the kernel-side description gives output row `2048·w + 128·c + j`, and it
  is below 800000, so the block holds exactly the description's rows.
-/
import proofs.«204676_g22814866277092_cont_8to1_1488_17_alg».proof.Proof.TileIface
import proofs.«204676_g22814866277092_cont_8to1_1488_17_alg».proof.Proof.IdxValue
import Idealize.ShloMosaic.Lib.SparseCore.Stream
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.ValueIdx

variable {F : FTy → Type}

local notation "tV" => (Memref.whole Cert.KernelIdeal.main_v4_scv : Memref Cert.KernelIdeal.sig Kind.scVector Space.hbm Cert.KernelIdeal.S800000x128 EltTy.f32)
local notation "oV" => (Memref.whole Cert.KernelIdeal.main_v5_scv : Memref Cert.KernelIdeal.sig Kind.scVector Space.hbm Cert.KernelIdeal.S65536x128 EltTy.f32)

/-- A piece that covers the whole view reads back its payload, whatever was written before. -/
theorem read_writes_whole_cons {sig : RefSig} {κ : Kind} {sp : Space} {s : Shape} {e : EltTy} {Val : EltTy → Type}
    (V : View sig κ sp s e) (fo : V.ty.Contents Val) (w : s.Idx → Val e) (Lp : List (View.Piece Val s e)) (z : s.Idx) :
    V.read Val (V.writes Val fo (⟨Rect.whole s, w⟩ :: Lp)) z = w z := by
  have hh := View.read_writes_cons_emb V fo (Rect.whole s) w Lp z
  rwa [Rect.emb_whole_apply] at hh

/-- The output row under local row `j` of block `c` of the subcore at `L`. -/
theorem listRow_val (L : grid0.Coords) (c : Fin 16) (p : Fin 128) :
    (listRow L c p).val = 4096 * (L 1).val + 2048 * (L 0).val + 128 * c.val + p.val := by
  show 2048 * wOf L + 128 * c.val + p.val = _
  unfold wOf; omega

theorem chunk_value [FloatOps F] (d : Dev nD) (L : grid0.Coords) (XV : Buf (Elt F) (xLoc d)) (TB : Buf (Elt F) (tLoc d))
    (hx : ∀ j, (XV j).toNat < 100000) (c : Fin 16)
    (off : Fin 2 → Nat) (h : ∀ a, off a + S128x128.size a ≤ S65536x128.size a)
    (hs : ∀ a, (Rect.unit (s := S65536x128) off S128x128.size h).stride a = 1)
    (e : off = ![4096 * (L 1).val + 2048 * (L 0).val + 128 * c.val, 0]) (fo : Buf (Elt F) (oLoc d))
    {κ : Kind} {sp : Space} (v : View sig κ sp S128x128 .f32) (f : v.ty.Contents (Elt F)) (Lp : List (View.Piece (Elt F) S128x128 .f32))
    (idx : S128.Idx → Elt F .i32) (hidx : ∀ x, idx x = listW XV L (ix2 c (x 0)))
    (hn : S128.numel = S128x128.size gathers_S800000x128_S128x128.axis')
    (hin : ∀ x, (idx x).toNat < S800000x128.size gathers_S800000x128_S128x128.axis) :
    ∀ i ∈ ((oV).slice (Rect.unit (s := S65536x128) off S128x128.size h) hs).view.set,
      (((oV).slice (Rect.unit (s := S65536x128) off S128x128.size h) hs).view.writes (Elt F) fo
        [⟨Rect.whole (Rect.unit (s := S65536x128) off S128x128.size h).shape,
          ReadAs.same.apply (View.read (Elt F) v (v.writes (Elt F) f
            (⟨Rect.whole S128x128, SparseCore.gatherPayload gathers_S800000x128_S128x128
              (View.read (Elt F) ((tV).slice (Rect.unit (s := S800000x128) ![0, 0] S800000x128.size inb_S800000x128_S800000x128_0_0) (fun _ => rfl)).view TB)
              (SparseCore.rows idx hn hin)⟩ :: Lp)))⟩]) i
      = Cert.Proof.KSpec.outOf XV TB i := by
  subst e
  intro i hi
  obtain ⟨z, -, rfl⟩ := Finset.mem_map.mp hi
  have hz0 : (z 0).val < 128 := (z 0).isLt
  have hz1 : (z 1).val < 128 := (z 1).isLt
  -- the block's element under local index `z` holds what the piece wrote there: the staging buffer's word at `z`
  have h1 := read_writes_whole_cons ((oV).slice (Rect.unit (s := S65536x128) ![4096 * (L 1).val + 2048 * (L 0).val + 128 * c.val, 0] S128x128.size h) hs).view fo
    (ReadAs.same.apply (View.read (Elt F) v (v.writes (Elt F) f
            (⟨Rect.whole S128x128, SparseCore.gatherPayload gathers_S800000x128_S128x128
              (View.read (Elt F) ((tV).slice (Rect.unit (s := S800000x128) ![0, 0] S800000x128.size inb_S800000x128_S800000x128_0_0) (fun _ => rfl)).view TB)
              (SparseCore.rows idx hn hin)⟩ :: Lp)))) [] z
  rw [View.read_apply] at h1
  refine ((cast_eq _ _).symm.trans h1).trans ?_
  -- which is the gather's payload at `z`
  show View.read (Elt F) v (v.writes (Elt F) f
            (⟨Rect.whole S128x128, SparseCore.gatherPayload gathers_S800000x128_S128x128
              (View.read (Elt F) ((tV).slice (Rect.unit (s := S800000x128) ![0, 0] S800000x128.size inb_S800000x128_S800000x128_0_0) (fun _ => rfl)).view TB)
              (SparseCore.rows idx hn hin)⟩ :: Lp)) z = _
  rw [read_writes_whole_cons]
  -- the table's row the list names, at column `z 1`
  show View.read (Elt F) ((tV).slice (Rect.unit (s := S800000x128) ![0, 0] S800000x128.size inb_S800000x128_S800000x128_0_0) (fun _ => rfl)).view TB
      (gathers_S800000x128_S128x128.idx (SparseCore.rows idx hn hin) z) = _
  rw [View.read_apply]
  refine (cast_eq _ _).trans ?_
  -- the element's place in the output array: row `4096·(L 1) + 2048·(L 0) + 128·c + z 0`, column `z 1`
  obtain ⟨iz, hiz⟩ : ∃ iz : S65536x128.Idx, iz = ((oV).slice (Rect.unit (s := S65536x128) ![4096 * (L 1).val + 2048 * (L 0).val + 128 * c.val, 0] S128x128.size h) hs).view.emb z := ⟨_, rfl⟩
  have hiz0 : (iz 0).val = 4096 * (L 1).val + 2048 * (L 0).val + 128 * c.val + (z 0).val := by
    rw [hiz]
    show (4096 * (L 1).val + 2048 * (L 0).val + 128 * c.val) + 1 * (z 0).val = _
    omega
  have hiz1 : (iz 1).val = (z 1).val := by
    rw [hiz]
    show 0 + 1 * (z 1).val = _
    omega
  rw [← hiz]
  -- the list's word for local row `z 0`
  have hx0 : ((S128.rowMajor.symm ((z gathers_S800000x128_S128x128.axis').cast hn.symm)) 0).val = (z 0).val := by
    have hh := Shape.rowMajor_val_one (S128.rowMajor.symm ((z gathers_S800000x128_S128x128.axis').cast hn.symm))
    rw [Equiv.apply_symm_apply] at hh
    exact hh.symm
  have hw : idx (S128.rowMajor.symm ((z gathers_S800000x128_S128x128.axis').cast hn.symm)) = listW XV L (ix2 c (⟨(z 0).val, hz0⟩ : Fin 128)) :=
    (hidx _).trans (congrArg (fun q : Fin 128 => listW XV L (ix2 c q)) (Fin.ext hx0))
  have hR : listRow L c (⟨(z 0).val, hz0⟩ : Fin 128) = iz 0 := Fin.ext (by rw [listRow_val, hiz0])
  have hlt := listW_lt XV L hx (ix2 c (⟨(z 0).val, hz0⟩ : Fin 128))
  rw [listW_ix2, hR] at hlt
  show TB _ = TB (ix2 (⟨(Cert.Proof.KSpec.idxWord XV (iz 0)).toNat % 800000, Nat.mod_lt _ (by decide)⟩ : Fin 800000) (iz 1))
  refine congrArg TB (funext fun a => Fin.ext ?_)
  match a with
  | ⟨0, _⟩ =>
    show 0 + 1 * (idx (S128.rowMajor.symm ((z gathers_S800000x128_S128x128.axis').cast hn.symm))).toNat = (Cert.Proof.KSpec.idxWord XV (iz 0)).toNat % 800000
    rw [hw, listW_ix2, hR]
    omega
  | ⟨1, _⟩ =>
    show 0 + 1 * (z 1).val = (iz 1).val
    omega

end Cert.Proof.KI

end
-- ==== Proof.Body.lean ====
/-
  One vector subcore's task. The subcore at SparseCore `L 0`, tile `L 1` (number `w = 2·(L 1) + (L 0)`) copies sixteen rows of
  the re-laid index array into its first scratch; fills its list buffer, sixteen rows of 128 words, eight pieces of
  sixteen lanes per row, each word an entry of the first scratch plus `100000` times the table's number; moves, row by
  row, the rows of the stacked table the list names into one of six staging buffers (six such transfers may be under way
  at once, each reading the table through a read token of its own) and each staging buffer out to its block of 128 rows
  of the output array. Every semaphore carries one transfer at a time and no buffer is touched between the start of a
  transfer on it and the wait for it, so every interleaving ends the same way.
  Here: from the three arrays held as `held` says and the subcore's own scratch and semaphores, the kernel's function at
  `L` runs to its end and hands everything back with the sixteen output blocks holding the lookup's rows
  (`KSpec.outOf`). The words of the list are in range (`hin_row`) because the index array's are; each piece of the list is
  the word `KSpec.idxWord` of its output row (`piece_word`, the lane vectors of the program evaluated), so each row of the
  list reads as `listW` (`row_read`), and each output block as the table's rows at those words (`chunk_value`).
-/
import proofs.«204676_g22814866277092_cont_8to1_1488_17_alg».proof.Proof.TileRes
import proofs.«204676_g22814866277092_cont_8to1_1488_17_alg».proof.Proof.IdxBound
import proofs.«204676_g22814866277092_cont_8to1_1488_17_alg».proof.Proof.IdxValue
import proofs.«204676_g22814866277092_cont_8to1_1488_17_alg».proof.Proof.TileEnds
import proofs.«204676_g22814866277092_cont_8to1_1488_17_alg».proof.Proof.ChunkValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S4x128x128 EltTy.i32)
local notation "tV" => (Memref.whole Cert.KernelIdeal.main_v4_scv : Memref Cert.KernelIdeal.sig Kind.scVector Space.hbm Cert.KernelIdeal.S800000x128 EltTy.f32)
local notation "oV" => (Memref.whole Cert.KernelIdeal.main_v5_scv : Memref Cert.KernelIdeal.sig Kind.scVector Space.hbm Cert.KernelIdeal.S65536x128 EltTy.f32)
local notation "q0" => (Memref.whole Cert.KernelIdeal.cc0_scratch0 : Memref Cert.KernelIdeal.sig Kind.scVector Space.vmem Cert.KernelIdeal.S16x128 EltTy.i32)
local notation "q1" => (Memref.whole Cert.KernelIdeal.cc0_scratch1 : Memref Cert.KernelIdeal.sig Kind.scVector Space.vmem Cert.KernelIdeal.S16x128 EltTy.i32)
local notation "q2" => (Memref.whole Cert.KernelIdeal.cc0_scratch2 : Memref Cert.KernelIdeal.sig Kind.scVector Space.vmem Cert.KernelIdeal.S128x128 EltTy.f32)
local notation "q3" => (Memref.whole Cert.KernelIdeal.cc0_scratch3 : Memref Cert.KernelIdeal.sig Kind.scVector Space.vmem Cert.KernelIdeal.S128x128 EltTy.f32)
local notation "q4" => (Memref.whole Cert.KernelIdeal.cc0_scratch4 : Memref Cert.KernelIdeal.sig Kind.scVector Space.vmem Cert.KernelIdeal.S128x128 EltTy.f32)
local notation "q5" => (Memref.whole Cert.KernelIdeal.cc0_scratch5 : Memref Cert.KernelIdeal.sig Kind.scVector Space.vmem Cert.KernelIdeal.S128x128 EltTy.f32)
local notation "q6" => (Memref.whole Cert.KernelIdeal.cc0_scratch6 : Memref Cert.KernelIdeal.sig Kind.scVector Space.vmem Cert.KernelIdeal.S128x128 EltTy.f32)
local notation "q7" => (Memref.whole Cert.KernelIdeal.cc0_scratch7 : Memref Cert.KernelIdeal.sig Kind.scVector Space.vmem Cert.KernelIdeal.S128x128 EltTy.f32)

variable [FloatOps F]

section Tile
variable (d : Dev nD) (L : grid0.Coords)

/-! ## The arrays and the scratch as the subcore's memrefs address them -/

omit [FloatOps F] in
theorem pts_x (q : PosShare TreeShare) (f : Buf (Elt F) (xLoc d)) : ((xV).view.loc (V d (cV L) (jV L)) ↦{q} f : sProp 𝕄) = xLoc d ↦{q} f := rfl
omit [FloatOps F] in
theorem pts_t (q : PosShare TreeShare) (f : Buf (Elt F) (tLoc d)) : ((tV).view.loc (V d (cV L) (jV L)) ↦{q} f : sProp 𝕄) = tLoc d ↦{q} f := rfl
omit [FloatOps F] in
theorem pts_q0 (f : Buf (Elt F) ((V d (cV L) (jV L)).loc cc0_scratch0)) : ((q0).view.loc (V d (cV L) (jV L)) ↦{fullShare} f : sProp 𝕄) = (V d (cV L) (jV L)).loc cc0_scratch0 ↦{fullShare} f := rfl
omit [FloatOps F] in
theorem pts_q1 (f : Buf (Elt F) ((V d (cV L) (jV L)).loc cc0_scratch1)) : ((q1).view.loc (V d (cV L) (jV L)) ↦{fullShare} f : sProp 𝕄) = (V d (cV L) (jV L)).loc cc0_scratch1 ↦{fullShare} f := rfl
omit [FloatOps F] in
theorem pts_q2 (f : Buf (Elt F) ((V d (cV L) (jV L)).loc cc0_scratch2)) : ((q2).view.loc (V d (cV L) (jV L)) ↦{fullShare} f : sProp 𝕄) = (V d (cV L) (jV L)).loc cc0_scratch2 ↦{fullShare} f := rfl
omit [FloatOps F] in
theorem pts_q3 (f : Buf (Elt F) ((V d (cV L) (jV L)).loc cc0_scratch3)) : ((q3).view.loc (V d (cV L) (jV L)) ↦{fullShare} f : sProp 𝕄) = (V d (cV L) (jV L)).loc cc0_scratch3 ↦{fullShare} f := rfl
omit [FloatOps F] in
theorem pts_q4 (f : Buf (Elt F) ((V d (cV L) (jV L)).loc cc0_scratch4)) : ((q4).view.loc (V d (cV L) (jV L)) ↦{fullShare} f : sProp 𝕄) = (V d (cV L) (jV L)).loc cc0_scratch4 ↦{fullShare} f := rfl
omit [FloatOps F] in
theorem pts_q5 (f : Buf (Elt F) ((V d (cV L) (jV L)).loc cc0_scratch5)) : ((q5).view.loc (V d (cV L) (jV L)) ↦{fullShare} f : sProp 𝕄) = (V d (cV L) (jV L)).loc cc0_scratch5 ↦{fullShare} f := rfl
omit [FloatOps F] in
theorem pts_q6 (f : Buf (Elt F) ((V d (cV L) (jV L)).loc cc0_scratch6)) : ((q6).view.loc (V d (cV L) (jV L)) ↦{fullShare} f : sProp 𝕄) = (V d (cV L) (jV L)).loc cc0_scratch6 ↦{fullShare} f := rfl
omit [FloatOps F] in
theorem pts_q7 (f : Buf (Elt F) ((V d (cV L) (jV L)).loc cc0_scratch7)) : ((q7).view.loc (V d (cV L) (jV L)) ↦{fullShare} f : sProp 𝕄) = (V d (cV L) (jV L)).loc cc0_scratch7 ↦{fullShare} f := rfl
omit [FloatOps F] in
theorem pts_q0_access (f : Buf (Elt F) ((V d (cV L) (jV L)).loc cc0_scratch0)) :
    (((q0).access (.whole S16x128)).loc (V d (cV L) (jV L)) ↦{fullShare} f : sProp 𝕄) = (V d (cV L) (jV L)).loc cc0_scratch0 ↦{fullShare} f := rfl

omit [FloatOps F] in
/-- The sliced memref's elements are the block's. -/
theorem set_chunk (L : grid0.Coords) (k : Fin 16) (off : Fin 2 → Nat) (h : ∀ a, off a + S128x128.size a ≤ S65536x128.size a)
    (hs : ∀ a, (Rect.unit (s := S65536x128) off S128x128.size h).stride a = 1)
    (e : off = ![4096 * (L 1).val + 2048 * (L 0).val + 128 * k.val, 0]) :
    ((oV).slice (Rect.unit (s := S65536x128) off S128x128.size h) hs).view.set = oPart (chunkIx L k) := by
  show ((oV).view.slice (Rect.unit (s := S65536x128) off S128x128.size h)).set = ((oV).view.slice (oRect (chunkIx L k))).set
  rw [chunk_rect L k off h e]

omit [FloatOps F] in
theorem pts_chunk (d : Dev nD) (L : grid0.Coords) (k : Fin 16) (off : Fin 2 → Nat) (h : ∀ a, off a + S128x128.size a ≤ S65536x128.size a)
    (hs : ∀ a, (Rect.unit (s := S65536x128) off S128x128.size h).stride a = 1)
    (e : off = ![4096 * (L 1).val + 2048 * (L 0).val + 128 * k.val, 0]) (f : Buf (Elt F) (oLoc d)) :
    (((oV).slice (Rect.unit (s := S65536x128) off S128x128.size h) hs).view.loc (V d (cV L) (jV L))
        ↦[((oV).slice (Rect.unit (s := S65536x128) off S128x128.size h) hs).view.set]{fullShare} f : sProp 𝕄)
      = oLoc d ↦[oPart (chunkIx L k)]{fullShare} f := by
  rw [set_chunk L k off h hs e]

/-! ## Where the program's sixteen block offsets lie -/

omit [FloatOps F] in
theorem off_chunk0 (L : grid0.Coords) : k0_off2 L = ![4096 * (L 1).val + 2048 * (L 0).val + 128 * (0 : Fin 16).val, 0] := by
  have e := k0_off2_eq L
  exact e.trans rfl
omit [FloatOps F] in
theorem off_chunk1 (L : grid0.Coords) : k0_off3 L 128#32 = ![4096 * (L 1).val + 2048 * (L 0).val + 128 * (1 : Fin 16).val, 0] := by
  have e := k0_off3_eq L 1
  refine e.trans ?_
  congr 1
omit [FloatOps F] in
theorem off_chunk2 (L : grid0.Coords) : k0_off4 L 256#32 = ![4096 * (L 1).val + 2048 * (L 0).val + 128 * (2 : Fin 16).val, 0] := by
  have e := k0_off4_eq L 1
  refine e.trans ?_
  congr 1
omit [FloatOps F] in
theorem off_chunk3 (L : grid0.Coords) : k0_off5 L 384#32 = ![4096 * (L 1).val + 2048 * (L 0).val + 128 * (3 : Fin 16).val, 0] := by
  have e := k0_off5_eq L 1
  refine e.trans ?_
  congr 1
omit [FloatOps F] in
theorem off_chunk4 (L : grid0.Coords) : k0_off6 L 512#32 = ![4096 * (L 1).val + 2048 * (L 0).val + 128 * (4 : Fin 16).val, 0] := by
  have e := k0_off6_eq L 1
  refine e.trans ?_
  congr 1
omit [FloatOps F] in
theorem off_chunk5 (L : grid0.Coords) : k0_off7 L 640#32 = ![4096 * (L 1).val + 2048 * (L 0).val + 128 * (5 : Fin 16).val, 0] := by
  have e := k0_off7_eq L 1
  refine e.trans ?_
  congr 1
omit [FloatOps F] in
theorem off_chunk6 (L : grid0.Coords) : k0_off8 L 768#32 = ![4096 * (L 1).val + 2048 * (L 0).val + 128 * (6 : Fin 16).val, 0] := by
  have e := k0_off8_eq L 1
  refine e.trans ?_
  congr 1
omit [FloatOps F] in
theorem off_chunk7 (L : grid0.Coords) : k0_off9 L 896#32 = ![4096 * (L 1).val + 2048 * (L 0).val + 128 * (7 : Fin 16).val, 0] := by
  have e := k0_off9_eq L 1
  refine e.trans ?_
  congr 1
omit [FloatOps F] in
theorem off_chunk8 (L : grid0.Coords) : k0_off10 L 1024#32 = ![4096 * (L 1).val + 2048 * (L 0).val + 128 * (8 : Fin 16).val, 0] := by
  have e := k0_off10_eq L 1
  refine e.trans ?_
  congr 1
omit [FloatOps F] in
theorem off_chunk9 (L : grid0.Coords) : k0_off11 L 1152#32 = ![4096 * (L 1).val + 2048 * (L 0).val + 128 * (9 : Fin 16).val, 0] := by
  have e := k0_off11_eq L 1
  refine e.trans ?_
  congr 1
omit [FloatOps F] in
theorem off_chunk10 (L : grid0.Coords) : k0_off12 L 1280#32 = ![4096 * (L 1).val + 2048 * (L 0).val + 128 * (10 : Fin 16).val, 0] := by
  have e := k0_off12_eq L 1
  refine e.trans ?_
  congr 1
omit [FloatOps F] in
theorem off_chunk11 (L : grid0.Coords) : k0_off12 L 1408#32 = ![4096 * (L 1).val + 2048 * (L 0).val + 128 * (11 : Fin 16).val, 0] := by
  have e := k0_off12_eq L 2
  refine e.trans ?_
  congr 1
omit [FloatOps F] in
theorem off_chunk12 (L : grid0.Coords) : k0_off12 L 1536#32 = ![4096 * (L 1).val + 2048 * (L 0).val + 128 * (12 : Fin 16).val, 0] := by
  have e := k0_off12_eq L 3
  refine e.trans ?_
  congr 1
omit [FloatOps F] in
theorem off_chunk13 (L : grid0.Coords) : k0_off12 L 1664#32 = ![4096 * (L 1).val + 2048 * (L 0).val + 128 * (13 : Fin 16).val, 0] := by
  have e := k0_off12_eq L 4
  refine e.trans ?_
  congr 1
omit [FloatOps F] in
theorem off_chunk14 (L : grid0.Coords) : k0_off12 L 1792#32 = ![4096 * (L 1).val + 2048 * (L 0).val + 128 * (14 : Fin 16).val, 0] := by
  have e := k0_off12_eq L 5
  refine e.trans ?_
  congr 1
omit [FloatOps F] in
theorem off_chunk15 (L : grid0.Coords) : k0_off12 L 1920#32 = ![4096 * (L 1).val + 2048 * (L 0).val + 128 * (15 : Fin 16).val, 0] := by
  have e := k0_off12_eq L 6
  refine e.trans ?_
  congr 1

end Tile

/-! ## The task -/

set_option maxHeartbeats 40000000 in
/-- The kernel's function at `L`: the fetch of the index rows, the 128 list pieces (an indexed load of the first scratch, a
    store into the list), the sixteen gathers and the sixteen copies out with their waits; then the value of what was
    written. -/
theorem tile_body : TileBody (F := F) := by
  intro hF d L O W hO qx qt XV TB fo hx
  rw [(K (F := F)).scopedBufs_V hF d (cV L) (jV L), SparseCore.Cfg.scopedSems0_V (Val := Elt F) d (cV L) (jV L), ownSems0_split, ownBufs_split]
  simp only [held, bigSep_fin16]
  dsimp only [cellsOf, refsOf, ownSemList, ownBufList, List.map, List.foldr]
  simp only [cc0_k_eq_skeleton]; unfold cc0_k_skel
  iintro ⟨#Hlv, -, ⟨Hx, Ht, Ho0, Ho1, Ho2, Ho3, Ho4, Ho5, Ho6, Ho7, Ho8, Ho9, Ho10, Ho11, Ho12, Ho13, Ho14, Ho15⟩, ⟨⟨%f0, B0⟩, ⟨%f1, B1⟩, ⟨%f2, B2⟩, ⟨%f3, B3⟩, ⟨%f4, B4⟩, ⟨%f5, B5⟩, ⟨%f6, B6⟩, ⟨%f7, B7⟩, Bufs⟩, ⟨S8, S9, S10, S11, S12, S13, S14, S15, S16, S17, S18, S19, Ssc, Sems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the table's share as six read tokens, one per gather that can be under way, and a remainder
  ihave Htk := (toks6 (F := F) qt).1 $$ Ht
  icases Htk with ⟨Htr, Ht0, Ht1, Ht2, Ht3, Ht4, Ht5⟩
  ihave Hx' := (Entails.of_eq (pts_x (F := F) d L _ _).symm) $$ Hx
  ihave Ht0' := (Entails.of_eq (pts_t (F := F) d L _ _).symm) $$ Ht0
  ihave Ht1' := (Entails.of_eq (pts_t (F := F) d L _ _).symm) $$ Ht1
  ihave Ht2' := (Entails.of_eq (pts_t (F := F) d L _ _).symm) $$ Ht2
  ihave Ht3' := (Entails.of_eq (pts_t (F := F) d L _ _).symm) $$ Ht3
  ihave Ht4' := (Entails.of_eq (pts_t (F := F) d L _ _).symm) $$ Ht4
  ihave Ht5' := (Entails.of_eq (pts_t (F := F) d L _ _).symm) $$ Ht5
  ihave H0' := (Entails.of_eq (pts_q0 (F := F) d L _).symm) $$ B0
  ihave H1' := (Entails.of_eq (pts_q1 (F := F) d L _).symm) $$ B1
  ihave H2' := (Entails.of_eq (pts_q2 (F := F) d L _).symm) $$ B2
  ihave H3' := (Entails.of_eq (pts_q3 (F := F) d L _).symm) $$ B3
  ihave H4' := (Entails.of_eq (pts_q4 (F := F) d L _).symm) $$ B4
  ihave H5' := (Entails.of_eq (pts_q5 (F := F) d L _).symm) $$ B5
  ihave H6' := (Entails.of_eq (pts_q6 (F := F) d L _).symm) $$ B6
  ihave H7' := (Entails.of_eq (pts_q7 (F := F) d L _).symm) $$ B7
  ihave Hc0 := (Entails.of_eq (pts_chunk (F := F) d L 0 (k0_off2 L) (k0_off2_inb L) (fun _ => rfl) (off_chunk0 L) _).symm) $$ Ho0
  ihave Hc1 := (Entails.of_eq (pts_chunk (F := F) d L 1 (k0_off3 L 128#32) (k0_off3_inb L 1) (fun _ => rfl) (off_chunk1 L) _).symm) $$ Ho1
  ihave Hc2 := (Entails.of_eq (pts_chunk (F := F) d L 2 (k0_off4 L 256#32) (k0_off4_inb L 1) (fun _ => rfl) (off_chunk2 L) _).symm) $$ Ho2
  ihave Hc3 := (Entails.of_eq (pts_chunk (F := F) d L 3 (k0_off5 L 384#32) (k0_off5_inb L 1) (fun _ => rfl) (off_chunk3 L) _).symm) $$ Ho3
  ihave Hc4 := (Entails.of_eq (pts_chunk (F := F) d L 4 (k0_off6 L 512#32) (k0_off6_inb L 1) (fun _ => rfl) (off_chunk4 L) _).symm) $$ Ho4
  ihave Hc5 := (Entails.of_eq (pts_chunk (F := F) d L 5 (k0_off7 L 640#32) (k0_off7_inb L 1) (fun _ => rfl) (off_chunk5 L) _).symm) $$ Ho5
  ihave Hc6 := (Entails.of_eq (pts_chunk (F := F) d L 6 (k0_off8 L 768#32) (k0_off8_inb L 1) (fun _ => rfl) (off_chunk6 L) _).symm) $$ Ho6
  ihave Hc7 := (Entails.of_eq (pts_chunk (F := F) d L 7 (k0_off9 L 896#32) (k0_off9_inb L 1) (fun _ => rfl) (off_chunk7 L) _).symm) $$ Ho7
  ihave Hc8 := (Entails.of_eq (pts_chunk (F := F) d L 8 (k0_off10 L 1024#32) (k0_off10_inb L 1) (fun _ => rfl) (off_chunk8 L) _).symm) $$ Ho8
  ihave Hc9 := (Entails.of_eq (pts_chunk (F := F) d L 9 (k0_off11 L 1152#32) (k0_off11_inb L 1) (fun _ => rfl) (off_chunk9 L) _).symm) $$ Ho9
  ihave Hc10 := (Entails.of_eq (pts_chunk (F := F) d L 10 (k0_off12 L 1280#32) (k0_off12_inb L 1) (fun _ => rfl) (off_chunk10 L) _).symm) $$ Ho10
  ihave Hc11 := (Entails.of_eq (pts_chunk (F := F) d L 11 (k0_off12 L 1408#32) (k0_off12_inb L 2) (fun _ => rfl) (off_chunk11 L) _).symm) $$ Ho11
  ihave Hc12 := (Entails.of_eq (pts_chunk (F := F) d L 12 (k0_off12 L 1536#32) (k0_off12_inb L 3) (fun _ => rfl) (off_chunk12 L) _).symm) $$ Ho12
  ihave Hc13 := (Entails.of_eq (pts_chunk (F := F) d L 13 (k0_off12 L 1664#32) (k0_off12_inb L 4) (fun _ => rfl) (off_chunk13 L) _).symm) $$ Ho13
  ihave Hc14 := (Entails.of_eq (pts_chunk (F := F) d L 14 (k0_off12 L 1792#32) (k0_off12_inb L 5) (fun _ => rfl) (off_chunk14 L) _).symm) $$ Ho14
  ihave Hc15 := (Entails.of_eq (pts_chunk (F := F) d L 15 (k0_off12 L 1920#32) (k0_off12_inb L 6) (fun _ => rfl) (off_chunk15 L) _).symm) $$ Ho15
  -- the fetch of the sixteen index rows into the first scratch
  sl_exec
  -- every word of the first scratch is a word of the index array; hence every list word will be a row of the table
  have hq0 : ∀ j, ((View.write (Elt F) (q0).view f0 (tile_body.sl.dma0 d L XV) Finset.univ) j).toNat < 100000 := q0_lt (F := F) d L XV hx f0
  have hin := hin_row (F := F) d L _ hq0
  ihave H0r := (Entails.of_eq (pts_q0 (F := F) d L _)) $$ H0'
  ihave H0a := (Entails.of_eq (pts_q0_access (F := F) d L _).symm) $$ H0r
  -- the 128 pieces: an indexed load of the first scratch, then the run up to the next one (stores, gathers, copies, waits)
  repeat (iapply (SparseCore.wp_vectorLoadIdx 𝒱₀ (V d (cV L) (jV L)) none Set.univ (base := q0) (S := Finset.univ) (q := fullShare) (Finset.subset_univ _)) $$ H0a; iintro H0a; sl_exec)
  sl_step
  -- the list buffer's words, row by row; the output blocks' contents
  have hRD : ∀ (r : Fin 16) (l : Fin 128), View.read (Elt F) ((q0).access (Rect.whole S16x128)) (View.write (Elt F) (q0).view f0 (tile_body.sl.dma0 d L XV) Finset.univ) (ValueIdx.ix2 r l)
      = XV (ValueIdx.ix3 (planeOf L) (rowAt L r) l) := fun r l => rd_eq (F := F) d L XV f0 r l
  have A0 : AllW (F := F) (listW XV L) (tile_body.sl.H1'_8 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ (allW_nil _)))))))))
    · exact piece_word XV L _ hRD 0 7 (by decide) (by decide) _ _ _ _ (by decide +kernel) (by decide) _
    · exact piece_word XV L _ hRD 0 6 (by decide) (by decide) _ _ _ _ (by decide +kernel) (by decide) _
    · exact piece_word XV L _ hRD 0 5 (by decide) (by decide) _ _ _ _ (by decide +kernel) (by decide) _
    · exact piece_word XV L _ hRD 0 4 (by decide) (by decide) _ _ _ _ (by decide +kernel) (by decide) _
    · exact piece_word XV L _ hRD 0 3 (by decide) (by decide) _ _ _ _ (by decide +kernel) (by decide) _
    · exact piece_word XV L _ hRD 0 2 (by decide) (by decide) _ _ _ _ (by decide +kernel) (by decide) _
    · exact piece_word XV L _ hRD 0 1 (by decide) (by decide) _ _ _ _ (by decide +kernel) (by decide) _
    · exact piece_word XV L _ hRD 0 0 (by decide) (by decide) _ _ _ _ (by decide +kernel) (by decide) _
  have A1 : AllW (F := F) (listW XV L) (tile_body.sl.H1'_16 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A0))))))))
    · exact piece_word XV L _ hRD 1 7 (by decide) (by decide) _ _ _ _ (by decide +kernel) (by decide) _
    · exact piece_word XV L _ hRD 1 6 (by decide) (by decide) _ _ _ _ (by decide +kernel) (by decide) _
    · exact piece_word XV L _ hRD 1 5 (by decide) (by decide) _ _ _ _ (by decide +kernel) (by decide) _
    · exact piece_word XV L _ hRD 1 4 (by decide) (by decide) _ _ _ _ (by decide +kernel) (by decide) _
    · exact piece_word XV L _ hRD 1 3 (by decide) (by decide) _ _ _ _ (by decide +kernel) (by decide) _
    · exact piece_word XV L _ hRD 1 2 (by decide) (by decide) _ _ _ _ (by decide +kernel) (by decide) _
    · exact piece_word XV L _ hRD 1 1 (by decide) (by decide) _ _ _ _ (by decide +kernel) (by decide) _
    · exact piece_word XV L _ hRD 1 0 (by decide) (by decide) _ _ _ _ (by decide +kernel) (by decide) _
  have A2 : AllW (F := F) (listW XV L) (tile_body.sl.H1'_24 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A1))))))))
    · exact piece_word XV L _ hRD 2 7 (by decide) (by decide) _ _ _ _ (by decide +kernel) (by decide) _
    · exact piece_word XV L _ hRD 2 6 (by decide) (by decide) _ _ _ _ (by decide +kernel) (by decide) _
    · exact piece_word XV L _ hRD 2 5 (by decide) (by decide) _ _ _ _ (by decide +kernel) (by decide) _
    · exact piece_word XV L _ hRD 2 4 (by decide) (by decide) _ _ _ _ (by decide +kernel) (by decide) _
    · exact piece_word XV L _ hRD 2 3 (by decide) (by decide) _ _ _ _ (by decide +kernel) (by decide) _
    · exact piece_word XV L _ hRD 2 2 (by decide) (by decide) _ _ _ _ (by decide +kernel) (by decide) _
    · exact piece_word XV L _ hRD 2 1 (by decide) (by decide) _ _ _ _ (by decide +kernel) (by decide) _
    · exact piece_word XV L _ hRD 2 0 (by decide) (by decide) _ _ _ _ (by decide +kernel) (by decide) _
  have A3 : AllW (F := F) (listW XV L) (tile_body.sl.H1'_32 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A2))))))))
    · exact piece_word XV L _ hRD 3 7 (by decide) (by decide) _ _ _ _ (by decide +kernel) (by decide) _
    · exact piece_word XV L _ hRD 3 6 (by decide) (by decide) _ _ _ _ (by decide +kernel) (by decide) _
    · exact piece_word XV L _ hRD 3 5 (by decide) (by decide) _ _ _ _ (by decide +kernel) (by decide) _
    · exact piece_word XV L _ hRD 3 4 (by decide) (by decide) _ _ _ _ (by decide +kernel) (by decide) _
    · exact piece_word XV L _ hRD 3 3 (by decide) (by decide) _ _ _ _ (by decide +kernel) (by decide) _
    · exact piece_word XV L _ hRD 3 2 (by decide) (by decide) _ _ _ _ (by decide +kernel) (by decide) _
    · exact piece_word XV L _ hRD 3 1 (by decide) (by decide) _ _ _ _ (by decide +kernel) (by decide) _
    · exact piece_word XV L _ hRD 3 0 (by decide) (by decide) _ _ _ _ (by decide +kernel) (by decide) _
  have A4 : AllW (F := F) (listW XV L) (tile_body.sl.H1'_40 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A3))))))))
    · exact piece_word XV L _ hRD 4 7 (by decide) (by decide) _ _ _ _ (by decide +kernel) (by decide) _
    · exact piece_word XV L _ hRD 4 6 (by decide) (by decide) _ _ _ _ (by decide +kernel) (by decide) _
    · exact piece_word XV L _ hRD 4 5 (by decide) (by decide) _ _ _ _ (by decide +kernel) (by decide) _
    · exact piece_word XV L _ hRD 4 4 (by decide) (by decide) _ _ _ _ (by decide +kernel) (by decide) _
    · exact piece_word XV L _ hRD 4 3 (by decide) (by decide) _ _ _ _ (by decide +kernel) (by decide) _
    · exact piece_word XV L _ hRD 4 2 (by decide) (by decide) _ _ _ _ (by decide +kernel) (by decide) _
    · exact piece_word XV L _ hRD 4 1 (by decide) (by decide) _ _ _ _ (by decide +kernel) (by decide) _
    · exact piece_word XV L _ hRD 4 0 (by decide) (by decide) _ _ _ _ (by decide +kernel) (by decide) _
  have A5 : AllW (F := F) (listW XV L) (tile_body.sl.H1'_48 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A4))))))))
    · exact piece_word XV L _ hRD 5 7 (by decide) (by decide) _ _ _ _ (by decide +kernel) (by decide) _
    · exact piece_word XV L _ hRD 5 6 (by decide) (by decide) _ _ _ _ (by decide +kernel) (by decide) _
    · exact piece_word XV L _ hRD 5 5 (by decide) (by decide) _ _ _ _ (by decide +kernel) (by decide) _
    · exact piece_word XV L _ hRD 5 4 (by decide) (by decide) _ _ _ _ (by decide +kernel) (by decide) _
    · exact piece_word XV L _ hRD 5 3 (by decide) (by decide) _ _ _ _ (by decide +kernel) (by decide) _
    · exact piece_word XV L _ hRD 5 2 (by decide) (by decide) _ _ _ _ (by decide +kernel) (by decide) _
    · exact piece_word XV L _ hRD 5 1 (by decide) (by decide) _ _ _ _ (by decide +kernel) (by decide) _
    · exact piece_word XV L _ hRD 5 0 (by decide) (by decide) _ _ _ _ (by decide +kernel) (by decide) _
  have A6 : AllW (F := F) (listW XV L) (tile_body.sl.H1'_56 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A5))))))))
    · exact piece_word XV L _ hRD 6 7 (by decide) (by decide) _ _ _ _ (by decide +kernel) (by decide) _
    · exact piece_word XV L _ hRD 6 6 (by decide) (by decide) _ _ _ _ (by decide +kernel) (by decide) _
    · exact piece_word XV L _ hRD 6 5 (by decide) (by decide) _ _ _ _ (by decide +kernel) (by decide) _
    · exact piece_word XV L _ hRD 6 4 (by decide) (by decide) _ _ _ _ (by decide +kernel) (by decide) _
    · exact piece_word XV L _ hRD 6 3 (by decide) (by decide) _ _ _ _ (by decide +kernel) (by decide) _
    · exact piece_word XV L _ hRD 6 2 (by decide) (by decide) _ _ _ _ (by decide +kernel) (by decide) _
    · exact piece_word XV L _ hRD 6 1 (by decide) (by decide) _ _ _ _ (by decide +kernel) (by decide) _
    · exact piece_word XV L _ hRD 6 0 (by decide) (by decide) _ _ _ _ (by decide +kernel) (by decide) _
  have A7 : AllW (F := F) (listW XV L) (tile_body.sl.H1'_64 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A6))))))))
    · exact piece_word XV L _ hRD 7 7 (by decide) (by decide) _ _ _ _ (by decide +kernel) (by decide) _
    · exact piece_word XV L _ hRD 7 6 (by decide) (by decide) _ _ _ _ (by decide +kernel) (by decide) _
    · exact piece_word XV L _ hRD 7 5 (by decide) (by decide) _ _ _ _ (by decide +kernel) (by decide) _
    · exact piece_word XV L _ hRD 7 4 (by decide) (by decide) _ _ _ _ (by decide +kernel) (by decide) _
    · exact piece_word XV L _ hRD 7 3 (by decide) (by decide) _ _ _ _ (by decide +kernel) (by decide) _
    · exact piece_word XV L _ hRD 7 2 (by decide) (by decide) _ _ _ _ (by decide +kernel) (by decide) _
    · exact piece_word XV L _ hRD 7 1 (by decide) (by decide) _ _ _ _ (by decide +kernel) (by decide) _
    · exact piece_word XV L _ hRD 7 0 (by decide) (by decide) _ _ _ _ (by decide +kernel) (by decide) _
  have A8 : AllW (F := F) (listW XV L) (tile_body.sl.H1'_72 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A7))))))))
    · exact piece_word XV L _ hRD 8 7 (by decide) (by decide) _ _ _ _ (by decide +kernel) (by decide) _
    · exact piece_word XV L _ hRD 8 6 (by decide) (by decide) _ _ _ _ (by decide +kernel) (by decide) _
    · exact piece_word XV L _ hRD 8 5 (by decide) (by decide) _ _ _ _ (by decide +kernel) (by decide) _
    · exact piece_word XV L _ hRD 8 4 (by decide) (by decide) _ _ _ _ (by decide +kernel) (by decide) _
    · exact piece_word XV L _ hRD 8 3 (by decide) (by decide) _ _ _ _ (by decide +kernel) (by decide) _
    · exact piece_word XV L _ hRD 8 2 (by decide) (by decide) _ _ _ _ (by decide +kernel) (by decide) _
    · exact piece_word XV L _ hRD 8 1 (by decide) (by decide) _ _ _ _ (by decide +kernel) (by decide) _
    · exact piece_word XV L _ hRD 8 0 (by decide) (by decide) _ _ _ _ (by decide +kernel) (by decide) _
  have A9 : AllW (F := F) (listW XV L) (tile_body.sl.H1'_80 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A8))))))))
    · exact piece_word XV L _ hRD 9 7 (by decide) (by decide) _ _ _ _ (by decide +kernel) (by decide) _
    · exact piece_word XV L _ hRD 9 6 (by decide) (by decide) _ _ _ _ (by decide +kernel) (by decide) _
    · exact piece_word XV L _ hRD 9 5 (by decide) (by decide) _ _ _ _ (by decide +kernel) (by decide) _
    · exact piece_word XV L _ hRD 9 4 (by decide) (by decide) _ _ _ _ (by decide +kernel) (by decide) _
    · exact piece_word XV L _ hRD 9 3 (by decide) (by decide) _ _ _ _ (by decide +kernel) (by decide) _
    · exact piece_word XV L _ hRD 9 2 (by decide) (by decide) _ _ _ _ (by decide +kernel) (by decide) _
    · exact piece_word XV L _ hRD 9 1 (by decide) (by decide) _ _ _ _ (by decide +kernel) (by decide) _
    · exact piece_word XV L _ hRD 9 0 (by decide) (by decide) _ _ _ _ (by decide +kernel) (by decide) _
  have A10 : AllW (F := F) (listW XV L) (tile_body.sl.H1'_88 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A9))))))))
    · exact piece_word XV L _ hRD 10 7 (by decide) (by decide) _ _ _ _ (by decide +kernel) (by decide) _
    · exact piece_word XV L _ hRD 10 6 (by decide) (by decide) _ _ _ _ (by decide +kernel) (by decide) _
    · exact piece_word XV L _ hRD 10 5 (by decide) (by decide) _ _ _ _ (by decide +kernel) (by decide) _
    · exact piece_word XV L _ hRD 10 4 (by decide) (by decide) _ _ _ _ (by decide +kernel) (by decide) _
    · exact piece_word XV L _ hRD 10 3 (by decide) (by decide) _ _ _ _ (by decide +kernel) (by decide) _
    · exact piece_word XV L _ hRD 10 2 (by decide) (by decide) _ _ _ _ (by decide +kernel) (by decide) _
    · exact piece_word XV L _ hRD 10 1 (by decide) (by decide) _ _ _ _ (by decide +kernel) (by decide) _
    · exact piece_word XV L _ hRD 10 0 (by decide) (by decide) _ _ _ _ (by decide +kernel) (by decide) _
  have A11 : AllW (F := F) (listW XV L) (tile_body.sl.H1'_96 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A10))))))))
    · exact piece_word XV L _ hRD 11 7 (by decide) (by decide) _ _ _ _ (by decide +kernel) (by decide) _
    · exact piece_word XV L _ hRD 11 6 (by decide) (by decide) _ _ _ _ (by decide +kernel) (by decide) _
    · exact piece_word XV L _ hRD 11 5 (by decide) (by decide) _ _ _ _ (by decide +kernel) (by decide) _
    · exact piece_word XV L _ hRD 11 4 (by decide) (by decide) _ _ _ _ (by decide +kernel) (by decide) _
    · exact piece_word XV L _ hRD 11 3 (by decide) (by decide) _ _ _ _ (by decide +kernel) (by decide) _
    · exact piece_word XV L _ hRD 11 2 (by decide) (by decide) _ _ _ _ (by decide +kernel) (by decide) _
    · exact piece_word XV L _ hRD 11 1 (by decide) (by decide) _ _ _ _ (by decide +kernel) (by decide) _
    · exact piece_word XV L _ hRD 11 0 (by decide) (by decide) _ _ _ _ (by decide +kernel) (by decide) _
  have A12 : AllW (F := F) (listW XV L) (tile_body.sl.H1'_104 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A11))))))))
    · exact piece_word XV L _ hRD 12 7 (by decide) (by decide) _ _ _ _ (by decide +kernel) (by decide) _
    · exact piece_word XV L _ hRD 12 6 (by decide) (by decide) _ _ _ _ (by decide +kernel) (by decide) _
    · exact piece_word XV L _ hRD 12 5 (by decide) (by decide) _ _ _ _ (by decide +kernel) (by decide) _
    · exact piece_word XV L _ hRD 12 4 (by decide) (by decide) _ _ _ _ (by decide +kernel) (by decide) _
    · exact piece_word XV L _ hRD 12 3 (by decide) (by decide) _ _ _ _ (by decide +kernel) (by decide) _
    · exact piece_word XV L _ hRD 12 2 (by decide) (by decide) _ _ _ _ (by decide +kernel) (by decide) _
    · exact piece_word XV L _ hRD 12 1 (by decide) (by decide) _ _ _ _ (by decide +kernel) (by decide) _
    · exact piece_word XV L _ hRD 12 0 (by decide) (by decide) _ _ _ _ (by decide +kernel) (by decide) _
  have A13 : AllW (F := F) (listW XV L) (tile_body.sl.H1'_112 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A12))))))))
    · exact piece_word XV L _ hRD 13 7 (by decide) (by decide) _ _ _ _ (by decide +kernel) (by decide) _
    · exact piece_word XV L _ hRD 13 6 (by decide) (by decide) _ _ _ _ (by decide +kernel) (by decide) _
    · exact piece_word XV L _ hRD 13 5 (by decide) (by decide) _ _ _ _ (by decide +kernel) (by decide) _
    · exact piece_word XV L _ hRD 13 4 (by decide) (by decide) _ _ _ _ (by decide +kernel) (by decide) _
    · exact piece_word XV L _ hRD 13 3 (by decide) (by decide) _ _ _ _ (by decide +kernel) (by decide) _
    · exact piece_word XV L _ hRD 13 2 (by decide) (by decide) _ _ _ _ (by decide +kernel) (by decide) _
    · exact piece_word XV L _ hRD 13 1 (by decide) (by decide) _ _ _ _ (by decide +kernel) (by decide) _
    · exact piece_word XV L _ hRD 13 0 (by decide) (by decide) _ _ _ _ (by decide +kernel) (by decide) _
  have A14 : AllW (F := F) (listW XV L) (tile_body.sl.H1'_120 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A13))))))))
    · exact piece_word XV L _ hRD 14 7 (by decide) (by decide) _ _ _ _ (by decide +kernel) (by decide) _
    · exact piece_word XV L _ hRD 14 6 (by decide) (by decide) _ _ _ _ (by decide +kernel) (by decide) _
    · exact piece_word XV L _ hRD 14 5 (by decide) (by decide) _ _ _ _ (by decide +kernel) (by decide) _
    · exact piece_word XV L _ hRD 14 4 (by decide) (by decide) _ _ _ _ (by decide +kernel) (by decide) _
    · exact piece_word XV L _ hRD 14 3 (by decide) (by decide) _ _ _ _ (by decide +kernel) (by decide) _
    · exact piece_word XV L _ hRD 14 2 (by decide) (by decide) _ _ _ _ (by decide +kernel) (by decide) _
    · exact piece_word XV L _ hRD 14 1 (by decide) (by decide) _ _ _ _ (by decide +kernel) (by decide) _
    · exact piece_word XV L _ hRD 14 0 (by decide) (by decide) _ _ _ _ (by decide +kernel) (by decide) _
  have A15 : AllW (F := F) (listW XV L) (tile_body.sl.H1'_128 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A14))))))))
    · exact piece_word XV L _ hRD 15 7 (by decide) (by decide) _ _ _ _ (by decide +kernel) (by decide) _
    · exact piece_word XV L _ hRD 15 6 (by decide) (by decide) _ _ _ _ (by decide +kernel) (by decide) _
    · exact piece_word XV L _ hRD 15 5 (by decide) (by decide) _ _ _ _ (by decide +kernel) (by decide) _
    · exact piece_word XV L _ hRD 15 4 (by decide) (by decide) _ _ _ _ (by decide +kernel) (by decide) _
    · exact piece_word XV L _ hRD 15 3 (by decide) (by decide) _ _ _ _ (by decide +kernel) (by decide) _
    · exact piece_word XV L _ hRD 15 2 (by decide) (by decide) _ _ _ _ (by decide +kernel) (by decide) _
    · exact piece_word XV L _ hRD 15 1 (by decide) (by decide) _ _ _ _ (by decide +kernel) (by decide) _
    · exact piece_word XV L _ hRD 15 0 (by decide) (by decide) _ _ _ _ (by decide +kernel) (by decide) _
  have hrow0 := row_read (F := F) d L (listW XV L) 0 (by decide) (by decide) (fun _ => rfl) squeezes_S1x128_S128 f1 _ A0 (cover_row 0 (by decide) _ _ _ _ _ _ _ _ (by decide) (by decide) (by decide) (by decide) (by decide) (by decide) (by decide) (by decide) _)
  have hrow1 := row_read (F := F) d L (listW XV L) 1 (by decide) (by decide) (fun _ => rfl) squeezes_S1x128_S128 f1 _ A1 (cover_row 1 (by decide) _ _ _ _ _ _ _ _ (by decide) (by decide) (by decide) (by decide) (by decide) (by decide) (by decide) (by decide) _)
  have hrow2 := row_read (F := F) d L (listW XV L) 2 (by decide) (by decide) (fun _ => rfl) squeezes_S1x128_S128 f1 _ A2 (cover_row 2 (by decide) _ _ _ _ _ _ _ _ (by decide) (by decide) (by decide) (by decide) (by decide) (by decide) (by decide) (by decide) _)
  have hrow3 := row_read (F := F) d L (listW XV L) 3 (by decide) (by decide) (fun _ => rfl) squeezes_S1x128_S128 f1 _ A3 (cover_row 3 (by decide) _ _ _ _ _ _ _ _ (by decide) (by decide) (by decide) (by decide) (by decide) (by decide) (by decide) (by decide) _)
  have hrow4 := row_read (F := F) d L (listW XV L) 4 (by decide) (by decide) (fun _ => rfl) squeezes_S1x128_S128 f1 _ A4 (cover_row 4 (by decide) _ _ _ _ _ _ _ _ (by decide) (by decide) (by decide) (by decide) (by decide) (by decide) (by decide) (by decide) _)
  have hrow5 := row_read (F := F) d L (listW XV L) 5 (by decide) (by decide) (fun _ => rfl) squeezes_S1x128_S128 f1 _ A5 (cover_row 5 (by decide) _ _ _ _ _ _ _ _ (by decide) (by decide) (by decide) (by decide) (by decide) (by decide) (by decide) (by decide) _)
  have hrow6 := row_read (F := F) d L (listW XV L) 6 (by decide) (by decide) (fun _ => rfl) squeezes_S1x128_S128 f1 _ A6 (cover_row 6 (by decide) _ _ _ _ _ _ _ _ (by decide) (by decide) (by decide) (by decide) (by decide) (by decide) (by decide) (by decide) _)
  have hrow7 := row_read (F := F) d L (listW XV L) 7 (by decide) (by decide) (fun _ => rfl) squeezes_S1x128_S128 f1 _ A7 (cover_row 7 (by decide) _ _ _ _ _ _ _ _ (by decide) (by decide) (by decide) (by decide) (by decide) (by decide) (by decide) (by decide) _)
  have hrow8 := row_read (F := F) d L (listW XV L) 8 (by decide) (by decide) (fun _ => rfl) squeezes_S1x128_S128 f1 _ A8 (cover_row 8 (by decide) _ _ _ _ _ _ _ _ (by decide) (by decide) (by decide) (by decide) (by decide) (by decide) (by decide) (by decide) _)
  have hrow9 := row_read (F := F) d L (listW XV L) 9 (by decide) (by decide) (fun _ => rfl) squeezes_S1x128_S128 f1 _ A9 (cover_row 9 (by decide) _ _ _ _ _ _ _ _ (by decide) (by decide) (by decide) (by decide) (by decide) (by decide) (by decide) (by decide) _)
  have hrow10 := row_read (F := F) d L (listW XV L) 10 (by decide) (by decide) (fun _ => rfl) squeezes_S1x128_S128 f1 _ A10 (cover_row 10 (by decide) _ _ _ _ _ _ _ _ (by decide) (by decide) (by decide) (by decide) (by decide) (by decide) (by decide) (by decide) _)
  have hrow11 := row_read (F := F) d L (listW XV L) 11 (by decide) (by decide) (fun _ => rfl) squeezes_S1x128_S128 f1 _ A11 (cover_row 11 (by decide) _ _ _ _ _ _ _ _ (by decide) (by decide) (by decide) (by decide) (by decide) (by decide) (by decide) (by decide) _)
  have hrow12 := row_read (F := F) d L (listW XV L) 12 (by decide) (by decide) (fun _ => rfl) squeezes_S1x128_S128 f1 _ A12 (cover_row 12 (by decide) _ _ _ _ _ _ _ _ (by decide) (by decide) (by decide) (by decide) (by decide) (by decide) (by decide) (by decide) _)
  have hrow13 := row_read (F := F) d L (listW XV L) 13 (by decide) (by decide) (fun _ => rfl) squeezes_S1x128_S128 f1 _ A13 (cover_row 13 (by decide) _ _ _ _ _ _ _ _ (by decide) (by decide) (by decide) (by decide) (by decide) (by decide) (by decide) (by decide) _)
  have hrow14 := row_read (F := F) d L (listW XV L) 14 (by decide) (by decide) (fun _ => rfl) squeezes_S1x128_S128 f1 _ A14 (cover_row 14 (by decide) _ _ _ _ _ _ _ _ (by decide) (by decide) (by decide) (by decide) (by decide) (by decide) (by decide) (by decide) _)
  have hrow15 := row_read (F := F) d L (listW XV L) 15 (by decide) (by decide) (fun _ => rfl) squeezes_S1x128_S128 f1 _ A15 (cover_row 15 (by decide) _ _ _ _ _ _ _ _ (by decide) (by decide) (by decide) (by decide) (by decide) (by decide) (by decide) (by decide) _)
  have hval0 : ∀ i ∈ ((oV).slice (Rect.unit (s := S65536x128) (k0_off2 L) S128x128.size (k0_off2_inb L)) (fun _ => rfl)).view.set, (((oV).slice (Rect.unit (s := S65536x128) (k0_off2 L) S128x128.size (k0_off2_inb L)) (fun _ => rfl)).view.writes (Elt F) fo [⟨Rect.whole _, tile_body.sl.dma2 d L XV TB f0 f1 f2 hin⟩]) i = Cert.Proof.KSpec.outOf XV TB i :=
    chunk_value (F := F) d L XV TB hx 0 _ (k0_off2_inb L) (fun _ => rfl) (off_chunk0 L) fo _ _ _ _ hrow0 (by decide) (fun x => by rw [hrow0 x]; exact listW_lt XV L hx _)
  have hval1 : ∀ i ∈ ((oV).slice (Rect.unit (s := S65536x128) (k0_off3 L 128#32) S128x128.size (k0_off3_inb L 1)) (fun _ => rfl)).view.set, (((oV).slice (Rect.unit (s := S65536x128) (k0_off3 L 128#32) S128x128.size (k0_off3_inb L 1)) (fun _ => rfl)).view.writes (Elt F) fo [⟨Rect.whole _, tile_body.sl.dma2_1 d L XV TB f0 f1 f3 hin⟩]) i = Cert.Proof.KSpec.outOf XV TB i :=
    chunk_value (F := F) d L XV TB hx 1 _ (k0_off3_inb L 1) (fun _ => rfl) (off_chunk1 L) fo _ _ _ _ hrow1 (by decide) (fun x => by rw [hrow1 x]; exact listW_lt XV L hx _)
  have hval2 : ∀ i ∈ ((oV).slice (Rect.unit (s := S65536x128) (k0_off4 L 256#32) S128x128.size (k0_off4_inb L 1)) (fun _ => rfl)).view.set, (((oV).slice (Rect.unit (s := S65536x128) (k0_off4 L 256#32) S128x128.size (k0_off4_inb L 1)) (fun _ => rfl)).view.writes (Elt F) fo [⟨Rect.whole _, tile_body.sl.dma2_2 d L XV TB f0 f1 f4 hin⟩]) i = Cert.Proof.KSpec.outOf XV TB i :=
    chunk_value (F := F) d L XV TB hx 2 _ (k0_off4_inb L 1) (fun _ => rfl) (off_chunk2 L) fo _ _ _ _ hrow2 (by decide) (fun x => by rw [hrow2 x]; exact listW_lt XV L hx _)
  have hval3 : ∀ i ∈ ((oV).slice (Rect.unit (s := S65536x128) (k0_off5 L 384#32) S128x128.size (k0_off5_inb L 1)) (fun _ => rfl)).view.set, (((oV).slice (Rect.unit (s := S65536x128) (k0_off5 L 384#32) S128x128.size (k0_off5_inb L 1)) (fun _ => rfl)).view.writes (Elt F) fo [⟨Rect.whole _, tile_body.sl.dma2_3 d L XV TB f0 f1 f5 hin⟩]) i = Cert.Proof.KSpec.outOf XV TB i :=
    chunk_value (F := F) d L XV TB hx 3 _ (k0_off5_inb L 1) (fun _ => rfl) (off_chunk3 L) fo _ _ _ _ hrow3 (by decide) (fun x => by rw [hrow3 x]; exact listW_lt XV L hx _)
  have hval4 : ∀ i ∈ ((oV).slice (Rect.unit (s := S65536x128) (k0_off6 L 512#32) S128x128.size (k0_off6_inb L 1)) (fun _ => rfl)).view.set, (((oV).slice (Rect.unit (s := S65536x128) (k0_off6 L 512#32) S128x128.size (k0_off6_inb L 1)) (fun _ => rfl)).view.writes (Elt F) fo [⟨Rect.whole _, tile_body.sl.dma2_4 d L XV TB f0 f1 f6 hin⟩]) i = Cert.Proof.KSpec.outOf XV TB i :=
    chunk_value (F := F) d L XV TB hx 4 _ (k0_off6_inb L 1) (fun _ => rfl) (off_chunk4 L) fo _ _ _ _ hrow4 (by decide) (fun x => by rw [hrow4 x]; exact listW_lt XV L hx _)
  have hval5 : ∀ i ∈ ((oV).slice (Rect.unit (s := S65536x128) (k0_off7 L 640#32) S128x128.size (k0_off7_inb L 1)) (fun _ => rfl)).view.set, (((oV).slice (Rect.unit (s := S65536x128) (k0_off7 L 640#32) S128x128.size (k0_off7_inb L 1)) (fun _ => rfl)).view.writes (Elt F) fo [⟨Rect.whole _, tile_body.sl.dma2_5 d L XV TB f0 f1 f7 hin⟩]) i = Cert.Proof.KSpec.outOf XV TB i :=
    chunk_value (F := F) d L XV TB hx 5 _ (k0_off7_inb L 1) (fun _ => rfl) (off_chunk5 L) fo _ _ _ _ hrow5 (by decide) (fun x => by rw [hrow5 x]; exact listW_lt XV L hx _)
  have hval6 : ∀ i ∈ ((oV).slice (Rect.unit (s := S65536x128) (k0_off8 L 768#32) S128x128.size (k0_off8_inb L 1)) (fun _ => rfl)).view.set, (((oV).slice (Rect.unit (s := S65536x128) (k0_off8 L 768#32) S128x128.size (k0_off8_inb L 1)) (fun _ => rfl)).view.writes (Elt F) fo [⟨Rect.whole _, tile_body.sl.dma2_6 d L XV TB f0 f1 f2 hin⟩]) i = Cert.Proof.KSpec.outOf XV TB i :=
    chunk_value (F := F) d L XV TB hx 6 _ (k0_off8_inb L 1) (fun _ => rfl) (off_chunk6 L) fo _ _ _ _ hrow6 (by decide) (fun x => by rw [hrow6 x]; exact listW_lt XV L hx _)
  have hval7 : ∀ i ∈ ((oV).slice (Rect.unit (s := S65536x128) (k0_off9 L 896#32) S128x128.size (k0_off9_inb L 1)) (fun _ => rfl)).view.set, (((oV).slice (Rect.unit (s := S65536x128) (k0_off9 L 896#32) S128x128.size (k0_off9_inb L 1)) (fun _ => rfl)).view.writes (Elt F) fo [⟨Rect.whole _, tile_body.sl.dma2_7 d L XV TB f0 f1 f3 hin⟩]) i = Cert.Proof.KSpec.outOf XV TB i :=
    chunk_value (F := F) d L XV TB hx 7 _ (k0_off9_inb L 1) (fun _ => rfl) (off_chunk7 L) fo _ _ _ _ hrow7 (by decide) (fun x => by rw [hrow7 x]; exact listW_lt XV L hx _)
  have hval8 : ∀ i ∈ ((oV).slice (Rect.unit (s := S65536x128) (k0_off10 L 1024#32) S128x128.size (k0_off10_inb L 1)) (fun _ => rfl)).view.set, (((oV).slice (Rect.unit (s := S65536x128) (k0_off10 L 1024#32) S128x128.size (k0_off10_inb L 1)) (fun _ => rfl)).view.writes (Elt F) fo [⟨Rect.whole _, tile_body.sl.dma2_8 d L XV TB f0 f1 f4 hin⟩]) i = Cert.Proof.KSpec.outOf XV TB i :=
    chunk_value (F := F) d L XV TB hx 8 _ (k0_off10_inb L 1) (fun _ => rfl) (off_chunk8 L) fo _ _ _ _ hrow8 (by decide) (fun x => by rw [hrow8 x]; exact listW_lt XV L hx _)
  have hval9 : ∀ i ∈ ((oV).slice (Rect.unit (s := S65536x128) (k0_off11 L 1152#32) S128x128.size (k0_off11_inb L 1)) (fun _ => rfl)).view.set, (((oV).slice (Rect.unit (s := S65536x128) (k0_off11 L 1152#32) S128x128.size (k0_off11_inb L 1)) (fun _ => rfl)).view.writes (Elt F) fo [⟨Rect.whole _, tile_body.sl.dma2_9 d L XV TB f0 f1 f5 hin⟩]) i = Cert.Proof.KSpec.outOf XV TB i :=
    chunk_value (F := F) d L XV TB hx 9 _ (k0_off11_inb L 1) (fun _ => rfl) (off_chunk9 L) fo _ _ _ _ hrow9 (by decide) (fun x => by rw [hrow9 x]; exact listW_lt XV L hx _)
  have hval10 : ∀ i ∈ ((oV).slice (Rect.unit (s := S65536x128) (k0_off12 L 1280#32) S128x128.size (k0_off12_inb L 1)) (fun _ => rfl)).view.set, (((oV).slice (Rect.unit (s := S65536x128) (k0_off12 L 1280#32) S128x128.size (k0_off12_inb L 1)) (fun _ => rfl)).view.writes (Elt F) fo [⟨Rect.whole _, tile_body.sl.dma2_10 d L XV TB f0 f1 f6 hin⟩]) i = Cert.Proof.KSpec.outOf XV TB i :=
    chunk_value (F := F) d L XV TB hx 10 _ (k0_off12_inb L 1) (fun _ => rfl) (off_chunk10 L) fo _ _ _ _ hrow10 (by decide) (fun x => by rw [hrow10 x]; exact listW_lt XV L hx _)
  have hval11 : ∀ i ∈ ((oV).slice (Rect.unit (s := S65536x128) (k0_off12 L 1408#32) S128x128.size (k0_off12_inb L 2)) (fun _ => rfl)).view.set, (((oV).slice (Rect.unit (s := S65536x128) (k0_off12 L 1408#32) S128x128.size (k0_off12_inb L 2)) (fun _ => rfl)).view.writes (Elt F) fo [⟨Rect.whole _, tile_body.sl.dma2_11 d L XV TB f0 f1 f7 hin⟩]) i = Cert.Proof.KSpec.outOf XV TB i :=
    chunk_value (F := F) d L XV TB hx 11 _ (k0_off12_inb L 2) (fun _ => rfl) (off_chunk11 L) fo _ _ _ _ hrow11 (by decide) (fun x => by rw [hrow11 x]; exact listW_lt XV L hx _)
  have hval12 : ∀ i ∈ ((oV).slice (Rect.unit (s := S65536x128) (k0_off12 L 1536#32) S128x128.size (k0_off12_inb L 3)) (fun _ => rfl)).view.set, (((oV).slice (Rect.unit (s := S65536x128) (k0_off12 L 1536#32) S128x128.size (k0_off12_inb L 3)) (fun _ => rfl)).view.writes (Elt F) fo [⟨Rect.whole _, tile_body.sl.dma2_12 d L XV TB f0 f1 f2 hin⟩]) i = Cert.Proof.KSpec.outOf XV TB i :=
    chunk_value (F := F) d L XV TB hx 12 _ (k0_off12_inb L 3) (fun _ => rfl) (off_chunk12 L) fo _ _ _ _ hrow12 (by decide) (fun x => by rw [hrow12 x]; exact listW_lt XV L hx _)
  have hval13 : ∀ i ∈ ((oV).slice (Rect.unit (s := S65536x128) (k0_off12 L 1664#32) S128x128.size (k0_off12_inb L 4)) (fun _ => rfl)).view.set, (((oV).slice (Rect.unit (s := S65536x128) (k0_off12 L 1664#32) S128x128.size (k0_off12_inb L 4)) (fun _ => rfl)).view.writes (Elt F) fo [⟨Rect.whole _, tile_body.sl.dma2_13 d L XV TB f0 f1 f3 hin⟩]) i = Cert.Proof.KSpec.outOf XV TB i :=
    chunk_value (F := F) d L XV TB hx 13 _ (k0_off12_inb L 4) (fun _ => rfl) (off_chunk13 L) fo _ _ _ _ hrow13 (by decide) (fun x => by rw [hrow13 x]; exact listW_lt XV L hx _)
  have hval14 : ∀ i ∈ ((oV).slice (Rect.unit (s := S65536x128) (k0_off12 L 1792#32) S128x128.size (k0_off12_inb L 5)) (fun _ => rfl)).view.set, (((oV).slice (Rect.unit (s := S65536x128) (k0_off12 L 1792#32) S128x128.size (k0_off12_inb L 5)) (fun _ => rfl)).view.writes (Elt F) fo [⟨Rect.whole _, tile_body.sl.dma2_14 d L XV TB f0 f1 f4 hin⟩]) i = Cert.Proof.KSpec.outOf XV TB i :=
    chunk_value (F := F) d L XV TB hx 14 _ (k0_off12_inb L 5) (fun _ => rfl) (off_chunk14 L) fo _ _ _ _ hrow14 (by decide) (fun x => by rw [hrow14 x]; exact listW_lt XV L hx _)
  have hval15 : ∀ i ∈ ((oV).slice (Rect.unit (s := S65536x128) (k0_off12 L 1920#32) S128x128.size (k0_off12_inb L 6)) (fun _ => rfl)).view.set, (((oV).slice (Rect.unit (s := S65536x128) (k0_off12 L 1920#32) S128x128.size (k0_off12_inb L 6)) (fun _ => rfl)).view.writes (Elt F) fo [⟨Rect.whole _, tile_body.sl.dma2_15 d L XV TB f0 f1 f5 hin⟩]) i = Cert.Proof.KSpec.outOf XV TB i :=
    chunk_value (F := F) d L XV TB hx 15 _ (k0_off12_inb L 6) (fun _ => rfl) (off_chunk15 L) fo _ _ _ _ hrow15 (by decide) (fun x => by rw [hrow15 x]; exact listW_lt XV L hx _)
  isplitl [Hx' Htr Ht0' Ht1' Ht2' Ht3' Ht4' Ht5' Hc0 Hc1 Hc2 Hc3 Hc4 Hc5 Hc6 Hc7 Hc8 Hc9 Hc10 Hc11 Hc12 Hc13 Hc14 Hc15]
  · isplitl [Hx']; · iapply (Entails.of_eq (pts_x (F := F) d L _ _)); iexact Hx'
    isplitl [Htr Ht0' Ht1' Ht2' Ht3' Ht4' Ht5']
    · iapply (toks6 (F := F) qt).2
      isplitl [Htr]; · iexact Htr
      isplitl [Ht0']; · iapply (Entails.of_eq (pts_t (F := F) d L _ _)); iexact Ht0'
      isplitl [Ht1']; · iapply (Entails.of_eq (pts_t (F := F) d L _ _)); iexact Ht1'
      isplitl [Ht2']; · iapply (Entails.of_eq (pts_t (F := F) d L _ _)); iexact Ht2'
      isplitl [Ht3']; · iapply (Entails.of_eq (pts_t (F := F) d L _ _)); iexact Ht3'
      isplitl [Ht4']; · iapply (Entails.of_eq (pts_t (F := F) d L _ _)); iexact Ht4'
      iapply (Entails.of_eq (pts_t (F := F) d L _ _)); iexact Ht5'
    · skip
      isplitl [Hc0]; · iapply (Entails.of_eq ((pointsTo_congr hval0).trans (pts_chunk (F := F) d L 0 (k0_off2 L) (k0_off2_inb L) (fun _ => rfl) (off_chunk0 L) _))); iexact Hc0
      isplitl [Hc1]; · iapply (Entails.of_eq ((pointsTo_congr hval1).trans (pts_chunk (F := F) d L 1 (k0_off3 L 128#32) (k0_off3_inb L 1) (fun _ => rfl) (off_chunk1 L) _))); iexact Hc1
      isplitl [Hc2]; · iapply (Entails.of_eq ((pointsTo_congr hval2).trans (pts_chunk (F := F) d L 2 (k0_off4 L 256#32) (k0_off4_inb L 1) (fun _ => rfl) (off_chunk2 L) _))); iexact Hc2
      isplitl [Hc3]; · iapply (Entails.of_eq ((pointsTo_congr hval3).trans (pts_chunk (F := F) d L 3 (k0_off5 L 384#32) (k0_off5_inb L 1) (fun _ => rfl) (off_chunk3 L) _))); iexact Hc3
      isplitl [Hc4]; · iapply (Entails.of_eq ((pointsTo_congr hval4).trans (pts_chunk (F := F) d L 4 (k0_off6 L 512#32) (k0_off6_inb L 1) (fun _ => rfl) (off_chunk4 L) _))); iexact Hc4
      isplitl [Hc5]; · iapply (Entails.of_eq ((pointsTo_congr hval5).trans (pts_chunk (F := F) d L 5 (k0_off7 L 640#32) (k0_off7_inb L 1) (fun _ => rfl) (off_chunk5 L) _))); iexact Hc5
      isplitl [Hc6]; · iapply (Entails.of_eq ((pointsTo_congr hval6).trans (pts_chunk (F := F) d L 6 (k0_off8 L 768#32) (k0_off8_inb L 1) (fun _ => rfl) (off_chunk6 L) _))); iexact Hc6
      isplitl [Hc7]; · iapply (Entails.of_eq ((pointsTo_congr hval7).trans (pts_chunk (F := F) d L 7 (k0_off9 L 896#32) (k0_off9_inb L 1) (fun _ => rfl) (off_chunk7 L) _))); iexact Hc7
      isplitl [Hc8]; · iapply (Entails.of_eq ((pointsTo_congr hval8).trans (pts_chunk (F := F) d L 8 (k0_off10 L 1024#32) (k0_off10_inb L 1) (fun _ => rfl) (off_chunk8 L) _))); iexact Hc8
      isplitl [Hc9]; · iapply (Entails.of_eq ((pointsTo_congr hval9).trans (pts_chunk (F := F) d L 9 (k0_off11 L 1152#32) (k0_off11_inb L 1) (fun _ => rfl) (off_chunk9 L) _))); iexact Hc9
      isplitl [Hc10]; · iapply (Entails.of_eq ((pointsTo_congr hval10).trans (pts_chunk (F := F) d L 10 (k0_off12 L 1280#32) (k0_off12_inb L 1) (fun _ => rfl) (off_chunk10 L) _))); iexact Hc10
      isplitl [Hc11]; · iapply (Entails.of_eq ((pointsTo_congr hval11).trans (pts_chunk (F := F) d L 11 (k0_off12 L 1408#32) (k0_off12_inb L 2) (fun _ => rfl) (off_chunk11 L) _))); iexact Hc11
      isplitl [Hc12]; · iapply (Entails.of_eq ((pointsTo_congr hval12).trans (pts_chunk (F := F) d L 12 (k0_off12 L 1536#32) (k0_off12_inb L 3) (fun _ => rfl) (off_chunk12 L) _))); iexact Hc12
      isplitl [Hc13]; · iapply (Entails.of_eq ((pointsTo_congr hval13).trans (pts_chunk (F := F) d L 13 (k0_off12 L 1664#32) (k0_off12_inb L 4) (fun _ => rfl) (off_chunk13 L) _))); iexact Hc13
      isplitl [Hc14]; · iapply (Entails.of_eq ((pointsTo_congr hval14).trans (pts_chunk (F := F) d L 14 (k0_off12 L 1792#32) (k0_off12_inb L 5) (fun _ => rfl) (off_chunk14 L) _))); iexact Hc14
      iapply (Entails.of_eq ((pointsTo_congr hval15).trans (pts_chunk (F := F) d L 15 (k0_off12 L 1920#32) (k0_off12_inb L 6) (fun _ => rfl) (off_chunk15 L) _))); iexact Hc15
  isplitl [H0a H1' H1'_2 H1'_3 H1'_4 H1'_5 H1'_6 H1'_7 H1'_8 H1'_9 H1'_10 H1'_11 H1'_12 H1'_13 H1'_14 H1'_15 H2' H3' H4' H5' H6' H7' Bufs]
  · isplitl [H0a]; · iexists _; iapply (Entails.of_eq (pts_q0_access (F := F) d L _)); iexact H0a
    isplitl [H1' H1'_2 H1'_3 H1'_4 H1'_5 H1'_6 H1'_7 H1'_8 H1'_9 H1'_10 H1'_11 H1'_12 H1'_13 H1'_14 H1'_15]
    · iapply (q1_join (F := F) d L _ _ _ _ _ _ _ _ _ _ _ _ _ _ _ _ _ _ _ _ _ _ _ _ _ _ _ _ _ _ _ _ _ _ _ _ _ _ _ _ _ _ _ _ _ _ _ _ _ _ _ _ _ _ _ _ _)
      isplitl [H1']; · iexact H1'
      isplitl [H1'_2]; · iexact H1'_2
      isplitl [H1'_3]; · iexact H1'_3
      isplitl [H1'_4]; · iexact H1'_4
      isplitl [H1'_5]; · iexact H1'_5
      isplitl [H1'_6]; · iexact H1'_6
      isplitl [H1'_7]; · iexact H1'_7
      isplitl [H1'_8]; · iexact H1'_8
      isplitl [H1'_9]; · iexact H1'_9
      isplitl [H1'_10]; · iexact H1'_10
      isplitl [H1'_11]; · iexact H1'_11
      isplitl [H1'_12]; · iexact H1'_12
      isplitl [H1'_13]; · iexact H1'_13
      isplitl [H1'_14]; · iexact H1'_14
      iexact H1'_15
    isplitl [H2']; · iexists _; iapply (Entails.of_eq (pts_q2 (F := F) d L _)); iexact H2'
    isplitl [H3']; · iexists _; iapply (Entails.of_eq (pts_q3 (F := F) d L _)); iexact H3'
    isplitl [H4']; · iexists _; iapply (Entails.of_eq (pts_q4 (F := F) d L _)); iexact H4'
    isplitl [H5']; · iexists _; iapply (Entails.of_eq (pts_q5 (F := F) d L _)); iexact H5'
    isplitl [H6']; · iexists _; iapply (Entails.of_eq (pts_q6 (F := F) d L _)); iexact H6'
    isplitl [H7']; · iexists _; iapply (Entails.of_eq (pts_q7 (F := F) d L _)); iexact H7'
    iexact Bufs
  isplitl [S8 S9 S10 S11 S12 S13 S14 S15 S16 S17 S18 S19 Ssc Sems]
  · isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [Ssc]; · iexact Ssc
    iexact Sems
  -- every wait the run recorded was at the default index
  iexists _; isplitr
  swap; · iexact HO
  ipureintro; intro p hp
  repeat (rcases Finset.mem_insert.mp hp with h | hp; · exact .inr (h ▸ rfl))
  exact .inl hp

end Cert.Proof.KI

end
-- ==== Proof.TileResB.lean ====
/-
  Bookkeeping for one vector subcore: a big separating conjunction over sixteen indices written out; a thread's own
  semaphores and buffers taken out of the family the launch hands it, by a list of distinct members; the table's read
  share cut into six read tokens (one per gather that can be outstanding) and a remainder; and the subcore's sixteen
  output blocks in the spelling the program slices them in: block `k` starts at row `4096·(L 1) + 2048·(L 0) + 128·k`,
  which is block `16·(2·(L 1) + (L 0)) + k` of the 512.
-/
import proofs.«204676_g22814866277092_cont_8to1_1488_17_alg».proof.Proof.TileIfaceB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S4x128x128 EltTy.i32)
local notation "tV" => (Memref.whole Cert.Kernel.main_v4_scv : Memref Cert.Kernel.sig Kind.scVector Space.hbm Cert.Kernel.S800000x128 EltTy.f32)
local notation "oV" => (Memref.whole Cert.Kernel.main_v5_scv : Memref Cert.Kernel.sig Kind.scVector Space.hbm Cert.Kernel.S65536x128 EltTy.f32)
local notation "q0" => (Memref.whole Cert.Kernel.cc0_scratch0 : Memref Cert.Kernel.sig Kind.scVector Space.vmem Cert.Kernel.S16x128 EltTy.i32)
local notation "q1" => (Memref.whole Cert.Kernel.cc0_scratch1 : Memref Cert.Kernel.sig Kind.scVector Space.vmem Cert.Kernel.S16x128 EltTy.i32)
local notation "q2" => (Memref.whole Cert.Kernel.cc0_scratch2 : Memref Cert.Kernel.sig Kind.scVector Space.vmem Cert.Kernel.S128x128 EltTy.f32)
local notation "q3" => (Memref.whole Cert.Kernel.cc0_scratch3 : Memref Cert.Kernel.sig Kind.scVector Space.vmem Cert.Kernel.S128x128 EltTy.f32)
local notation "q4" => (Memref.whole Cert.Kernel.cc0_scratch4 : Memref Cert.Kernel.sig Kind.scVector Space.vmem Cert.Kernel.S128x128 EltTy.f32)
local notation "q5" => (Memref.whole Cert.Kernel.cc0_scratch5 : Memref Cert.Kernel.sig Kind.scVector Space.vmem Cert.Kernel.S128x128 EltTy.f32)
local notation "q6" => (Memref.whole Cert.Kernel.cc0_scratch6 : Memref Cert.Kernel.sig Kind.scVector Space.vmem Cert.Kernel.S128x128 EltTy.f32)
local notation "q7" => (Memref.whole Cert.Kernel.cc0_scratch7 : Memref Cert.Kernel.sig Kind.scVector Space.vmem Cert.Kernel.S128x128 EltTy.f32)

/-! ## Sixteen conjuncts -/

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## Members of a family, by a list -/

/-- A conjunction over a finite set with the members a duplicate-free list names taken out in front. -/
theorem bigSep_take {I : Type} [DecidableEq I] (Φ : I → sProp 𝕄) :
    ∀ (l : List I) (s : Finset I), l.Nodup → (∀ i ∈ l, i ∈ s) →
      bigSep s Φ = l.foldr (fun i acc => iprop(Φ i ∗ acc)) (bigSep (l.foldl Finset.erase s) Φ)
  | [], s, _, _ => rfl
  | i :: l, s, hn, hm => by
    have hi : i ∈ s := hm i List.mem_cons_self
    have hn' := List.nodup_cons.mp hn
    rw [SparseCore.bigSep_erase' hi, List.foldr_cons, List.foldl_cons,
      bigSep_take Φ l (s.erase i) hn'.2 fun j hj =>
        Finset.mem_erase.mpr ⟨fun e => hn'.1 (e ▸ hj), hm j (List.mem_cons_of_mem _ hj)⟩]

/-- The DMA semaphores the kernel names, in the order of its operands. -/
def ownSemList : List (SemLoc sig) :=
  [SemLoc.dma cc0_scratch8.sem, SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scratch18.sem, SemLoc.dma cc0_scratch19.sem, SemLoc.dma cc0_scoped0.sem]

/-- The scratch buffers the kernel names. -/
def ownBufList : List (Ref sig .scVector) :=
  [cc0_scratch0, cc0_scratch1, cc0_scratch2, cc0_scratch3, cc0_scratch4, cc0_scratch5, cc0_scratch6, cc0_scratch7]

theorem ownSemList_nodup : ownSemList.Nodup := by decide
theorem ownBufList_nodup : ownBufList.Nodup := by decide
theorem ownSemList_scoped : ∀ sm ∈ ownSemList, (sm : SemLoc sig).isScoped .scVector = true := by decide

abbrev cellsOf (d : Dev nD) (c : Fin τ.nSC) (i : Fin τ.nSub) : List (GSem nD τ sig) := ownSemList.map fun sm => (V d c i, sm)
abbrev refsOf (c : Fin τ.nSC) (i : Fin τ.nSub) : List (DevRef τ sig) := ownBufList.map fun b => (Proc.scVector c i).devRef b

theorem ownSems0_split (d : Dev nD) (c : Fin τ.nSC) (i : Fin τ.nSub) :
    (ownSems0 (V d c i) : sProp 𝕄)
      = (cellsOf d c i).foldr (fun g acc => iprop(semVal g 0 ∗ acc))
          (bigSep ((cellsOf d c i).foldl Finset.erase (ownCells (V d c i))) fun g => semVal g 0) := by
  unfold SparseCore.Cfg.ownSems0
  refine bigSep_take _ _ _ ?_ ?_
  · exact List.Nodup.map (fun a b e => (Prod.mk.inj e).2) ownSemList_nodup
  · intro g hg
    obtain ⟨sm, hsm, rfl⟩ := List.mem_map.mp hg
    exact mem_ownCells.mpr ⟨rfl, ownSemList_scoped sm hsm⟩

theorem ownBufs_split (d : Dev nD) (c : Fin τ.nSC) (i : Fin τ.nSub) :
    (ownBufs (V d c i) : sProp 𝕄)
      = (refsOf c i).foldr (fun b acc => iprop((∃ f, ((d, b) : Loc nD τ sig) ↦{fullShare} f) ∗ acc))
          (bigSep ((refsOf c i).foldl Finset.erase (ownRefs (τ := τ) (.scVector c i))) fun b => iprop(∃ f, ((d, b) : Loc nD τ sig) ↦{fullShare} f)) := by
  unfold SparseCore.Cfg.ownBufs
  refine bigSep_take _ _ _ ?_ ?_
  · exact List.Nodup.map (Proc.devRef_injective _) ownBufList_nodup
  · intro b hb
    obtain ⟨r, hr, rfl⟩ := List.mem_map.mp hb
    simp only [ownBufList, List.mem_cons, List.not_mem_nil, or_false] at hr
    rcases hr with rfl | rfl | rfl | rfl | rfl | rfl | rfl | rfl <;> exact SparseCore.Cfg.mem_ownRefs_of_owner rfl

/-! ## The table's read tokens -/

section Tokens
variable {ℓ : Loc nD τ sig} {S : Finset (Idx ℓ)} {f : Buf (Elt F) ℓ}

theorem tok_step (q : PosShare TreeShare) (k : ℕ) :
    (ℓ ↦[S]{Transfers.shareDrop q k} f : sProp 𝕄) ⊣⊢ iprop((ℓ ↦[S]{Transfers.shareDrop q (k + 1)} f) ∗ ℓ ↦[S]{Transfers.shareTokN q k} f) :=
  pointsTo_share (PosShare.mem_left_op_right _)

theorem tok_step0 (q : PosShare TreeShare) :
    (ℓ ↦[S]{q} f : sProp 𝕄) ⊣⊢ iprop((ℓ ↦[S]{Transfers.shareDrop q 1} f) ∗ ℓ ↦[S]{Transfers.shareTokN q 0} f) :=
  tok_step q 0

/-- A read share as six read tokens and what remains. -/
theorem toks6 (q : PosShare TreeShare) :
    (ℓ ↦[S]{q} f : sProp 𝕄) ⊣⊢ iprop((ℓ ↦[S]{Transfers.shareDrop q 6} f) ∗ (ℓ ↦[S]{Transfers.shareTokN q 0} f) ∗ (ℓ ↦[S]{Transfers.shareTokN q 1} f)
      ∗ (ℓ ↦[S]{Transfers.shareTokN q 2} f) ∗ (ℓ ↦[S]{Transfers.shareTokN q 3} f) ∗ (ℓ ↦[S]{Transfers.shareTokN q 4} f) ∗ (ℓ ↦[S]{Transfers.shareTokN q 5} f)) := by
  constructor
  · iintro H
    ihave H := (tok_step0 (F := F) (S := S) (f := f) q).1 $$ H; icases H with ⟨H, T0⟩
    ihave H := (tok_step (F := F) (S := S) (f := f) q 1).1 $$ H; icases H with ⟨H, T1⟩
    ihave H := (tok_step (F := F) (S := S) (f := f) q 2).1 $$ H; icases H with ⟨H, T2⟩
    ihave H := (tok_step (F := F) (S := S) (f := f) q 3).1 $$ H; icases H with ⟨H, T3⟩
    ihave H := (tok_step (F := F) (S := S) (f := f) q 4).1 $$ H; icases H with ⟨H, T4⟩
    ihave H := (tok_step (F := F) (S := S) (f := f) q 5).1 $$ H; icases H with ⟨H, T5⟩
    isplitl [H]; · iexact H
    isplitl [T0]; · iexact T0
    isplitl [T1]; · iexact T1
    isplitl [T2]; · iexact T2
    isplitl [T3]; · iexact T3
    isplitl [T4]; · iexact T4
    iexact T5
  · iintro ⟨H, T0, T1, T2, T3, T4, T5⟩
    ihave H := (tok_step (F := F) (S := S) (f := f) q 5).2 $$ [H T5]; · isplitl [H] <;> iassumption
    ihave H := (tok_step (F := F) (S := S) (f := f) q 4).2 $$ [H T4]; · isplitl [H] <;> iassumption
    ihave H := (tok_step (F := F) (S := S) (f := f) q 3).2 $$ [H T3]; · isplitl [H] <;> iassumption
    ihave H := (tok_step (F := F) (S := S) (f := f) q 2).2 $$ [H T2]; · isplitl [H] <;> iassumption
    ihave H := (tok_step (F := F) (S := S) (f := f) q 1).2 $$ [H T1]; · isplitl [H] <;> iassumption
    ihave H := (tok_step0 (F := F) (S := S) (f := f) q).2 $$ [H T0]; · isplitl [H] <;> iassumption
    iexact H
end Tokens

/-! ## The output blocks as the program slices them -/

/-- The rectangle of 128 rows at row `4096·(L 1) + 2048·(L 0) + 128·k` is block `k` of the subcore at `L`. -/
theorem chunk_rect (L : grid0.Coords) (k : Fin 16) (off : Fin 2 → Nat) (h : ∀ a, off a + S128x128.size a ≤ S65536x128.size a)
    (e : off = ![4096 * (L 1).val + 2048 * (L 0).val + 128 * k.val, 0]) :
    Rect.unit (s := S65536x128) off S128x128.size h = oRect (chunkIx L k) := by
  subst e
  unfold oRect Rect.part Rect.block
  congr 1 <;> funext a
  · match a with
    | 0 => simp [Shape.partIx, Shape.partSize, chunkIx]; omega
    | 1 => simp [Shape.partIx, Shape.partSize]
  · match a with
    | 0 => simp [Shape.partSize]
    | 1 => simp [Shape.partSize]

end Cert.Proof.KB

end
-- ==== Proof.IdxBoundB.lean ====
/-
  Every word of one row of a subcore's list buffer is a row number of the stacked table. A row is written by
  eight stores of sixteen lanes; each stored word is a word of the index buffer, below 100000, plus a lane
  offset, a multiple of 100000 that is at most 700000; a word of the row lies under one of the eight stores, and what
  is read there is what the last store covering it wrote.
-/
import proofs.«204676_g22814866277092_cont_8to1_1488_17_alg».proof.Proof.TileIfaceB
import Idealize.ShloMosaic.Lib.Writes

noncomputable section

namespace Cert.Proof.KB

open Cert.Kernel Cert.Kernel.Gen

open Idealize.ShloMosaic
open Idealize.ShloMosaic.SparseCore (S V T)

local notation "q0" => (Memref.whole Cert.Kernel.cc0_scratch0 : Memref Cert.Kernel.sig Kind.scVector Space.vmem Cert.Kernel.S16x128 EltTy.i32)
local notation "q1" => (Memref.whole Cert.Kernel.cc0_scratch1 : Memref Cert.Kernel.sig Kind.scVector Space.vmem Cert.Kernel.S16x128 EltTy.i32)

/-! ## The lane offsets

Lanes 0–7 of the four offset vectors hold `2m·100000` and lanes 8–15 `(2m + 1)·100000`, `m = 0, 1, 2, 3`: whichever
way the lane test falls, the word is at most 700000. -/

theorem pay7_le (y : S16.Idx) : (k0_pay7 y).toNat ≤ 700000 := by
  show (IntOp.muli (IntOp.addi (Scalar.select (IntOp.cmpi .slt _ 8#32) 0#32 1#32) 0#32) 100000#32).toNat ≤ 700000
  unfold Scalar.select
  split <;> decide

theorem pay8_le (y : S16.Idx) : (k0_pay8 y).toNat ≤ 700000 := by
  show (IntOp.muli (IntOp.addi (Scalar.select (IntOp.cmpi .slt _ 8#32) 0#32 1#32) 2#32) 100000#32).toNat ≤ 700000
  unfold Scalar.select
  split <;> decide

theorem pay9_le (y : S16.Idx) : (k0_pay9 y).toNat ≤ 700000 := by
  show (IntOp.muli (IntOp.addi (Scalar.select (IntOp.cmpi .slt _ 8#32) 0#32 1#32) 4#32) 100000#32).toNat ≤ 700000
  unfold Scalar.select
  split <;> decide

theorem pay10_le (y : S16.Idx) : (k0_pay10 y).toNat ≤ 700000 := by
  show (IntOp.muli (IntOp.addi (Scalar.select (IntOp.cmpi .slt _ 8#32) 0#32 1#32) 6#32) 100000#32).toNat ≤ 700000
  unfold Scalar.select
  split <;> decide

/-! ## A list of stores, read where one of the first few covers -/

/-- After the stores `L ++ Lt` (last store first), an element that some store of `L` covers holds a word of a store of
    `L`: whatever holds of every word the stores of `L` write holds of what is read there. -/
theorem read_writes_pred {sig : RefSig} {κ : Kind} {sp : Space} {s : Shape} {e : EltTy} {Val : EltTy → Type}
    (v : View sig κ sp s e) (f : v.ty.Contents Val) (P : Val e → Prop) (y : s.Idx) (Lt : List (View.Piece Val s e)) :
    ∀ L : List (View.Piece Val s e), (∀ p ∈ L, ∀ x : p.1.shape.Idx, P (p.2 x)) → (∃ p ∈ L, y ∈ p.1.set) →
      P (v.read Val (v.writes Val f (L ++ Lt)) y)
  | [], _, h => by obtain ⟨_, hm, _⟩ := h; exact absurd hm List.not_mem_nil
  | p :: L, hP, h => by
    by_cases hy : y ∈ p.1.set
    · obtain ⟨x, rfl⟩ : ∃ x, p.1.emb x = y := p.1.exists_idx_of_mem hy
      obtain ⟨r, w⟩ := p
      rw [List.cons_append, View.read_writes_cons_emb]
      exact hP ⟨r, w⟩ List.mem_cons_self x
    · have hy' : y ∉ Finset.univ.map p.1.emb := by rwa [Rect.map_emb_univ]
      rw [List.cons_append, View.writes_cons, View.read_slice_write_of_not_mem p.1 _ _ _ hy']
      refine read_writes_pred v f P y Lt L (fun p' hp' => hP p' (List.mem_cons_of_mem _ hp')) ?_
      obtain ⟨p', hm, hy''⟩ := h
      rcases List.mem_cons.mp hm with rfl | hm
      · exact absurd hy'' hy
      · exact ⟨p', hm, hy''⟩

/-! ## One row of the list buffer -/

/-- A word read through the window "row `c`, viewed as 128 lanes" is the buffer's word at `(c, lane)`. -/
theorem read_row_window {Val : EltTy → Type} (r : Rect S16x128) (hs : ∀ a, r.stride a = 1) (hq : r.shape.Squeezes S128)
    (W : (q1).view.ty.Contents Val) (x : S128.Idx) :
    View.read Val (((q1).slice r hs).squeeze S128 hq).view W x
      = View.read Val (q1).view W (r.emb (Shape.reshapeEquiv hq.numel_eq x)) := by
  rw [View.read_apply, View.read_apply]; rfl

/-- Membership in a sixteen-lane store of row `c` at lane offset `o`. -/
theorem mem_row_piece (c o : Nat) (kk : ∀ a, (![c, o] : Fin 2 → Nat) a + S1x16.size a ≤ S16x128.size a) (y : S16x128.Idx)
    (h0 : (y 0).val = c) (h1 : o ≤ (y 1).val) (h2 : (y 1).val < o + 16) :
    y ∈ (Rect.unit (s := S16x128) ![c, o] S1x16.size kk).set := by
  refine Rect.mem_set_unit.mpr fun a => ?_
  match a with
  | ⟨0, _⟩ => show c ≤ (y 0).val ∧ (y 0).val < c + 1; omega
  | ⟨1, _⟩ => show o ≤ (y 1).val ∧ (y 1).val < o + 16; omega

/-- A stored word: a word of the index buffer plus a lane offset, a sum that does not wrap and stays below 800000. -/
theorem piece_word_lt {F : FTy → Type} (RD : Vec F S16x128 .i32) (hRD : ∀ j, (RD j).toNat < 100000) (Rk Ck : IVec S16 32)
    (hk : ∀ a x, ((![Rk, Ck] : Fin 2 → IVec S16 32) a x).toNat < S16x128.size a) (OFF : IVec S16 32)
    (hOFF : ∀ y, (OFF y).toNat ≤ 700000) (ek : S16.ShapeCasts S1x16) (x : S1x16.Idx) :
    (shapeCast S1x16 (addi (loadIdx RD ![Rk, Ck] hk) OFF) ek x).toNat < 800000 := by
  have h1 := hRD (idxAt ![Rk, Ck] hk (Shape.reshapeEquiv ek x))
  have h2 := hOFF (Shape.reshapeEquiv ek x)
  show (RD (idxAt ![Rk, Ck] hk (Shape.reshapeEquiv ek x)) + OFF (Shape.reshapeEquiv ek x)).toNat < 800000
  rw [BitVec.toNat_add]
  omega

/-- Every word of row `c` of the list buffer, after the row's eight stores (over whatever was stored before), is below
    800000: a row number of the stacked table. -/
theorem hin_row {F : FTy → Type} [FloatOps F] (d : Dev nD) (L : grid0.Coords)
    (f0 : Buf (Elt F) ((V d (cV L) (jV L)).loc cc0_scratch0)) (hf0 : ∀ j, (f0 j).toNat < 100000)
    (c : Nat) (hr : ∀ a, (![c, 0] : Fin 2 → Nat) a + S1x128.size a ≤ S16x128.size a)
    (hs : ∀ a, (Rect.unit (s := S16x128) ![c, 0] S1x128.size hr).stride a = 1)
    (hq : (Rect.unit (s := S16x128) ![c, 0] S1x128.size hr).shape.Squeezes S128)
    (g : Buf (Elt F) ((V d (cV L) (jV L)).loc cc0_scratch1)) (Lt : List (View.Piece (Elt F) S16x128 .i32))
    (R0 C0 R1 C1 R2 C2 R3 C3 R4 C4 R5 C5 R6 C6 R7 C7 : IVec S16 32)
    (h0 : ∀ a x, ((![R0, C0] : Fin 2 → IVec S16 32) a x).toNat < S16x128.size a)
    (h1 : ∀ a x, ((![R1, C1] : Fin 2 → IVec S16 32) a x).toNat < S16x128.size a)
    (h2 : ∀ a x, ((![R2, C2] : Fin 2 → IVec S16 32) a x).toNat < S16x128.size a)
    (h3 : ∀ a x, ((![R3, C3] : Fin 2 → IVec S16 32) a x).toNat < S16x128.size a)
    (h4 : ∀ a x, ((![R4, C4] : Fin 2 → IVec S16 32) a x).toNat < S16x128.size a)
    (h5 : ∀ a x, ((![R5, C5] : Fin 2 → IVec S16 32) a x).toNat < S16x128.size a)
    (h6 : ∀ a x, ((![R6, C6] : Fin 2 → IVec S16 32) a x).toNat < S16x128.size a)
    (h7 : ∀ a x, ((![R7, C7] : Fin 2 → IVec S16 32) a x).toNat < S16x128.size a)
    (k0 : ∀ a, (![c, 0] : Fin 2 → Nat) a + S1x16.size a ≤ S16x128.size a)
    (k1 : ∀ a, (![c, 16] : Fin 2 → Nat) a + S1x16.size a ≤ S16x128.size a)
    (k2 : ∀ a, (![c, 32] : Fin 2 → Nat) a + S1x16.size a ≤ S16x128.size a)
    (k3 : ∀ a, (![c, 48] : Fin 2 → Nat) a + S1x16.size a ≤ S16x128.size a)
    (k4 : ∀ a, (![c, 64] : Fin 2 → Nat) a + S1x16.size a ≤ S16x128.size a)
    (k5 : ∀ a, (![c, 80] : Fin 2 → Nat) a + S1x16.size a ≤ S16x128.size a)
    (k6 : ∀ a, (![c, 96] : Fin 2 → Nat) a + S1x16.size a ≤ S16x128.size a)
    (k7 : ∀ a, (![c, 112] : Fin 2 → Nat) a + S1x16.size a ≤ S16x128.size a)
    (e0 e1 e2 e3 e4 e5 e6 e7 : S16.ShapeCasts S1x16) :
    ∀ x, (View.read (Elt F) (((q1).slice (Rect.unit (s := S16x128) ![c, 0] S1x128.size hr) hs).squeeze S128 hq).view
        ((q1).view.writes (Elt F) g
          (⟨Rect.unit (s := S16x128) ![c, 112] S1x16.size k7, shapeCast S1x16 (addi (loadIdx (View.read (Elt F) ((q0).access (Rect.whole S16x128)) f0) ![R7, C7] h7) k0_pay10) e7⟩ ::
           ⟨Rect.unit (s := S16x128) ![c, 96] S1x16.size k6, shapeCast S1x16 (addi (loadIdx (View.read (Elt F) ((q0).access (Rect.whole S16x128)) f0) ![R6, C6] h6) k0_pay9) e6⟩ ::
           ⟨Rect.unit (s := S16x128) ![c, 80] S1x16.size k5, shapeCast S1x16 (addi (loadIdx (View.read (Elt F) ((q0).access (Rect.whole S16x128)) f0) ![R5, C5] h5) k0_pay8) e5⟩ ::
           ⟨Rect.unit (s := S16x128) ![c, 64] S1x16.size k4, shapeCast S1x16 (addi (loadIdx (View.read (Elt F) ((q0).access (Rect.whole S16x128)) f0) ![R4, C4] h4) k0_pay7) e4⟩ ::
           ⟨Rect.unit (s := S16x128) ![c, 48] S1x16.size k3, shapeCast S1x16 (addi (loadIdx (View.read (Elt F) ((q0).access (Rect.whole S16x128)) f0) ![R3, C3] h3) k0_pay10) e3⟩ ::
           ⟨Rect.unit (s := S16x128) ![c, 32] S1x16.size k2, shapeCast S1x16 (addi (loadIdx (View.read (Elt F) ((q0).access (Rect.whole S16x128)) f0) ![R2, C2] h2) k0_pay9) e2⟩ ::
           ⟨Rect.unit (s := S16x128) ![c, 16] S1x16.size k1, shapeCast S1x16 (addi (loadIdx (View.read (Elt F) ((q0).access (Rect.whole S16x128)) f0) ![R1, C1] h1) k0_pay8) e1⟩ ::
           ⟨Rect.unit (s := S16x128) ![c, 0] S1x16.size k0, shapeCast S1x16 (addi (loadIdx (View.read (Elt F) ((q0).access (Rect.whole S16x128)) f0) ![R0, C0] h0) k0_pay7) e0⟩ :: Lt)) x).toNat < 800000 := by
  intro x
  have hRD : ∀ j, (View.read (Elt F) ((q0).access (Rect.whole S16x128)) f0 j).toNat < 100000 := by
    intro j
    rw [View.read_apply]
    exact hf0 _
  rw [read_row_window]
  -- the word's place in the buffer: row c, lane x 0
  have hx0 : (x 0).val < 128 := (x 0).isLt
  obtain ⟨y, hy, hy0, hy1⟩ : ∃ y : S16x128.Idx,
      (Rect.unit (s := S16x128) ![c, 0] S1x128.size hr).emb (Shape.reshapeEquiv hq.numel_eq x) = y ∧ (y 0).val = c ∧ (y 1).val = (x 0).val := by
    refine ⟨_, rfl, ?_, ?_⟩
    · have hz0 : ((Shape.reshapeEquiv hq.numel_eq x) 0).val < 1 := ((Shape.reshapeEquiv hq.numel_eq x) 0).isLt
      show c + 1 * ((Shape.reshapeEquiv hq.numel_eq x) 0).val = c
      omega
    · have hz0 : ((Shape.reshapeEquiv hq.numel_eq x) 0).val < 1 := ((Shape.reshapeEquiv hq.numel_eq x) 0).isLt
      have hz := Shape.rowMajor_reshapeEquiv hq.numel_eq x
      rw [Shape.rowMajor_val_two, Shape.rowMajor_val_one] at hz
      have hz' : ((Shape.reshapeEquiv hq.numel_eq x) 0).val * 128 + ((Shape.reshapeEquiv hq.numel_eq x) 1).val = (x 0).val := hz
      show 0 + 1 * ((Shape.reshapeEquiv hq.numel_eq x) 1).val = (x 0).val
      omega
  rw [hy]
  refine read_writes_pred (q1).view g (fun w : Elt F .i32 => BitVec.toNat w < 800000) y Lt [_, _, _, _, _, _, _, _] ?_ ?_
  · -- every word the eight stores write is below 800000
    intro p hp
    simp only [List.mem_cons, List.not_mem_nil, or_false] at hp
    rcases hp with rfl | rfl | rfl | rfl | rfl | rfl | rfl | rfl
    · exact fun z => piece_word_lt _ hRD R7 C7 h7 k0_pay10 pay10_le e7 z
    · exact fun z => piece_word_lt _ hRD R6 C6 h6 k0_pay9 pay9_le e6 z
    · exact fun z => piece_word_lt _ hRD R5 C5 h5 k0_pay8 pay8_le e5 z
    · exact fun z => piece_word_lt _ hRD R4 C4 h4 k0_pay7 pay7_le e4 z
    · exact fun z => piece_word_lt _ hRD R3 C3 h3 k0_pay10 pay10_le e3 z
    · exact fun z => piece_word_lt _ hRD R2 C2 h2 k0_pay9 pay9_le e2 z
    · exact fun z => piece_word_lt _ hRD R1 C1 h1 k0_pay8 pay8_le e1 z
    · exact fun z => piece_word_lt _ hRD R0 C0 h0 k0_pay7 pay7_le e0 z
  · -- lane x 0 lies under store (x 0) / 16
    by_cases c7 : 112 ≤ (x 0).val
    · exact ⟨_, List.mem_cons_self, mem_row_piece c 112 k7 y hy0 (by omega) (by omega)⟩
    by_cases c6 : 96 ≤ (x 0).val
    · exact ⟨_, List.mem_cons_of_mem _ List.mem_cons_self, mem_row_piece c 96 k6 y hy0 (by omega) (by omega)⟩
    by_cases c5 : 80 ≤ (x 0).val
    · exact ⟨_, List.mem_cons_of_mem _ (List.mem_cons_of_mem _ List.mem_cons_self), mem_row_piece c 80 k5 y hy0 (by omega) (by omega)⟩
    by_cases c4 : 64 ≤ (x 0).val
    · exact ⟨_, List.mem_cons_of_mem _ (List.mem_cons_of_mem _ (List.mem_cons_of_mem _ List.mem_cons_self)),
        mem_row_piece c 64 k4 y hy0 (by omega) (by omega)⟩
    by_cases c3 : 48 ≤ (x 0).val
    · exact ⟨_, List.mem_cons_of_mem _ (List.mem_cons_of_mem _ (List.mem_cons_of_mem _ (List.mem_cons_of_mem _ List.mem_cons_self))),
        mem_row_piece c 48 k3 y hy0 (by omega) (by omega)⟩
    by_cases c2 : 32 ≤ (x 0).val
    · exact ⟨_, List.mem_cons_of_mem _ (List.mem_cons_of_mem _ (List.mem_cons_of_mem _ (List.mem_cons_of_mem _
          (List.mem_cons_of_mem _ List.mem_cons_self)))),
        mem_row_piece c 32 k2 y hy0 (by omega) (by omega)⟩
    by_cases c1 : 16 ≤ (x 0).val
    · exact ⟨_, List.mem_cons_of_mem _ (List.mem_cons_of_mem _ (List.mem_cons_of_mem _ (List.mem_cons_of_mem _
          (List.mem_cons_of_mem _ (List.mem_cons_of_mem _ List.mem_cons_self))))),
        mem_row_piece c 16 k1 y hy0 (by omega) (by omega)⟩
    · exact ⟨_, List.mem_cons_of_mem _ (List.mem_cons_of_mem _ (List.mem_cons_of_mem _ (List.mem_cons_of_mem _
          (List.mem_cons_of_mem _ (List.mem_cons_of_mem _ (List.mem_cons_of_mem _ List.mem_cons_self)))))),
        mem_row_piece c 0 k0 y hy0 (by omega) (by omega)⟩

end Cert.Proof.KB

end
-- ==== Proof.IdxValueB.lean ====
/-
  The subcore's list of row numbers, as values. The subcore at SparseCore `L 0`, tile `L 1`, number
  `w = 2·(L 1) + (L 0)`, copies rows `[16·(w % 8), 16·(w % 8) + 16)` of plane `w / 8` of the re-laid index array
  into its first scratch buffer, and fills its second, `[16, 128]`, sixteen lanes at a time: at chunk `c`, lanes
  `[16·k, 16·k + 16)`, with `G = 8·c + k`, lane `ℓ` gets the copied word at row `ℓ / 8 + 2·(G % 4) + 8·(G / 64)`,
  column `ℓ % 8 + 8·((G / 4) % 16)`, plus `100000·(ℓ / 8 + 2·(G % 4))`. The word at `(c, p)` is the row number of the
  stacked table for output row `2048·w + 128·c + p` (`KSpec.idxWord`): here the arithmetic that says so, piece by
  piece, and what a window of the filled buffer reads.
-/
import proofs.«204676_g22814866277092_cont_8to1_1488_17_alg».proof.Proof.TileIfaceB
import Idealize.ShloMosaic.Lib.Writes
import Idealize.ShloMosaic.Lib.Pipeline.Value

noncomputable section

namespace Cert.Proof.KB

open Cert.Kernel Cert.Kernel.Gen

open Idealize.ShloMosaic
open Idealize.ShloMosaic.SparseCore (S V T)
open Idealize.ShloMosaic.ValueIdx

variable {F : FTy → Type}

local notation "xV" => (Memref.whole Cert.Kernel.main_v3_scv : Memref Cert.Kernel.sig Kind.scVector Space.hbm Cert.Kernel.S4x128x128 EltTy.i32)
local notation "q0" => (Memref.whole Cert.Kernel.cc0_scratch0 : Memref Cert.Kernel.sig Kind.scVector Space.vmem Cert.Kernel.S16x128 EltTy.i32)
local notation "q1" => (Memref.whole Cert.Kernel.cc0_scratch1 : Memref Cert.Kernel.sig Kind.scVector Space.vmem Cert.Kernel.S16x128 EltTy.i32)

/-! ## The subcore's number and its rows -/

/-- The subcore's number: two per tile index, the SparseCore the low bit. -/
def wOf (L : grid0.Coords) : Nat := 2 * (L 1).val + (L 0).val

theorem wOf_lt (L : grid0.Coords) : wOf L < 32 := by
  have h0 : (L 0).val < 2 := (L 0).isLt
  have h1 : (L 1).val < 16 := (L 1).isLt
  unfold wOf; omega

/-- Where the subcore's rows of the index array start: plane `w / 8`, row `16·(w % 8)`. -/
theorem k0_off1_eq : ∀ i : grid0.Coords, k0_off1 i = ![(2 * (i 1).val + (i 0).val) / 8, ((2 * (i 1).val + (i 0).val) % 8) * 16, 0] := by
  decide +kernel

/-- The output row of the list's word at `(c, p)`. -/
def listRow (L : grid0.Coords) (c : Fin 16) (p : Fin 128) : Fin 65536 :=
  ⟨2048 * wOf L + 128 * c.val + p.val, by have := wOf_lt L; have := c.isLt; have := p.isLt; omega⟩

/-- The list the subcore builds: at `(c, p)` the row number of the stacked table for its output row `128·c + p`. -/
def listW (XV : IVec S4x128x128 32) (L : grid0.Coords) : S16x128.Idx → BitVec 32 :=
  fun i => Cert.Proof.KSpec.idxWord XV (listRow L (i 0) (i 1))

theorem listW_ix2 (XV : IVec S4x128x128 32) (L : grid0.Coords) (c : Fin 16) (p : Fin 128) :
    listW XV L (ix2 c p) = Cert.Proof.KSpec.idxWord XV (listRow L c p) := rfl

/-- A list word as a number: the index array's entry plus 100000 times the table. -/
theorem idxWord_toNat (XV : IVec S4x128x128 32) (hx : ∀ j, (XV j).toNat < 100000) (R : Fin 65536) :
    (Cert.Proof.KSpec.idxWord XV R).toNat
      = (XV (ix3 (Cert.Proof.KSpec.xvB R) (Cert.Proof.KSpec.xvR R) (Cert.Proof.KSpec.xvL R))).toNat + Cert.Proof.KSpec.tOf R * 100000 := by
  unfold Cert.Proof.KSpec.idxWord
  have h1 := hx (ix3 (Cert.Proof.KSpec.xvB R) (Cert.Proof.KSpec.xvR R) (Cert.Proof.KSpec.xvL R))
  have h2 := Cert.Proof.KSpec.tOf_lt R
  rw [BitVec.toNat_add, BitVec.toNat_ofNat]
  have h3 : Cert.Proof.KSpec.tOf R * 100000 % 2 ^ 32 = Cert.Proof.KSpec.tOf R * 100000 := Nat.mod_eq_of_lt (by omega)
  rw [h3]
  exact Nat.mod_eq_of_lt (by omega)

theorem listW_toNat (XV : IVec S4x128x128 32) (L : grid0.Coords) (hx : ∀ j, (XV j).toNat < 100000) (i : S16x128.Idx) :
    (listW XV L i).toNat
      = (XV (ix3 (Cert.Proof.KSpec.xvB (listRow L (i 0) (i 1))) (Cert.Proof.KSpec.xvR (listRow L (i 0) (i 1)))
            (Cert.Proof.KSpec.xvL (listRow L (i 0) (i 1))))).toNat
        + Cert.Proof.KSpec.tOf (listRow L (i 0) (i 1)) * 100000 :=
  idxWord_toNat XV hx _

/-- No wrap: a list word is below 800000. -/
theorem listW_lt (XV : IVec S4x128x128 32) (L : grid0.Coords) (hx : ∀ j, (XV j).toNat < 100000) (i : S16x128.Idx) :
    (listW XV L i).toNat < 800000 := by
  rw [listW_toNat XV L hx i]
  have h1 := hx (ix3 (Cert.Proof.KSpec.xvB (listRow L (i 0) (i 1))) (Cert.Proof.KSpec.xvR (listRow L (i 0) (i 1)))
            (Cert.Proof.KSpec.xvL (listRow L (i 0) (i 1))))
  have h2 := Cert.Proof.KSpec.tOf_lt (listRow L (i 0) (i 1))
  omega

/-! ## A list of stores that agree with one function -/

/-- Every store of the list writes, at each of its own indices, `W` at the place it lands. -/
def AllW (W : S16x128.Idx → BitVec 32) (Lst : List (View.Piece (Elt F) S16x128 .i32)) : Prop :=
  ∀ p ∈ Lst, ∀ x : p.1.shape.Idx, p.2 x = W (p.1.emb x)

theorem allW_nil (W : S16x128.Idx → BitVec 32) : AllW (F := F) W [] :=
  fun _ h => absurd h List.not_mem_nil

theorem allW_cons (W : S16x128.Idx → BitVec 32) (p : View.Piece (Elt F) S16x128 .i32)
    (Lst : List (View.Piece (Elt F) S16x128 .i32)) (hp : ∀ x : p.1.shape.Idx, p.2 x = W (p.1.emb x)) (h : AllW W Lst) :
    AllW W (p :: Lst) := fun q hq => by
  rcases List.mem_cons.mp hq with rfl | hq
  · exact hp
  · exact h q hq

/-- Row `c` of the list buffer, read through its window after stores that agree with `W` and cover the row, is
    `W` along that row. -/
theorem row_read (d : Dev nD) (L : grid0.Coords) (W : S16x128.Idx → BitVec 32) (c : Nat) (hc : c < 16)
    (hr : ∀ a, (![c, 0] : Fin 2 → Nat) a + S1x128.size a ≤ S16x128.size a)
    (hs : ∀ a, (Rect.unit (s := S16x128) ![c, 0] S1x128.size hr).stride a = 1)
    (hq : (Rect.unit (s := S16x128) ![c, 0] S1x128.size hr).shape.Squeezes S128)
    (g : Buf (Elt F) ((V d (cV L) (jV L)).loc cc0_scratch1))
    (Lst : List (View.Piece (Elt F) S16x128 .i32)) (hA : AllW W Lst)
    (hcov : ∀ p : Fin 128, ∃ q ∈ Lst, (ix2 (⟨c, hc⟩ : Fin 16) p : S16x128.Idx) ∈ q.1.set) :
    ∀ x : S128.Idx, View.read (Elt F) (((q1).slice (Rect.unit (s := S16x128) ![c, 0] S1x128.size hr) hs).squeeze S128 hq).view
        ((q1).view.writes (Elt F) g Lst) x = W (ix2 (⟨c, hc⟩ : Fin 16) (x 0)) := by
  intro x
  -- the window's word `x` is the whole buffer's word at the window's place
  have e : View.read (Elt F) (((q1).slice (Rect.unit (s := S16x128) ![c, 0] S1x128.size hr) hs).squeeze S128 hq).view
        ((q1).view.writes (Elt F) g Lst) x
      = View.read (Elt F) (q1).view ((q1).view.writes (Elt F) g Lst)
          ((Rect.unit (s := S16x128) ![c, 0] S1x128.size hr).emb ((Shape.reshapeEquiv hq.numel_eq) x)) := by
    rw [View.read_apply, View.read_apply]; rfl
  have hy : (Rect.unit (s := S16x128) ![c, 0] S1x128.size hr).emb ((Shape.reshapeEquiv hq.numel_eq) x)
      = ix2 (⟨c, hc⟩ : Fin 16) (x 0) := by
    have hx : Shape.reshapeEquiv hq.numel_eq x = (ix2 (0 : Fin 1) (x 0) : S1x128.Idx) :=
      Shape.reshapeEquiv_eq_of_rowMajor _ (by
        rw [Shape.rowMajor_val_two, Shape.rowMajor_val_one]
        show 0 * 128 + (x 0).val = (x 0).val
        omega)
    rw [hx]
    funext a; refine Fin.ext ?_
    rw [Rect.emb_apply]
    match a with
    | ⟨0, _⟩ => show c + 1 * 0 = c; omega
    | ⟨1, _⟩ => show 0 + 1 * (x 0).val = (x 0).val; omega
  rw [e, hy]
  exact View.read_writes_apply_of_pieces _ _ W Lst (fun p hp y => hA p hp y) _ (hcov (x 0))

/-- Eight stores of sixteen lanes each, at lanes `[16·k, 16·k + 16)` of row `c`, cover the row, whatever came before. -/
theorem cover_row (c : Nat) (hc : c < 16) (w0 w1 w2 w3 w4 w5 w6 w7 : S1x16.Idx → Elt F .i32)
    (h0 : ∀ a, (![c, 0] : Fin 2 → Nat) a + S1x16.size a ≤ S16x128.size a)
    (h1 : ∀ a, (![c, 16] : Fin 2 → Nat) a + S1x16.size a ≤ S16x128.size a)
    (h2 : ∀ a, (![c, 32] : Fin 2 → Nat) a + S1x16.size a ≤ S16x128.size a)
    (h3 : ∀ a, (![c, 48] : Fin 2 → Nat) a + S1x16.size a ≤ S16x128.size a)
    (h4 : ∀ a, (![c, 64] : Fin 2 → Nat) a + S1x16.size a ≤ S16x128.size a)
    (h5 : ∀ a, (![c, 80] : Fin 2 → Nat) a + S1x16.size a ≤ S16x128.size a)
    (h6 : ∀ a, (![c, 96] : Fin 2 → Nat) a + S1x16.size a ≤ S16x128.size a)
    (h7 : ∀ a, (![c, 112] : Fin 2 → Nat) a + S1x16.size a ≤ S16x128.size a)
    (Lt : List (View.Piece (Elt F) S16x128 .i32)) :
    ∀ p : Fin 128, ∃ q ∈ ((⟨Rect.unit (s := S16x128) ![c, 112] S1x16.size h7, w7⟩ : View.Piece (Elt F) S16x128 .i32)
        :: ⟨Rect.unit (s := S16x128) ![c, 96] S1x16.size h6, w6⟩ :: ⟨Rect.unit (s := S16x128) ![c, 80] S1x16.size h5, w5⟩
        :: ⟨Rect.unit (s := S16x128) ![c, 64] S1x16.size h4, w4⟩ :: ⟨Rect.unit (s := S16x128) ![c, 48] S1x16.size h3, w3⟩
        :: ⟨Rect.unit (s := S16x128) ![c, 32] S1x16.size h2, w2⟩ :: ⟨Rect.unit (s := S16x128) ![c, 16] S1x16.size h1, w1⟩
        :: ⟨Rect.unit (s := S16x128) ![c, 0] S1x16.size h0, w0⟩ :: Lt),
      (ix2 (⟨c, hc⟩ : Fin 16) p : S16x128.Idx) ∈ q.1.set := by
  intro p
  -- the store whose sixteen lanes hold `p`
  have key : ∀ (o : Nat) (ho : ∀ a, (![c, o] : Fin 2 → Nat) a + S1x16.size a ≤ S16x128.size a), o ≤ p.val → p.val < o + 16 →
      (ix2 (⟨c, hc⟩ : Fin 16) p : S16x128.Idx) ∈ (Rect.unit (s := S16x128) ![c, o] S1x16.size ho).set := by
    intro o ho hlo hhi
    rw [Rect.mem_set_unit]
    intro a
    match a with
    | ⟨0, _⟩ => exact ⟨Nat.le_refl c, by show c < c + 1; omega⟩
    | ⟨1, _⟩ => exact ⟨hlo, by show p.val < o + 16; omega⟩
  have hp := p.isLt
  by_cases c7 : 112 ≤ p.val
  · exact ⟨_, List.mem_cons_self, key 112 h7 c7 (by omega)⟩
  by_cases c6 : 96 ≤ p.val
  · exact ⟨_, List.mem_cons_of_mem _ List.mem_cons_self, key 96 h6 c6 (by omega)⟩
  by_cases c5 : 80 ≤ p.val
  · exact ⟨_, List.mem_cons_of_mem _ (List.mem_cons_of_mem _ List.mem_cons_self), key 80 h5 c5 (by omega)⟩
  by_cases c4 : 64 ≤ p.val
  · exact ⟨_, List.mem_cons_of_mem _ (List.mem_cons_of_mem _ (List.mem_cons_of_mem _ List.mem_cons_self)), key 64 h4 c4 (by omega)⟩
  by_cases c3 : 48 ≤ p.val
  · exact ⟨_, List.mem_cons_of_mem _ (List.mem_cons_of_mem _ (List.mem_cons_of_mem _ (List.mem_cons_of_mem _ List.mem_cons_self))),
      key 48 h3 c3 (by omega)⟩
  by_cases c2 : 32 ≤ p.val
  · exact ⟨_, List.mem_cons_of_mem _ (List.mem_cons_of_mem _ (List.mem_cons_of_mem _ (List.mem_cons_of_mem _
      (List.mem_cons_of_mem _ List.mem_cons_self)))), key 32 h2 c2 (by omega)⟩
  by_cases c1 : 16 ≤ p.val
  · exact ⟨_, List.mem_cons_of_mem _ (List.mem_cons_of_mem _ (List.mem_cons_of_mem _ (List.mem_cons_of_mem _
      (List.mem_cons_of_mem _ (List.mem_cons_of_mem _ List.mem_cons_self))))), key 16 h1 c1 (by omega)⟩
  · exact ⟨_, List.mem_cons_of_mem _ (List.mem_cons_of_mem _ (List.mem_cons_of_mem _ (List.mem_cons_of_mem _
      (List.mem_cons_of_mem _ (List.mem_cons_of_mem _ (List.mem_cons_of_mem _ List.mem_cons_self)))))), key 0 h0 (Nat.zero_le _) (by omega)⟩

/-! ## One store's sixteen words -/

/-- The plane of the index array the subcore copies from. -/
def planeOf (L : grid0.Coords) : Fin 4 := ⟨wOf L / 8, by have := wOf_lt L; omega⟩
/-- Row `r` of the copied sixteen, as a row of that plane. -/
def rowAt (L : grid0.Coords) (r : Fin 16) : Fin 128 := ⟨16 * (wOf L % 8) + r.val, by have := r.isLt; omega⟩

/-- The sixteen words stored at chunk `c`, lanes `[16·k, 16·k + 16)`: with `G = 8·c + k`, lane `ℓ` loads the copied
    word at row `ℓ / 8 + 2·(G % 4) + 8·(G / 64)`, column `ℓ % 8 + 8·((G / 4) % 16)` and adds
    `100000·(ℓ / 8 + 2·(G % 4))`; that is the list's word at `(c, 16·k + ℓ)`. -/
theorem piece_word (XV : IVec S4x128x128 32) (L : grid0.Coords) (RD : S16x128.Idx → BitVec 32)
    (hRD : ∀ (r : Fin 16) (l : Fin 128), RD (ix2 r l) = XV (ix3 (planeOf L) (rowAt L r) l))
    (c k : Nat) (hc : c < 16) (hk : k < 8) (RV CV OFF : IVec S16 32)
    (h : ∀ a x, ((![RV, CV] : Fin 2 → IVec S16 32) a x).toNat < S16x128.size a)
    (hV : ∀ lane : Fin 16,
      (RV (ix1 lane)).toNat = lane.val / 8 + 2 * ((8 * c + k) % 4) + 8 * ((8 * c + k) / 64)
        ∧ (CV (ix1 lane)).toNat = lane.val % 8 + 8 * (((8 * c + k) / 4) % 16)
        ∧ OFF (ix1 lane) = BitVec.ofNat 32 ((lane.val / 8 + 2 * ((8 * c + k) % 4)) * 100000))
    (hk' : ∀ a, (![c, 16 * k] : Fin 2 → Nat) a + S1x16.size a ≤ S16x128.size a) (e : S16.ShapeCasts S1x16) :
    ∀ x : S1x16.Idx, shapeCast S1x16 (addi (loadIdx (F := F) (e := .i32) RD ![RV, CV] h) OFF) e x
      = listW XV L ((Rect.unit (s := S16x128) ![c, 16 * k] S1x16.size hk').emb x) := by
  intro x
  obtain ⟨z, lane, rfl⟩ : ∃ (z : Fin 1) (lane : Fin 16), x = ix2 z lane := ⟨x 0, x 1, eq_ix2 x⟩
  obtain rfl : z = 0 := Subsingleton.elim _ _
  obtain ⟨hR, hC, hO⟩ := hV lane
  have hl := lane.isLt
  have hw := wOf_lt L
  -- the left side: the loaded word plus the offset
  have hleft : shapeCast S1x16 (addi (loadIdx (F := F) (e := .i32) RD ![RV, CV] h) OFF) e (ix2 0 lane)
      = RD (ix2 (⟨(RV (ix1 lane)).toNat, h 0 (ix1 lane)⟩ : Fin 16) (⟨(CV (ix1 lane)).toNat, h 1 (ix1 lane)⟩ : Fin 128))
        + OFF (ix1 lane) := by
    rw [shapeCast_apply _ e (ix2 0 lane) (ix1 lane) (by
      rw [Shape.rowMajor_val_one, Shape.rowMajor_val_two]
      show lane.val = 0 * 16 + lane.val
      omega)]
    show RD (idxAt ![RV, CV] h (ix1 lane)) + OFF (ix1 lane) = _
    congr 2
    funext a
    match a with
    | ⟨0, _⟩ => rfl
    | ⟨1, _⟩ => rfl
  -- the right side: the list's word at `(c, 16·k + ℓ)`
  have hright : (Rect.unit (s := S16x128) ![c, 16 * k] S1x16.size hk').emb (ix2 0 lane)
      = ix2 (⟨c, hc⟩ : Fin 16) (⟨16 * k + lane.val, by omega⟩ : Fin 128) := by
    funext a; refine Fin.ext ?_
    rw [Rect.emb_apply]
    match a with
    | ⟨0, _⟩ => show c + 1 * 0 = c; omega
    | ⟨1, _⟩ => show 16 * k + 1 * lane.val = 16 * k + lane.val; omega
  rw [hleft, hright, hRD, hO, listW_ix2]
  -- the output row's subcore, group and lane
  have hRow : (listRow L (⟨c, hc⟩ : Fin 16) (⟨16 * k + lane.val, by omega⟩ : Fin 128)).val
      = 2048 * wOf L + 128 * c + (16 * k + lane.val) := rfl
  have h1 : Cert.Proof.KSpec.widOf (listRow L (⟨c, hc⟩ : Fin 16) (⟨16 * k + lane.val, by omega⟩ : Fin 128)) = wOf L := by
    unfold Cert.Proof.KSpec.widOf; rw [hRow]; omega
  have h2 : Cert.Proof.KSpec.grpOf (listRow L (⟨c, hc⟩ : Fin 16) (⟨16 * k + lane.val, by omega⟩ : Fin 128)) = 8 * c + k := by
    unfold Cert.Proof.KSpec.grpOf; rw [hRow]; omega
  have h3 : Cert.Proof.KSpec.laneOf (listRow L (⟨c, hc⟩ : Fin 16) (⟨16 * k + lane.val, by omega⟩ : Fin 128)) = lane.val := by
    unfold Cert.Proof.KSpec.laneOf; rw [hRow]; omega
  have h4 : Cert.Proof.KSpec.tOf (listRow L (⟨c, hc⟩ : Fin 16) (⟨16 * k + lane.val, by omega⟩ : Fin 128))
      = 2 * ((8 * c + k) % 4) + lane.val / 8 := by
    unfold Cert.Proof.KSpec.tOf; rw [h2, h3]
  unfold Cert.Proof.KSpec.idxWord
  have eB : Cert.Proof.KSpec.xvB (listRow L (⟨c, hc⟩ : Fin 16) (⟨16 * k + lane.val, by omega⟩ : Fin 128)) = planeOf L :=
    Fin.ext (by show Cert.Proof.KSpec.widOf _ / 8 = wOf L / 8; rw [h1])
  have eR : Cert.Proof.KSpec.xvR (listRow L (⟨c, hc⟩ : Fin 16) (⟨16 * k + lane.val, by omega⟩ : Fin 128))
      = rowAt L (⟨(RV (ix1 lane)).toNat, h 0 (ix1 lane)⟩ : Fin 16) :=
    Fin.ext (by
      show (Cert.Proof.KSpec.widOf _ % 8) * 16 + (Cert.Proof.KSpec.tOf _ + 8 * (Cert.Proof.KSpec.grpOf _ / 64))
        = 16 * (wOf L % 8) + (RV (ix1 lane)).toNat
      rw [h1, h4, h2, hR]; omega)
  have eL : Cert.Proof.KSpec.xvL (listRow L (⟨c, hc⟩ : Fin 16) (⟨16 * k + lane.val, by omega⟩ : Fin 128))
      = (⟨(CV (ix1 lane)).toNat, h 1 (ix1 lane)⟩ : Fin 128) :=
    Fin.ext (by
      show Cert.Proof.KSpec.laneOf _ % 8 + ((Cert.Proof.KSpec.grpOf _ / 4) % 16) * 8 = (CV (ix1 lane)).toNat
      rw [h3, h2, hC]; omega)
  rw [eB, eR, eL, h4,
    show (lane.val / 8 + 2 * ((8 * c + k) % 4)) * 100000 = (2 * ((8 * c + k) % 4) + lane.val / 8) * 100000 from by omega]

/-! ## The copied rows -/

/-- What the first scratch buffer reads after the copy: at `(r, l)`, plane `w / 8`, row `16·(w % 8) + r`, column `l`
    of the index array. -/
theorem rd_eq (d : Dev nD) (L : grid0.Coords) (XV : Buf (Elt F) (xLoc d))
    (f0 : Buf (Elt F) ((V d (cV L) (jV L)).loc cc0_scratch0)) (r : Fin 16) (l : Fin 128) :
    View.read (Elt F) ((q0).access (Rect.whole S16x128))
        (View.write (Elt F) (q0).view f0
          (ReadAs.same.apply (View.read (Elt F)
            (((xV).slice (Rect.unit (s := S4x128x128) (k0_off1 L) S1x16x128.size (k0_off1_inb L)) (fun _ => rfl)).squeeze S16x128
              squeezes_S1x16x128_S16x128).view XV)) Finset.univ) (ix2 r l)
      = XV (ix3 (planeOf L) (rowAt L r) l) := by
  rw [View.write_whole_univ]
  -- the word read is the index array's at the copied window's place
  have e1 : View.read (Elt F) ((q0).access (Rect.whole S16x128))
        (ReadAs.same.apply (View.read (Elt F)
            (((xV).slice (Rect.unit (s := S4x128x128) (k0_off1 L) S1x16x128.size (k0_off1_inb L)) (fun _ => rfl)).squeeze S16x128
              squeezes_S1x16x128_S16x128).view XV)) (ix2 r l)
      = XV ((Rect.unit (s := S4x128x128) (k0_off1 L) S1x16x128.size (k0_off1_inb L)).emb
          ((Shape.reshapeEquiv squeezes_S1x16x128_S16x128.numel_eq) ((Rect.whole S16x128).emb (ix2 r l)))) := by
    rfl
  have e2 : (Rect.whole S16x128).emb (ix2 r l) = ix2 r l := by
    funext a; refine Fin.ext ?_
    rw [Rect.emb_apply]
    match a with
    | ⟨0, _⟩ => show 0 + 1 * r.val = r.val; omega
    | ⟨1, _⟩ => show 0 + 1 * l.val = l.val; omega
  have e3 : Shape.reshapeEquiv squeezes_S1x16x128_S16x128.numel_eq (ix2 r l) = (ix3 (0 : Fin 1) r l : S1x16x128.Idx) :=
    Shape.reshapeEquiv_eq_of_rowMajor _ (by
      rw [Shape.rowMajor_val_three, Shape.rowMajor_val_two]
      show (0 * 16 + r.val) * 128 + l.val = r.val * 128 + l.val
      omega)
  rw [e1, e2, e3]
  congr 1
  funext a; refine Fin.ext ?_
  rw [Rect.emb_apply, Rect.off_unit, Rect.stride_unit]
  match a with
  | ⟨0, h0⟩ =>
    have hk : k0_off1 L ⟨0, h0⟩ = (2 * (L 1).val + (L 0).val) / 8 := congrFun (k0_off1_eq L) ⟨0, h0⟩
    show k0_off1 L ⟨0, h0⟩ + 1 * 0 = wOf L / 8
    rw [hk]; unfold wOf; omega
  | ⟨1, h1⟩ =>
    have hk : k0_off1 L ⟨1, h1⟩ = ((2 * (L 1).val + (L 0).val) % 8) * 16 := congrFun (k0_off1_eq L) ⟨1, h1⟩
    show k0_off1 L ⟨1, h1⟩ + 1 * r.val = 16 * (wOf L % 8) + r.val
    rw [hk]; unfold wOf; omega
  | ⟨2, h2⟩ =>
    have hk : k0_off1 L ⟨2, h2⟩ = 0 := congrFun (k0_off1_eq L) ⟨2, h2⟩
    show k0_off1 L ⟨2, h2⟩ + 1 * l.val = l.val
    rw [hk]; omega

end Cert.Proof.KB

end
-- ==== Proof.TileEndsB.lean ====
/-
  The two ends of a subcore's run, as facts about its two index buffers. After the fetch, every word of the first
  buffer is a word of the index array, hence a row number of a table. At the end, the second buffer, held row by
  row — fourteen rows, each at contents of its own, and the remainder — is one buffer again.
-/
import proofs.«204676_g22814866277092_cont_8to1_1488_17_alg».proof.Proof.TileIfaceB
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S4x128x128 EltTy.i32)
local notation "q0" => (Memref.whole Cert.Kernel.cc0_scratch0 : Memref Cert.Kernel.sig Kind.scVector Space.vmem Cert.Kernel.S16x128 EltTy.i32)
local notation "q1" => (Memref.whole Cert.Kernel.cc0_scratch1 : Memref Cert.Kernel.sig Kind.scVector Space.vmem Cert.Kernel.S16x128 EltTy.i32)

/-! ## The first buffer after the fetch -/

/-- The fetch overwrites the whole buffer with sixteen rows of the index array: each word of the buffer is then a
    word of the index array, whichever rows they are. -/
theorem q0_lt [FloatOps F] (d : Dev nD) (L : grid0.Coords) (XV : Buf (Elt F) (xLoc d)) (hx : ∀ j, (XV j).toNat < 100000)
    (f0 : Buf (Elt F) ((V d (cV L) (jV L)).loc cc0_scratch0)) :
    ∀ j, ((View.write (Elt F) (q0).view f0
      (ReadAs.same.apply (View.read (Elt F) (((xV).slice (Rect.unit (s := S4x128x128) (k0_off1 L) S1x16x128.size (k0_off1_inb L)) (fun _ => rfl)).squeeze S16x128
        squeezes_S1x16x128_S16x128).view XV)) Finset.univ) j).toNat < 100000 := by
  intro j
  rw [View.write_whole_univ]
  show (View.read (Elt F) (((xV).slice (Rect.unit (s := S4x128x128) (k0_off1 L) S1x16x128.size (k0_off1_inb L)) (fun _ => rfl)).squeeze S16x128
        squeezes_S1x16x128_S16x128).view XV j).toNat < 100000
  rw [show ∀ i, View.read (Elt F) (((xV).slice (Rect.unit (s := S4x128x128) (k0_off1 L) S1x16x128.size (k0_off1_inb L)) (fun _ => rfl)).squeeze S16x128
        squeezes_S1x16x128_S16x128).view XV i = XV ((((xV).slice (Rect.unit (s := S4x128x128) (k0_off1 L) S1x16x128.size (k0_off1_inb L)) (fun _ => rfl)).squeeze S16x128
        squeezes_S1x16x128_S16x128).view.emb i) from fun i => (View.read_apply _ _).trans (cast_eq _ _)]
  exact hx _

/-! ## Rows of the second buffer -/

/-- Two different rows of the buffer have no element in common. -/
theorem rows_disjoint (a b : Nat) (hab : a ≠ b)
    (ha : ∀ i, (![a, 0] : Fin 2 → Nat) i + S1x128.size i ≤ S16x128.size i) (hb : ∀ i, (![b, 0] : Fin 2 → Nat) i + S1x128.size i ≤ S16x128.size i)
    (hsa : ∀ i, (Rect.unit (s := S16x128) ![a, 0] S1x128.size ha).stride i = 1) (hsb : ∀ i, (Rect.unit (s := S16x128) ![b, 0] S1x128.size hb).stride i = 1)
    (hqa : (Rect.unit (s := S16x128) ![a, 0] S1x128.size ha).shape.Squeezes S128) (hqb : (Rect.unit (s := S16x128) ![b, 0] S1x128.size hb).shape.Squeezes S128) :
    Disjoint (((q1).slice (Rect.unit (s := S16x128) ![a, 0] S1x128.size ha) hsa).squeeze S128 hqa).view.set
             (((q1).slice (Rect.unit (s := S16x128) ![b, 0] S1x128.size hb) hsb).squeeze S128 hqb).view.set := by
  simp only [Memref.view, View.set_reshape, View.set_slice]
  refine (Finset.disjoint_map _).mpr (Rect.disjoint_of_separated _ _ 0 ?_)
  rcases Nat.lt_or_gt_of_ne hab with h | h
  · exact .inl (.inr (by show a + 1 * (1 - 1) < b; omega))
  · exact .inr (.inr (by show b + 1 * (1 - 1) < a; omega))

/-! ## Putting carved-out parts back -/

/-- The separating conjunction of a list of assertions (of one assertion, itself). -/
def sepL : List (sProp 𝕄) → sProp 𝕄
  | [] => iprop(emp)
  | [B] => B
  | B :: B' :: Bs => iprop(B ∗ sepL (B' :: Bs))

/-- Parts `p₁, p₂, …` can be carved one after the other out of the elements `S`: each lies within what the earlier ones left. -/
def Carved {ℓ : Loc nD τ sig} : List (Finset (Idx ℓ) × Buf (Elt F) ℓ) → Finset (Idx ℓ) → Prop
  | [], _ => True
  | p :: rs, S => p.1 ⊆ S ∧ Carved rs (S \ p.1)

/-- Parts carved one after the other out of the elements `S` of a buffer, each held at contents of its own, and what is
    left of `S`, are `S` again at some contents: the last part carved goes back first. -/
theorem join_parts (ℓ : Loc nD τ sig) (q : PosShare TreeShare) :
    ∀ (rs : List (Finset (Idx ℓ) × Buf (Elt F) ℓ)) (S : Finset (Idx ℓ)) (g : Buf (Elt F) ℓ), Carved rs S →
      iprop((ℓ ↦[rs.foldl (fun T p => T \ p.1) S]{q} g) ∗ sepL (F := F) (rs.map fun p => iprop(ℓ ↦[p.1]{q} p.2)))
        ⊢ (iprop(∃ f, ℓ ↦[S]{q} f) : sProp 𝕄)
  | [], S, g, _ => Laws.sep_emp.1.trans (exists_intro (Φ := fun f => iprop(ℓ ↦[S]{q} f)) g)
  | [p], S, g, hS =>
    (Laws.sep_comm.1.trans (pointsTo_join_subset hS.1)).trans (exists_intro (Φ := fun f => iprop(ℓ ↦[S]{q} f)) _)
  | p :: p' :: rs, S, g, hS => by
    refine Laws.sep_left_comm.1.trans ((Laws.sep_mono_right (join_parts ℓ q (p' :: rs) (S \ p.1) g hS.2)).trans ?_)
    refine Laws.sep_exists_left.1.trans (exists_elim fun f => ?_)
    exact (pointsTo_join_subset hS.1).trans (exists_intro (Φ := fun f => iprop(ℓ ↦[S]{q} f)) _)

/-! ## The second buffer at the end of the run -/

/-- Fourteen rows of the buffer, each at contents of its own, and the remainder are the whole buffer at some contents. -/
theorem q1_join [FloatOps F] (d : Dev nD) (L : grid0.Coords)
    (hr0 : ∀ a, (![0, 0] : Fin 2 → Nat) a + S1x128.size a ≤ S16x128.size a)
    (hr1 : ∀ a, (![1, 0] : Fin 2 → Nat) a + S1x128.size a ≤ S16x128.size a)
    (hr2 : ∀ a, (![2, 0] : Fin 2 → Nat) a + S1x128.size a ≤ S16x128.size a)
    (hr3 : ∀ a, (![3, 0] : Fin 2 → Nat) a + S1x128.size a ≤ S16x128.size a)
    (hr4 : ∀ a, (![4, 0] : Fin 2 → Nat) a + S1x128.size a ≤ S16x128.size a)
    (hr5 : ∀ a, (![5, 0] : Fin 2 → Nat) a + S1x128.size a ≤ S16x128.size a)
    (hr6 : ∀ a, (![6, 0] : Fin 2 → Nat) a + S1x128.size a ≤ S16x128.size a)
    (hr7 : ∀ a, (![7, 0] : Fin 2 → Nat) a + S1x128.size a ≤ S16x128.size a)
    (hr8 : ∀ a, (![8, 0] : Fin 2 → Nat) a + S1x128.size a ≤ S16x128.size a)
    (hr9 : ∀ a, (![9, 0] : Fin 2 → Nat) a + S1x128.size a ≤ S16x128.size a)
    (hr10 : ∀ a, (![10, 0] : Fin 2 → Nat) a + S1x128.size a ≤ S16x128.size a)
    (hr11 : ∀ a, (![11, 0] : Fin 2 → Nat) a + S1x128.size a ≤ S16x128.size a)
    (hr12 : ∀ a, (![12, 0] : Fin 2 → Nat) a + S1x128.size a ≤ S16x128.size a)
    (hr13 : ∀ a, (![13, 0] : Fin 2 → Nat) a + S1x128.size a ≤ S16x128.size a)
    (hs0 : ∀ a, (Rect.unit (s := S16x128) ![0, 0] S1x128.size hr0).stride a = 1)
    (hs1 : ∀ a, (Rect.unit (s := S16x128) ![1, 0] S1x128.size hr1).stride a = 1)
    (hs2 : ∀ a, (Rect.unit (s := S16x128) ![2, 0] S1x128.size hr2).stride a = 1)
    (hs3 : ∀ a, (Rect.unit (s := S16x128) ![3, 0] S1x128.size hr3).stride a = 1)
    (hs4 : ∀ a, (Rect.unit (s := S16x128) ![4, 0] S1x128.size hr4).stride a = 1)
    (hs5 : ∀ a, (Rect.unit (s := S16x128) ![5, 0] S1x128.size hr5).stride a = 1)
    (hs6 : ∀ a, (Rect.unit (s := S16x128) ![6, 0] S1x128.size hr6).stride a = 1)
    (hs7 : ∀ a, (Rect.unit (s := S16x128) ![7, 0] S1x128.size hr7).stride a = 1)
    (hs8 : ∀ a, (Rect.unit (s := S16x128) ![8, 0] S1x128.size hr8).stride a = 1)
    (hs9 : ∀ a, (Rect.unit (s := S16x128) ![9, 0] S1x128.size hr9).stride a = 1)
    (hs10 : ∀ a, (Rect.unit (s := S16x128) ![10, 0] S1x128.size hr10).stride a = 1)
    (hs11 : ∀ a, (Rect.unit (s := S16x128) ![11, 0] S1x128.size hr11).stride a = 1)
    (hs12 : ∀ a, (Rect.unit (s := S16x128) ![12, 0] S1x128.size hr12).stride a = 1)
    (hs13 : ∀ a, (Rect.unit (s := S16x128) ![13, 0] S1x128.size hr13).stride a = 1)
    (hq0 : (Rect.unit (s := S16x128) ![0, 0] S1x128.size hr0).shape.Squeezes S128)
    (hq1 : (Rect.unit (s := S16x128) ![1, 0] S1x128.size hr1).shape.Squeezes S128)
    (hq2 : (Rect.unit (s := S16x128) ![2, 0] S1x128.size hr2).shape.Squeezes S128)
    (hq3 : (Rect.unit (s := S16x128) ![3, 0] S1x128.size hr3).shape.Squeezes S128)
    (hq4 : (Rect.unit (s := S16x128) ![4, 0] S1x128.size hr4).shape.Squeezes S128)
    (hq5 : (Rect.unit (s := S16x128) ![5, 0] S1x128.size hr5).shape.Squeezes S128)
    (hq6 : (Rect.unit (s := S16x128) ![6, 0] S1x128.size hr6).shape.Squeezes S128)
    (hq7 : (Rect.unit (s := S16x128) ![7, 0] S1x128.size hr7).shape.Squeezes S128)
    (hq8 : (Rect.unit (s := S16x128) ![8, 0] S1x128.size hr8).shape.Squeezes S128)
    (hq9 : (Rect.unit (s := S16x128) ![9, 0] S1x128.size hr9).shape.Squeezes S128)
    (hq10 : (Rect.unit (s := S16x128) ![10, 0] S1x128.size hr10).shape.Squeezes S128)
    (hq11 : (Rect.unit (s := S16x128) ![11, 0] S1x128.size hr11).shape.Squeezes S128)
    (hq12 : (Rect.unit (s := S16x128) ![12, 0] S1x128.size hr12).shape.Squeezes S128)
    (hq13 : (Rect.unit (s := S16x128) ![13, 0] S1x128.size hr13).shape.Squeezes S128)
    (g g0 g1 g2 g3 g4 g5 g6 g7 g8 g9 g10 g11 g12 g13 : Buf (Elt F) ((q1).view.loc (V d (cV L) (jV L)))) :
    iprop(((q1).view.loc (V d (cV L) (jV L)) ↦[((((((((((((((Finset.univ \ (((q1).slice (Rect.unit (s := S16x128) ![0, 0] S1x128.size hr0) hs0).squeeze S128 hq0).view.set) \ (((q1).slice (Rect.unit (s := S16x128) ![1, 0] S1x128.size hr1) hs1).squeeze S128 hq1).view.set) \ (((q1).slice (Rect.unit (s := S16x128) ![2, 0] S1x128.size hr2) hs2).squeeze S128 hq2).view.set) \ (((q1).slice (Rect.unit (s := S16x128) ![3, 0] S1x128.size hr3) hs3).squeeze S128 hq3).view.set) \ (((q1).slice (Rect.unit (s := S16x128) ![4, 0] S1x128.size hr4) hs4).squeeze S128 hq4).view.set) \ (((q1).slice (Rect.unit (s := S16x128) ![5, 0] S1x128.size hr5) hs5).squeeze S128 hq5).view.set) \ (((q1).slice (Rect.unit (s := S16x128) ![6, 0] S1x128.size hr6) hs6).squeeze S128 hq6).view.set) \ (((q1).slice (Rect.unit (s := S16x128) ![7, 0] S1x128.size hr7) hs7).squeeze S128 hq7).view.set) \ (((q1).slice (Rect.unit (s := S16x128) ![8, 0] S1x128.size hr8) hs8).squeeze S128 hq8).view.set) \ (((q1).slice (Rect.unit (s := S16x128) ![9, 0] S1x128.size hr9) hs9).squeeze S128 hq9).view.set) \ (((q1).slice (Rect.unit (s := S16x128) ![10, 0] S1x128.size hr10) hs10).squeeze S128 hq10).view.set) \ (((q1).slice (Rect.unit (s := S16x128) ![11, 0] S1x128.size hr11) hs11).squeeze S128 hq11).view.set) \ (((q1).slice (Rect.unit (s := S16x128) ![12, 0] S1x128.size hr12) hs12).squeeze S128 hq12).view.set) \ (((q1).slice (Rect.unit (s := S16x128) ![13, 0] S1x128.size hr13) hs13).squeeze S128 hq13).view.set)]{fullShare} g)
        ∗ ((q1).view.loc (V d (cV L) (jV L)) ↦[(((q1).slice (Rect.unit (s := S16x128) ![0, 0] S1x128.size hr0) hs0).squeeze S128 hq0).view.set]{fullShare} g0)
        ∗ ((q1).view.loc (V d (cV L) (jV L)) ↦[(((q1).slice (Rect.unit (s := S16x128) ![1, 0] S1x128.size hr1) hs1).squeeze S128 hq1).view.set]{fullShare} g1)
        ∗ ((q1).view.loc (V d (cV L) (jV L)) ↦[(((q1).slice (Rect.unit (s := S16x128) ![2, 0] S1x128.size hr2) hs2).squeeze S128 hq2).view.set]{fullShare} g2)
        ∗ ((q1).view.loc (V d (cV L) (jV L)) ↦[(((q1).slice (Rect.unit (s := S16x128) ![3, 0] S1x128.size hr3) hs3).squeeze S128 hq3).view.set]{fullShare} g3)
        ∗ ((q1).view.loc (V d (cV L) (jV L)) ↦[(((q1).slice (Rect.unit (s := S16x128) ![4, 0] S1x128.size hr4) hs4).squeeze S128 hq4).view.set]{fullShare} g4)
        ∗ ((q1).view.loc (V d (cV L) (jV L)) ↦[(((q1).slice (Rect.unit (s := S16x128) ![5, 0] S1x128.size hr5) hs5).squeeze S128 hq5).view.set]{fullShare} g5)
        ∗ ((q1).view.loc (V d (cV L) (jV L)) ↦[(((q1).slice (Rect.unit (s := S16x128) ![6, 0] S1x128.size hr6) hs6).squeeze S128 hq6).view.set]{fullShare} g6)
        ∗ ((q1).view.loc (V d (cV L) (jV L)) ↦[(((q1).slice (Rect.unit (s := S16x128) ![7, 0] S1x128.size hr7) hs7).squeeze S128 hq7).view.set]{fullShare} g7)
        ∗ ((q1).view.loc (V d (cV L) (jV L)) ↦[(((q1).slice (Rect.unit (s := S16x128) ![8, 0] S1x128.size hr8) hs8).squeeze S128 hq8).view.set]{fullShare} g8)
        ∗ ((q1).view.loc (V d (cV L) (jV L)) ↦[(((q1).slice (Rect.unit (s := S16x128) ![9, 0] S1x128.size hr9) hs9).squeeze S128 hq9).view.set]{fullShare} g9)
        ∗ ((q1).view.loc (V d (cV L) (jV L)) ↦[(((q1).slice (Rect.unit (s := S16x128) ![10, 0] S1x128.size hr10) hs10).squeeze S128 hq10).view.set]{fullShare} g10)
        ∗ ((q1).view.loc (V d (cV L) (jV L)) ↦[(((q1).slice (Rect.unit (s := S16x128) ![11, 0] S1x128.size hr11) hs11).squeeze S128 hq11).view.set]{fullShare} g11)
        ∗ ((q1).view.loc (V d (cV L) (jV L)) ↦[(((q1).slice (Rect.unit (s := S16x128) ![12, 0] S1x128.size hr12) hs12).squeeze S128 hq12).view.set]{fullShare} g12)
        ∗ ((q1).view.loc (V d (cV L) (jV L)) ↦[(((q1).slice (Rect.unit (s := S16x128) ![13, 0] S1x128.size hr13) hs13).squeeze S128 hq13).view.set]{fullShare} g13))
      ⊢ (iprop(∃ f, (V d (cV L) (jV L)).loc cc0_scratch1 ↦{fullShare} f) : sProp 𝕄) := by
  refine join_parts (F := F) ((q1).view.loc (V d (cV L) (jV L))) fullShare
    [((((q1).slice (Rect.unit (s := S16x128) ![0, 0] S1x128.size hr0) hs0).squeeze S128 hq0).view.set, g0),
      ((((q1).slice (Rect.unit (s := S16x128) ![1, 0] S1x128.size hr1) hs1).squeeze S128 hq1).view.set, g1),
      ((((q1).slice (Rect.unit (s := S16x128) ![2, 0] S1x128.size hr2) hs2).squeeze S128 hq2).view.set, g2),
      ((((q1).slice (Rect.unit (s := S16x128) ![3, 0] S1x128.size hr3) hs3).squeeze S128 hq3).view.set, g3),
      ((((q1).slice (Rect.unit (s := S16x128) ![4, 0] S1x128.size hr4) hs4).squeeze S128 hq4).view.set, g4),
      ((((q1).slice (Rect.unit (s := S16x128) ![5, 0] S1x128.size hr5) hs5).squeeze S128 hq5).view.set, g5),
      ((((q1).slice (Rect.unit (s := S16x128) ![6, 0] S1x128.size hr6) hs6).squeeze S128 hq6).view.set, g6),
      ((((q1).slice (Rect.unit (s := S16x128) ![7, 0] S1x128.size hr7) hs7).squeeze S128 hq7).view.set, g7),
      ((((q1).slice (Rect.unit (s := S16x128) ![8, 0] S1x128.size hr8) hs8).squeeze S128 hq8).view.set, g8),
      ((((q1).slice (Rect.unit (s := S16x128) ![9, 0] S1x128.size hr9) hs9).squeeze S128 hq9).view.set, g9),
      ((((q1).slice (Rect.unit (s := S16x128) ![10, 0] S1x128.size hr10) hs10).squeeze S128 hq10).view.set, g10),
      ((((q1).slice (Rect.unit (s := S16x128) ![11, 0] S1x128.size hr11) hs11).squeeze S128 hq11).view.set, g11),
      ((((q1).slice (Rect.unit (s := S16x128) ![12, 0] S1x128.size hr12) hs12).squeeze S128 hq12).view.set, g12),
      ((((q1).slice (Rect.unit (s := S16x128) ![13, 0] S1x128.size hr13) hs13).squeeze S128 hq13).view.set, g13)]
    Finset.univ g ?_
  refine ⟨?_, ?_, ?_, ?_, ?_, ?_, ?_, ?_, ?_, ?_, ?_, ?_, ?_, ?_, trivial⟩
  all_goals
    repeat' (first
      | refine Finset.subset_sdiff.2 ⟨?_, rows_disjoint _ _ (by decide) _ _ _ _ _ _⟩
      | exact Finset.subset_univ _)

end Cert.Proof.KB

end
-- ==== Proof.ChunkValueB.lean ====
/-
  The value of one output block. A block of 128 output rows is written from a staging buffer that a gather filled: row
  `j` of the staging buffer is the row of the stacked table that word `j` of the block's list names. The list's word for
  row `j` of block `c` is the row number the kernel-side description gives output row `2048·w + 128·c + j`, and it
  is below 800000, so the block holds exactly the description's rows.
-/
import proofs.«204676_g22814866277092_cont_8to1_1488_17_alg».proof.Proof.TileIfaceB
import proofs.«204676_g22814866277092_cont_8to1_1488_17_alg».proof.Proof.IdxValueB
import Idealize.ShloMosaic.Lib.SparseCore.Stream
import Idealize.ShloMosaic.Lib.Writes

noncomputable section

namespace Cert.Proof.KB

open Cert.Kernel Cert.Kernel.Gen

open Idealize.ShloMosaic
open Idealize.ShloMosaic.SparseCore (S V T)
open Idealize.ShloMosaic.ValueIdx

variable {F : FTy → Type}

local notation "tV" => (Memref.whole Cert.Kernel.main_v4_scv : Memref Cert.Kernel.sig Kind.scVector Space.hbm Cert.Kernel.S800000x128 EltTy.f32)
local notation "oV" => (Memref.whole Cert.Kernel.main_v5_scv : Memref Cert.Kernel.sig Kind.scVector Space.hbm Cert.Kernel.S65536x128 EltTy.f32)

/-- A piece that covers the whole view reads back its payload, whatever was written before. -/
theorem read_writes_whole_cons {sig : RefSig} {κ : Kind} {sp : Space} {s : Shape} {e : EltTy} {Val : EltTy → Type}
    (V : View sig κ sp s e) (fo : V.ty.Contents Val) (w : s.Idx → Val e) (Lp : List (View.Piece Val s e)) (z : s.Idx) :
    V.read Val (V.writes Val fo (⟨Rect.whole s, w⟩ :: Lp)) z = w z := by
  have hh := View.read_writes_cons_emb V fo (Rect.whole s) w Lp z
  rwa [Rect.emb_whole_apply] at hh

/-- The output row under local row `j` of block `c` of the subcore at `L`. -/
theorem listRow_val (L : grid0.Coords) (c : Fin 16) (p : Fin 128) :
    (listRow L c p).val = 4096 * (L 1).val + 2048 * (L 0).val + 128 * c.val + p.val := by
  show 2048 * wOf L + 128 * c.val + p.val = _
  unfold wOf; omega

theorem chunk_value [FloatOps F] (d : Dev nD) (L : grid0.Coords) (XV : Buf (Elt F) (xLoc d)) (TB : Buf (Elt F) (tLoc d))
    (hx : ∀ j, (XV j).toNat < 100000) (c : Fin 16)
    (off : Fin 2 → Nat) (h : ∀ a, off a + S128x128.size a ≤ S65536x128.size a)
    (hs : ∀ a, (Rect.unit (s := S65536x128) off S128x128.size h).stride a = 1)
    (e : off = ![4096 * (L 1).val + 2048 * (L 0).val + 128 * c.val, 0]) (fo : Buf (Elt F) (oLoc d))
    {κ : Kind} {sp : Space} (v : View sig κ sp S128x128 .f32) (f : v.ty.Contents (Elt F)) (Lp : List (View.Piece (Elt F) S128x128 .f32))
    (idx : S128.Idx → Elt F .i32) (hidx : ∀ x, idx x = listW XV L (ix2 c (x 0)))
    (hn : S128.numel = S128x128.size gathers_S800000x128_S128x128.axis')
    (hin : ∀ x, (idx x).toNat < S800000x128.size gathers_S800000x128_S128x128.axis) :
    ∀ i ∈ ((oV).slice (Rect.unit (s := S65536x128) off S128x128.size h) hs).view.set,
      (((oV).slice (Rect.unit (s := S65536x128) off S128x128.size h) hs).view.writes (Elt F) fo
        [⟨Rect.whole (Rect.unit (s := S65536x128) off S128x128.size h).shape,
          ReadAs.same.apply (View.read (Elt F) v (v.writes (Elt F) f
            (⟨Rect.whole S128x128, SparseCore.gatherPayload gathers_S800000x128_S128x128
              (View.read (Elt F) ((tV).slice (Rect.unit (s := S800000x128) ![0, 0] S800000x128.size inb_S800000x128_S800000x128_0_0) (fun _ => rfl)).view TB)
              (SparseCore.rows idx hn hin)⟩ :: Lp)))⟩]) i
      = Cert.Proof.KSpec.outOf XV TB i := by
  subst e
  intro i hi
  obtain ⟨z, -, rfl⟩ := Finset.mem_map.mp hi
  have hz0 : (z 0).val < 128 := (z 0).isLt
  have hz1 : (z 1).val < 128 := (z 1).isLt
  -- the block's element under local index `z` holds what the piece wrote there: the staging buffer's word at `z`
  have h1 := read_writes_whole_cons ((oV).slice (Rect.unit (s := S65536x128) ![4096 * (L 1).val + 2048 * (L 0).val + 128 * c.val, 0] S128x128.size h) hs).view fo
    (ReadAs.same.apply (View.read (Elt F) v (v.writes (Elt F) f
            (⟨Rect.whole S128x128, SparseCore.gatherPayload gathers_S800000x128_S128x128
              (View.read (Elt F) ((tV).slice (Rect.unit (s := S800000x128) ![0, 0] S800000x128.size inb_S800000x128_S800000x128_0_0) (fun _ => rfl)).view TB)
              (SparseCore.rows idx hn hin)⟩ :: Lp)))) [] z
  rw [View.read_apply] at h1
  refine ((cast_eq _ _).symm.trans h1).trans ?_
  -- which is the gather's payload at `z`
  show View.read (Elt F) v (v.writes (Elt F) f
            (⟨Rect.whole S128x128, SparseCore.gatherPayload gathers_S800000x128_S128x128
              (View.read (Elt F) ((tV).slice (Rect.unit (s := S800000x128) ![0, 0] S800000x128.size inb_S800000x128_S800000x128_0_0) (fun _ => rfl)).view TB)
              (SparseCore.rows idx hn hin)⟩ :: Lp)) z = _
  rw [read_writes_whole_cons]
  -- the table's row the list names, at column `z 1`
  show View.read (Elt F) ((tV).slice (Rect.unit (s := S800000x128) ![0, 0] S800000x128.size inb_S800000x128_S800000x128_0_0) (fun _ => rfl)).view TB
      (gathers_S800000x128_S128x128.idx (SparseCore.rows idx hn hin) z) = _
  rw [View.read_apply]
  refine (cast_eq _ _).trans ?_
  -- the element's place in the output array: row `4096·(L 1) + 2048·(L 0) + 128·c + z 0`, column `z 1`
  obtain ⟨iz, hiz⟩ : ∃ iz : S65536x128.Idx, iz = ((oV).slice (Rect.unit (s := S65536x128) ![4096 * (L 1).val + 2048 * (L 0).val + 128 * c.val, 0] S128x128.size h) hs).view.emb z := ⟨_, rfl⟩
  have hiz0 : (iz 0).val = 4096 * (L 1).val + 2048 * (L 0).val + 128 * c.val + (z 0).val := by
    rw [hiz]
    show (4096 * (L 1).val + 2048 * (L 0).val + 128 * c.val) + 1 * (z 0).val = _
    omega
  have hiz1 : (iz 1).val = (z 1).val := by
    rw [hiz]
    show 0 + 1 * (z 1).val = _
    omega
  rw [← hiz]
  -- the list's word for local row `z 0`
  have hx0 : ((S128.rowMajor.symm ((z gathers_S800000x128_S128x128.axis').cast hn.symm)) 0).val = (z 0).val := by
    have hh := Shape.rowMajor_val_one (S128.rowMajor.symm ((z gathers_S800000x128_S128x128.axis').cast hn.symm))
    rw [Equiv.apply_symm_apply] at hh
    exact hh.symm
  have hw : idx (S128.rowMajor.symm ((z gathers_S800000x128_S128x128.axis').cast hn.symm)) = listW XV L (ix2 c (⟨(z 0).val, hz0⟩ : Fin 128)) :=
    (hidx _).trans (congrArg (fun q : Fin 128 => listW XV L (ix2 c q)) (Fin.ext hx0))
  have hR : listRow L c (⟨(z 0).val, hz0⟩ : Fin 128) = iz 0 := Fin.ext (by rw [listRow_val, hiz0])
  have hlt := listW_lt XV L hx (ix2 c (⟨(z 0).val, hz0⟩ : Fin 128))
  rw [listW_ix2, hR] at hlt
  show TB _ = TB (ix2 (⟨(Cert.Proof.KSpec.idxWord XV (iz 0)).toNat % 800000, Nat.mod_lt _ (by decide)⟩ : Fin 800000) (iz 1))
  refine congrArg TB (funext fun a => Fin.ext ?_)
  match a with
  | ⟨0, _⟩ =>
    show 0 + 1 * (idx (S128.rowMajor.symm ((z gathers_S800000x128_S128x128.axis').cast hn.symm))).toNat = (Cert.Proof.KSpec.idxWord XV (iz 0)).toNat % 800000
    rw [hw, listW_ix2, hR]
    omega
  | ⟨1, _⟩ =>
    show 0 + 1 * (z 1).val = (iz 1).val
    omega

end Cert.Proof.KB

end
-- ==== Proof.BodyB.lean ====
/-
  One vector subcore's task. The subcore at SparseCore `L 0`, tile `L 1` (number `w = 2·(L 1) + (L 0)`) copies sixteen rows of
  the re-laid index array into its first scratch; fills its list buffer, sixteen rows of 128 words, eight pieces of
  sixteen lanes per row, each word an entry of the first scratch plus `100000` times the table's number; moves, row by
  row, the rows of the stacked table the list names into one of six staging buffers (six such transfers may be under way
  at once, each reading the table through a read token of its own) and each staging buffer out to its block of 128 rows
  of the output array. Every semaphore carries one transfer at a time and no buffer is touched between the start of a
  transfer on it and the wait for it, so every interleaving ends the same way.
  Here: from the three arrays held as `held` says and the subcore's own scratch and semaphores, the kernel's function at
  `L` runs to its end and hands everything back with the sixteen output blocks holding the lookup's rows
  (`KSpec.outOf`). The words of the list are in range (`hin_row`) because the index array's are; each piece of the list is
  the word `KSpec.idxWord` of its output row (`piece_word`, the lane vectors of the program evaluated), so each row of the
  list reads as `listW` (`row_read`), and each output block as the table's rows at those words (`chunk_value`).
-/
import proofs.«204676_g22814866277092_cont_8to1_1488_17_alg».proof.Proof.TileResB
import proofs.«204676_g22814866277092_cont_8to1_1488_17_alg».proof.Proof.IdxBoundB
import proofs.«204676_g22814866277092_cont_8to1_1488_17_alg».proof.Proof.IdxValueB
import proofs.«204676_g22814866277092_cont_8to1_1488_17_alg».proof.Proof.TileEndsB
import proofs.«204676_g22814866277092_cont_8to1_1488_17_alg».proof.Proof.ChunkValueB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S4x128x128 EltTy.i32)
local notation "tV" => (Memref.whole Cert.Kernel.main_v4_scv : Memref Cert.Kernel.sig Kind.scVector Space.hbm Cert.Kernel.S800000x128 EltTy.f32)
local notation "oV" => (Memref.whole Cert.Kernel.main_v5_scv : Memref Cert.Kernel.sig Kind.scVector Space.hbm Cert.Kernel.S65536x128 EltTy.f32)
local notation "q0" => (Memref.whole Cert.Kernel.cc0_scratch0 : Memref Cert.Kernel.sig Kind.scVector Space.vmem Cert.Kernel.S16x128 EltTy.i32)
local notation "q1" => (Memref.whole Cert.Kernel.cc0_scratch1 : Memref Cert.Kernel.sig Kind.scVector Space.vmem Cert.Kernel.S16x128 EltTy.i32)
local notation "q2" => (Memref.whole Cert.Kernel.cc0_scratch2 : Memref Cert.Kernel.sig Kind.scVector Space.vmem Cert.Kernel.S128x128 EltTy.f32)
local notation "q3" => (Memref.whole Cert.Kernel.cc0_scratch3 : Memref Cert.Kernel.sig Kind.scVector Space.vmem Cert.Kernel.S128x128 EltTy.f32)
local notation "q4" => (Memref.whole Cert.Kernel.cc0_scratch4 : Memref Cert.Kernel.sig Kind.scVector Space.vmem Cert.Kernel.S128x128 EltTy.f32)
local notation "q5" => (Memref.whole Cert.Kernel.cc0_scratch5 : Memref Cert.Kernel.sig Kind.scVector Space.vmem Cert.Kernel.S128x128 EltTy.f32)
local notation "q6" => (Memref.whole Cert.Kernel.cc0_scratch6 : Memref Cert.Kernel.sig Kind.scVector Space.vmem Cert.Kernel.S128x128 EltTy.f32)
local notation "q7" => (Memref.whole Cert.Kernel.cc0_scratch7 : Memref Cert.Kernel.sig Kind.scVector Space.vmem Cert.Kernel.S128x128 EltTy.f32)

variable [FloatOps F]

section Tile
variable (d : Dev nD) (L : grid0.Coords)

/-! ## The arrays and the scratch as the subcore's memrefs address them -/

omit [FloatOps F] in
theorem pts_x (q : PosShare TreeShare) (f : Buf (Elt F) (xLoc d)) : ((xV).view.loc (V d (cV L) (jV L)) ↦{q} f : sProp 𝕄) = xLoc d ↦{q} f := rfl
omit [FloatOps F] in
theorem pts_t (q : PosShare TreeShare) (f : Buf (Elt F) (tLoc d)) : ((tV).view.loc (V d (cV L) (jV L)) ↦{q} f : sProp 𝕄) = tLoc d ↦{q} f := rfl
omit [FloatOps F] in
theorem pts_q0 (f : Buf (Elt F) ((V d (cV L) (jV L)).loc cc0_scratch0)) : ((q0).view.loc (V d (cV L) (jV L)) ↦{fullShare} f : sProp 𝕄) = (V d (cV L) (jV L)).loc cc0_scratch0 ↦{fullShare} f := rfl
omit [FloatOps F] in
theorem pts_q1 (f : Buf (Elt F) ((V d (cV L) (jV L)).loc cc0_scratch1)) : ((q1).view.loc (V d (cV L) (jV L)) ↦{fullShare} f : sProp 𝕄) = (V d (cV L) (jV L)).loc cc0_scratch1 ↦{fullShare} f := rfl
omit [FloatOps F] in
theorem pts_q2 (f : Buf (Elt F) ((V d (cV L) (jV L)).loc cc0_scratch2)) : ((q2).view.loc (V d (cV L) (jV L)) ↦{fullShare} f : sProp 𝕄) = (V d (cV L) (jV L)).loc cc0_scratch2 ↦{fullShare} f := rfl
omit [FloatOps F] in
theorem pts_q3 (f : Buf (Elt F) ((V d (cV L) (jV L)).loc cc0_scratch3)) : ((q3).view.loc (V d (cV L) (jV L)) ↦{fullShare} f : sProp 𝕄) = (V d (cV L) (jV L)).loc cc0_scratch3 ↦{fullShare} f := rfl
omit [FloatOps F] in
theorem pts_q4 (f : Buf (Elt F) ((V d (cV L) (jV L)).loc cc0_scratch4)) : ((q4).view.loc (V d (cV L) (jV L)) ↦{fullShare} f : sProp 𝕄) = (V d (cV L) (jV L)).loc cc0_scratch4 ↦{fullShare} f := rfl
omit [FloatOps F] in
theorem pts_q5 (f : Buf (Elt F) ((V d (cV L) (jV L)).loc cc0_scratch5)) : ((q5).view.loc (V d (cV L) (jV L)) ↦{fullShare} f : sProp 𝕄) = (V d (cV L) (jV L)).loc cc0_scratch5 ↦{fullShare} f := rfl
omit [FloatOps F] in
theorem pts_q6 (f : Buf (Elt F) ((V d (cV L) (jV L)).loc cc0_scratch6)) : ((q6).view.loc (V d (cV L) (jV L)) ↦{fullShare} f : sProp 𝕄) = (V d (cV L) (jV L)).loc cc0_scratch6 ↦{fullShare} f := rfl
omit [FloatOps F] in
theorem pts_q7 (f : Buf (Elt F) ((V d (cV L) (jV L)).loc cc0_scratch7)) : ((q7).view.loc (V d (cV L) (jV L)) ↦{fullShare} f : sProp 𝕄) = (V d (cV L) (jV L)).loc cc0_scratch7 ↦{fullShare} f := rfl
omit [FloatOps F] in
theorem pts_q0_access (f : Buf (Elt F) ((V d (cV L) (jV L)).loc cc0_scratch0)) :
    (((q0).access (.whole S16x128)).loc (V d (cV L) (jV L)) ↦{fullShare} f : sProp 𝕄) = (V d (cV L) (jV L)).loc cc0_scratch0 ↦{fullShare} f := rfl

omit [FloatOps F] in
/-- The sliced memref's elements are the block's. -/
theorem set_chunk (L : grid0.Coords) (k : Fin 16) (off : Fin 2 → Nat) (h : ∀ a, off a + S128x128.size a ≤ S65536x128.size a)
    (hs : ∀ a, (Rect.unit (s := S65536x128) off S128x128.size h).stride a = 1)
    (e : off = ![4096 * (L 1).val + 2048 * (L 0).val + 128 * k.val, 0]) :
    ((oV).slice (Rect.unit (s := S65536x128) off S128x128.size h) hs).view.set = oPart (chunkIx L k) := by
  show ((oV).view.slice (Rect.unit (s := S65536x128) off S128x128.size h)).set = ((oV).view.slice (oRect (chunkIx L k))).set
  rw [chunk_rect L k off h e]

omit [FloatOps F] in
theorem pts_chunk (d : Dev nD) (L : grid0.Coords) (k : Fin 16) (off : Fin 2 → Nat) (h : ∀ a, off a + S128x128.size a ≤ S65536x128.size a)
    (hs : ∀ a, (Rect.unit (s := S65536x128) off S128x128.size h).stride a = 1)
    (e : off = ![4096 * (L 1).val + 2048 * (L 0).val + 128 * k.val, 0]) (f : Buf (Elt F) (oLoc d)) :
    (((oV).slice (Rect.unit (s := S65536x128) off S128x128.size h) hs).view.loc (V d (cV L) (jV L))
        ↦[((oV).slice (Rect.unit (s := S65536x128) off S128x128.size h) hs).view.set]{fullShare} f : sProp 𝕄)
      = oLoc d ↦[oPart (chunkIx L k)]{fullShare} f := by
  rw [set_chunk L k off h hs e]

/-! ## Where the program's sixteen block offsets lie -/

omit [FloatOps F] in
theorem off_chunk0 (L : grid0.Coords) : k0_off2 L = ![4096 * (L 1).val + 2048 * (L 0).val + 128 * (0 : Fin 16).val, 0] := by
  have e := k0_off2_eq L
  exact e.trans rfl
omit [FloatOps F] in
theorem off_chunk1 (L : grid0.Coords) : k0_off3 L 128#32 = ![4096 * (L 1).val + 2048 * (L 0).val + 128 * (1 : Fin 16).val, 0] := by
  have e := k0_off3_eq L 1
  refine e.trans ?_
  congr 1
omit [FloatOps F] in
theorem off_chunk2 (L : grid0.Coords) : k0_off4 L 256#32 = ![4096 * (L 1).val + 2048 * (L 0).val + 128 * (2 : Fin 16).val, 0] := by
  have e := k0_off4_eq L 1
  refine e.trans ?_
  congr 1
omit [FloatOps F] in
theorem off_chunk3 (L : grid0.Coords) : k0_off5 L 384#32 = ![4096 * (L 1).val + 2048 * (L 0).val + 128 * (3 : Fin 16).val, 0] := by
  have e := k0_off5_eq L 1
  refine e.trans ?_
  congr 1
omit [FloatOps F] in
theorem off_chunk4 (L : grid0.Coords) : k0_off6 L 512#32 = ![4096 * (L 1).val + 2048 * (L 0).val + 128 * (4 : Fin 16).val, 0] := by
  have e := k0_off6_eq L 1
  refine e.trans ?_
  congr 1
omit [FloatOps F] in
theorem off_chunk5 (L : grid0.Coords) : k0_off7 L 640#32 = ![4096 * (L 1).val + 2048 * (L 0).val + 128 * (5 : Fin 16).val, 0] := by
  have e := k0_off7_eq L 1
  refine e.trans ?_
  congr 1
omit [FloatOps F] in
theorem off_chunk6 (L : grid0.Coords) : k0_off8 L 768#32 = ![4096 * (L 1).val + 2048 * (L 0).val + 128 * (6 : Fin 16).val, 0] := by
  have e := k0_off8_eq L 1
  refine e.trans ?_
  congr 1
omit [FloatOps F] in
theorem off_chunk7 (L : grid0.Coords) : k0_off9 L 896#32 = ![4096 * (L 1).val + 2048 * (L 0).val + 128 * (7 : Fin 16).val, 0] := by
  have e := k0_off9_eq L 1
  refine e.trans ?_
  congr 1
omit [FloatOps F] in
theorem off_chunk8 (L : grid0.Coords) : k0_off10 L 1024#32 = ![4096 * (L 1).val + 2048 * (L 0).val + 128 * (8 : Fin 16).val, 0] := by
  have e := k0_off10_eq L 1
  refine e.trans ?_
  congr 1
omit [FloatOps F] in
theorem off_chunk9 (L : grid0.Coords) : k0_off11 L 1152#32 = ![4096 * (L 1).val + 2048 * (L 0).val + 128 * (9 : Fin 16).val, 0] := by
  have e := k0_off11_eq L 1
  refine e.trans ?_
  congr 1
omit [FloatOps F] in
theorem off_chunk10 (L : grid0.Coords) : k0_off12 L 1280#32 = ![4096 * (L 1).val + 2048 * (L 0).val + 128 * (10 : Fin 16).val, 0] := by
  have e := k0_off12_eq L 1
  refine e.trans ?_
  congr 1
omit [FloatOps F] in
theorem off_chunk11 (L : grid0.Coords) : k0_off12 L 1408#32 = ![4096 * (L 1).val + 2048 * (L 0).val + 128 * (11 : Fin 16).val, 0] := by
  have e := k0_off12_eq L 2
  refine e.trans ?_
  congr 1
omit [FloatOps F] in
theorem off_chunk12 (L : grid0.Coords) : k0_off12 L 1536#32 = ![4096 * (L 1).val + 2048 * (L 0).val + 128 * (12 : Fin 16).val, 0] := by
  have e := k0_off12_eq L 3
  refine e.trans ?_
  congr 1
omit [FloatOps F] in
theorem off_chunk13 (L : grid0.Coords) : k0_off12 L 1664#32 = ![4096 * (L 1).val + 2048 * (L 0).val + 128 * (13 : Fin 16).val, 0] := by
  have e := k0_off12_eq L 4
  refine e.trans ?_
  congr 1
omit [FloatOps F] in
theorem off_chunk14 (L : grid0.Coords) : k0_off12 L 1792#32 = ![4096 * (L 1).val + 2048 * (L 0).val + 128 * (14 : Fin 16).val, 0] := by
  have e := k0_off12_eq L 5
  refine e.trans ?_
  congr 1
omit [FloatOps F] in
theorem off_chunk15 (L : grid0.Coords) : k0_off12 L 1920#32 = ![4096 * (L 1).val + 2048 * (L 0).val + 128 * (15 : Fin 16).val, 0] := by
  have e := k0_off12_eq L 6
  refine e.trans ?_
  congr 1

end Tile

/-! ## The task -/

set_option maxHeartbeats 40000000 in
/-- The kernel's function at `L`: the fetch of the index rows, the 128 list pieces (an indexed load of the first scratch, a
    store into the list), the sixteen gathers and the sixteen copies out with their waits; then the value of what was
    written. -/
theorem tile_body : TileBody (F := F) := by
  intro hF d L O W hO qx qt XV TB fo hx
  rw [(K (F := F)).scopedBufs_V hF d (cV L) (jV L), SparseCore.Cfg.scopedSems0_V (Val := Elt F) d (cV L) (jV L), ownSems0_split, ownBufs_split]
  simp only [held, bigSep_fin16]
  dsimp only [cellsOf, refsOf, ownSemList, ownBufList, List.map, List.foldr]
  simp only [cc0_k_eq_skeleton]; unfold cc0_k_skel
  iintro ⟨#Hlv, -, ⟨Hx, Ht, Ho0, Ho1, Ho2, Ho3, Ho4, Ho5, Ho6, Ho7, Ho8, Ho9, Ho10, Ho11, Ho12, Ho13, Ho14, Ho15⟩, ⟨⟨%f0, B0⟩, ⟨%f1, B1⟩, ⟨%f2, B2⟩, ⟨%f3, B3⟩, ⟨%f4, B4⟩, ⟨%f5, B5⟩, ⟨%f6, B6⟩, ⟨%f7, B7⟩, Bufs⟩, ⟨S8, S9, S10, S11, S12, S13, S14, S15, S16, S17, S18, S19, Ssc, Sems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the table's share as six read tokens, one per gather that can be under way, and a remainder
  ihave Htk := (toks6 (F := F) qt).1 $$ Ht
  icases Htk with ⟨Htr, Ht0, Ht1, Ht2, Ht3, Ht4, Ht5⟩
  ihave Hx' := (Entails.of_eq (pts_x (F := F) d L _ _).symm) $$ Hx
  ihave Ht0' := (Entails.of_eq (pts_t (F := F) d L _ _).symm) $$ Ht0
  ihave Ht1' := (Entails.of_eq (pts_t (F := F) d L _ _).symm) $$ Ht1
  ihave Ht2' := (Entails.of_eq (pts_t (F := F) d L _ _).symm) $$ Ht2
  ihave Ht3' := (Entails.of_eq (pts_t (F := F) d L _ _).symm) $$ Ht3
  ihave Ht4' := (Entails.of_eq (pts_t (F := F) d L _ _).symm) $$ Ht4
  ihave Ht5' := (Entails.of_eq (pts_t (F := F) d L _ _).symm) $$ Ht5
  ihave H0' := (Entails.of_eq (pts_q0 (F := F) d L _).symm) $$ B0
  ihave H1' := (Entails.of_eq (pts_q1 (F := F) d L _).symm) $$ B1
  ihave H2' := (Entails.of_eq (pts_q2 (F := F) d L _).symm) $$ B2
  ihave H3' := (Entails.of_eq (pts_q3 (F := F) d L _).symm) $$ B3
  ihave H4' := (Entails.of_eq (pts_q4 (F := F) d L _).symm) $$ B4
  ihave H5' := (Entails.of_eq (pts_q5 (F := F) d L _).symm) $$ B5
  ihave H6' := (Entails.of_eq (pts_q6 (F := F) d L _).symm) $$ B6
  ihave H7' := (Entails.of_eq (pts_q7 (F := F) d L _).symm) $$ B7
  ihave Hc0 := (Entails.of_eq (pts_chunk (F := F) d L 0 (k0_off2 L) (k0_off2_inb L) (fun _ => rfl) (off_chunk0 L) _).symm) $$ Ho0
  ihave Hc1 := (Entails.of_eq (pts_chunk (F := F) d L 1 (k0_off3 L 128#32) (k0_off3_inb L 1) (fun _ => rfl) (off_chunk1 L) _).symm) $$ Ho1
  ihave Hc2 := (Entails.of_eq (pts_chunk (F := F) d L 2 (k0_off4 L 256#32) (k0_off4_inb L 1) (fun _ => rfl) (off_chunk2 L) _).symm) $$ Ho2
  ihave Hc3 := (Entails.of_eq (pts_chunk (F := F) d L 3 (k0_off5 L 384#32) (k0_off5_inb L 1) (fun _ => rfl) (off_chunk3 L) _).symm) $$ Ho3
  ihave Hc4 := (Entails.of_eq (pts_chunk (F := F) d L 4 (k0_off6 L 512#32) (k0_off6_inb L 1) (fun _ => rfl) (off_chunk4 L) _).symm) $$ Ho4
  ihave Hc5 := (Entails.of_eq (pts_chunk (F := F) d L 5 (k0_off7 L 640#32) (k0_off7_inb L 1) (fun _ => rfl) (off_chunk5 L) _).symm) $$ Ho5
  ihave Hc6 := (Entails.of_eq (pts_chunk (F := F) d L 6 (k0_off8 L 768#32) (k0_off8_inb L 1) (fun _ => rfl) (off_chunk6 L) _).symm) $$ Ho6
  ihave Hc7 := (Entails.of_eq (pts_chunk (F := F) d L 7 (k0_off9 L 896#32) (k0_off9_inb L 1) (fun _ => rfl) (off_chunk7 L) _).symm) $$ Ho7
  ihave Hc8 := (Entails.of_eq (pts_chunk (F := F) d L 8 (k0_off10 L 1024#32) (k0_off10_inb L 1) (fun _ => rfl) (off_chunk8 L) _).symm) $$ Ho8
  ihave Hc9 := (Entails.of_eq (pts_chunk (F := F) d L 9 (k0_off11 L 1152#32) (k0_off11_inb L 1) (fun _ => rfl) (off_chunk9 L) _).symm) $$ Ho9
  ihave Hc10 := (Entails.of_eq (pts_chunk (F := F) d L 10 (k0_off12 L 1280#32) (k0_off12_inb L 1) (fun _ => rfl) (off_chunk10 L) _).symm) $$ Ho10
  ihave Hc11 := (Entails.of_eq (pts_chunk (F := F) d L 11 (k0_off12 L 1408#32) (k0_off12_inb L 2) (fun _ => rfl) (off_chunk11 L) _).symm) $$ Ho11
  ihave Hc12 := (Entails.of_eq (pts_chunk (F := F) d L 12 (k0_off12 L 1536#32) (k0_off12_inb L 3) (fun _ => rfl) (off_chunk12 L) _).symm) $$ Ho12
  ihave Hc13 := (Entails.of_eq (pts_chunk (F := F) d L 13 (k0_off12 L 1664#32) (k0_off12_inb L 4) (fun _ => rfl) (off_chunk13 L) _).symm) $$ Ho13
  ihave Hc14 := (Entails.of_eq (pts_chunk (F := F) d L 14 (k0_off12 L 1792#32) (k0_off12_inb L 5) (fun _ => rfl) (off_chunk14 L) _).symm) $$ Ho14
  ihave Hc15 := (Entails.of_eq (pts_chunk (F := F) d L 15 (k0_off12 L 1920#32) (k0_off12_inb L 6) (fun _ => rfl) (off_chunk15 L) _).symm) $$ Ho15
  -- the fetch of the sixteen index rows into the first scratch
  sl_exec
  -- every word of the first scratch is a word of the index array; hence every list word will be a row of the table
  have hq0 : ∀ j, ((View.write (Elt F) (q0).view f0 (tile_body.sl.dma0 d L XV) Finset.univ) j).toNat < 100000 := q0_lt (F := F) d L XV hx f0
  have hin := hin_row (F := F) d L _ hq0
  ihave H0r := (Entails.of_eq (pts_q0 (F := F) d L _)) $$ H0'
  ihave H0a := (Entails.of_eq (pts_q0_access (F := F) d L _).symm) $$ H0r
  -- the 128 pieces: an indexed load of the first scratch, then the run up to the next one (stores, gathers, copies, waits)
  repeat (iapply (SparseCore.wp_vectorLoadIdx 𝒱₀ (V d (cV L) (jV L)) none Set.univ (base := q0) (S := Finset.univ) (q := fullShare) (Finset.subset_univ _)) $$ H0a; iintro H0a; sl_exec)
  sl_step
  -- the list buffer's words, row by row; the output blocks' contents
  have hRD : ∀ (r : Fin 16) (l : Fin 128), View.read (Elt F) ((q0).access (Rect.whole S16x128)) (View.write (Elt F) (q0).view f0 (tile_body.sl.dma0 d L XV) Finset.univ) (ValueIdx.ix2 r l)
      = XV (ValueIdx.ix3 (planeOf L) (rowAt L r) l) := fun r l => rd_eq (F := F) d L XV f0 r l
  have A0 : AllW (F := F) (listW XV L) (tile_body.sl.H1'_8 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ (allW_nil _)))))))))
    · exact piece_word XV L _ hRD 0 7 (by decide) (by decide) _ _ _ _ (by decide +kernel) (by decide) _
    · exact piece_word XV L _ hRD 0 6 (by decide) (by decide) _ _ _ _ (by decide +kernel) (by decide) _
    · exact piece_word XV L _ hRD 0 5 (by decide) (by decide) _ _ _ _ (by decide +kernel) (by decide) _
    · exact piece_word XV L _ hRD 0 4 (by decide) (by decide) _ _ _ _ (by decide +kernel) (by decide) _
    · exact piece_word XV L _ hRD 0 3 (by decide) (by decide) _ _ _ _ (by decide +kernel) (by decide) _
    · exact piece_word XV L _ hRD 0 2 (by decide) (by decide) _ _ _ _ (by decide +kernel) (by decide) _
    · exact piece_word XV L _ hRD 0 1 (by decide) (by decide) _ _ _ _ (by decide +kernel) (by decide) _
    · exact piece_word XV L _ hRD 0 0 (by decide) (by decide) _ _ _ _ (by decide +kernel) (by decide) _
  have A1 : AllW (F := F) (listW XV L) (tile_body.sl.H1'_16 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A0))))))))
    · exact piece_word XV L _ hRD 1 7 (by decide) (by decide) _ _ _ _ (by decide +kernel) (by decide) _
    · exact piece_word XV L _ hRD 1 6 (by decide) (by decide) _ _ _ _ (by decide +kernel) (by decide) _
    · exact piece_word XV L _ hRD 1 5 (by decide) (by decide) _ _ _ _ (by decide +kernel) (by decide) _
    · exact piece_word XV L _ hRD 1 4 (by decide) (by decide) _ _ _ _ (by decide +kernel) (by decide) _
    · exact piece_word XV L _ hRD 1 3 (by decide) (by decide) _ _ _ _ (by decide +kernel) (by decide) _
    · exact piece_word XV L _ hRD 1 2 (by decide) (by decide) _ _ _ _ (by decide +kernel) (by decide) _
    · exact piece_word XV L _ hRD 1 1 (by decide) (by decide) _ _ _ _ (by decide +kernel) (by decide) _
    · exact piece_word XV L _ hRD 1 0 (by decide) (by decide) _ _ _ _ (by decide +kernel) (by decide) _
  have A2 : AllW (F := F) (listW XV L) (tile_body.sl.H1'_24 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A1))))))))
    · exact piece_word XV L _ hRD 2 7 (by decide) (by decide) _ _ _ _ (by decide +kernel) (by decide) _
    · exact piece_word XV L _ hRD 2 6 (by decide) (by decide) _ _ _ _ (by decide +kernel) (by decide) _
    · exact piece_word XV L _ hRD 2 5 (by decide) (by decide) _ _ _ _ (by decide +kernel) (by decide) _
    · exact piece_word XV L _ hRD 2 4 (by decide) (by decide) _ _ _ _ (by decide +kernel) (by decide) _
    · exact piece_word XV L _ hRD 2 3 (by decide) (by decide) _ _ _ _ (by decide +kernel) (by decide) _
    · exact piece_word XV L _ hRD 2 2 (by decide) (by decide) _ _ _ _ (by decide +kernel) (by decide) _
    · exact piece_word XV L _ hRD 2 1 (by decide) (by decide) _ _ _ _ (by decide +kernel) (by decide) _
    · exact piece_word XV L _ hRD 2 0 (by decide) (by decide) _ _ _ _ (by decide +kernel) (by decide) _
  have A3 : AllW (F := F) (listW XV L) (tile_body.sl.H1'_32 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A2))))))))
    · exact piece_word XV L _ hRD 3 7 (by decide) (by decide) _ _ _ _ (by decide +kernel) (by decide) _
    · exact piece_word XV L _ hRD 3 6 (by decide) (by decide) _ _ _ _ (by decide +kernel) (by decide) _
    · exact piece_word XV L _ hRD 3 5 (by decide) (by decide) _ _ _ _ (by decide +kernel) (by decide) _
    · exact piece_word XV L _ hRD 3 4 (by decide) (by decide) _ _ _ _ (by decide +kernel) (by decide) _
    · exact piece_word XV L _ hRD 3 3 (by decide) (by decide) _ _ _ _ (by decide +kernel) (by decide) _
    · exact piece_word XV L _ hRD 3 2 (by decide) (by decide) _ _ _ _ (by decide +kernel) (by decide) _
    · exact piece_word XV L _ hRD 3 1 (by decide) (by decide) _ _ _ _ (by decide +kernel) (by decide) _
    · exact piece_word XV L _ hRD 3 0 (by decide) (by decide) _ _ _ _ (by decide +kernel) (by decide) _
  have A4 : AllW (F := F) (listW XV L) (tile_body.sl.H1'_40 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A3))))))))
    · exact piece_word XV L _ hRD 4 7 (by decide) (by decide) _ _ _ _ (by decide +kernel) (by decide) _
    · exact piece_word XV L _ hRD 4 6 (by decide) (by decide) _ _ _ _ (by decide +kernel) (by decide) _
    · exact piece_word XV L _ hRD 4 5 (by decide) (by decide) _ _ _ _ (by decide +kernel) (by decide) _
    · exact piece_word XV L _ hRD 4 4 (by decide) (by decide) _ _ _ _ (by decide +kernel) (by decide) _
    · exact piece_word XV L _ hRD 4 3 (by decide) (by decide) _ _ _ _ (by decide +kernel) (by decide) _
    · exact piece_word XV L _ hRD 4 2 (by decide) (by decide) _ _ _ _ (by decide +kernel) (by decide) _
    · exact piece_word XV L _ hRD 4 1 (by decide) (by decide) _ _ _ _ (by decide +kernel) (by decide) _
    · exact piece_word XV L _ hRD 4 0 (by decide) (by decide) _ _ _ _ (by decide +kernel) (by decide) _
  have A5 : AllW (F := F) (listW XV L) (tile_body.sl.H1'_48 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A4))))))))
    · exact piece_word XV L _ hRD 5 7 (by decide) (by decide) _ _ _ _ (by decide +kernel) (by decide) _
    · exact piece_word XV L _ hRD 5 6 (by decide) (by decide) _ _ _ _ (by decide +kernel) (by decide) _
    · exact piece_word XV L _ hRD 5 5 (by decide) (by decide) _ _ _ _ (by decide +kernel) (by decide) _
    · exact piece_word XV L _ hRD 5 4 (by decide) (by decide) _ _ _ _ (by decide +kernel) (by decide) _
    · exact piece_word XV L _ hRD 5 3 (by decide) (by decide) _ _ _ _ (by decide +kernel) (by decide) _
    · exact piece_word XV L _ hRD 5 2 (by decide) (by decide) _ _ _ _ (by decide +kernel) (by decide) _
    · exact piece_word XV L _ hRD 5 1 (by decide) (by decide) _ _ _ _ (by decide +kernel) (by decide) _
    · exact piece_word XV L _ hRD 5 0 (by decide) (by decide) _ _ _ _ (by decide +kernel) (by decide) _
  have A6 : AllW (F := F) (listW XV L) (tile_body.sl.H1'_56 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A5))))))))
    · exact piece_word XV L _ hRD 6 7 (by decide) (by decide) _ _ _ _ (by decide +kernel) (by decide) _
    · exact piece_word XV L _ hRD 6 6 (by decide) (by decide) _ _ _ _ (by decide +kernel) (by decide) _
    · exact piece_word XV L _ hRD 6 5 (by decide) (by decide) _ _ _ _ (by decide +kernel) (by decide) _
    · exact piece_word XV L _ hRD 6 4 (by decide) (by decide) _ _ _ _ (by decide +kernel) (by decide) _
    · exact piece_word XV L _ hRD 6 3 (by decide) (by decide) _ _ _ _ (by decide +kernel) (by decide) _
    · exact piece_word XV L _ hRD 6 2 (by decide) (by decide) _ _ _ _ (by decide +kernel) (by decide) _
    · exact piece_word XV L _ hRD 6 1 (by decide) (by decide) _ _ _ _ (by decide +kernel) (by decide) _
    · exact piece_word XV L _ hRD 6 0 (by decide) (by decide) _ _ _ _ (by decide +kernel) (by decide) _
  have A7 : AllW (F := F) (listW XV L) (tile_body.sl.H1'_64 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A6))))))))
    · exact piece_word XV L _ hRD 7 7 (by decide) (by decide) _ _ _ _ (by decide +kernel) (by decide) _
    · exact piece_word XV L _ hRD 7 6 (by decide) (by decide) _ _ _ _ (by decide +kernel) (by decide) _
    · exact piece_word XV L _ hRD 7 5 (by decide) (by decide) _ _ _ _ (by decide +kernel) (by decide) _
    · exact piece_word XV L _ hRD 7 4 (by decide) (by decide) _ _ _ _ (by decide +kernel) (by decide) _
    · exact piece_word XV L _ hRD 7 3 (by decide) (by decide) _ _ _ _ (by decide +kernel) (by decide) _
    · exact piece_word XV L _ hRD 7 2 (by decide) (by decide) _ _ _ _ (by decide +kernel) (by decide) _
    · exact piece_word XV L _ hRD 7 1 (by decide) (by decide) _ _ _ _ (by decide +kernel) (by decide) _
    · exact piece_word XV L _ hRD 7 0 (by decide) (by decide) _ _ _ _ (by decide +kernel) (by decide) _
  have A8 : AllW (F := F) (listW XV L) (tile_body.sl.H1'_72 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A7))))))))
    · exact piece_word XV L _ hRD 8 7 (by decide) (by decide) _ _ _ _ (by decide +kernel) (by decide) _
    · exact piece_word XV L _ hRD 8 6 (by decide) (by decide) _ _ _ _ (by decide +kernel) (by decide) _
    · exact piece_word XV L _ hRD 8 5 (by decide) (by decide) _ _ _ _ (by decide +kernel) (by decide) _
    · exact piece_word XV L _ hRD 8 4 (by decide) (by decide) _ _ _ _ (by decide +kernel) (by decide) _
    · exact piece_word XV L _ hRD 8 3 (by decide) (by decide) _ _ _ _ (by decide +kernel) (by decide) _
    · exact piece_word XV L _ hRD 8 2 (by decide) (by decide) _ _ _ _ (by decide +kernel) (by decide) _
    · exact piece_word XV L _ hRD 8 1 (by decide) (by decide) _ _ _ _ (by decide +kernel) (by decide) _
    · exact piece_word XV L _ hRD 8 0 (by decide) (by decide) _ _ _ _ (by decide +kernel) (by decide) _
  have A9 : AllW (F := F) (listW XV L) (tile_body.sl.H1'_80 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A8))))))))
    · exact piece_word XV L _ hRD 9 7 (by decide) (by decide) _ _ _ _ (by decide +kernel) (by decide) _
    · exact piece_word XV L _ hRD 9 6 (by decide) (by decide) _ _ _ _ (by decide +kernel) (by decide) _
    · exact piece_word XV L _ hRD 9 5 (by decide) (by decide) _ _ _ _ (by decide +kernel) (by decide) _
    · exact piece_word XV L _ hRD 9 4 (by decide) (by decide) _ _ _ _ (by decide +kernel) (by decide) _
    · exact piece_word XV L _ hRD 9 3 (by decide) (by decide) _ _ _ _ (by decide +kernel) (by decide) _
    · exact piece_word XV L _ hRD 9 2 (by decide) (by decide) _ _ _ _ (by decide +kernel) (by decide) _
    · exact piece_word XV L _ hRD 9 1 (by decide) (by decide) _ _ _ _ (by decide +kernel) (by decide) _
    · exact piece_word XV L _ hRD 9 0 (by decide) (by decide) _ _ _ _ (by decide +kernel) (by decide) _
  have A10 : AllW (F := F) (listW XV L) (tile_body.sl.H1'_88 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A9))))))))
    · exact piece_word XV L _ hRD 10 7 (by decide) (by decide) _ _ _ _ (by decide +kernel) (by decide) _
    · exact piece_word XV L _ hRD 10 6 (by decide) (by decide) _ _ _ _ (by decide +kernel) (by decide) _
    · exact piece_word XV L _ hRD 10 5 (by decide) (by decide) _ _ _ _ (by decide +kernel) (by decide) _
    · exact piece_word XV L _ hRD 10 4 (by decide) (by decide) _ _ _ _ (by decide +kernel) (by decide) _
    · exact piece_word XV L _ hRD 10 3 (by decide) (by decide) _ _ _ _ (by decide +kernel) (by decide) _
    · exact piece_word XV L _ hRD 10 2 (by decide) (by decide) _ _ _ _ (by decide +kernel) (by decide) _
    · exact piece_word XV L _ hRD 10 1 (by decide) (by decide) _ _ _ _ (by decide +kernel) (by decide) _
    · exact piece_word XV L _ hRD 10 0 (by decide) (by decide) _ _ _ _ (by decide +kernel) (by decide) _
  have A11 : AllW (F := F) (listW XV L) (tile_body.sl.H1'_96 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A10))))))))
    · exact piece_word XV L _ hRD 11 7 (by decide) (by decide) _ _ _ _ (by decide +kernel) (by decide) _
    · exact piece_word XV L _ hRD 11 6 (by decide) (by decide) _ _ _ _ (by decide +kernel) (by decide) _
    · exact piece_word XV L _ hRD 11 5 (by decide) (by decide) _ _ _ _ (by decide +kernel) (by decide) _
    · exact piece_word XV L _ hRD 11 4 (by decide) (by decide) _ _ _ _ (by decide +kernel) (by decide) _
    · exact piece_word XV L _ hRD 11 3 (by decide) (by decide) _ _ _ _ (by decide +kernel) (by decide) _
    · exact piece_word XV L _ hRD 11 2 (by decide) (by decide) _ _ _ _ (by decide +kernel) (by decide) _
    · exact piece_word XV L _ hRD 11 1 (by decide) (by decide) _ _ _ _ (by decide +kernel) (by decide) _
    · exact piece_word XV L _ hRD 11 0 (by decide) (by decide) _ _ _ _ (by decide +kernel) (by decide) _
  have A12 : AllW (F := F) (listW XV L) (tile_body.sl.H1'_104 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A11))))))))
    · exact piece_word XV L _ hRD 12 7 (by decide) (by decide) _ _ _ _ (by decide +kernel) (by decide) _
    · exact piece_word XV L _ hRD 12 6 (by decide) (by decide) _ _ _ _ (by decide +kernel) (by decide) _
    · exact piece_word XV L _ hRD 12 5 (by decide) (by decide) _ _ _ _ (by decide +kernel) (by decide) _
    · exact piece_word XV L _ hRD 12 4 (by decide) (by decide) _ _ _ _ (by decide +kernel) (by decide) _
    · exact piece_word XV L _ hRD 12 3 (by decide) (by decide) _ _ _ _ (by decide +kernel) (by decide) _
    · exact piece_word XV L _ hRD 12 2 (by decide) (by decide) _ _ _ _ (by decide +kernel) (by decide) _
    · exact piece_word XV L _ hRD 12 1 (by decide) (by decide) _ _ _ _ (by decide +kernel) (by decide) _
    · exact piece_word XV L _ hRD 12 0 (by decide) (by decide) _ _ _ _ (by decide +kernel) (by decide) _
  have A13 : AllW (F := F) (listW XV L) (tile_body.sl.H1'_112 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A12))))))))
    · exact piece_word XV L _ hRD 13 7 (by decide) (by decide) _ _ _ _ (by decide +kernel) (by decide) _
    · exact piece_word XV L _ hRD 13 6 (by decide) (by decide) _ _ _ _ (by decide +kernel) (by decide) _
    · exact piece_word XV L _ hRD 13 5 (by decide) (by decide) _ _ _ _ (by decide +kernel) (by decide) _
    · exact piece_word XV L _ hRD 13 4 (by decide) (by decide) _ _ _ _ (by decide +kernel) (by decide) _
    · exact piece_word XV L _ hRD 13 3 (by decide) (by decide) _ _ _ _ (by decide +kernel) (by decide) _
    · exact piece_word XV L _ hRD 13 2 (by decide) (by decide) _ _ _ _ (by decide +kernel) (by decide) _
    · exact piece_word XV L _ hRD 13 1 (by decide) (by decide) _ _ _ _ (by decide +kernel) (by decide) _
    · exact piece_word XV L _ hRD 13 0 (by decide) (by decide) _ _ _ _ (by decide +kernel) (by decide) _
  have A14 : AllW (F := F) (listW XV L) (tile_body.sl.H1'_120 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A13))))))))
    · exact piece_word XV L _ hRD 14 7 (by decide) (by decide) _ _ _ _ (by decide +kernel) (by decide) _
    · exact piece_word XV L _ hRD 14 6 (by decide) (by decide) _ _ _ _ (by decide +kernel) (by decide) _
    · exact piece_word XV L _ hRD 14 5 (by decide) (by decide) _ _ _ _ (by decide +kernel) (by decide) _
    · exact piece_word XV L _ hRD 14 4 (by decide) (by decide) _ _ _ _ (by decide +kernel) (by decide) _
    · exact piece_word XV L _ hRD 14 3 (by decide) (by decide) _ _ _ _ (by decide +kernel) (by decide) _
    · exact piece_word XV L _ hRD 14 2 (by decide) (by decide) _ _ _ _ (by decide +kernel) (by decide) _
    · exact piece_word XV L _ hRD 14 1 (by decide) (by decide) _ _ _ _ (by decide +kernel) (by decide) _
    · exact piece_word XV L _ hRD 14 0 (by decide) (by decide) _ _ _ _ (by decide +kernel) (by decide) _
  have A15 : AllW (F := F) (listW XV L) (tile_body.sl.H1'_128 d L XV f0) := by
    show AllW (F := F) (listW XV L) (_ :: _ :: _ :: _ :: _ :: _ :: _ :: _ :: _)
    refine (allW_cons _ _ _ ?_ (allW_cons _ _ _ ?_ (allW_cons _ _ _ ?_ (allW_cons _ _ _ ?_ (allW_cons _ _ _ ?_ (allW_cons _ _ _ ?_ (allW_cons _ _ _ ?_ (allW_cons _ _ _ ?_ A14))))))))
    · exact piece_word XV L _ hRD 15 7 (by decide) (by decide) _ _ _ _ (by decide +kernel) (by decide) _
    · exact piece_word XV L _ hRD 15 6 (by decide) (by decide) _ _ _ _ (by decide +kernel) (by decide) _
    · exact piece_word XV L _ hRD 15 5 (by decide) (by decide) _ _ _ _ (by decide +kernel) (by decide) _
    · exact piece_word XV L _ hRD 15 4 (by decide) (by decide) _ _ _ _ (by decide +kernel) (by decide) _
    · exact piece_word XV L _ hRD 15 3 (by decide) (by decide) _ _ _ _ (by decide +kernel) (by decide) _
    · exact piece_word XV L _ hRD 15 2 (by decide) (by decide) _ _ _ _ (by decide +kernel) (by decide) _
    · exact piece_word XV L _ hRD 15 1 (by decide) (by decide) _ _ _ _ (by decide +kernel) (by decide) _
    · exact piece_word XV L _ hRD 15 0 (by decide) (by decide) _ _ _ _ (by decide +kernel) (by decide) _
  have hrow0 := row_read (F := F) d L (listW XV L) 0 (by decide) (by decide) (fun _ => rfl) squeezes_S1x128_S128 f1 _ A0 (cover_row 0 (by decide) _ _ _ _ _ _ _ _ (by decide) (by decide) (by decide) (by decide) (by decide) (by decide) (by decide) (by decide) _)
  have hrow1 := row_read (F := F) d L (listW XV L) 1 (by decide) (by decide) (fun _ => rfl) squeezes_S1x128_S128 f1 _ A1 (cover_row 1 (by decide) _ _ _ _ _ _ _ _ (by decide) (by decide) (by decide) (by decide) (by decide) (by decide) (by decide) (by decide) _)
  have hrow2 := row_read (F := F) d L (listW XV L) 2 (by decide) (by decide) (fun _ => rfl) squeezes_S1x128_S128 f1 _ A2 (cover_row 2 (by decide) _ _ _ _ _ _ _ _ (by decide) (by decide) (by decide) (by decide) (by decide) (by decide) (by decide) (by decide) _)
  have hrow3 := row_read (F := F) d L (listW XV L) 3 (by decide) (by decide) (fun _ => rfl) squeezes_S1x128_S128 f1 _ A3 (cover_row 3 (by decide) _ _ _ _ _ _ _ _ (by decide) (by decide) (by decide) (by decide) (by decide) (by decide) (by decide) (by decide) _)
  have hrow4 := row_read (F := F) d L (listW XV L) 4 (by decide) (by decide) (fun _ => rfl) squeezes_S1x128_S128 f1 _ A4 (cover_row 4 (by decide) _ _ _ _ _ _ _ _ (by decide) (by decide) (by decide) (by decide) (by decide) (by decide) (by decide) (by decide) _)
  have hrow5 := row_read (F := F) d L (listW XV L) 5 (by decide) (by decide) (fun _ => rfl) squeezes_S1x128_S128 f1 _ A5 (cover_row 5 (by decide) _ _ _ _ _ _ _ _ (by decide) (by decide) (by decide) (by decide) (by decide) (by decide) (by decide) (by decide) _)
  have hrow6 := row_read (F := F) d L (listW XV L) 6 (by decide) (by decide) (fun _ => rfl) squeezes_S1x128_S128 f1 _ A6 (cover_row 6 (by decide) _ _ _ _ _ _ _ _ (by decide) (by decide) (by decide) (by decide) (by decide) (by decide) (by decide) (by decide) _)
  have hrow7 := row_read (F := F) d L (listW XV L) 7 (by decide) (by decide) (fun _ => rfl) squeezes_S1x128_S128 f1 _ A7 (cover_row 7 (by decide) _ _ _ _ _ _ _ _ (by decide) (by decide) (by decide) (by decide) (by decide) (by decide) (by decide) (by decide) _)
  have hrow8 := row_read (F := F) d L (listW XV L) 8 (by decide) (by decide) (fun _ => rfl) squeezes_S1x128_S128 f1 _ A8 (cover_row 8 (by decide) _ _ _ _ _ _ _ _ (by decide) (by decide) (by decide) (by decide) (by decide) (by decide) (by decide) (by decide) _)
  have hrow9 := row_read (F := F) d L (listW XV L) 9 (by decide) (by decide) (fun _ => rfl) squeezes_S1x128_S128 f1 _ A9 (cover_row 9 (by decide) _ _ _ _ _ _ _ _ (by decide) (by decide) (by decide) (by decide) (by decide) (by decide) (by decide) (by decide) _)
  have hrow10 := row_read (F := F) d L (listW XV L) 10 (by decide) (by decide) (fun _ => rfl) squeezes_S1x128_S128 f1 _ A10 (cover_row 10 (by decide) _ _ _ _ _ _ _ _ (by decide) (by decide) (by decide) (by decide) (by decide) (by decide) (by decide) (by decide) _)
  have hrow11 := row_read (F := F) d L (listW XV L) 11 (by decide) (by decide) (fun _ => rfl) squeezes_S1x128_S128 f1 _ A11 (cover_row 11 (by decide) _ _ _ _ _ _ _ _ (by decide) (by decide) (by decide) (by decide) (by decide) (by decide) (by decide) (by decide) _)
  have hrow12 := row_read (F := F) d L (listW XV L) 12 (by decide) (by decide) (fun _ => rfl) squeezes_S1x128_S128 f1 _ A12 (cover_row 12 (by decide) _ _ _ _ _ _ _ _ (by decide) (by decide) (by decide) (by decide) (by decide) (by decide) (by decide) (by decide) _)
  have hrow13 := row_read (F := F) d L (listW XV L) 13 (by decide) (by decide) (fun _ => rfl) squeezes_S1x128_S128 f1 _ A13 (cover_row 13 (by decide) _ _ _ _ _ _ _ _ (by decide) (by decide) (by decide) (by decide) (by decide) (by decide) (by decide) (by decide) _)
  have hrow14 := row_read (F := F) d L (listW XV L) 14 (by decide) (by decide) (fun _ => rfl) squeezes_S1x128_S128 f1 _ A14 (cover_row 14 (by decide) _ _ _ _ _ _ _ _ (by decide) (by decide) (by decide) (by decide) (by decide) (by decide) (by decide) (by decide) _)
  have hrow15 := row_read (F := F) d L (listW XV L) 15 (by decide) (by decide) (fun _ => rfl) squeezes_S1x128_S128 f1 _ A15 (cover_row 15 (by decide) _ _ _ _ _ _ _ _ (by decide) (by decide) (by decide) (by decide) (by decide) (by decide) (by decide) (by decide) _)
  have hval0 : ∀ i ∈ ((oV).slice (Rect.unit (s := S65536x128) (k0_off2 L) S128x128.size (k0_off2_inb L)) (fun _ => rfl)).view.set, (((oV).slice (Rect.unit (s := S65536x128) (k0_off2 L) S128x128.size (k0_off2_inb L)) (fun _ => rfl)).view.writes (Elt F) fo [⟨Rect.whole _, tile_body.sl.dma2 d L XV TB f0 f1 f2 hin⟩]) i = Cert.Proof.KSpec.outOf XV TB i :=
    chunk_value (F := F) d L XV TB hx 0 _ (k0_off2_inb L) (fun _ => rfl) (off_chunk0 L) fo _ _ _ _ hrow0 (by decide) (fun x => by rw [hrow0 x]; exact listW_lt XV L hx _)
  have hval1 : ∀ i ∈ ((oV).slice (Rect.unit (s := S65536x128) (k0_off3 L 128#32) S128x128.size (k0_off3_inb L 1)) (fun _ => rfl)).view.set, (((oV).slice (Rect.unit (s := S65536x128) (k0_off3 L 128#32) S128x128.size (k0_off3_inb L 1)) (fun _ => rfl)).view.writes (Elt F) fo [⟨Rect.whole _, tile_body.sl.dma2_1 d L XV TB f0 f1 f3 hin⟩]) i = Cert.Proof.KSpec.outOf XV TB i :=
    chunk_value (F := F) d L XV TB hx 1 _ (k0_off3_inb L 1) (fun _ => rfl) (off_chunk1 L) fo _ _ _ _ hrow1 (by decide) (fun x => by rw [hrow1 x]; exact listW_lt XV L hx _)
  have hval2 : ∀ i ∈ ((oV).slice (Rect.unit (s := S65536x128) (k0_off4 L 256#32) S128x128.size (k0_off4_inb L 1)) (fun _ => rfl)).view.set, (((oV).slice (Rect.unit (s := S65536x128) (k0_off4 L 256#32) S128x128.size (k0_off4_inb L 1)) (fun _ => rfl)).view.writes (Elt F) fo [⟨Rect.whole _, tile_body.sl.dma2_2 d L XV TB f0 f1 f4 hin⟩]) i = Cert.Proof.KSpec.outOf XV TB i :=
    chunk_value (F := F) d L XV TB hx 2 _ (k0_off4_inb L 1) (fun _ => rfl) (off_chunk2 L) fo _ _ _ _ hrow2 (by decide) (fun x => by rw [hrow2 x]; exact listW_lt XV L hx _)
  have hval3 : ∀ i ∈ ((oV).slice (Rect.unit (s := S65536x128) (k0_off5 L 384#32) S128x128.size (k0_off5_inb L 1)) (fun _ => rfl)).view.set, (((oV).slice (Rect.unit (s := S65536x128) (k0_off5 L 384#32) S128x128.size (k0_off5_inb L 1)) (fun _ => rfl)).view.writes (Elt F) fo [⟨Rect.whole _, tile_body.sl.dma2_3 d L XV TB f0 f1 f5 hin⟩]) i = Cert.Proof.KSpec.outOf XV TB i :=
    chunk_value (F := F) d L XV TB hx 3 _ (k0_off5_inb L 1) (fun _ => rfl) (off_chunk3 L) fo _ _ _ _ hrow3 (by decide) (fun x => by rw [hrow3 x]; exact listW_lt XV L hx _)
  have hval4 : ∀ i ∈ ((oV).slice (Rect.unit (s := S65536x128) (k0_off6 L 512#32) S128x128.size (k0_off6_inb L 1)) (fun _ => rfl)).view.set, (((oV).slice (Rect.unit (s := S65536x128) (k0_off6 L 512#32) S128x128.size (k0_off6_inb L 1)) (fun _ => rfl)).view.writes (Elt F) fo [⟨Rect.whole _, tile_body.sl.dma2_4 d L XV TB f0 f1 f6 hin⟩]) i = Cert.Proof.KSpec.outOf XV TB i :=
    chunk_value (F := F) d L XV TB hx 4 _ (k0_off6_inb L 1) (fun _ => rfl) (off_chunk4 L) fo _ _ _ _ hrow4 (by decide) (fun x => by rw [hrow4 x]; exact listW_lt XV L hx _)
  have hval5 : ∀ i ∈ ((oV).slice (Rect.unit (s := S65536x128) (k0_off7 L 640#32) S128x128.size (k0_off7_inb L 1)) (fun _ => rfl)).view.set, (((oV).slice (Rect.unit (s := S65536x128) (k0_off7 L 640#32) S128x128.size (k0_off7_inb L 1)) (fun _ => rfl)).view.writes (Elt F) fo [⟨Rect.whole _, tile_body.sl.dma2_5 d L XV TB f0 f1 f7 hin⟩]) i = Cert.Proof.KSpec.outOf XV TB i :=
    chunk_value (F := F) d L XV TB hx 5 _ (k0_off7_inb L 1) (fun _ => rfl) (off_chunk5 L) fo _ _ _ _ hrow5 (by decide) (fun x => by rw [hrow5 x]; exact listW_lt XV L hx _)
  have hval6 : ∀ i ∈ ((oV).slice (Rect.unit (s := S65536x128) (k0_off8 L 768#32) S128x128.size (k0_off8_inb L 1)) (fun _ => rfl)).view.set, (((oV).slice (Rect.unit (s := S65536x128) (k0_off8 L 768#32) S128x128.size (k0_off8_inb L 1)) (fun _ => rfl)).view.writes (Elt F) fo [⟨Rect.whole _, tile_body.sl.dma2_6 d L XV TB f0 f1 f2 hin⟩]) i = Cert.Proof.KSpec.outOf XV TB i :=
    chunk_value (F := F) d L XV TB hx 6 _ (k0_off8_inb L 1) (fun _ => rfl) (off_chunk6 L) fo _ _ _ _ hrow6 (by decide) (fun x => by rw [hrow6 x]; exact listW_lt XV L hx _)
  have hval7 : ∀ i ∈ ((oV).slice (Rect.unit (s := S65536x128) (k0_off9 L 896#32) S128x128.size (k0_off9_inb L 1)) (fun _ => rfl)).view.set, (((oV).slice (Rect.unit (s := S65536x128) (k0_off9 L 896#32) S128x128.size (k0_off9_inb L 1)) (fun _ => rfl)).view.writes (Elt F) fo [⟨Rect.whole _, tile_body.sl.dma2_7 d L XV TB f0 f1 f3 hin⟩]) i = Cert.Proof.KSpec.outOf XV TB i :=
    chunk_value (F := F) d L XV TB hx 7 _ (k0_off9_inb L 1) (fun _ => rfl) (off_chunk7 L) fo _ _ _ _ hrow7 (by decide) (fun x => by rw [hrow7 x]; exact listW_lt XV L hx _)
  have hval8 : ∀ i ∈ ((oV).slice (Rect.unit (s := S65536x128) (k0_off10 L 1024#32) S128x128.size (k0_off10_inb L 1)) (fun _ => rfl)).view.set, (((oV).slice (Rect.unit (s := S65536x128) (k0_off10 L 1024#32) S128x128.size (k0_off10_inb L 1)) (fun _ => rfl)).view.writes (Elt F) fo [⟨Rect.whole _, tile_body.sl.dma2_8 d L XV TB f0 f1 f4 hin⟩]) i = Cert.Proof.KSpec.outOf XV TB i :=
    chunk_value (F := F) d L XV TB hx 8 _ (k0_off10_inb L 1) (fun _ => rfl) (off_chunk8 L) fo _ _ _ _ hrow8 (by decide) (fun x => by rw [hrow8 x]; exact listW_lt XV L hx _)
  have hval9 : ∀ i ∈ ((oV).slice (Rect.unit (s := S65536x128) (k0_off11 L 1152#32) S128x128.size (k0_off11_inb L 1)) (fun _ => rfl)).view.set, (((oV).slice (Rect.unit (s := S65536x128) (k0_off11 L 1152#32) S128x128.size (k0_off11_inb L 1)) (fun _ => rfl)).view.writes (Elt F) fo [⟨Rect.whole _, tile_body.sl.dma2_9 d L XV TB f0 f1 f5 hin⟩]) i = Cert.Proof.KSpec.outOf XV TB i :=
    chunk_value (F := F) d L XV TB hx 9 _ (k0_off11_inb L 1) (fun _ => rfl) (off_chunk9 L) fo _ _ _ _ hrow9 (by decide) (fun x => by rw [hrow9 x]; exact listW_lt XV L hx _)
  have hval10 : ∀ i ∈ ((oV).slice (Rect.unit (s := S65536x128) (k0_off12 L 1280#32) S128x128.size (k0_off12_inb L 1)) (fun _ => rfl)).view.set, (((oV).slice (Rect.unit (s := S65536x128) (k0_off12 L 1280#32) S128x128.size (k0_off12_inb L 1)) (fun _ => rfl)).view.writes (Elt F) fo [⟨Rect.whole _, tile_body.sl.dma2_10 d L XV TB f0 f1 f6 hin⟩]) i = Cert.Proof.KSpec.outOf XV TB i :=
    chunk_value (F := F) d L XV TB hx 10 _ (k0_off12_inb L 1) (fun _ => rfl) (off_chunk10 L) fo _ _ _ _ hrow10 (by decide) (fun x => by rw [hrow10 x]; exact listW_lt XV L hx _)
  have hval11 : ∀ i ∈ ((oV).slice (Rect.unit (s := S65536x128) (k0_off12 L 1408#32) S128x128.size (k0_off12_inb L 2)) (fun _ => rfl)).view.set, (((oV).slice (Rect.unit (s := S65536x128) (k0_off12 L 1408#32) S128x128.size (k0_off12_inb L 2)) (fun _ => rfl)).view.writes (Elt F) fo [⟨Rect.whole _, tile_body.sl.dma2_11 d L XV TB f0 f1 f7 hin⟩]) i = Cert.Proof.KSpec.outOf XV TB i :=
    chunk_value (F := F) d L XV TB hx 11 _ (k0_off12_inb L 2) (fun _ => rfl) (off_chunk11 L) fo _ _ _ _ hrow11 (by decide) (fun x => by rw [hrow11 x]; exact listW_lt XV L hx _)
  have hval12 : ∀ i ∈ ((oV).slice (Rect.unit (s := S65536x128) (k0_off12 L 1536#32) S128x128.size (k0_off12_inb L 3)) (fun _ => rfl)).view.set, (((oV).slice (Rect.unit (s := S65536x128) (k0_off12 L 1536#32) S128x128.size (k0_off12_inb L 3)) (fun _ => rfl)).view.writes (Elt F) fo [⟨Rect.whole _, tile_body.sl.dma2_12 d L XV TB f0 f1 f2 hin⟩]) i = Cert.Proof.KSpec.outOf XV TB i :=
    chunk_value (F := F) d L XV TB hx 12 _ (k0_off12_inb L 3) (fun _ => rfl) (off_chunk12 L) fo _ _ _ _ hrow12 (by decide) (fun x => by rw [hrow12 x]; exact listW_lt XV L hx _)
  have hval13 : ∀ i ∈ ((oV).slice (Rect.unit (s := S65536x128) (k0_off12 L 1664#32) S128x128.size (k0_off12_inb L 4)) (fun _ => rfl)).view.set, (((oV).slice (Rect.unit (s := S65536x128) (k0_off12 L 1664#32) S128x128.size (k0_off12_inb L 4)) (fun _ => rfl)).view.writes (Elt F) fo [⟨Rect.whole _, tile_body.sl.dma2_13 d L XV TB f0 f1 f3 hin⟩]) i = Cert.Proof.KSpec.outOf XV TB i :=
    chunk_value (F := F) d L XV TB hx 13 _ (k0_off12_inb L 4) (fun _ => rfl) (off_chunk13 L) fo _ _ _ _ hrow13 (by decide) (fun x => by rw [hrow13 x]; exact listW_lt XV L hx _)
  have hval14 : ∀ i ∈ ((oV).slice (Rect.unit (s := S65536x128) (k0_off12 L 1792#32) S128x128.size (k0_off12_inb L 5)) (fun _ => rfl)).view.set, (((oV).slice (Rect.unit (s := S65536x128) (k0_off12 L 1792#32) S128x128.size (k0_off12_inb L 5)) (fun _ => rfl)).view.writes (Elt F) fo [⟨Rect.whole _, tile_body.sl.dma2_14 d L XV TB f0 f1 f4 hin⟩]) i = Cert.Proof.KSpec.outOf XV TB i :=
    chunk_value (F := F) d L XV TB hx 14 _ (k0_off12_inb L 5) (fun _ => rfl) (off_chunk14 L) fo _ _ _ _ hrow14 (by decide) (fun x => by rw [hrow14 x]; exact listW_lt XV L hx _)
  have hval15 : ∀ i ∈ ((oV).slice (Rect.unit (s := S65536x128) (k0_off12 L 1920#32) S128x128.size (k0_off12_inb L 6)) (fun _ => rfl)).view.set, (((oV).slice (Rect.unit (s := S65536x128) (k0_off12 L 1920#32) S128x128.size (k0_off12_inb L 6)) (fun _ => rfl)).view.writes (Elt F) fo [⟨Rect.whole _, tile_body.sl.dma2_15 d L XV TB f0 f1 f5 hin⟩]) i = Cert.Proof.KSpec.outOf XV TB i :=
    chunk_value (F := F) d L XV TB hx 15 _ (k0_off12_inb L 6) (fun _ => rfl) (off_chunk15 L) fo _ _ _ _ hrow15 (by decide) (fun x => by rw [hrow15 x]; exact listW_lt XV L hx _)
  isplitl [Hx' Htr Ht0' Ht1' Ht2' Ht3' Ht4' Ht5' Hc0 Hc1 Hc2 Hc3 Hc4 Hc5 Hc6 Hc7 Hc8 Hc9 Hc10 Hc11 Hc12 Hc13 Hc14 Hc15]
  · isplitl [Hx']; · iapply (Entails.of_eq (pts_x (F := F) d L _ _)); iexact Hx'
    isplitl [Htr Ht0' Ht1' Ht2' Ht3' Ht4' Ht5']
    · iapply (toks6 (F := F) qt).2
      isplitl [Htr]; · iexact Htr
      isplitl [Ht0']; · iapply (Entails.of_eq (pts_t (F := F) d L _ _)); iexact Ht0'
      isplitl [Ht1']; · iapply (Entails.of_eq (pts_t (F := F) d L _ _)); iexact Ht1'
      isplitl [Ht2']; · iapply (Entails.of_eq (pts_t (F := F) d L _ _)); iexact Ht2'
      isplitl [Ht3']; · iapply (Entails.of_eq (pts_t (F := F) d L _ _)); iexact Ht3'
      isplitl [Ht4']; · iapply (Entails.of_eq (pts_t (F := F) d L _ _)); iexact Ht4'
      iapply (Entails.of_eq (pts_t (F := F) d L _ _)); iexact Ht5'
    · skip
      isplitl [Hc0]; · iapply (Entails.of_eq ((pointsTo_congr hval0).trans (pts_chunk (F := F) d L 0 (k0_off2 L) (k0_off2_inb L) (fun _ => rfl) (off_chunk0 L) _))); iexact Hc0
      isplitl [Hc1]; · iapply (Entails.of_eq ((pointsTo_congr hval1).trans (pts_chunk (F := F) d L 1 (k0_off3 L 128#32) (k0_off3_inb L 1) (fun _ => rfl) (off_chunk1 L) _))); iexact Hc1
      isplitl [Hc2]; · iapply (Entails.of_eq ((pointsTo_congr hval2).trans (pts_chunk (F := F) d L 2 (k0_off4 L 256#32) (k0_off4_inb L 1) (fun _ => rfl) (off_chunk2 L) _))); iexact Hc2
      isplitl [Hc3]; · iapply (Entails.of_eq ((pointsTo_congr hval3).trans (pts_chunk (F := F) d L 3 (k0_off5 L 384#32) (k0_off5_inb L 1) (fun _ => rfl) (off_chunk3 L) _))); iexact Hc3
      isplitl [Hc4]; · iapply (Entails.of_eq ((pointsTo_congr hval4).trans (pts_chunk (F := F) d L 4 (k0_off6 L 512#32) (k0_off6_inb L 1) (fun _ => rfl) (off_chunk4 L) _))); iexact Hc4
      isplitl [Hc5]; · iapply (Entails.of_eq ((pointsTo_congr hval5).trans (pts_chunk (F := F) d L 5 (k0_off7 L 640#32) (k0_off7_inb L 1) (fun _ => rfl) (off_chunk5 L) _))); iexact Hc5
      isplitl [Hc6]; · iapply (Entails.of_eq ((pointsTo_congr hval6).trans (pts_chunk (F := F) d L 6 (k0_off8 L 768#32) (k0_off8_inb L 1) (fun _ => rfl) (off_chunk6 L) _))); iexact Hc6
      isplitl [Hc7]; · iapply (Entails.of_eq ((pointsTo_congr hval7).trans (pts_chunk (F := F) d L 7 (k0_off9 L 896#32) (k0_off9_inb L 1) (fun _ => rfl) (off_chunk7 L) _))); iexact Hc7
      isplitl [Hc8]; · iapply (Entails.of_eq ((pointsTo_congr hval8).trans (pts_chunk (F := F) d L 8 (k0_off10 L 1024#32) (k0_off10_inb L 1) (fun _ => rfl) (off_chunk8 L) _))); iexact Hc8
      isplitl [Hc9]; · iapply (Entails.of_eq ((pointsTo_congr hval9).trans (pts_chunk (F := F) d L 9 (k0_off11 L 1152#32) (k0_off11_inb L 1) (fun _ => rfl) (off_chunk9 L) _))); iexact Hc9
      isplitl [Hc10]; · iapply (Entails.of_eq ((pointsTo_congr hval10).trans (pts_chunk (F := F) d L 10 (k0_off12 L 1280#32) (k0_off12_inb L 1) (fun _ => rfl) (off_chunk10 L) _))); iexact Hc10
      isplitl [Hc11]; · iapply (Entails.of_eq ((pointsTo_congr hval11).trans (pts_chunk (F := F) d L 11 (k0_off12 L 1408#32) (k0_off12_inb L 2) (fun _ => rfl) (off_chunk11 L) _))); iexact Hc11
      isplitl [Hc12]; · iapply (Entails.of_eq ((pointsTo_congr hval12).trans (pts_chunk (F := F) d L 12 (k0_off12 L 1536#32) (k0_off12_inb L 3) (fun _ => rfl) (off_chunk12 L) _))); iexact Hc12
      isplitl [Hc13]; · iapply (Entails.of_eq ((pointsTo_congr hval13).trans (pts_chunk (F := F) d L 13 (k0_off12 L 1664#32) (k0_off12_inb L 4) (fun _ => rfl) (off_chunk13 L) _))); iexact Hc13
      isplitl [Hc14]; · iapply (Entails.of_eq ((pointsTo_congr hval14).trans (pts_chunk (F := F) d L 14 (k0_off12 L 1792#32) (k0_off12_inb L 5) (fun _ => rfl) (off_chunk14 L) _))); iexact Hc14
      iapply (Entails.of_eq ((pointsTo_congr hval15).trans (pts_chunk (F := F) d L 15 (k0_off12 L 1920#32) (k0_off12_inb L 6) (fun _ => rfl) (off_chunk15 L) _))); iexact Hc15
  isplitl [H0a H1' H1'_2 H1'_3 H1'_4 H1'_5 H1'_6 H1'_7 H1'_8 H1'_9 H1'_10 H1'_11 H1'_12 H1'_13 H1'_14 H1'_15 H2' H3' H4' H5' H6' H7' Bufs]
  · isplitl [H0a]; · iexists _; iapply (Entails.of_eq (pts_q0_access (F := F) d L _)); iexact H0a
    isplitl [H1' H1'_2 H1'_3 H1'_4 H1'_5 H1'_6 H1'_7 H1'_8 H1'_9 H1'_10 H1'_11 H1'_12 H1'_13 H1'_14 H1'_15]
    · iapply (q1_join (F := F) d L _ _ _ _ _ _ _ _ _ _ _ _ _ _ _ _ _ _ _ _ _ _ _ _ _ _ _ _ _ _ _ _ _ _ _ _ _ _ _ _ _ _ _ _ _ _ _ _ _ _ _ _ _ _ _ _ _)
      isplitl [H1']; · iexact H1'
      isplitl [H1'_2]; · iexact H1'_2
      isplitl [H1'_3]; · iexact H1'_3
      isplitl [H1'_4]; · iexact H1'_4
      isplitl [H1'_5]; · iexact H1'_5
      isplitl [H1'_6]; · iexact H1'_6
      isplitl [H1'_7]; · iexact H1'_7
      isplitl [H1'_8]; · iexact H1'_8
      isplitl [H1'_9]; · iexact H1'_9
      isplitl [H1'_10]; · iexact H1'_10
      isplitl [H1'_11]; · iexact H1'_11
      isplitl [H1'_12]; · iexact H1'_12
      isplitl [H1'_13]; · iexact H1'_13
      isplitl [H1'_14]; · iexact H1'_14
      iexact H1'_15
    isplitl [H2']; · iexists _; iapply (Entails.of_eq (pts_q2 (F := F) d L _)); iexact H2'
    isplitl [H3']; · iexists _; iapply (Entails.of_eq (pts_q3 (F := F) d L _)); iexact H3'
    isplitl [H4']; · iexists _; iapply (Entails.of_eq (pts_q4 (F := F) d L _)); iexact H4'
    isplitl [H5']; · iexists _; iapply (Entails.of_eq (pts_q5 (F := F) d L _)); iexact H5'
    isplitl [H6']; · iexists _; iapply (Entails.of_eq (pts_q6 (F := F) d L _)); iexact H6'
    isplitl [H7']; · iexists _; iapply (Entails.of_eq (pts_q7 (F := F) d L _)); iexact H7'
    iexact Bufs
  isplitl [S8 S9 S10 S11 S12 S13 S14 S15 S16 S17 S18 S19 Ssc Sems]
  · isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [Ssc]; · iexact Ssc
    iexact Sems
  -- every wait the run recorded was at the default index
  iexists _; isplitr
  swap; · iexact HO
  ipureintro; intro p hp
  repeat (rcases Finset.mem_insert.mp hp with h | hp; · exact .inr (h ▸ rfl))
  exact .inl hp

end Cert.Proof.KB

end
-- ==== Proof.lean ====
/-
  The proof of `Cert.Claim`. An embedding lookup: eight tables of 100000 rows of 128 numbers, and per batch entry and
  position one row number for each; the result concatenates the eight looked-up rows (`Spec.G`). The kernel re-lays the
  row numbers and stacks the tables on the host, has each of the thirty-two vector subcores of the two SparseCores
  gather its 2048 rows of an intermediate array through lists of row numbers it builds in tile memory, and re-lays that
  array into the result; the reference looks each table up and concatenates. Both are pure data movement, so both
  programs — at the word level and idealized — compute the one function of the two arguments.
  The witnesses of the programs' stated facts are the generated instances. The five conjuncts (`Claims`) come from
  three runs: the kernel side's, proved once over the float instance and read at the word-level and at the idealized
  program, from one subcore's task (`tile_body`) through the launch of the whole program (`run_main`) and the host
  operations' closed forms (`kernel_run`); and the reference's (`RefRun.run`). The precondition — every row number in
  `[0, 99999]` — is what keeps each listed row inside its table.
-/
import proofs.«204676_g22814866277092_cont_8to1_1488_17_alg».proof.Defs
import proofs.«204676_g22814866277092_cont_8to1_1488_17_alg».proof.Proof.Claims
import proofs.«204676_g22814866277092_cont_8to1_1488_17_alg».proof.Proof.Body
import proofs.«204676_g22814866277092_cont_8to1_1488_17_alg».proof.Proof.BodyB

noncomputable section

namespace Cert.Proof

theorem claim : Cert.Claim :=
  ⟨Cert.Kernel.Gen.facts, Cert.KernelIdeal.Gen.facts, Cert.ReferenceIdeal.Gen.facts, Cert.Pre_input_domain.Gen.facts,
    Claims.frame_KB Cert.Proof.KB.tile_body, Claims.frame_KI Cert.Proof.KI.tile_body, Claims.frame_R, Claims.preserves,
    Claims.algebraic Cert.Proof.KI.tile_body⟩

end Cert.Proof

end
